-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8732x4 : Shape := ⟨2, ![8732, 4]⟩
abbrev S32x8732x4 : Shape := ⟨3, ![32, 8732, 4]⟩
abbrev S32x8732x21 : Shape := ⟨3, ![32, 8732, 21]⟩
abbrev S_ : Shape := ⟨0, ![]⟩

class Facts : Prop where
  bcast_S_S8732x4 : S_.BroadcastsInDim S8732x4 (![] : Fin 0 → Fin S8732x4.rank)
  reducesTo_S8732x4_S_d0_1 : S8732x4.ReducesTo [0, 1] S_
  h_S_ : 0 < S_.numel
  bcast_S_S32x8732x4 : S_.BroadcastsInDim S32x8732x4 (![] : Fin 0 → Fin S32x8732x4.rank)
  reducesTo_S32x8732x4_S_d0_1_2 : S32x8732x4.ReducesTo [0, 1, 2] S_
  bcast_S_S32x8732x21 : S_.BroadcastsInDim S32x8732x21 (![] : Fin 0 → Fin S32x8732x21.rank)
  reducesTo_S32x8732x21_S_d0_1_2 : S32x8732x21.ReducesTo [0, 1, 2] S_

variable [Facts]

def fn_part7 {F : FTy → Type} [FloatOps F] (main_v118 : IVec S_ 1) (main_v119 : FVec F S32x8732x21 .f32) : IVec S_ 1 :=
  let main_cst_46 : FVec F S_ .f32 := constant S_ .f32 0x7F800000#32
  let main_v120 : FVec F S32x8732x21 .f32 := broadcastInDim S32x8732x21 ![] bcast_S_S32x8732x21 main_cst_46
  let main_v121 : IVec S32x8732x21 1 := cmpf .olt main_v119 main_v120
  let main_c_47 : IVec S_ 1 := constantI S_ 1 1#1
  let main_v122 : IVec S_ 1 := (fun x v => Host.reduce IntOp.andi x v reducesTo_S32x8732x21_S_d0_1_2 h_S_) main_v121 main_c_47
  let main_v123 : IVec S_ 1 := andi main_v118 main_v122
  main_v123

def fn_part6 {F : FTy → Type} [FloatOps F] (main_arg21 : FVec F S32x8732x21 .f32) (main_arg22 : FVec F S32x8732x21 .f32) (main_arg23 : FVec F S32x8732x21 .f32) (main_arg24 : FVec F S32x8732x21 .f32) (main_v98 : IVec S_ 1) (main_v101 : IVec S32x8732x21 1) (main_c_39 : IVec S_ 1) : IVec S_ 1 :=
  let main_v102 : IVec S_ 1 := (fun x v => Host.reduce IntOp.andi x v reducesTo_S32x8732x21_S_d0_1_2 h_S_) main_v101 main_c_39
  let main_v103 : IVec S_ 1 := andi main_v98 main_v102
  let main_v104 : FVec F S32x8732x21 .f32 := Host.absf main_arg21
  let main_cst_40 : FVec F S_ .f32 := constant S_ .f32 0x7F800000#32
  let main_v105 : FVec F S32x8732x21 .f32 := broadcastInDim S32x8732x21 ![] bcast_S_S32x8732x21 main_cst_40
  let main_v106 : IVec S32x8732x21 1 := cmpf .olt main_v104 main_v105
  let main_c_41 : IVec S_ 1 := constantI S_ 1 1#1
  let main_v107 : IVec S_ 1 := (fun x v => Host.reduce IntOp.andi x v reducesTo_S32x8732x21_S_d0_1_2 h_S_) main_v106 main_c_41
  let main_v108 : IVec S_ 1 := andi main_v103 main_v107
  let main_v109 : FVec F S32x8732x21 .f32 := Host.absf main_arg22
  let main_cst_42 : FVec F S_ .f32 := constant S_ .f32 0x7F800000#32
  let main_v110 : FVec F S32x8732x21 .f32 := broadcastInDim S32x8732x21 ![] bcast_S_S32x8732x21 main_cst_42
  let main_v111 : IVec S32x8732x21 1 := cmpf .olt main_v109 main_v110
  let main_c_43 : IVec S_ 1 := constantI S_ 1 1#1
  let main_v112 : IVec S_ 1 := (fun x v => Host.reduce IntOp.andi x v reducesTo_S32x8732x21_S_d0_1_2 h_S_) main_v111 main_c_43
  let main_v113 : IVec S_ 1 := andi main_v108 main_v112
  let main_v114 : FVec F S32x8732x21 .f32 := Host.absf main_arg23
  let main_cst_44 : FVec F S_ .f32 := constant S_ .f32 0x7F800000#32
  let main_v115 : FVec F S32x8732x21 .f32 := broadcastInDim S32x8732x21 ![] bcast_S_S32x8732x21 main_cst_44
  let main_v116 : IVec S32x8732x21 1 := cmpf .olt main_v114 main_v115
  let main_c_45 : IVec S_ 1 := constantI S_ 1 1#1
  let main_v117 : IVec S_ 1 := (fun x v => Host.reduce IntOp.andi x v reducesTo_S32x8732x21_S_d0_1_2 h_S_) main_v116 main_c_45
  let main_v118 : IVec S_ 1 := andi main_v113 main_v117
  let main_v119 : FVec F S32x8732x21 .f32 := Host.absf main_arg24
  fn_part7 (F := F) main_v118 main_v119

def fn_part5 {F : FTy → Type} [FloatOps F] (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v83 : IVec S_ 1) (main_v84 : FVec F S32x8732x21 .f32) (main_cst_32 : FVec F S_ .f32) : IVec S_ 1 :=
  let main_v85 : FVec F S32x8732x21 .f32 := broadcastInDim S32x8732x21 ![] bcast_S_S32x8732x21 main_cst_32
  let main_v86 : IVec S32x8732x21 1 := cmpf .olt main_v84 main_v85
  let main_c_33 : IVec S_ 1 := constantI S_ 1 1#1
  let main_v87 : IVec S_ 1 := (fun x v => Host.reduce IntOp.andi x v reducesTo_S32x8732x21_S_d0_1_2 h_S_) main_v86 main_c_33
  let main_v88 : IVec S_ 1 := andi main_v83 main_v87
  let main_v89 : FVec F S32x8732x21 .f32 := Host.absf main_arg18
  let main_cst_34 : FVec F S_ .f32 := constant S_ .f32 0x7F800000#32
  let main_v90 : FVec F S32x8732x21 .f32 := broadcastInDim S32x8732x21 ![] bcast_S_S32x8732x21 main_cst_34
  let main_v91 : IVec S32x8732x21 1 := cmpf .olt main_v89 main_v90
  let main_c_35 : IVec S_ 1 := constantI S_ 1 1#1
  let main_v92 : IVec S_ 1 := (fun x v => Host.reduce IntOp.andi x v reducesTo_S32x8732x21_S_d0_1_2 h_S_) main_v91 main_c_35
  let main_v93 : IVec S_ 1 := andi main_v88 main_v92
  let main_v94 : FVec F S32x8732x21 .f32 := Host.absf main_arg19
  let main_cst_36 : FVec F S_ .f32 := constant S_ .f32 0x7F800000#32
  let main_v95 : FVec F S32x8732x21 .f32 := broadcastInDim S32x8732x21 ![] bcast_S_S32x8732x21 main_cst_36
  let main_v96 : IVec S32x8732x21 1 := cmpf .olt main_v94 main_v95
  let main_c_37 : IVec S_ 1 := constantI S_ 1 1#1
  let main_v97 : IVec S_ 1 := (fun x v => Host.reduce IntOp.andi x v reducesTo_S32x8732x21_S_d0_1_2 h_S_) main_v96 main_c_37
  let main_v98 : IVec S_ 1 := andi main_v93 main_v97
  let main_v99 : FVec F S32x8732x21 .f32 := Host.absf main_arg20
  let main_cst_38 : FVec F S_ .f32 := constant S_ .f32 0x7F800000#32
  let main_v100 : FVec F S32x8732x21 .f32 := broadcastInDim S32x8732x21 ![] bcast_S_S32x8732x21 main_cst_38
  let main_v101 : IVec S32x8732x21 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v63 : IVec S_ 1) (main_v67 : IVec S_ 1) : IVec S_ 1 :=
  let main_v68 : IVec S_ 1 := andi main_v63 main_v67
  let main_v69 : FVec F S32x8732x21 .f32 := Host.absf main_arg14
  let main_cst_26 : FVec F S_ .f32 := constant S_ .f32 0x7F800000#32
  let main_v70 : FVec F S32x8732x21 .f32 := broadcastInDim S32x8732x21 ![] bcast_S_S32x8732x21 main_cst_26
  let main_v71 : IVec S32x8732x21 1 := cmpf .olt main_v69 main_v70
  let main_c_27 : IVec S_ 1 := constantI S_ 1 1#1
  let main_v72 : IVec S_ 1 := (fun x v => Host.reduce IntOp.andi x v reducesTo_S32x8732x21_S_d0_1_2 h_S_) main_v71 main_c_27
  let main_v73 : IVec S_ 1 := andi main_v68 main_v72
  let main_v74 : FVec F S32x8732x21 .f32 := Host.absf main_arg15
  let main_cst_28 : FVec F S_ .f32 := constant S_ .f32 0x7F800000#32
  let main_v75 : FVec F S32x8732x21 .f32 := broadcastInDim S32x8732x21 ![] bcast_S_S32x8732x21 main_cst_28
  let main_v76 : IVec S32x8732x21 1 := cmpf .olt main_v74 main_v75
  let main_c_29 : IVec S_ 1 := constantI S_ 1 1#1
  let main_v77 : IVec S_ 1 := (fun x v => Host.reduce IntOp.andi x v reducesTo_S32x8732x21_S_d0_1_2 h_S_) main_v76 main_c_29
  let main_v78 : IVec S_ 1 := andi main_v73 main_v77
  let main_v79 : FVec F S32x8732x21 .f32 := Host.absf main_arg16
  let main_cst_30 : FVec F S_ .f32 := constant S_ .f32 0x7F800000#32
  let main_v80 : FVec F S32x8732x21 .f32 := broadcastInDim S32x8732x21 ![] bcast_S_S32x8732x21 main_cst_30
  let main_v81 : IVec S32x8732x21 1 := cmpf .olt main_v79 main_v80
  let main_c_31 : IVec S_ 1 := constantI S_ 1 1#1
  let main_v82 : IVec S_ 1 := (fun x v => Host.reduce IntOp.andi x v reducesTo_S32x8732x21_S_d0_1_2 h_S_) main_v81 main_c_31
  let main_v83 : IVec S_ 1 := andi main_v78 main_v82
  let main_v84 : FVec F S32x8732x21 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v48 : IVec S_ 1) (main_v49 : FVec F S32x8732x4 .f32) (main_v50 : FVec F S32x8732x4 .f32) : IVec S_ 1 :=
  let main_v51 : IVec S32x8732x4 1 := cmpf .olt main_v49 main_v50
  let main_c_19 : IVec S_ 1 := constantI S_ 1 1#1
  let main_v52 : IVec S_ 1 := (fun x v => Host.reduce IntOp.andi x v reducesTo_S32x8732x4_S_d0_1_2 h_S_) main_v51 main_c_19
  let main_v53 : IVec S_ 1 := andi main_v48 main_v52
  let main_v54 : FVec F S32x8732x4 .f32 := Host.absf main_arg11
  let main_cst_20 : FVec F S_ .f32 := constant S_ .f32 0x7F800000#32
  let main_v55 : FVec F S32x8732x4 .f32 := broadcastInDim S32x8732x4 ![] bcast_S_S32x8732x4 main_cst_20
  let main_v56 : IVec S32x8732x4 1 := cmpf .olt main_v54 main_v55
  let main_c_21 : IVec S_ 1 := constantI S_ 1 1#1
  let main_v57 : IVec S_ 1 := (fun x v => Host.reduce IntOp.andi x v reducesTo_S32x8732x4_S_d0_1_2 h_S_) main_v56 main_c_21
  let main_v58 : IVec S_ 1 := andi main_v53 main_v57
  let main_v59 : FVec F S32x8732x4 .f32 := Host.absf main_arg12
  let main_cst_22 : FVec F S_ .f32 := constant S_ .f32 0x7F800000#32
  let main_v60 : FVec F S32x8732x4 .f32 := broadcastInDim S32x8732x4 ![] bcast_S_S32x8732x4 main_cst_22
  let main_v61 : IVec S32x8732x4 1 := cmpf .olt main_v59 main_v60
  let main_c_23 : IVec S_ 1 := constantI S_ 1 1#1
  let main_v62 : IVec S_ 1 := (fun x v => Host.reduce IntOp.andi x v reducesTo_S32x8732x4_S_d0_1_2 h_S_) main_v61 main_c_23
  let main_v63 : IVec S_ 1 := andi main_v58 main_v62
  let main_v64 : FVec F S32x8732x21 .f32 := Host.absf main_arg13
  let main_cst_24 : FVec F S_ .f32 := constant S_ .f32 0x7F800000#32
  let main_v65 : FVec F S32x8732x21 .f32 := broadcastInDim S32x8732x21 ![] bcast_S_S32x8732x21 main_cst_24
  let main_v66 : IVec S32x8732x21 1 := cmpf .olt main_v64 main_v65
  let main_c_25 : IVec S_ 1 := constantI S_ 1 1#1
  let main_v67 : IVec S_ 1 := (fun x v => Host.reduce IntOp.andi x v reducesTo_S32x8732x21_S_d0_1_2 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S32x8732x4 .f32) (main_arg8 : FVec F S32x8732x4 .f32) (main_arg9 : FVec F S32x8732x4 .f32) (main_arg10 : FVec F S32x8732x4 .f32) (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v33 : IVec S_ 1) : IVec S_ 1 :=
  let main_v34 : FVec F S32x8732x4 .f32 := Host.absf main_arg7
  let main_cst_12 : FVec F S_ .f32 := constant S_ .f32 0x7F800000#32
  let main_v35 : FVec F S32x8732x4 .f32 := broadcastInDim S32x8732x4 ![] bcast_S_S32x8732x4 main_cst_12
  let main_v36 : IVec S32x8732x4 1 := cmpf .olt main_v34 main_v35
  let main_c_13 : IVec S_ 1 := constantI S_ 1 1#1
  let main_v37 : IVec S_ 1 := (fun x v => Host.reduce IntOp.andi x v reducesTo_S32x8732x4_S_d0_1_2 h_S_) main_v36 main_c_13
  let main_v38 : IVec S_ 1 := andi main_v33 main_v37
  let main_v39 : FVec F S32x8732x4 .f32 := Host.absf main_arg8
  let main_cst_14 : FVec F S_ .f32 := constant S_ .f32 0x7F800000#32
  let main_v40 : FVec F S32x8732x4 .f32 := broadcastInDim S32x8732x4 ![] bcast_S_S32x8732x4 main_cst_14
  let main_v41 : IVec S32x8732x4 1 := cmpf .olt main_v39 main_v40
  let main_c_15 : IVec S_ 1 := constantI S_ 1 1#1
  let main_v42 : IVec S_ 1 := (fun x v => Host.reduce IntOp.andi x v reducesTo_S32x8732x4_S_d0_1_2 h_S_) main_v41 main_c_15
  let main_v43 : IVec S_ 1 := andi main_v38 main_v42
  let main_v44 : FVec F S32x8732x4 .f32 := Host.absf main_arg9
  let main_cst_16 : FVec F S_ .f32 := constant S_ .f32 0x7F800000#32
  let main_v45 : FVec F S32x8732x4 .f32 := broadcastInDim S32x8732x4 ![] bcast_S_S32x8732x4 main_cst_16
  let main_v46 : IVec S32x8732x4 1 := cmpf .olt main_v44 main_v45
  let main_c_17 : IVec S_ 1 := constantI S_ 1 1#1
  let main_v47 : IVec S_ 1 := (fun x v => Host.reduce IntOp.andi x v reducesTo_S32x8732x4_S_d0_1_2 h_S_) main_v46 main_c_17
  let main_v48 : IVec S_ 1 := andi main_v43 main_v47
  let main_v49 : FVec F S32x8732x4 .f32 := Host.absf main_arg10
  let main_cst_18 : FVec F S_ .f32 := constant S_ .f32 0x7F800000#32
  let main_v50 : FVec F S32x8732x4 .f32 := broadcastInDim S32x8732x4 ![] bcast_S_S32x8732x4 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S32x8732x4 .f32) (main_arg5 : FVec F S32x8732x4 .f32) (main_arg6 : FVec F S32x8732x4 .f32) (main_arg7 : FVec F S32x8732x4 .f32) (main_arg8 : FVec F S32x8732x4 .f32) (main_arg9 : FVec F S32x8732x4 .f32) (main_arg10 : FVec F S32x8732x4 .f32) (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v13 : IVec S_ 1) (main_v16 : IVec S32x8732x4 1) : IVec S_ 1 :=
  let main_c_5 : IVec S_ 1 := constantI S_ 1 1#1
  let main_v17 : IVec S_ 1 := (fun x v => Host.reduce IntOp.andi x v reducesTo_S32x8732x4_S_d0_1_2 h_S_) main_v16 main_c_5
  let main_v18 : IVec S_ 1 := andi main_v13 main_v17
  let main_v19 : FVec F S32x8732x4 .f32 := Host.absf main_arg4
  let main_cst_6 : FVec F S_ .f32 := constant S_ .f32 0x7F800000#32
  let main_v20 : FVec F S32x8732x4 .f32 := broadcastInDim S32x8732x4 ![] bcast_S_S32x8732x4 main_cst_6
  let main_v21 : IVec S32x8732x4 1 := cmpf .olt main_v19 main_v20
  let main_c_7 : IVec S_ 1 := constantI S_ 1 1#1
  let main_v22 : IVec S_ 1 := (fun x v => Host.reduce IntOp.andi x v reducesTo_S32x8732x4_S_d0_1_2 h_S_) main_v21 main_c_7
  let main_v23 : IVec S_ 1 := andi main_v18 main_v22
  let main_v24 : FVec F S32x8732x4 .f32 := Host.absf main_arg5
  let main_cst_8 : FVec F S_ .f32 := constant S_ .f32 0x7F800000#32
  let main_v25 : FVec F S32x8732x4 .f32 := broadcastInDim S32x8732x4 ![] bcast_S_S32x8732x4 main_cst_8
  let main_v26 : IVec S32x8732x4 1 := cmpf .olt main_v24 main_v25
  let main_c_9 : IVec S_ 1 := constantI S_ 1 1#1
  let main_v27 : IVec S_ 1 := (fun x v => Host.reduce IntOp.andi x v reducesTo_S32x8732x4_S_d0_1_2 h_S_) main_v26 main_c_9
  let main_v28 : IVec S_ 1 := andi main_v23 main_v27
  let main_v29 : FVec F S32x8732x4 .f32 := Host.absf main_arg6
  let main_cst_10 : FVec F S_ .f32 := constant S_ .f32 0x7F800000#32
  let main_v30 : FVec F S32x8732x4 .f32 := broadcastInDim S32x8732x4 ![] bcast_S_S32x8732x4 main_cst_10
  let main_v31 : IVec S32x8732x4 1 := cmpf .olt main_v29 main_v30
  let main_c_11 : IVec S_ 1 := constantI S_ 1 1#1
  let main_v32 : IVec S_ 1 := (fun x v => Host.reduce IntOp.andi x v reducesTo_S32x8732x4_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8732x4 .f32) (main_arg1 : FVec F S32x8732x4 .f32) (main_arg2 : FVec F S32x8732x4 .f32) (main_arg3 : FVec F S32x8732x4 .f32) (main_arg4 : FVec F S32x8732x4 .f32) (main_arg5 : FVec F S32x8732x4 .f32) (main_arg6 : FVec F S32x8732x4 .f32) (main_arg7 : FVec F S32x8732x4 .f32) (main_arg8 : FVec F S32x8732x4 .f32) (main_arg9 : FVec F S32x8732x4 .f32) (main_arg10 : FVec F S32x8732x4 .f32) (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) : IVec S_ 1 :=
  let main_v0 : FVec F S8732x4 .f32 := Host.absf main_arg0
  let main_cst : FVec F S_ .f32 := constant S_ .f32 0x7F800000#32
  let main_v1 : FVec F S8732x4 .f32 := broadcastInDim S8732x4 ![] bcast_S_S8732x4 main_cst
  let main_v2 : IVec S8732x4 1 := cmpf .olt main_v0 main_v1
  let main_c : IVec S_ 1 := constantI S_ 1 1#1
  let main_v3 : IVec S_ 1 := (fun x v => Host.reduce IntOp.andi x v reducesTo_S8732x4_S_d0_1 h_S_) main_v2 main_c
  let main_v4 : FVec F S32x8732x4 .f32 := Host.absf main_arg1
  let main_cst_0 : FVec F S_ .f32 := constant S_ .f32 0x7F800000#32
  let main_v5 : FVec F S32x8732x4 .f32 := broadcastInDim S32x8732x4 ![] bcast_S_S32x8732x4 main_cst_0
  let main_v6 : IVec S32x8732x4 1 := cmpf .olt main_v4 main_v5
  let main_c_1 : IVec S_ 1 := constantI S_ 1 1#1
  let main_v7 : IVec S_ 1 := (fun x v => Host.reduce IntOp.andi x v reducesTo_S32x8732x4_S_d0_1_2 h_S_) main_v6 main_c_1
  let main_v8 : IVec S_ 1 := andi main_v3 main_v7
  let main_v9 : FVec F S32x8732x4 .f32 := Host.absf main_arg2
  let main_cst_2 : FVec F S_ .f32 := constant S_ .f32 0x7F800000#32
  let main_v10 : FVec F S32x8732x4 .f32 := broadcastInDim S32x8732x4 ![] bcast_S_S32x8732x4 main_cst_2
  let main_v11 : IVec S32x8732x4 1 := cmpf .olt main_v9 main_v10
  let main_c_3 : IVec S_ 1 := constantI S_ 1 1#1
  let main_v12 : IVec S_ 1 := (fun x v => Host.reduce IntOp.andi x v reducesTo_S32x8732x4_S_d0_1_2 h_S_) main_v11 main_c_3
  let main_v13 : IVec S_ 1 := andi main_v8 main_v12
  let main_v14 : FVec F S32x8732x4 .f32 := Host.absf main_arg3
  let main_cst_4 : FVec F S_ .f32 := constant S_ .f32 0x7F800000#32
  let main_v15 : FVec F S32x8732x4 .f32 := broadcastInDim S32x8732x4 ![] bcast_S_S32x8732x4 main_cst_4
  let main_v16 : IVec S32x8732x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8732x4 : Shape := ⟨2, ![8732, 4]⟩
abbrev S32x8732x4 : Shape := ⟨3, ![32, 8732, 4]⟩
abbrev S32x8732x21 : Shape := ⟨3, ![32, 8732, 21]⟩
abbrev S32x4x8732 : Shape := ⟨3, ![32, 4, 8732]⟩
abbrev S21x32x8732 : Shape := ⟨3, ![21, 32, 8732]⟩
abbrev S4x8732 : Shape := ⟨2, ![4, 8732]⟩
abbrev S75x32x8732 : Shape := ⟨3, ![75, 32, 8732]⟩
abbrev S4x384 : Shape := ⟨2, ![4, 384]⟩
abbrev S32x4x384 : Shape := ⟨3, ![32, 4, 384]⟩
abbrev S21x32x384 : Shape := ⟨3, ![21, 32, 384]⟩
abbrev S75x32x384 : Shape := ⟨3, ![75, 32, 384]⟩
abbrev S2x384 : Shape := ⟨2, ![2, 384]⟩
abbrev S32x2x384 : Shape := ⟨3, ![32, 2, 384]⟩
abbrev S1x4x384 : Shape := ⟨3, ![1, 4, 384]⟩
abbrev S32x1x384 : Shape := ⟨3, ![32, 1, 384]⟩
abbrev S32x384 : Shape := ⟨2, ![32, 384]⟩
abbrev S1x32x384 : Shape := ⟨3, ![1, 32, 384]⟩
abbrev S32x8732x75 : Shape := ⟨3, ![32, 8732, 75]⟩

abbrev nBuf : Space → Nat
  | .hbm => 52
  | .vmem => 52
  | .smem => 0
  | _ => 0

abbrev bufTy : (tb : Table) → Fin (tcTables nBuf tb) → BufTy
  | .hbm, ⟨0, _⟩ => ⟨S8732x4, .f32⟩
  | .hbm, ⟨1, _⟩ => ⟨S32x8732x4, .f32⟩
  | .hbm, ⟨2, _⟩ => ⟨S32x8732x4, .f32⟩
  | .hbm, ⟨3, _⟩ => ⟨S32x8732x4, .f32⟩
  | .hbm, ⟨4, _⟩ => ⟨S32x8732x4, .f32⟩
  | .hbm, ⟨5, _⟩ => ⟨S32x8732x4, .f32⟩
  | .hbm, ⟨6, _⟩ => ⟨S32x8732x4, .f32⟩
  | .hbm, ⟨7, _⟩ => ⟨S32x8732x4, .f32⟩
  | .hbm, ⟨8, _⟩ => ⟨S32x8732x4, .f32⟩
  | .hbm, ⟨9, _⟩ => ⟨S32x8732x4, .f32⟩
  | .hbm, ⟨10, _⟩ => ⟨S32x8732x4, .f32⟩
  | .hbm, ⟨11, _⟩ => ⟨S32x8732x4, .f32⟩
  | .hbm, ⟨12, _⟩ => ⟨S32x8732x4, .f32⟩
  | .hbm, ⟨13, _⟩ => ⟨S32x8732x21, .f32⟩
  | .hbm, ⟨14, _⟩ => ⟨S32x8732x21, .f32⟩
  | .hbm, ⟨15, _⟩ => ⟨S32x8732x21, .f32⟩
  | .hbm, ⟨16, _⟩ => ⟨S32x8732x21, .f32⟩
  | .hbm, ⟨17, _⟩ => ⟨S32x8732x21, .f32⟩
  | .hbm, ⟨18, _⟩ => ⟨S32x8732x21, .f32⟩
  | .hbm, ⟨19, _⟩ => ⟨S32x8732x21, .f32⟩
  | .hbm, ⟨20, _⟩ => ⟨S32x8732x21, .f32⟩
  | .hbm, ⟨21, _⟩ => ⟨S32x8732x21, .f32⟩
  | .hbm, ⟨22, _⟩ => ⟨S32x8732x21, .f32⟩
  | .hbm, ⟨23, _⟩ => ⟨S32x8732x21, .f32⟩
  | .hbm, ⟨24, _⟩ => ⟨S32x8732x21, .f32⟩
  | .hbm, ⟨25, _⟩ => ⟨S32x4x8732, .f32⟩
  | .hbm, ⟨26, _⟩ => ⟨S32x4x8732, .f32⟩
  | .hbm, ⟨27, _⟩ => ⟨S32x4x8732, .f32⟩
  | .hbm, ⟨28, _⟩ => ⟨S32x4x8732, .f32⟩
  | .hbm, ⟨29, _⟩ => ⟨S32x4x8732, .f32⟩
  | .hbm, ⟨30, _⟩ => ⟨S32x4x8732, .f32⟩
  | .hbm, ⟨31, _⟩ => ⟨S32x4x8732, .f32⟩
  | .hbm, ⟨32, _⟩ => ⟨S32x4x8732, .f32⟩
  | .hbm, ⟨33, _⟩ => ⟨S32x4x8732, .f32⟩
  | .hbm, ⟨34, _⟩ => ⟨S32x4x8732, .f32⟩
  | .hbm, ⟨35, _⟩ => ⟨S32x4x8732, .f32⟩
  | .hbm, ⟨36, _⟩ => ⟨S32x4x8732, .f32⟩
  | .hbm, ⟨37, _⟩ => ⟨S21x32x8732, .f32⟩
  | .hbm, ⟨38, _⟩ => ⟨S21x32x8732, .f32⟩
  | .hbm, ⟨39, _⟩ => ⟨S21x32x8732, .f32⟩
  | .hbm, ⟨40, _⟩ => ⟨S21x32x8732, .f32⟩
  | .hbm, ⟨41, _⟩ => ⟨S21x32x8732, .f32⟩
  | .hbm, ⟨42, _⟩ => ⟨S21x32x8732, .f32⟩
  | .hbm, ⟨43, _⟩ => ⟨S21x32x8732, .f32⟩
  | .hbm, ⟨44, _⟩ => ⟨S21x32x8732, .f32⟩
  | .hbm, ⟨45, _⟩ => ⟨S21x32x8732, .f32⟩
  | .hbm, ⟨46, _⟩ => ⟨S21x32x8732, .f32⟩
  | .hbm, ⟨47, _⟩ => ⟨S21x32x8732, .f32⟩
  | .hbm, ⟨48, _⟩ => ⟨S21x32x8732, .f32⟩
  | .hbm, ⟨49, _⟩ => ⟨S4x8732, .f32⟩
  | .hbm, ⟨50, _⟩ => ⟨S75x32x8732, .f32⟩
  | .hbm, ⟨51, _⟩ => ⟨S32x8732x75, .f32⟩
  | .local _ .vmem, ⟨0, _⟩ => ⟨S4x384, .f32⟩
  | .local _ .vmem, ⟨1, _⟩ => ⟨S4x384, .f32⟩
  | .local _ .vmem, ⟨2, _⟩ => ⟨S32x4x384, .f32⟩
  | .local _ .vmem, ⟨3, _⟩ => ⟨S32x4x384, .f32⟩
  | .local _ .vmem, ⟨4, _⟩ => ⟨S32x4x384, .f32⟩
  | .local _ .vmem, ⟨5, _⟩ => ⟨S32x4x384, .f32⟩
  | .local _ .vmem, ⟨6, _⟩ => ⟨S32x4x384, .f32⟩
  | .local _ .vmem, ⟨7, _⟩ => ⟨S32x4x384, .f32⟩
  | .local _ .vmem, ⟨8, _⟩ => ⟨S32x4x384, .f32⟩
  | .local _ .vmem, ⟨9, _⟩ => ⟨S32x4x384, .f32⟩
  | .local _ .vmem, ⟨10, _⟩ => ⟨S32x4x384, .f32⟩
  | .local _ .vmem, ⟨11, _⟩ => ⟨S32x4x384, .f32⟩
  | .local _ .vmem, ⟨12, _⟩ => ⟨S32x4x384, .f32⟩
  | .local _ .vmem, ⟨13, _⟩ => ⟨S32x4x384, .f32⟩
  | .local _ .vmem, ⟨14, _⟩ => ⟨S32x4x384, .f32⟩
  | .local _ .vmem, ⟨15, _⟩ => ⟨S32x4x384, .f32⟩
  | .local _ .vmem, ⟨16, _⟩ => ⟨S32x4x384, .f32⟩
  | .local _ .vmem, ⟨17, _⟩ => ⟨S32x4x384, .f32⟩
  | .local _ .vmem, ⟨18, _⟩ => ⟨S32x4x384, .f32⟩
  | .local _ .vmem, ⟨19, _⟩ => ⟨S32x4x384, .f32⟩
  | .local _ .vmem, ⟨20, _⟩ => ⟨S32x4x384, .f32⟩
  | .local _ .vmem, ⟨21, _⟩ => ⟨S32x4x384, .f32⟩
  | .local _ .vmem, ⟨22, _⟩ => ⟨S32x4x384, .f32⟩
  | .local _ .vmem, ⟨23, _⟩ => ⟨S32x4x384, .f32⟩
  | .local _ .vmem, ⟨24, _⟩ => ⟨S32x4x384, .f32⟩
  | .local _ .vmem, ⟨25, _⟩ => ⟨S32x4x384, .f32⟩
  | .local _ .vmem, ⟨26, _⟩ => ⟨S21x32x384, .f32⟩
  | .local _ .vmem, ⟨27, _⟩ => ⟨S21x32x384, .f32⟩
  | .local _ .vmem, ⟨28, _⟩ => ⟨S21x32x384, .f32⟩
  | .local _ .vmem, ⟨29, _⟩ => ⟨S21x32x384, .f32⟩
  | .local _ .vmem, ⟨30, _⟩ => ⟨S21x32x384, .f32⟩
  | .local _ .vmem, ⟨31, _⟩ => ⟨S21x32x384, .f32⟩
  | .local _ .vmem, ⟨32, _⟩ => ⟨S21x32x384, .f32⟩
  | .local _ .vmem, ⟨33, _⟩ => ⟨S21x32x384, .f32⟩
  | .local _ .vmem, ⟨34, _⟩ => ⟨S21x32x384, .f32⟩
  | .local _ .vmem, ⟨35, _⟩ => ⟨S21x32x384, .f32⟩
  | .local _ .vmem, ⟨36, _⟩ => ⟨S21x32x384, .f32⟩
  | .local _ .vmem, ⟨37, _⟩ => ⟨S21x32x384, .f32⟩
  | .local _ .vmem, ⟨38, _⟩ => ⟨S21x32x384, .f32⟩
  | .local _ .vmem, ⟨39, _⟩ => ⟨S21x32x384, .f32⟩
  | .local _ .vmem, ⟨40, _⟩ => ⟨S21x32x384, .f32⟩
  | .local _ .vmem, ⟨41, _⟩ => ⟨S21x32x384, .f32⟩
  | .local _ .vmem, ⟨42, _⟩ => ⟨S21x32x384, .f32⟩
  | .local _ .vmem, ⟨43, _⟩ => ⟨S21x32x384, .f32⟩
  | .local _ .vmem, ⟨44, _⟩ => ⟨S21x32x384, .f32⟩
  | .local _ .vmem, ⟨45, _⟩ => ⟨S21x32x384, .f32⟩
  | .local _ .vmem, ⟨46, _⟩ => ⟨S21x32x384, .f32⟩
  | .local _ .vmem, ⟨47, _⟩ => ⟨S21x32x384, .f32⟩
  | .local _ .vmem, ⟨48, _⟩ => ⟨S21x32x384, .f32⟩
  | .local _ .vmem, ⟨49, _⟩ => ⟨S21x32x384, .f32⟩
  | .local _ .vmem, ⟨50, _⟩ => ⟨S75x32x384, .f32⟩
  | .local _ .vmem, ⟨51, _⟩ => ⟨S75x32x384, .f32⟩
  | _, _ => ⟨S8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51

abbrev nD : Nat := 1
abbrev τ : Topo := Topo.v7x

variable {F : FTy → Type} [FloatOps F]

abbrev grid0 : Pipeline.Grid := ⟨2, ![1, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x4x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x4x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S21x32x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S21x32x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S21x32x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S21x32x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S21x32x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S21x32x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S21x32x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S21x32x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S21x32x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S21x32x384 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S21x32x384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S21x32x384 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S75x32x384 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

class Facts₀ : Prop where
  transposes_S32x8732x4_S32x4x8732_0_2_1 : S32x8732x4.Transposes [0, 2, 1] S32x4x8732
  transposes_S32x8732x21_S21x32x8732_2_0_1 : S32x8732x21.Transposes [2, 0, 1] S21x32x8732
  transposes_S8732x4_S4x8732_1_0 : S8732x4.Transposes [1, 0] S4x8732
  inb_S32x4x384_S32x4x384_0_0_0 : ∀ a, (![0, 0, 0] : Fin 3 → Nat) a + S32x4x384.size a ≤ S32x4x384.size a
  h_S32x4x384 : 0 < S32x4x384.numel
  shapeCasts_S32x4x384_S32x4x384 : S32x4x384.ShapeCasts S32x4x384
  inb_S4x384_S4x384_0_0 : ∀ a, (![0, 0] : Fin 2 → Nat) a + S4x384.size a ≤ S4x384.size a
  h_S4x384 : 0 < S4x384.numel
  shapeCasts_S4x384_S4x384 : S4x384.ShapeCasts S4x384
  slices_S4x384_o2_0_S2x384 : S4x384.Slices ![2, 0] S2x384
  slices_S4x384_o0_0_S2x384 : S4x384.Slices ![0, 0] S2x384
  concatenates_S2x384_S2x384_S4x384_d0 : Shape.Concatenates [S2x384, S2x384] S4x384 0
  slices_S32x4x384_o0_2_0_S32x2x384 : S32x4x384.Slices ![0, 2, 0] S32x2x384
  slices_S32x4x384_o0_0_0_S32x2x384 : S32x4x384.Slices ![0, 0, 0] S32x2x384
  concatenates_S32x2x384_S32x2x384_S32x4x384_d1 : Shape.Concatenates [S32x2x384, S32x2x384] S32x4x384 1
  shapeCasts_S4x384_S1x4x384 : S4x384.ShapeCasts S1x4x384
  broadcasts_S1x4x384_S32x4x384 : S1x4x384.Broadcasts S32x4x384
  iota_S32x4x384_d1_w32 : S32x4x384.Iotas .tc 32 [1]
  slices_S32x4x384_o0_0_0_S32x1x384 : S32x4x384.Slices ![0, 0, 0] S32x1x384
  shapeCasts_S32x1x384_S32x384 : S32x1x384.ShapeCasts S32x384
  inb_S75x32x384_S1x32x384_0_0_0 : ∀ a, (![0, 0, 0] : Fin 3 → Nat) a + S1x32x384.size a ≤ S75x32x384.size a
  h_S1x32x384 : 0 < S1x32x384.numel
  shapeCasts_S1x32x384_S32x384 : S1x32x384.ShapeCasts S32x384
  shapeCasts_S32x384_S1x32x384 : S32x384.ShapeCasts S1x32x384
  inb_S75x32x384_S1x32x384_4_0_0 : ∀ a, (![4, 0, 0] : Fin 3 → Nat) a + S1x32x384.size a ≤ S75x32x384.size a
  inb_S75x32x384_S1x32x384_8_0_0 : ∀ a, (![8, 0, 0] : Fin 3 → Nat) a + S1x32x384.size a ≤ S75x32x384.size a
  slices_S32x4x384_o0_1_0_S32x1x384 : S32x4x384.Slices ![0, 1, 0] S32x1x384
  inb_S75x32x384_S1x32x384_1_0_0 : ∀ a, (![1, 0, 0] : Fin 3 → Nat) a + S1x32x384.size a ≤ S75x32x384.size a
  inb_S75x32x384_S1x32x384_5_0_0 : ∀ a, (![5, 0, 0] : Fin 3 → Nat) a + S1x32x384.size a ≤ S75x32x384.size a
  inb_S75x32x384_S1x32x384_9_0_0 : ∀ a, (![9, 0, 0] : Fin 3 → Nat) a + S1x32x384.size a ≤ S75x32x384.size a
  slices_S32x4x384_o0_2_0_S32x1x384 : S32x4x384.Slices ![0, 2, 0] S32x1x384
  inb_S75x32x384_S1x32x384_2_0_0 : ∀ a, (![2, 0, 0] : Fin 3 → Nat) a + S1x32x384.size a ≤ S75x32x384.size a
  inb_S75x32x384_S1x32x384_6_0_0 : ∀ a, (![6, 0, 0] : Fin 3 → Nat) a + S1x32x384.size a ≤ S75x32x384.size a
  inb_S75x32x384_S1x32x384_10_0_0 : ∀ a, (![10, 0, 0] : Fin 3 → Nat) a + S1x32x384.size a ≤ S75x32x384.size a
  slices_S32x4x384_o0_3_0_S32x1x384 : S32x4x384.Slices ![0, 3, 0] S32x1x384
  inb_S75x32x384_S1x32x384_3_0_0 : ∀ a, (![3, 0, 0] : Fin 3 → Nat) a + S1x32x384.size a ≤ S75x32x384.size a
  inb_S75x32x384_S1x32x384_7_0_0 : ∀ a, (![7, 0, 0] : Fin 3 → Nat) a + S1x32x384.size a ≤ S75x32x384.size a
  inb_S75x32x384_S1x32x384_11_0_0 : ∀ a, (![11, 0, 0] : Fin 3 → Nat) a + S1x32x384.size a ≤ S75x32x384.size a
  inb_S21x32x384_S21x32x384_0_0_0 : ∀ a, (![0, 0, 0] : Fin 3 → Nat) a + S21x32x384.size a ≤ S21x32x384.size a
  h_S21x32x384 : 0 < S21x32x384.numel
  shapeCasts_S21x32x384_S21x32x384 : S21x32x384.ShapeCasts S21x32x384
  inb_S75x32x384_S21x32x384_12_0_0 : ∀ a, (![12, 0, 0] : Fin 3 → Nat) a + S21x32x384.size a ≤ S75x32x384.size a
  inb_S75x32x384_S21x32x384_33_0_0 : ∀ a, (![33, 0, 0] : Fin 3 → Nat) a + S21x32x384.size a ≤ S75x32x384.size a
  inb_S75x32x384_S21x32x384_54_0_0 : ∀ a, (![54, 0, 0] : Fin 3 → Nat) a + S21x32x384.size a ≤ S75x32x384.size a
  transposes_S75x32x8732_S32x8732x75_1_2_0 : S75x32x8732.Transposes [1, 2, 0] S32x8732x75
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x384.size a < S4x8732.size a
  hwx0_0 : ∀ i : grid0.Coords, EltTy.bits .f32 = 32 ∨ (Rect.unit (s := S4x8732) (fun a => cc0_transform_0 i a * S4x384.size a) (fun a => (Pipeline.Clip.of (cc0_transform_0 i a) (S4x384.size a) (S4x8732.size a)).extent (S4x384.size a)) fun a => Pipeline.Clip.inb (Pipeline.Clip.ok_of (hstart0_0 i a))).WholeWords (EltTy.packing .f32)
  hwxs0_0 : ∀ i : grid0.Coords, EltTy.bits .f32 = 32 ∨ (Rect.unit (s := S4x384) (fun _ => 0) (fun a => (Pipeline.Clip.of (cc0_transform_0 i a) (S4x384.size a) (S4x8732.size a)).extent (S4x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x4x384.size a < S32x4x8732.size a
  hwx0_1 : ∀ i : grid0.Coords, EltTy.bits .f32 = 32 ∨ (Rect.unit (s := S32x4x8732) (fun a => cc0_transform_1 i a * S32x4x384.size a) (fun a => (Pipeline.Clip.of (cc0_transform_1 i a) (S32x4x384.size a) (S32x4x8732.size a)).extent (S32x4x384.size a)) fun a => Pipeline.Clip.inb (Pipeline.Clip.ok_of (hstart0_1 i a))).WholeWords (EltTy.packing .f32)
  hwxs0_1 : ∀ i : grid0.Coords, EltTy.bits .f32 = 32 ∨ (Rect.unit (s := S32x4x384) (fun _ => 0) (fun a => (Pipeline.Clip.of (cc0_transform_1 i a) (S32x4x384.size a) (S32x4x8732.size a)).extent (S32x4x384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x4x384.size a < S32x4x8732.size a
  hwx0_2 : ∀ i : grid0.Coords, EltTy.bits .f32 = 32 ∨ (Rect.unit (s := S32x4x8732) (fun a => cc0_transform_2 i a * S32x4x384.size a) (fun a => (Pipeline.Clip.of (cc0_transform_2 i a) (S32x4x384.size a) (S32x4x8732.size a)).extent (S32x4x384.size a)) fun a => Pipeline.Clip.inb (Pipeline.Clip.ok_of (hstart0_2 i a))).WholeWords (EltTy.packing .f32)
  hwxs0_2 : ∀ i : grid0.Coords, EltTy.bits .f32 = 32 ∨ (Rect.unit (s := S32x4x384) (fun _ => 0) (fun a => (Pipeline.Clip.of (cc0_transform_2 i a) (S32x4x384.size a) (S32x4x8732.size a)).extent (S32x4x384.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x4x384.size a < S32x4x8732.size a
  hwx0_3 : ∀ i : grid0.Coords, EltTy.bits .f32 = 32 ∨ (Rect.unit (s := S32x4x8732) (fun a => cc0_transform_3 i a * S32x4x384.size a) (fun a => (Pipeline.Clip.of (cc0_transform_3 i a) (S32x4x384.size a) (S32x4x8732.size a)).extent (S32x4x384.size a)) fun a => Pipeline.Clip.inb (Pipeline.Clip.ok_of (hstart0_3 i a))).WholeWords (EltTy.packing .f32)
  hwxs0_3 : ∀ i : grid0.Coords, EltTy.bits .f32 = 32 ∨ (Rect.unit (s := S32x4x384) (fun _ => 0) (fun a => (Pipeline.Clip.of (cc0_transform_3 i a) (S32x4x384.size a) (S32x4x8732.size a)).extent (S32x4x384.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x4x384.size a < S32x4x8732.size a
  hwx0_4 : ∀ i : grid0.Coords, EltTy.bits .f32 = 32 ∨ (Rect.unit (s := S32x4x8732) (fun a => cc0_transform_4 i a * S32x4x384.size a) (fun a => (Pipeline.Clip.of (cc0_transform_4 i a) (S32x4x384.size a) (S32x4x8732.size a)).extent (S32x4x384.size a)) fun a => Pipeline.Clip.inb (Pipeline.Clip.ok_of (hstart0_4 i a))).WholeWords (EltTy.packing .f32)
  hwxs0_4 : ∀ i : grid0.Coords, EltTy.bits .f32 = 32 ∨ (Rect.unit (s := S32x4x384) (fun _ => 0) (fun a => (Pipeline.Clip.of (cc0_transform_4 i a) (S32x4x384.size a) (S32x4x8732.size a)).extent (S32x4x384.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S32x4x384.size a < S32x4x8732.size a
  hwx0_5 : ∀ i : grid0.Coords, EltTy.bits .f32 = 32 ∨ (Rect.unit (s := S32x4x8732) (fun a => cc0_transform_5 i a * S32x4x384.size a) (fun a => (Pipeline.Clip.of (cc0_transform_5 i a) (S32x4x384.size a) (S32x4x8732.size a)).extent (S32x4x384.size a)) fun a => Pipeline.Clip.inb (Pipeline.Clip.ok_of (hstart0_5 i a))).WholeWords (EltTy.packing .f32)
  hwxs0_5 : ∀ i : grid0.Coords, EltTy.bits .f32 = 32 ∨ (Rect.unit (s := S32x4x384) (fun _ => 0) (fun a => (Pipeline.Clip.of (cc0_transform_5 i a) (S32x4x384.size a) (S32x4x8732.size a)).extent (S32x4x384.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S32x4x384.size a < S32x4x8732.size a
  hwx0_6 : ∀ i : grid0.Coords, EltTy.bits .f32 = 32 ∨ (Rect.unit (s := S32x4x8732) (fun a => cc0_transform_6 i a * S32x4x384.size a) (fun a => (Pipeline.Clip.of (cc0_transform_6 i a) (S32x4x384.size a) (S32x4x8732.size a)).extent (S32x4x384.size a)) fun a => Pipeline.Clip.inb (Pipeline.Clip.ok_of (hstart0_6 i a))).WholeWords (EltTy.packing .f32)
  hwxs0_6 : ∀ i : grid0.Coords, EltTy.bits .f32 = 32 ∨ (Rect.unit (s := S32x4x384) (fun _ => 0) (fun a => (Pipeline.Clip.of (cc0_transform_6 i a) (S32x4x384.size a) (S32x4x8732.size a)).extent (S32x4x384.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S32x4x384.size a < S32x4x8732.size a
  hwx0_7 : ∀ i : grid0.Coords, EltTy.bits .f32 = 32 ∨ (Rect.unit (s := S32x4x8732) (fun a => cc0_transform_7 i a * S32x4x384.size a) (fun a => (Pipeline.Clip.of (cc0_transform_7 i a) (S32x4x384.size a) (S32x4x8732.size a)).extent (S32x4x384.size a)) fun a => Pipeline.Clip.inb (Pipeline.Clip.ok_of (hstart0_7 i a))).WholeWords (EltTy.packing .f32)
  hwxs0_7 : ∀ i : grid0.Coords, EltTy.bits .f32 = 32 ∨ (Rect.unit (s := S32x4x384) (fun _ => 0) (fun a => (Pipeline.Clip.of (cc0_transform_7 i a) (S32x4x384.size a) (S32x4x8732.size a)).extent (S32x4x384.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S32x4x384.size a < S32x4x8732.size a
  hwx0_8 : ∀ i : grid0.Coords, EltTy.bits .f32 = 32 ∨ (Rect.unit (s := S32x4x8732) (fun a => cc0_transform_8 i a * S32x4x384.size a) (fun a => (Pipeline.Clip.of (cc0_transform_8 i a) (S32x4x384.size a) (S32x4x8732.size a)).extent (S32x4x384.size a)) fun a => Pipeline.Clip.inb (Pipeline.Clip.ok_of (hstart0_8 i a))).WholeWords (EltTy.packing .f32)
  hwxs0_8 : ∀ i : grid0.Coords, EltTy.bits .f32 = 32 ∨ (Rect.unit (s := S32x4x384) (fun _ => 0) (fun a => (Pipeline.Clip.of (cc0_transform_8 i a) (S32x4x384.size a) (S32x4x8732.size a)).extent (S32x4x384.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S32x4x384.size a < S32x4x8732.size a
  hwx0_9 : ∀ i : grid0.Coords, EltTy.bits .f32 = 32 ∨ (Rect.unit (s := S32x4x8732) (fun a => cc0_transform_9 i a * S32x4x384.size a) (fun a => (Pipeline.Clip.of (cc0_transform_9 i a) (S32x4x384.size a) (S32x4x8732.size a)).extent (S32x4x384.size a)) fun a => Pipeline.Clip.inb (Pipeline.Clip.ok_of (hstart0_9 i a))).WholeWords (EltTy.packing .f32)
  hwxs0_9 : ∀ i : grid0.Coords, EltTy.bits .f32 = 32 ∨ (Rect.unit (s := S32x4x384) (fun _ => 0) (fun a => (Pipeline.Clip.of (cc0_transform_9 i a) (S32x4x384.size a) (S32x4x8732.size a)).extent (S32x4x384.size a)) fun a => (Nat.zero_add _).trans_le (Pipeline.Clip.extent_le (Pipeline.Clip.ok_of (hstart0_9 i a)))).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S32x4x384.size a < S32x4x8732.size a
  hwx0_10 : ∀ i : grid0.Coords, EltTy.bits .f32 = 32 ∨ (Rect.unit (s := S32x4x8732) (fun a => cc0_transform_10 i a * S32x4x384.size a) (fun a => (Pipeline.Clip.of (cc0_transform_10 i a) (S32x4x384.size a) (S32x4x8732.size a)).extent (S32x4x384.size a)) fun a => Pipeline.Clip.inb (Pipeline.Clip.ok_of (hstart0_10 i a))).WholeWords (EltTy.packing .f32)
  hwxs0_10 : ∀ i : grid0.Coords, EltTy.bits .f32 = 32 ∨ (Rect.unit (s := S32x4x384) (fun _ => 0) (fun a => (Pipeline.Clip.of (cc0_transform_10 i a) (S32x4x384.size a) (S32x4x8732.size a)).extent (S32x4x384.size a)) fun a => (Nat.zero_add _).trans_le (Pipeline.Clip.extent_le (Pipeline.Clip.ok_of (hstart0_10 i a)))).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S32x4x384.size a < S32x4x8732.size a
  hwx0_11 : ∀ i : grid0.Coords, EltTy.bits .f32 = 32 ∨ (Rect.unit (s := S32x4x8732) (fun a => cc0_transform_11 i a * S32x4x384.size a) (fun a => (Pipeline.Clip.of (cc0_transform_11 i a) (S32x4x384.size a) (S32x4x8732.size a)).extent (S32x4x384.size a)) fun a => Pipeline.Clip.inb (Pipeline.Clip.ok_of (hstart0_11 i a))).WholeWords (EltTy.packing .f32)
  hwxs0_11 : ∀ i : grid0.Coords, EltTy.bits .f32 = 32 ∨ (Rect.unit (s := S32x4x384) (fun _ => 0) (fun a => (Pipeline.Clip.of (cc0_transform_11 i a) (S32x4x384.size a) (S32x4x8732.size a)).extent (S32x4x384.size a)) fun a => (Nat.zero_add _).trans_le (Pipeline.Clip.extent_le (Pipeline.Clip.ok_of (hstart0_11 i a)))).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S32x4x384.size a < S32x4x8732.size a
  hwx0_12 : ∀ i : grid0.Coords, EltTy.bits .f32 = 32 ∨ (Rect.unit (s := S32x4x8732) (fun a => cc0_transform_12 i a * S32x4x384.size a) (fun a => (Pipeline.Clip.of (cc0_transform_12 i a) (S32x4x384.size a) (S32x4x8732.size a)).extent (S32x4x384.size a)) fun a => Pipeline.Clip.inb (Pipeline.Clip.ok_of (hstart0_12 i a))).WholeWords (EltTy.packing .f32)
  hwxs0_12 : ∀ i : grid0.Coords, EltTy.bits .f32 = 32 ∨ (Rect.unit (s := S32x4x384) (fun _ => 0) (fun a => (Pipeline.Clip.of (cc0_transform_12 i a) (S32x4x384.size a) (S32x4x8732.size a)).extent (S32x4x384.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S21x32x384.size a < S21x32x8732.size a
  hwx0_13 : ∀ i : grid0.Coords, EltTy.bits .f32 = 32 ∨ (Rect.unit (s := S21x32x8732) (fun a => cc0_transform_13 i a * S21x32x384.size a) (fun a => (Pipeline.Clip.of (cc0_transform_13 i a) (S21x32x384.size a) (S21x32x8732.size a)).extent (S21x32x384.size a)) fun a => Pipeline.Clip.inb (Pipeline.Clip.ok_of (hstart0_13 i a))).WholeWords (EltTy.packing .f32)
  hwxs0_13 : ∀ i : grid0.Coords, EltTy.bits .f32 = 32 ∨ (Rect.unit (s := S21x32x384) (fun _ => 0) (fun a => (Pipeline.Clip.of (cc0_transform_13 i a) (S21x32x384.size a) (S21x32x8732.size a)).extent (S21x32x384.size a)) fun a => (Nat.zero_add _).trans_le (Pipeline.Clip.extent_le (Pipeline.Clip.ok_of (hstart0_13 i a)))).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hstart0_14 : ∀ (i : grid0.Coords) a, cc0_transform_14 i a * S21x32x384.size a < S21x32x8732.size a
  hwx0_14 : ∀ i : grid0.Coords, EltTy.bits .f32 = 32 ∨ (Rect.unit (s := S21x32x8732) (fun a => cc0_transform_14 i a * S21x32x384.size a) (fun a => (Pipeline.Clip.of (cc0_transform_14 i a) (S21x32x384.size a) (S21x32x8732.size a)).extent (S21x32x384.size a)) fun a => Pipeline.Clip.inb (Pipeline.Clip.ok_of (hstart0_14 i a))).WholeWords (EltTy.packing .f32)
  hwxs0_14 : ∀ i : grid0.Coords, EltTy.bits .f32 = 32 ∨ (Rect.unit (s := S21x32x384) (fun _ => 0) (fun a => (Pipeline.Clip.of (cc0_transform_14 i a) (S21x32x384.size a) (S21x32x8732.size a)).extent (S21x32x384.size a)) fun a => (Nat.zero_add _).trans_le (Pipeline.Clip.extent_le (Pipeline.Clip.ok_of (hstart0_14 i a)))).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S21x32x384.size a < S21x32x8732.size a
  hwx0_15 : ∀ i : grid0.Coords, EltTy.bits .f32 = 32 ∨ (Rect.unit (s := S21x32x8732) (fun a => cc0_transform_15 i a * S21x32x384.size a) (fun a => (Pipeline.Clip.of (cc0_transform_15 i a) (S21x32x384.size a) (S21x32x8732.size a)).extent (S21x32x384.size a)) fun a => Pipeline.Clip.inb (Pipeline.Clip.ok_of (hstart0_15 i a))).WholeWords (EltTy.packing .f32)
  hwxs0_15 : ∀ i : grid0.Coords, EltTy.bits .f32 = 32 ∨ (Rect.unit (s := S21x32x384) (fun _ => 0) (fun a => (Pipeline.Clip.of (cc0_transform_15 i a) (S21x32x384.size a) (S21x32x8732.size a)).extent (S21x32x384.size a)) fun a => (Nat.zero_add _).trans_le (Pipeline.Clip.extent_le (Pipeline.Clip.ok_of (hstart0_15 i a)))).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hstart0_16 : ∀ (i : grid0.Coords) a, cc0_transform_16 i a * S21x32x384.size a < S21x32x8732.size a
  hwx0_16 : ∀ i : grid0.Coords, EltTy.bits .f32 = 32 ∨ (Rect.unit (s := S21x32x8732) (fun a => cc0_transform_16 i a * S21x32x384.size a) (fun a => (Pipeline.Clip.of (cc0_transform_16 i a) (S21x32x384.size a) (S21x32x8732.size a)).extent (S21x32x384.size a)) fun a => Pipeline.Clip.inb (Pipeline.Clip.ok_of (hstart0_16 i a))).WholeWords (EltTy.packing .f32)
  hwxs0_16 : ∀ i : grid0.Coords, EltTy.bits .f32 = 32 ∨ (Rect.unit (s := S21x32x384) (fun _ => 0) (fun a => (Pipeline.Clip.of (cc0_transform_16 i a) (S21x32x384.size a) (S21x32x8732.size a)).extent (S21x32x384.size a)) fun a => (Nat.zero_add _).trans_le (Pipeline.Clip.extent_le (Pipeline.Clip.ok_of (hstart0_16 i a)))).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hstart0_17 : ∀ (i : grid0.Coords) a, cc0_transform_17 i a * S21x32x384.size a < S21x32x8732.size a
  hwx0_17 : ∀ i : grid0.Coords, EltTy.bits .f32 = 32 ∨ (Rect.unit (s := S21x32x8732) (fun a => cc0_transform_17 i a * S21x32x384.size a) (fun a => (Pipeline.Clip.of (cc0_transform_17 i a) (S21x32x384.size a) (S21x32x8732.size a)).extent (S21x32x384.size a)) fun a => Pipeline.Clip.inb (Pipeline.Clip.ok_of (hstart0_17 i a))).WholeWords (EltTy.packing .f32)
  hwxs0_17 : ∀ i : grid0.Coords, EltTy.bits .f32 = 32 ∨ (Rect.unit (s := S21x32x384) (fun _ => 0) (fun a => (Pipeline.Clip.of (cc0_transform_17 i a) (S21x32x384.size a) (S21x32x8732.size a)).extent (S21x32x384.size a)) fun a => (Nat.zero_add _).trans_le (Pipeline.Clip.extent_le (Pipeline.Clip.ok_of (hstart0_17 i a)))).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hstart0_18 : ∀ (i : grid0.Coords) a, cc0_transform_18 i a * S21x32x384.size a < S21x32x8732.size a
  hwx0_18 : ∀ i : grid0.Coords, EltTy.bits .f32 = 32 ∨ (Rect.unit (s := S21x32x8732) (fun a => cc0_transform_18 i a * S21x32x384.size a) (fun a => (Pipeline.Clip.of (cc0_transform_18 i a) (S21x32x384.size a) (S21x32x8732.size a)).extent (S21x32x384.size a)) fun a => Pipeline.Clip.inb (Pipeline.Clip.ok_of (hstart0_18 i a))).WholeWords (EltTy.packing .f32)
  hwxs0_18 : ∀ i : grid0.Coords, EltTy.bits .f32 = 32 ∨ (Rect.unit (s := S21x32x384) (fun _ => 0) (fun a => (Pipeline.Clip.of (cc0_transform_18 i a) (S21x32x384.size a) (S21x32x8732.size a)).extent (S21x32x384.size a)) fun a => (Nat.zero_add _).trans_le (Pipeline.Clip.extent_le (Pipeline.Clip.ok_of (hstart0_18 i a)))).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hstart0_19 : ∀ (i : grid0.Coords) a, cc0_transform_19 i a * S21x32x384.size a < S21x32x8732.size a
  hwx0_19 : ∀ i : grid0.Coords, EltTy.bits .f32 = 32 ∨ (Rect.unit (s := S21x32x8732) (fun a => cc0_transform_19 i a * S21x32x384.size a) (fun a => (Pipeline.Clip.of (cc0_transform_19 i a) (S21x32x384.size a) (S21x32x8732.size a)).extent (S21x32x384.size a)) fun a => Pipeline.Clip.inb (Pipeline.Clip.ok_of (hstart0_19 i a))).WholeWords (EltTy.packing .f32)
  hwxs0_19 : ∀ i : grid0.Coords, EltTy.bits .f32 = 32 ∨ (Rect.unit (s := S21x32x384) (fun _ => 0) (fun a => (Pipeline.Clip.of (cc0_transform_19 i a) (S21x32x384.size a) (S21x32x8732.size a)).extent (S21x32x384.size a)) fun a => (Nat.zero_add _).trans_le (Pipeline.Clip.extent_le (Pipeline.Clip.ok_of (hstart0_19 i a)))).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hstart0_20 : ∀ (i : grid0.Coords) a, cc0_transform_20 i a * S21x32x384.size a < S21x32x8732.size a
  hwx0_20 : ∀ i : grid0.Coords, EltTy.bits .f32 = 32 ∨ (Rect.unit (s := S21x32x8732) (fun a => cc0_transform_20 i a * S21x32x384.size a) (fun a => (Pipeline.Clip.of (cc0_transform_20 i a) (S21x32x384.size a) (S21x32x8732.size a)).extent (S21x32x384.size a)) fun a => Pipeline.Clip.inb (Pipeline.Clip.ok_of (hstart0_20 i a))).WholeWords (EltTy.packing .f32)
  hwxs0_20 : ∀ i : grid0.Coords, EltTy.bits .f32 = 32 ∨ (Rect.unit (s := S21x32x384) (fun _ => 0) (fun a => (Pipeline.Clip.of (cc0_transform_20 i a) (S21x32x384.size a) (S21x32x8732.size a)).extent (S21x32x384.size a)) fun a => (Nat.zero_add _).trans_le (Pipeline.Clip.extent_le (Pipeline.Clip.ok_of (hstart0_20 i a)))).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hstart0_21 : ∀ (i : grid0.Coords) a, cc0_transform_21 i a * S21x32x384.size a < S21x32x8732.size a
  hwx0_21 : ∀ i : grid0.Coords, EltTy.bits .f32 = 32 ∨ (Rect.unit (s := S21x32x8732) (fun a => cc0_transform_21 i a * S21x32x384.size a) (fun a => (Pipeline.Clip.of (cc0_transform_21 i a) (S21x32x384.size a) (S21x32x8732.size a)).extent (S21x32x384.size a)) fun a => Pipeline.Clip.inb (Pipeline.Clip.ok_of (hstart0_21 i a))).WholeWords (EltTy.packing .f32)
  hwxs0_21 : ∀ i : grid0.Coords, EltTy.bits .f32 = 32 ∨ (Rect.unit (s := S21x32x384) (fun _ => 0) (fun a => (Pipeline.Clip.of (cc0_transform_21 i a) (S21x32x384.size a) (S21x32x8732.size a)).extent (S21x32x384.size a)) fun a => (Nat.zero_add _).trans_le (Pipeline.Clip.extent_le (Pipeline.Clip.ok_of (hstart0_21 i a)))).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hstart0_22 : ∀ (i : grid0.Coords) a, cc0_transform_22 i a * S21x32x384.size a < S21x32x8732.size a
  hwx0_22 : ∀ i : grid0.Coords, EltTy.bits .f32 = 32 ∨ (Rect.unit (s := S21x32x8732) (fun a => cc0_transform_22 i a * S21x32x384.size a) (fun a => (Pipeline.Clip.of (cc0_transform_22 i a) (S21x32x384.size a) (S21x32x8732.size a)).extent (S21x32x384.size a)) fun a => Pipeline.Clip.inb (Pipeline.Clip.ok_of (hstart0_22 i a))).WholeWords (EltTy.packing .f32)
  hwxs0_22 : ∀ i : grid0.Coords, EltTy.bits .f32 = 32 ∨ (Rect.unit (s := S21x32x384) (fun _ => 0) (fun a => (Pipeline.Clip.of (cc0_transform_22 i a) (S21x32x384.size a) (S21x32x8732.size a)).extent (S21x32x384.size a)) fun a => (Nat.zero_add _).trans_le (Pipeline.Clip.extent_le (Pipeline.Clip.ok_of (hstart0_22 i a)))).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hstart0_23 : ∀ (i : grid0.Coords) a, cc0_transform_23 i a * S21x32x384.size a < S21x32x8732.size a
  hwx0_23 : ∀ i : grid0.Coords, EltTy.bits .f32 = 32 ∨ (Rect.unit (s := S21x32x8732) (fun a => cc0_transform_23 i a * S21x32x384.size a) (fun a => (Pipeline.Clip.of (cc0_transform_23 i a) (S21x32x384.size a) (S21x32x8732.size a)).extent (S21x32x384.size a)) fun a => Pipeline.Clip.inb (Pipeline.Clip.ok_of (hstart0_23 i a))).WholeWords (EltTy.packing .f32)
  hwxs0_23 : ∀ i : grid0.Coords, EltTy.bits .f32 = 32 ∨ (Rect.unit (s := S21x32x384) (fun _ => 0) (fun a => (Pipeline.Clip.of (cc0_transform_23 i a) (S21x32x384.size a) (S21x32x8732.size a)).extent (S21x32x384.size a)) fun a => (Nat.zero_add _).trans_le (Pipeline.Clip.extent_le (Pipeline.Clip.ok_of (hstart0_23 i a)))).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hstart0_24 : ∀ (i : grid0.Coords) a, cc0_transform_24 i a * S21x32x384.size a < S21x32x8732.size a
  hwx0_24 : ∀ i : grid0.Coords, EltTy.bits .f32 = 32 ∨ (Rect.unit (s := S21x32x8732) (fun a => cc0_transform_24 i a * S21x32x384.size a) (fun a => (Pipeline.Clip.of (cc0_transform_24 i a) (S21x32x384.size a) (S21x32x8732.size a)).extent (S21x32x384.size a)) fun a => Pipeline.Clip.inb (Pipeline.Clip.ok_of (hstart0_24 i a))).WholeWords (EltTy.packing .f32)
  hwxs0_24 : ∀ i : grid0.Coords, EltTy.bits .f32 = 32 ∨ (Rect.unit (s := S21x32x384) (fun _ => 0) (fun a => (Pipeline.Clip.of (cc0_transform_24 i a) (S21x32x384.size a) (S21x32x8732.size a)).extent (S21x32x384.size a)) fun a => (Nat.zero_add _).trans_le (Pipeline.Clip.extent_le (Pipeline.Clip.ok_of (hstart0_24 i a)))).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hstart0_25 : ∀ (i : grid0.Coords) a, cc0_transform_25 i a * S75x32x384.size a < S75x32x8732.size a
  hwx0_25 : ∀ i : grid0.Coords, EltTy.bits .f32 = 32 ∨ (Rect.unit (s := S75x32x8732) (fun a => cc0_transform_25 i a * S75x32x384.size a) (fun a => (Pipeline.Clip.of (cc0_transform_25 i a) (S75x32x384.size a) (S75x32x8732.size a)).extent (S75x32x384.size a)) fun a => Pipeline.Clip.inb (Pipeline.Clip.ok_of (hstart0_25 i a))).WholeWords (EltTy.packing .f32)
  hwxs0_25 : ∀ i : grid0.Coords, EltTy.bits .f32 = 32 ∨ (Rect.unit (s := S75x32x384) (fun _ => 0) (fun a => (Pipeline.Clip.of (cc0_transform_25 i a) (S75x32x384.size a) (S75x32x8732.size a)).extent (S75x32x384.size a)) fun a => (Nat.zero_add _).trans_le (Pipeline.Clip.extent_le (Pipeline.Clip.ok_of (hstart0_25 i a)))).WholeWords (EltTy.packing .f32)

variable [Facts₀]

abbrev win0_0 : Pipeline.Window sig grid0 :=
  Pipeline.Window.ofSpecClip (Memref.whole main_v24) S4x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S32x4x384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S32x4x384.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S32x4x384.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S32x4x384.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v4) S32x4x384.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v5) S32x4x384.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v6) S32x4x384.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v7) S32x4x384.size cc0_transform_8 reads0_8 false false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v8) S32x4x384.size cc0_transform_9 reads0_9 false false 2 stage0_9 sem0_9
    hrank0 hreads0_9 hstart0_9 nbuf0_9 (Memref.isWhole_whole _) hwx0_9 hwxs0_9 hstage0_9

abbrev win0_10 : Pipeline.Window sig grid0 :=
  Pipeline.Window.ofSpecClip (Memref.whole main_v9) S32x4x384.size cc0_transform_10 reads0_10 false false 2 stage0_10 sem0_10
    hrank0 hreads0_10 hstart0_10 nbuf0_10 (Memref.isWhole_whole _) hwx0_10 hwxs0_10 hstage0_10

abbrev win0_11 : Pipeline.Window sig grid0 :=
  Pipeline.Window.ofSpecClip (Memref.whole main_v10) S32x4x384.size cc0_transform_11 reads0_11 false false 2 stage0_11 sem0_11
    hrank0 hreads0_11 hstart0_11 nbuf0_11 (Memref.isWhole_whole _) hwx0_11 hwxs0_11 hstage0_11

abbrev win0_12 : Pipeline.Window sig grid0 :=
  Pipeline.Window.ofSpecClip (Memref.whole main_v11) S32x4x384.size cc0_transform_12 reads0_12 false false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v12) S21x32x384.size cc0_transform_13 reads0_13 false false 2 stage0_13 sem0_13
    hrank0 hreads0_13 hstart0_13 nbuf0_13 (Memref.isWhole_whole _) hwx0_13 hwxs0_13 hstage0_13

abbrev win0_14 : Pipeline.Window sig grid0 :=
  Pipeline.Window.ofSpecClip (Memref.whole main_v13) S21x32x384.size cc0_transform_14 reads0_14 false false 2 stage0_14 sem0_14
    hrank0 hreads0_14 hstart0_14 nbuf0_14 (Memref.isWhole_whole _) hwx0_14 hwxs0_14 hstage0_14

abbrev win0_15 : Pipeline.Window sig grid0 :=
  Pipeline.Window.ofSpecClip (Memref.whole main_v14) S21x32x384.size cc0_transform_15 reads0_15 false false 2 stage0_15 sem0_15
    hrank0 hreads0_15 hstart0_15 nbuf0_15 (Memref.isWhole_whole _) hwx0_15 hwxs0_15 hstage0_15

abbrev win0_16 : Pipeline.Window sig grid0 :=
  Pipeline.Window.ofSpecClip (Memref.whole main_v15) S21x32x384.size cc0_transform_16 reads0_16 false false 2 stage0_16 sem0_16
    hrank0 hreads0_16 hstart0_16 nbuf0_16 (Memref.isWhole_whole _) hwx0_16 hwxs0_16 hstage0_16

abbrev win0_17 : Pipeline.Window sig grid0 :=
  Pipeline.Window.ofSpecClip (Memref.whole main_v16) S21x32x384.size cc0_transform_17 reads0_17 false false 2 stage0_17 sem0_17
    hrank0 hreads0_17 hstart0_17 nbuf0_17 (Memref.isWhole_whole _) hwx0_17 hwxs0_17 hstage0_17

abbrev win0_18 : Pipeline.Window sig grid0 :=
  Pipeline.Window.ofSpecClip (Memref.whole main_v17) S21x32x384.size cc0_transform_18 reads0_18 false false 2 stage0_18 sem0_18
    hrank0 hreads0_18 hstart0_18 nbuf0_18 (Memref.isWhole_whole _) hwx0_18 hwxs0_18 hstage0_18

abbrev win0_19 : Pipeline.Window sig grid0 :=
  Pipeline.Window.ofSpecClip (Memref.whole main_v18) S21x32x384.size cc0_transform_19 reads0_19 false false 2 stage0_19 sem0_19
    hrank0 hreads0_19 hstart0_19 nbuf0_19 (Memref.isWhole_whole _) hwx0_19 hwxs0_19 hstage0_19

abbrev win0_20 : Pipeline.Window sig grid0 :=
  Pipeline.Window.ofSpecClip (Memref.whole main_v19) S21x32x384.size cc0_transform_20 reads0_20 false false 2 stage0_20 sem0_20
    hrank0 hreads0_20 hstart0_20 nbuf0_20 (Memref.isWhole_whole _) hwx0_20 hwxs0_20 hstage0_20

abbrev win0_21 : Pipeline.Window sig grid0 :=
  Pipeline.Window.ofSpecClip (Memref.whole main_v20) S21x32x384.size cc0_transform_21 reads0_21 false false 2 stage0_21 sem0_21
    hrank0 hreads0_21 hstart0_21 nbuf0_21 (Memref.isWhole_whole _) hwx0_21 hwxs0_21 hstage0_21

abbrev win0_22 : Pipeline.Window sig grid0 :=
  Pipeline.Window.ofSpecClip (Memref.whole main_v21) S21x32x384.size cc0_transform_22 reads0_22 false false 2 stage0_22 sem0_22
    hrank0 hreads0_22 hstart0_22 nbuf0_22 (Memref.isWhole_whole _) hwx0_22 hwxs0_22 hstage0_22

abbrev win0_23 : Pipeline.Window sig grid0 :=
  Pipeline.Window.ofSpecClip (Memref.whole main_v22) S21x32x384.size cc0_transform_23 reads0_23 false false 2 stage0_23 sem0_23
    hrank0 hreads0_23 hstart0_23 nbuf0_23 (Memref.isWhole_whole _) hwx0_23 hwxs0_23 hstage0_23

abbrev win0_24 : Pipeline.Window sig grid0 :=
  Pipeline.Window.ofSpecClip (Memref.whole main_v23) S21x32x384.size cc0_transform_24 reads0_24 false false 2 stage0_24 sem0_24
    hrank0 hreads0_24 hstart0_24 nbuf0_24 (Memref.isWhole_whole _) hwx0_24 hwxs0_24 hstage0_24

abbrev win0_25 : Pipeline.Window sig grid0 :=
  Pipeline.Window.ofSpecClip (Memref.whole main_v25) S75x32x384.size cc0_transform_25 reads0_25 true false 2 stage0_25 sem0_25
    hrank0 hreads0_25 hstart0_25 nbuf0_25 (Memref.isWhole_whole _) hwx0_25 hwxs0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8732x4 : Shape := ⟨2, ![8732, 4]⟩
abbrev S32x8732x4 : Shape := ⟨3, ![32, 8732, 4]⟩
abbrev S32x8732x21 : Shape := ⟨3, ![32, 8732, 21]⟩
abbrev S8732x2 : Shape := ⟨2, ![8732, 2]⟩
abbrev S32x8732x2 : Shape := ⟨3, ![32, 8732, 2]⟩
abbrev S_ : Shape := ⟨0, ![]⟩
abbrev S1x8732x2 : Shape := ⟨3, ![1, 8732, 2]⟩
abbrev S32x8732x75 : Shape := ⟨3, ![32, 8732, 75]⟩

abbrev nBuf : Space → Nat
  | .hbm => 111
  | .vmem => 0
  | .smem => 0
  | _ => 0

abbrev bufTy : (tb : Table) → Fin (tcTables nBuf tb) → BufTy
  | .hbm, ⟨0, _⟩ => ⟨S8732x4, .f32⟩
  | .hbm, ⟨1, _⟩ => ⟨S32x8732x4, .f32⟩
  | .hbm, ⟨2, _⟩ => ⟨S32x8732x4, .f32⟩
  | .hbm, ⟨3, _⟩ => ⟨S32x8732x4, .f32⟩
  | .hbm, ⟨4, _⟩ => ⟨S32x8732x4, .f32⟩
  | .hbm, ⟨5, _⟩ => ⟨S32x8732x4, .f32⟩
  | .hbm, ⟨6, _⟩ => ⟨S32x8732x4, .f32⟩
  | .hbm, ⟨7, _⟩ => ⟨S32x8732x4, .f32⟩
  | .hbm, ⟨8, _⟩ => ⟨S32x8732x4, .f32⟩
  | .hbm, ⟨9, _⟩ => ⟨S32x8732x4, .f32⟩
  | .hbm, ⟨10, _⟩ => ⟨S32x8732x4, .f32⟩
  | .hbm, ⟨11, _⟩ => ⟨S32x8732x4, .f32⟩
  | .hbm, ⟨12, _⟩ => ⟨S32x8732x4, .f32⟩
  | .hbm, ⟨13, _⟩ => ⟨S32x8732x21, .f32⟩
  | .hbm, ⟨14, _⟩ => ⟨S32x8732x21, .f32⟩
  | .hbm, ⟨15, _⟩ => ⟨S32x8732x21, .f32⟩
  | .hbm, ⟨16, _⟩ => ⟨S32x8732x21, .f32⟩
  | .hbm, ⟨17, _⟩ => ⟨S32x8732x21, .f32⟩
  | .hbm, ⟨18, _⟩ => ⟨S32x8732x21, .f32⟩
  | .hbm, ⟨19, _⟩ => ⟨S32x8732x21, .f32⟩
  | .hbm, ⟨20, _⟩ => ⟨S32x8732x21, .f32⟩
  | .hbm, ⟨21, _⟩ => ⟨S32x8732x21, .f32⟩
  | .hbm, ⟨22, _⟩ => ⟨S32x8732x21, .f32⟩
  | .hbm, ⟨23, _⟩ => ⟨S32x8732x21, .f32⟩
  | .hbm, ⟨24, _⟩ => ⟨S32x8732x21, .f32⟩
  | .hbm, ⟨25, _⟩ => ⟨S32x8732x4, .f32⟩
  | .hbm, ⟨26, _⟩ => ⟨S32x8732x4, .f32⟩
  | .hbm, ⟨27, _⟩ => ⟨S32x8732x4, .f32⟩
  | .hbm, ⟨28, _⟩ => ⟨S32x8732x4, .f32⟩
  | .hbm, ⟨29, _⟩ => ⟨S32x8732x4, .f32⟩
  | .hbm, ⟨30, _⟩ => ⟨S32x8732x4, .f32⟩
  | .hbm, ⟨31, _⟩ => ⟨S32x8732x4, .f32⟩
  | .hbm, ⟨32, _⟩ => ⟨S32x8732x4, .f32⟩
  | .hbm, ⟨33, _⟩ => ⟨S32x8732x4, .f32⟩
  | .hbm, ⟨34, _⟩ => ⟨S32x8732x4, .f32⟩
  | .hbm, ⟨35, _⟩ => ⟨S32x8732x4, .f32⟩
  | .hbm, ⟨36, _⟩ => ⟨S32x8732x4, .f32⟩
  | .hbm, ⟨37, _⟩ => ⟨S32x8732x4, .f32⟩
  | .hbm, ⟨38, _⟩ => ⟨S32x8732x4, .f32⟩
  | .hbm, ⟨39, _⟩ => ⟨S32x8732x4, .f32⟩
  | .hbm, ⟨40, _⟩ => ⟨S32x8732x4, .f32⟩
  | .hbm, ⟨41, _⟩ => ⟨S32x8732x4, .f32⟩
  | .hbm, ⟨42, _⟩ => ⟨S32x8732x4, .f32⟩
  | .hbm, ⟨43, _⟩ => ⟨S32x8732x4, .f32⟩
  | .hbm, ⟨44, _⟩ => ⟨S32x8732x4, .f32⟩
  | .hbm, ⟨45, _⟩ => ⟨S32x8732x4, .f32⟩
  | .hbm, ⟨46, _⟩ => ⟨S32x8732x4, .f32⟩
  | .hbm, ⟨47, _⟩ => ⟨S32x8732x4, .f32⟩
  | .hbm, ⟨48, _⟩ => ⟨S32x8732x4, .f32⟩
  | .hbm, ⟨49, _⟩ => ⟨S32x8732x4, .f32⟩
  | .hbm, ⟨50, _⟩ => ⟨S32x8732x4, .f32⟩
  | .hbm, ⟨51, _⟩ => ⟨S32x8732x4, .f32⟩
  | .hbm, ⟨52, _⟩ => ⟨S32x8732x4, .f32⟩
  | .hbm, ⟨53, _⟩ => ⟨S32x8732x4, .f32⟩
  | .hbm, ⟨54, _⟩ => ⟨S32x8732x21, .f32⟩
  | .hbm, ⟨55, _⟩ => ⟨S32x8732x21, .f32⟩
  | .hbm, ⟨56, _⟩ => ⟨S32x8732x21, .f32⟩
  | .hbm, ⟨57, _⟩ => ⟨S32x8732x21, .f32⟩
  | .hbm, ⟨58, _⟩ => ⟨S32x8732x21, .f32⟩
  | .hbm, ⟨59, _⟩ => ⟨S32x8732x21, .f32⟩
  | .hbm, ⟨60, _⟩ => ⟨S32x8732x21, .f32⟩
  | .hbm, ⟨61, _⟩ => ⟨S32x8732x21, .f32⟩
  | .hbm, ⟨62, _⟩ => ⟨S32x8732x21, .f32⟩
  | .hbm, ⟨63, _⟩ => ⟨S32x8732x21, .f32⟩
  | .hbm, ⟨64, _⟩ => ⟨S32x8732x21, .f32⟩
  | .hbm, ⟨65, _⟩ => ⟨S32x8732x21, .f32⟩
  | .hbm, ⟨66, _⟩ => ⟨S32x8732x21, .f32⟩
  | .hbm, ⟨67, _⟩ => ⟨S32x8732x21, .f32⟩
  | .hbm, ⟨68, _⟩ => ⟨S32x8732x21, .f32⟩
  | .hbm, ⟨69, _⟩ => ⟨S32x8732x21, .f32⟩
  | .hbm, ⟨70, _⟩ => ⟨S32x8732x21, .f32⟩
  | .hbm, ⟨71, _⟩ => ⟨S32x8732x21, .f32⟩
  | .hbm, ⟨72, _⟩ => ⟨S32x8732x21, .f32⟩
  | .hbm, ⟨73, _⟩ => ⟨S32x8732x21, .f32⟩
  | .hbm, ⟨74, _⟩ => ⟨S32x8732x21, .f32⟩
  | .hbm, ⟨75, _⟩ => ⟨S32x8732x21, .f32⟩
  | .hbm, ⟨76, _⟩ => ⟨S32x8732x21, .f32⟩
  | .hbm, ⟨77, _⟩ => ⟨S32x8732x21, .f32⟩
  | .hbm, ⟨78, _⟩ => ⟨S32x8732x21, .f32⟩
  | .hbm, ⟨79, _⟩ => ⟨S32x8732x21, .f32⟩
  | .hbm, ⟨80, _⟩ => ⟨S32x8732x21, .f32⟩
  | .hbm, ⟨81, _⟩ => ⟨S32x8732x21, .f32⟩
  | .hbm, ⟨82, _⟩ => ⟨S32x8732x21, .f32⟩
  | .hbm, ⟨83, _⟩ => ⟨S8732x2, .f32⟩
  | .hbm, ⟨84, _⟩ => ⟨S32x8732x2, .f32⟩
  | .hbm, ⟨85, _⟩ => ⟨S_, .f32⟩
  | .hbm, ⟨86, _⟩ => ⟨S32x8732x2, .f32⟩
  | .hbm, ⟨87, _⟩ => ⟨S32x8732x2, .f32⟩
  | .hbm, ⟨88, _⟩ => ⟨S8732x2, .f32⟩
  | .hbm, ⟨89, _⟩ => ⟨S1x8732x2, .f32⟩
  | .hbm, ⟨90, _⟩ => ⟨S32x8732x2, .f32⟩
  | .hbm, ⟨91, _⟩ => ⟨S32x8732x2, .f32⟩
  | .hbm, ⟨92, _⟩ => ⟨S1x8732x2, .f32⟩
  | .hbm, ⟨93, _⟩ => ⟨S32x8732x2, .f32⟩
  | .hbm, ⟨94, _⟩ => ⟨S32x8732x2, .f32⟩
  | .hbm, ⟨95, _⟩ => ⟨S8732x2, .f32⟩
  | .hbm, ⟨96, _⟩ => ⟨S32x8732x2, .f32⟩
  | .hbm, ⟨97, _⟩ => ⟨S_, .f32⟩
  | .hbm, ⟨98, _⟩ => ⟨S32x8732x2, .f32⟩
  | .hbm, ⟨99, _⟩ => ⟨S32x8732x2, .f32⟩
  | .hbm, ⟨100, _⟩ => ⟨S32x8732x2, .f32⟩
  | .hbm, ⟨101, _⟩ => ⟨S1x8732x2, .f32⟩
  | .hbm, ⟨102, _⟩ => ⟨S32x8732x2, .f32⟩
  | .hbm, ⟨103, _⟩ => ⟨S32x8732x2, .f32⟩
  | .hbm, ⟨104, _⟩ => ⟨S_, .f32⟩
  | .hbm, ⟨105, _⟩ => ⟨S32x8732x2, .f32⟩
  | .hbm, ⟨106, _⟩ => ⟨S32x8732x2, .f32⟩
  | .hbm, ⟨107, _⟩ => ⟨S32x8732x2, .f32⟩
  | .hbm, ⟨108, _⟩ => ⟨S32x8732x2, .f32⟩
  | .hbm, ⟨109, _⟩ => ⟨S32x8732x4, .f32⟩
  | .hbm, ⟨110, _⟩ => ⟨S32x8732x75, .f32⟩
  | _, _ => ⟨S8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_1 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]

class Facts₀ : Prop where
  slices_S8732x4_S8732x2_0_0 : S8732x4.Slices ![0, 0] S8732x2
  slices_S32x8732x4_S32x8732x2_0_0_0 : S32x8732x4.Slices ![0, 0, 0] S32x8732x2
  bcast_S_S32x8732x2 : S_.BroadcastsInDim S32x8732x2 (![] : Fin 0 → Fin S32x8732x2.rank)
  slices_S8732x4_S8732x2_0_2 : S8732x4.Slices ![0, 2] S8732x2
  bcast_S8732x2_S1x8732x2_1_2 : S8732x2.BroadcastsInDim S1x8732x2 (![1, 2] : Fin 2 → Fin S1x8732x2.rank)
  bcast_S1x8732x2_S32x8732x2_0_1_2 : S1x8732x2.BroadcastsInDim S32x8732x2 (![0, 1, 2] : Fin 3 → Fin S32x8732x2.rank)
  slices_S32x8732x4_S32x8732x2_0_0_2 : S32x8732x4.Slices ![0, 0, 2] S32x8732x2
  concatenates_S32x8732x2_S32x8732x2_S32x8732x4_d2 : Shape.Concatenates [S32x8732x2, S32x8732x2] S32x8732x4 2
  concatenates_S32x8732x4_S32x8732x4_S32x8732x4_S32x8732x21_S32x8732x21_S32x8732x21_S32x8732x75_d2 : Shape.Concatenates [S32x8732x4, S32x8732x4, S32x8732x4, S32x8732x21, S32x8732x21, S32x8732x21] S32x8732x75 2

variable [Facts₀]

class Facts : Prop extends Facts₀ where

variable [Facts]
-- ==== Proof.KBlock.lean ====
import proofs.«111137_g86517821215618_cont_9to1_m_1401_12_alg».proof.Proof.Gen.Kernel.Frame
import proofs.«111137_g86517821215618_cont_9to1_m_1401_12_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body loads and stores through

Every input block is loaded whole; the output block, 75 rows of 32 × 384 words, is stored row by row for the twelve
localisation rows and in three bands of 21 rows for the class rows. -/

abbrev rPri : Rect S4x384 := Rect.unit (s := S4x384) ![0, 0] S4x384.size inb_S4x384_S4x384_0_0
abbrev rLoc : Rect S32x4x384 := Rect.unit (s := S32x4x384) ![0, 0, 0] S32x4x384.size inb_S32x4x384_S32x4x384_0_0_0
abbrev rCls : Rect S21x32x384 := Rect.unit (s := S21x32x384) ![0, 0, 0] S21x32x384.size inb_S21x32x384_S21x32x384_0_0_0
abbrev rRow0 : Rect S75x32x384 := Rect.unit (s := S75x32x384) ![0, 0, 0] S1x32x384.size inb_S75x32x384_S1x32x384_0_0_0
abbrev rRow1 : Rect S75x32x384 := Rect.unit (s := S75x32x384) ![1, 0, 0] S1x32x384.size inb_S75x32x384_S1x32x384_1_0_0
abbrev rRow2 : Rect S75x32x384 := Rect.unit (s := S75x32x384) ![2, 0, 0] S1x32x384.size inb_S75x32x384_S1x32x384_2_0_0
abbrev rRow3 : Rect S75x32x384 := Rect.unit (s := S75x32x384) ![3, 0, 0] S1x32x384.size inb_S75x32x384_S1x32x384_3_0_0
abbrev rRow4 : Rect S75x32x384 := Rect.unit (s := S75x32x384) ![4, 0, 0] S1x32x384.size inb_S75x32x384_S1x32x384_4_0_0
abbrev rRow5 : Rect S75x32x384 := Rect.unit (s := S75x32x384) ![5, 0, 0] S1x32x384.size inb_S75x32x384_S1x32x384_5_0_0
abbrev rRow6 : Rect S75x32x384 := Rect.unit (s := S75x32x384) ![6, 0, 0] S1x32x384.size inb_S75x32x384_S1x32x384_6_0_0
abbrev rRow7 : Rect S75x32x384 := Rect.unit (s := S75x32x384) ![7, 0, 0] S1x32x384.size inb_S75x32x384_S1x32x384_7_0_0
abbrev rRow8 : Rect S75x32x384 := Rect.unit (s := S75x32x384) ![8, 0, 0] S1x32x384.size inb_S75x32x384_S1x32x384_8_0_0
abbrev rRow9 : Rect S75x32x384 := Rect.unit (s := S75x32x384) ![9, 0, 0] S1x32x384.size inb_S75x32x384_S1x32x384_9_0_0
abbrev rRow10 : Rect S75x32x384 := Rect.unit (s := S75x32x384) ![10, 0, 0] S1x32x384.size inb_S75x32x384_S1x32x384_10_0_0
abbrev rRow11 : Rect S75x32x384 := Rect.unit (s := S75x32x384) ![11, 0, 0] S1x32x384.size inb_S75x32x384_S1x32x384_11_0_0
abbrev rBand12 : Rect S75x32x384 := Rect.unit (s := S75x32x384) ![12, 0, 0] S21x32x384.size inb_S75x32x384_S21x32x384_12_0_0
abbrev rBand33 : Rect S75x32x384 := Rect.unit (s := S75x32x384) ![33, 0, 0] S21x32x384.size inb_S75x32x384_S21x32x384_33_0_0
abbrev rBand54 : Rect S75x32x384 := Rect.unit (s := S75x32x384) ![54, 0, 0] S21x32x384.size inb_S75x32x384_S21x32x384_54_0_0

/-! ## The vectors the body computes, from the contents of the input blocks

Block `x0` is the priors' (4 × 384), `x1 … x12` the four localisation heads' (mean, variance, weight per head, each
32 × 4 × 384) and `x13 … x24` the four class heads' (each 21 × 32 × 384). -/

section
variable (x0 : Vec F S4x384 .f32) (x1 x2 x3 x4 x5 x6 x7 x8 x9 x10 x11 x12 : Vec F S32x4x384 .f32) (x13 x14 x15 x16 x17 x18 x19 x20 x21 x22 x23 x24 : Vec F S21x32x384 .f32)

/-- The fused localisation mean, from the heads' means `x1, x4, x7, x10` and weights `x3, x6, x9, x12`. -/
def nlL (x1 x3 x4 x6 x7 x9 x10 x12 : Vec F S32x4x384 .f32) : FVec F S32x4x384 .f32 :=
  k0_pay15 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc))
/-- The aleatoric localisation term, from the heads' variances `x2, x5, x8, x11` and weights. -/
def alL (x2 x3 x5 x6 x8 x9 x11 x12 : Vec F S32x4x384 .f32) : FVec F S32x4x384 .f32 :=
  k0_pay16 (k0_pay8 (View.ld x3 rLoc)) (k0_pay9 (View.ld x6 rLoc)) (k0_pay10 (View.ld x9 rLoc)) (k0_pay11 (View.ld x12 rLoc))
    (k0_pay12 (View.ld x2 rLoc)) (k0_pay13 (View.ld x5 rLoc)) (k0_pay14 (View.ld x8 rLoc)) (View.ld x11 rLoc)
/-- The epistemic localisation term. -/
def epL (x1 x3 x4 x6 x7 x9 x10 x12 : Vec F S32x4x384 .f32) : FVec F S32x4x384 .f32 :=
  k0_pay17 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc))
/-- The decoded extents (valid at components 0 and 1). -/
def whL (x0 : Vec F S4x384 .f32) (x1 x3 x4 x6 x7 x9 x10 x12 : Vec F S32x4x384 .f32) : FVec F S32x4x384 .f32 :=
  k0_pay20 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc)) (View.ld x0 rPri)
/-- The decoded centres. -/
def ctrL (x0 : Vec F S4x384 .f32) (x1 x3 x4 x6 x7 x9 x10 x12 : Vec F S32x4x384 .f32) : FVec F S32x4x384 .f32 :=
  k0_pay21 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc)) (View.ld x0 rPri)
/-- Half the decoded extents. -/
def hwhL (x0 : Vec F S4x384 .f32) (x1 x3 x4 x6 x7 x9 x10 x12 : Vec F S32x4x384 .f32) : FVec F S32x4x384 .f32 :=
  k0_pay22 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc)) (View.ld x0 rPri)
/-- The decoded corners: low corners at components 0, 1, high corners at 2, 3. -/
def decL (x0 : Vec F S4x384 .f32) (x1 x3 x4 x6 x7 x9 x10 x12 : Vec F S32x4x384 .f32) : FVec F S32x4x384 .f32 :=
  k0_pay23 (whL x0 x1 x3 x4 x6 x7 x9 x10 x12) (ctrL x0 x1 x3 x4 x6 x7 x9 x10 x12) (hwhL x0 x1 x3 x4 x6 x7 x9 x10 x12)

/-- The fused class mean, from the heads' means `x13, x16, x19, x22` and weights `x15, x18, x21, x24`. -/
def ncL (x13 x15 x16 x18 x19 x21 x22 x24 : Vec F S21x32x384 .f32) : FVec F S21x32x384 .f32 :=
  k0_pay1 (k0_pay39 (View.ld x19 rCls)) (k0_pay40 (View.ld x22 rCls)) (k0_pay43 (View.ld x21 rCls)) (k0_pay44 (View.ld x24 rCls))
    (k0_pay49 (View.ld x13 rCls) (View.ld x15 rCls)) (k0_pay50 (View.ld x16 rCls) (View.ld x18 rCls))
/-- The aleatoric class term, from the heads' variances `x14, x17, x20, x23` and weights. -/
def caL (x14 x15 x17 x18 x20 x21 x23 x24 : Vec F S21x32x384 .f32) : FVec F S21x32x384 .f32 :=
  k0_pay2 (k0_pay41 (View.ld x15 rCls)) (k0_pay42 (View.ld x18 rCls)) (k0_pay43 (View.ld x21 rCls)) (k0_pay44 (View.ld x24 rCls))
    (k0_pay45 (View.ld x14 rCls)) (k0_pay46 (View.ld x17 rCls)) (k0_pay47 (View.ld x20 rCls)) (k0_pay48 (View.ld x23 rCls))
/-- The epistemic class term. -/
def ceL (x13 x15 x16 x18 x19 x21 x22 x24 : Vec F S21x32x384 .f32) : FVec F S21x32x384 .f32 :=
  k0_pay3 (k0_pay37 (View.ld x13 rCls)) (k0_pay38 (View.ld x16 rCls)) (k0_pay39 (View.ld x19 rCls)) (k0_pay40 (View.ld x22 rCls))
    (k0_pay41 (View.ld x15 rCls)) (k0_pay42 (View.ld x18 rCls)) (k0_pay43 (View.ld x21 rCls)) (k0_pay44 (View.ld x24 rCls))
    (k0_pay49 (View.ld x13 rCls) (View.ld x15 rCls)) (k0_pay50 (View.ld x16 rCls) (View.ld x18 rCls))

/-- The stores of the body, last first, over their payloads: three bands of class rows, then the twelve localisation rows. -/
def piecesOf (p54 p33 p12 : FVec F S21x32x384 .f32) (q11 q7 q3 q10 q6 q2 q9 q5 q1 q8 q4 q0 : FVec F S1x32x384 .f32) :
    List (View.Piece (Elt F) S75x32x384 .f32) :=
  [⟨rBand54, p54⟩, ⟨rBand33, p33⟩, ⟨rBand12, p12⟩, ⟨rRow11, q11⟩, ⟨rRow7, q7⟩, ⟨rRow3, q3⟩, ⟨rRow10, q10⟩, ⟨rRow6, q6⟩, ⟨rRow2, q2⟩, ⟨rRow9, q9⟩, ⟨rRow5, q5⟩, ⟨rRow1, q1⟩, ⟨rRow8, q8⟩, ⟨rRow4, q4⟩, ⟨rRow0, q0⟩]

/-- Cut into single rows of 32 × 384 words the fifteen stores tile the output block, so every index of it lies in one. -/
theorem cover (p54 p33 p12 : FVec F S21x32x384 .f32) (q11 q7 q3 q10 q6 q2 q9 q5 q1 q8 q4 q0 : FVec F S1x32x384 .f32) (y : S75x32x384.Idx) :
    ∃ pc ∈ piecesOf p54 p33 p12 q11 q7 q3 q10 q6 q2 q9 q5 q1 q8 q4 q0, y ∈ pc.1.set :=
  View.cover_of_tiledBy (piecesOf p54 p33 p12 q11 q7 q3 q10 q6 q2 q9 q5 q1 q8 q4 q0) ![1, 32, 384] (by sl_kernel_rfl) y

/-- What the output block holds after the body, as a function of the input blocks' contents. -/
def outBlock : Vec F S75x32x384 .f32 :=
  View.canon (piecesOf
    (ceL x13 x15 x16 x18 x19 x21 x22 x24)
    (caL x14 x15 x17 x18 x20 x21 x23 x24)
    (ncL x13 x15 x16 x18 x19 x21 x22 x24)
    (k0_pay36 (epL x1 x3 x4 x6 x7 x9 x10 x12))
    (k0_pay35 (alL x2 x3 x5 x6 x8 x9 x11 x12))
    (k0_pay34 (decL x0 x1 x3 x4 x6 x7 x9 x10 x12))
    (k0_pay33 (epL x1 x3 x4 x6 x7 x9 x10 x12))
    (k0_pay32 (alL x2 x3 x5 x6 x8 x9 x11 x12))
    (k0_pay31 (decL x0 x1 x3 x4 x6 x7 x9 x10 x12))
    (k0_pay30 (k0_pay29 (epL x1 x3 x4 x6 x7 x9 x10 x12)))
    (k0_pay28 (alL x2 x3 x5 x6 x8 x9 x11 x12))
    (k0_pay27 (whL x0 x1 x3 x4 x6 x7 x9 x10 x12) (ctrL x0 x1 x3 x4 x6 x7 x9 x10 x12) (hwhL x0 x1 x3 x4 x6 x7 x9 x10 x12))
    (k0_pay26 (epL x1 x3 x4 x6 x7 x9 x10 x12))
    (k0_pay25 (alL x2 x3 x5 x6 x8 x9 x11 x12))
    (k0_pay24 (whL x0 x1 x3 x4 x6 x7 x9 x10 x12) (ctrL x0 x1 x3 x4 x6 x7 x9 x10 x12) (hwhL x0 x1 x3 x4 x6 x7 x9 x10 x12)))

end

end Cert.Kernel.Body

end
-- ==== Proof.KRun.lean ====
import proofs.«111137_g86517821215618_cont_9to1_m_1401_12_alg».proof.Proof.Gen.Kernel.Frame
import proofs.«111137_g86517821215618_cont_9to1_m_1401_12_alg».proof.Proof.Gen.Kernel.Skeleton
import proofs.«111137_g86517821215618_cont_9to1_m_1401_12_alg».proof.Proof.KBlock
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple

On whole staging buffers, the inputs' at contents `x0 … x24` and the output's at anything, the body runs to its end
leaving the inputs' buffers as they were and the output's at `outBlock` of the inputs' contents. -/

set_option maxHeartbeats 4000000 in
theorem sound_kernel (c : Dev nD) (E : Set ℕ) (i : grid0.Coords) (arg2 : Memref sig .tc .vmem S4x384 .f32) (harg2 : arg2.IsWhole) (arg3 : Memref sig .tc .vmem S32x4x384 .f32) (harg3 : arg3.IsWhole) (arg4 : Memref sig .tc .vmem S32x4x384 .f32) (harg4 : arg4.IsWhole) (arg5 : Memref sig .tc .vmem S32x4x384 .f32) (harg5 : arg5.IsWhole) (arg6 : Memref sig .tc .vmem S32x4x384 .f32) (harg6 : arg6.IsWhole) (arg7 : Memref sig .tc .vmem S32x4x384 .f32) (harg7 : arg7.IsWhole) (arg8 : Memref sig .tc .vmem S32x4x384 .f32) (harg8 : arg8.IsWhole) (arg9 : Memref sig .tc .vmem S32x4x384 .f32) (harg9 : arg9.IsWhole) (arg10 : Memref sig .tc .vmem S32x4x384 .f32) (harg10 : arg10.IsWhole) (arg11 : Memref sig .tc .vmem S32x4x384 .f32) (harg11 : arg11.IsWhole) (arg12 : Memref sig .tc .vmem S32x4x384 .f32) (harg12 : arg12.IsWhole) (arg13 : Memref sig .tc .vmem S32x4x384 .f32) (harg13 : arg13.IsWhole) (arg14 : Memref sig .tc .vmem S32x4x384 .f32) (harg14 : arg14.IsWhole) (arg15 : Memref sig .tc .vmem S21x32x384 .f32) (harg15 : arg15.IsWhole) (arg16 : Memref sig .tc .vmem S21x32x384 .f32) (harg16 : arg16.IsWhole) (arg17 : Memref sig .tc .vmem S21x32x384 .f32) (harg17 : arg17.IsWhole) (arg18 : Memref sig .tc .vmem S21x32x384 .f32) (harg18 : arg18.IsWhole) (arg19 : Memref sig .tc .vmem S21x32x384 .f32) (harg19 : arg19.IsWhole) (arg20 : Memref sig .tc .vmem S21x32x384 .f32) (harg20 : arg20.IsWhole) (arg21 : Memref sig .tc .vmem S21x32x384 .f32) (harg21 : arg21.IsWhole) (arg22 : Memref sig .tc .vmem S21x32x384 .f32) (harg22 : arg22.IsWhole) (arg23 : Memref sig .tc .vmem S21x32x384 .f32) (harg23 : arg23.IsWhole) (arg24 : Memref sig .tc .vmem S21x32x384 .f32) (harg24 : arg24.IsWhole) (arg25 : Memref sig .tc .vmem S21x32x384 .f32) (harg25 : arg25.IsWhole) (arg26 : Memref sig .tc .vmem S21x32x384 .f32) (harg26 : arg26.IsWhole) (arg27 : Memref sig .tc .vmem S75x32x384 .f32) (harg27 : arg27.IsWhole)
    (x0 : Vec F S4x384 .f32) (x1 x2 x3 x4 x5 x6 x7 x8 x9 x10 x11 x12 : Vec F S32x4x384 .f32) (x13 x14 x15 x16 x17 x18 x19 x20 x21 x22 x23 x24 : Vec F S21x32x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare (outBlock x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  exact View.read_writes_eq_canon _ _ _ (cover _ _ _ _ _ _ _ _ _ _ _ _ _ _ _)

end Cert.Kernel.Body

end
-- ==== Proof.LibFill.lean ====
/-
  A staging block after a clipped transfer, read at an index.

  When a window's block overhangs its array the transfer at a grid point moves only the block's leading part (the part
  inside the array); `Window.fill i d g` is the block holding the fetched part `g` there and `d` on the rest. Read at an
  index the transfer moves, the filled block is the fetched part and does not see `d`: the two facts a proof needs to state
  a kernel body on the lanes inside the array only, whatever the staging buffer holds past the array's end.
-/
import Idealize.ShloMosaic.Lib.Pipeline

namespace Cert.LibFill

open Idealize.ShloMosaic

/-- A filled block read where the transfer moved it does not see the filler: two fillers give the same value there. -/
theorem fill_eq_of_moved {sig : RefSig} {G : Pipeline.Grid} (w : Pipeline.Window sig G) {α : Type} (i : G.Coords)
    (d e : w.block.Idx → α) (g : (w.xblock i).Idx → α) (y : w.block.Idx) (h : w.moved i y = true) :
    w.fill i d g y = w.fill i e g y := by
  unfold Pipeline.Window.fill; rw [dif_pos h, dif_pos h]

/-- A filled block read where the transfer moved it reads what was fetched, at the same coordinates. -/
theorem fill_of_moved {sig : RefSig} {G : Pipeline.Grid} (w : Pipeline.Window sig G) {α : Type} (i : G.Coords)
    (d : w.block.Idx → α) (g : (w.xblock i).Idx → α) (y : w.block.Idx) (h : w.moved i y = true) :
    w.fill i d g y = g fun a => ⟨(y a).val, (w.moved_iff i y).mp h a⟩ := by
  unfold Pipeline.Window.fill; rw [dif_pos h]

end Cert.LibFill
-- ==== Proof.KWin.lean ====
import proofs.«111137_g86517821215618_cont_9to1_m_1401_12_alg».proof.Proof.Gen.Kernel.Launch
import proofs.«111137_g86517821215618_cont_9to1_m_1401_12_alg».proof.Proof.Gen.Kernel.Points
import Idealize.ShloMosaic.Lib.ValueIdx
import proofs.«111137_g86517821215618_cont_9to1_m_1401_12_alg».proof.Proof.LibFill

set_option maxRecDepth 16384

noncomputable section

namespace Cert.Kernel.Body

open Cert.Kernel Cert.Kernel.Gen
open Idealize.ShloMosaic Idealize.ShloMosaic.ValueIdx

/-! ## The windows' blocks over the grid

The grid is 1 × 23; point `t` takes lane block `t` of every array: lanes `384·t … 384·t + 383`, of which only those below
8732 are inside the array. So the transfer at point `t` moves `min 384 (8732 − 384·t)` lanes — all 384 but at the last
point, where it moves 284 — and every row of the other axes. -/

theorem win_facts_0 : ∀ t : Fin cfg0.N, win0_0.xsize (grid0.coords t) 1 = min 384 (8732 - 384 * t.val) ∧ win0_0.xsize (grid0.coords t) 0 = 4 ∧ win0_0.index t 1 = t.val ∧ win0_0.index t 0 = 0 :=
  (by decide +kernel : ∀ t : Fin grid0.N, win0_0.xsize (grid0.coords t) 1 = min 384 (8732 - 384 * t.val) ∧ win0_0.xsize (grid0.coords t) 0 = 4 ∧ win0_0.index t 1 = t.val ∧ win0_0.index t 0 = 0)
theorem win_facts_1 : ∀ t : Fin cfg0.N, win0_1.xsize (grid0.coords t) 2 = min 384 (8732 - 384 * t.val) ∧ win0_1.xsize (grid0.coords t) 0 = 32 ∧ win0_1.xsize (grid0.coords t) 1 = 4 ∧ win0_1.index t 2 = t.val ∧ win0_1.index t 0 = 0 ∧ win0_1.index t 1 = 0 :=
  (by decide +kernel : ∀ t : Fin grid0.N, win0_1.xsize (grid0.coords t) 2 = min 384 (8732 - 384 * t.val) ∧ win0_1.xsize (grid0.coords t) 0 = 32 ∧ win0_1.xsize (grid0.coords t) 1 = 4 ∧ win0_1.index t 2 = t.val ∧ win0_1.index t 0 = 0 ∧ win0_1.index t 1 = 0)
theorem win_facts_2 : ∀ t : Fin cfg0.N, win0_2.xsize (grid0.coords t) 2 = min 384 (8732 - 384 * t.val) ∧ win0_2.xsize (grid0.coords t) 0 = 32 ∧ win0_2.xsize (grid0.coords t) 1 = 4 ∧ win0_2.index t 2 = t.val ∧ win0_2.index t 0 = 0 ∧ win0_2.index t 1 = 0 :=
  (by decide +kernel : ∀ t : Fin grid0.N, win0_2.xsize (grid0.coords t) 2 = min 384 (8732 - 384 * t.val) ∧ win0_2.xsize (grid0.coords t) 0 = 32 ∧ win0_2.xsize (grid0.coords t) 1 = 4 ∧ win0_2.index t 2 = t.val ∧ win0_2.index t 0 = 0 ∧ win0_2.index t 1 = 0)
theorem win_facts_3 : ∀ t : Fin cfg0.N, win0_3.xsize (grid0.coords t) 2 = min 384 (8732 - 384 * t.val) ∧ win0_3.xsize (grid0.coords t) 0 = 32 ∧ win0_3.xsize (grid0.coords t) 1 = 4 ∧ win0_3.index t 2 = t.val ∧ win0_3.index t 0 = 0 ∧ win0_3.index t 1 = 0 :=
  (by decide +kernel : ∀ t : Fin grid0.N, win0_3.xsize (grid0.coords t) 2 = min 384 (8732 - 384 * t.val) ∧ win0_3.xsize (grid0.coords t) 0 = 32 ∧ win0_3.xsize (grid0.coords t) 1 = 4 ∧ win0_3.index t 2 = t.val ∧ win0_3.index t 0 = 0 ∧ win0_3.index t 1 = 0)
theorem win_facts_4 : ∀ t : Fin cfg0.N, win0_4.xsize (grid0.coords t) 2 = min 384 (8732 - 384 * t.val) ∧ win0_4.xsize (grid0.coords t) 0 = 32 ∧ win0_4.xsize (grid0.coords t) 1 = 4 ∧ win0_4.index t 2 = t.val ∧ win0_4.index t 0 = 0 ∧ win0_4.index t 1 = 0 :=
  (by decide +kernel : ∀ t : Fin grid0.N, win0_4.xsize (grid0.coords t) 2 = min 384 (8732 - 384 * t.val) ∧ win0_4.xsize (grid0.coords t) 0 = 32 ∧ win0_4.xsize (grid0.coords t) 1 = 4 ∧ win0_4.index t 2 = t.val ∧ win0_4.index t 0 = 0 ∧ win0_4.index t 1 = 0)
theorem win_facts_5 : ∀ t : Fin cfg0.N, win0_5.xsize (grid0.coords t) 2 = min 384 (8732 - 384 * t.val) ∧ win0_5.xsize (grid0.coords t) 0 = 32 ∧ win0_5.xsize (grid0.coords t) 1 = 4 ∧ win0_5.index t 2 = t.val ∧ win0_5.index t 0 = 0 ∧ win0_5.index t 1 = 0 :=
  (by decide +kernel : ∀ t : Fin grid0.N, win0_5.xsize (grid0.coords t) 2 = min 384 (8732 - 384 * t.val) ∧ win0_5.xsize (grid0.coords t) 0 = 32 ∧ win0_5.xsize (grid0.coords t) 1 = 4 ∧ win0_5.index t 2 = t.val ∧ win0_5.index t 0 = 0 ∧ win0_5.index t 1 = 0)
theorem win_facts_6 : ∀ t : Fin cfg0.N, win0_6.xsize (grid0.coords t) 2 = min 384 (8732 - 384 * t.val) ∧ win0_6.xsize (grid0.coords t) 0 = 32 ∧ win0_6.xsize (grid0.coords t) 1 = 4 ∧ win0_6.index t 2 = t.val ∧ win0_6.index t 0 = 0 ∧ win0_6.index t 1 = 0 :=
  (by decide +kernel : ∀ t : Fin grid0.N, win0_6.xsize (grid0.coords t) 2 = min 384 (8732 - 384 * t.val) ∧ win0_6.xsize (grid0.coords t) 0 = 32 ∧ win0_6.xsize (grid0.coords t) 1 = 4 ∧ win0_6.index t 2 = t.val ∧ win0_6.index t 0 = 0 ∧ win0_6.index t 1 = 0)
theorem win_facts_7 : ∀ t : Fin cfg0.N, win0_7.xsize (grid0.coords t) 2 = min 384 (8732 - 384 * t.val) ∧ win0_7.xsize (grid0.coords t) 0 = 32 ∧ win0_7.xsize (grid0.coords t) 1 = 4 ∧ win0_7.index t 2 = t.val ∧ win0_7.index t 0 = 0 ∧ win0_7.index t 1 = 0 :=
  (by decide +kernel : ∀ t : Fin grid0.N, win0_7.xsize (grid0.coords t) 2 = min 384 (8732 - 384 * t.val) ∧ win0_7.xsize (grid0.coords t) 0 = 32 ∧ win0_7.xsize (grid0.coords t) 1 = 4 ∧ win0_7.index t 2 = t.val ∧ win0_7.index t 0 = 0 ∧ win0_7.index t 1 = 0)
theorem win_facts_8 : ∀ t : Fin cfg0.N, win0_8.xsize (grid0.coords t) 2 = min 384 (8732 - 384 * t.val) ∧ win0_8.xsize (grid0.coords t) 0 = 32 ∧ win0_8.xsize (grid0.coords t) 1 = 4 ∧ win0_8.index t 2 = t.val ∧ win0_8.index t 0 = 0 ∧ win0_8.index t 1 = 0 :=
  (by decide +kernel : ∀ t : Fin grid0.N, win0_8.xsize (grid0.coords t) 2 = min 384 (8732 - 384 * t.val) ∧ win0_8.xsize (grid0.coords t) 0 = 32 ∧ win0_8.xsize (grid0.coords t) 1 = 4 ∧ win0_8.index t 2 = t.val ∧ win0_8.index t 0 = 0 ∧ win0_8.index t 1 = 0)
theorem win_facts_9 : ∀ t : Fin cfg0.N, win0_9.xsize (grid0.coords t) 2 = min 384 (8732 - 384 * t.val) ∧ win0_9.xsize (grid0.coords t) 0 = 32 ∧ win0_9.xsize (grid0.coords t) 1 = 4 ∧ win0_9.index t 2 = t.val ∧ win0_9.index t 0 = 0 ∧ win0_9.index t 1 = 0 :=
  (by decide +kernel : ∀ t : Fin grid0.N, win0_9.xsize (grid0.coords t) 2 = min 384 (8732 - 384 * t.val) ∧ win0_9.xsize (grid0.coords t) 0 = 32 ∧ win0_9.xsize (grid0.coords t) 1 = 4 ∧ win0_9.index t 2 = t.val ∧ win0_9.index t 0 = 0 ∧ win0_9.index t 1 = 0)
theorem win_facts_10 : ∀ t : Fin cfg0.N, win0_10.xsize (grid0.coords t) 2 = min 384 (8732 - 384 * t.val) ∧ win0_10.xsize (grid0.coords t) 0 = 32 ∧ win0_10.xsize (grid0.coords t) 1 = 4 ∧ win0_10.index t 2 = t.val ∧ win0_10.index t 0 = 0 ∧ win0_10.index t 1 = 0 :=
  (by decide +kernel : ∀ t : Fin grid0.N, win0_10.xsize (grid0.coords t) 2 = min 384 (8732 - 384 * t.val) ∧ win0_10.xsize (grid0.coords t) 0 = 32 ∧ win0_10.xsize (grid0.coords t) 1 = 4 ∧ win0_10.index t 2 = t.val ∧ win0_10.index t 0 = 0 ∧ win0_10.index t 1 = 0)
theorem win_facts_11 : ∀ t : Fin cfg0.N, win0_11.xsize (grid0.coords t) 2 = min 384 (8732 - 384 * t.val) ∧ win0_11.xsize (grid0.coords t) 0 = 32 ∧ win0_11.xsize (grid0.coords t) 1 = 4 ∧ win0_11.index t 2 = t.val ∧ win0_11.index t 0 = 0 ∧ win0_11.index t 1 = 0 :=
  (by decide +kernel : ∀ t : Fin grid0.N, win0_11.xsize (grid0.coords t) 2 = min 384 (8732 - 384 * t.val) ∧ win0_11.xsize (grid0.coords t) 0 = 32 ∧ win0_11.xsize (grid0.coords t) 1 = 4 ∧ win0_11.index t 2 = t.val ∧ win0_11.index t 0 = 0 ∧ win0_11.index t 1 = 0)
theorem win_facts_12 : ∀ t : Fin cfg0.N, win0_12.xsize (grid0.coords t) 2 = min 384 (8732 - 384 * t.val) ∧ win0_12.xsize (grid0.coords t) 0 = 32 ∧ win0_12.xsize (grid0.coords t) 1 = 4 ∧ win0_12.index t 2 = t.val ∧ win0_12.index t 0 = 0 ∧ win0_12.index t 1 = 0 :=
  (by decide +kernel : ∀ t : Fin grid0.N, win0_12.xsize (grid0.coords t) 2 = min 384 (8732 - 384 * t.val) ∧ win0_12.xsize (grid0.coords t) 0 = 32 ∧ win0_12.xsize (grid0.coords t) 1 = 4 ∧ win0_12.index t 2 = t.val ∧ win0_12.index t 0 = 0 ∧ win0_12.index t 1 = 0)
theorem win_facts_13 : ∀ t : Fin cfg0.N, win0_13.xsize (grid0.coords t) 2 = min 384 (8732 - 384 * t.val) ∧ win0_13.xsize (grid0.coords t) 0 = 21 ∧ win0_13.xsize (grid0.coords t) 1 = 32 ∧ win0_13.index t 2 = t.val ∧ win0_13.index t 0 = 0 ∧ win0_13.index t 1 = 0 :=
  (by decide +kernel : ∀ t : Fin grid0.N, win0_13.xsize (grid0.coords t) 2 = min 384 (8732 - 384 * t.val) ∧ win0_13.xsize (grid0.coords t) 0 = 21 ∧ win0_13.xsize (grid0.coords t) 1 = 32 ∧ win0_13.index t 2 = t.val ∧ win0_13.index t 0 = 0 ∧ win0_13.index t 1 = 0)
theorem win_facts_14 : ∀ t : Fin cfg0.N, win0_14.xsize (grid0.coords t) 2 = min 384 (8732 - 384 * t.val) ∧ win0_14.xsize (grid0.coords t) 0 = 21 ∧ win0_14.xsize (grid0.coords t) 1 = 32 ∧ win0_14.index t 2 = t.val ∧ win0_14.index t 0 = 0 ∧ win0_14.index t 1 = 0 :=
  (by decide +kernel : ∀ t : Fin grid0.N, win0_14.xsize (grid0.coords t) 2 = min 384 (8732 - 384 * t.val) ∧ win0_14.xsize (grid0.coords t) 0 = 21 ∧ win0_14.xsize (grid0.coords t) 1 = 32 ∧ win0_14.index t 2 = t.val ∧ win0_14.index t 0 = 0 ∧ win0_14.index t 1 = 0)
theorem win_facts_15 : ∀ t : Fin cfg0.N, win0_15.xsize (grid0.coords t) 2 = min 384 (8732 - 384 * t.val) ∧ win0_15.xsize (grid0.coords t) 0 = 21 ∧ win0_15.xsize (grid0.coords t) 1 = 32 ∧ win0_15.index t 2 = t.val ∧ win0_15.index t 0 = 0 ∧ win0_15.index t 1 = 0 :=
  (by decide +kernel : ∀ t : Fin grid0.N, win0_15.xsize (grid0.coords t) 2 = min 384 (8732 - 384 * t.val) ∧ win0_15.xsize (grid0.coords t) 0 = 21 ∧ win0_15.xsize (grid0.coords t) 1 = 32 ∧ win0_15.index t 2 = t.val ∧ win0_15.index t 0 = 0 ∧ win0_15.index t 1 = 0)
theorem win_facts_16 : ∀ t : Fin cfg0.N, win0_16.xsize (grid0.coords t) 2 = min 384 (8732 - 384 * t.val) ∧ win0_16.xsize (grid0.coords t) 0 = 21 ∧ win0_16.xsize (grid0.coords t) 1 = 32 ∧ win0_16.index t 2 = t.val ∧ win0_16.index t 0 = 0 ∧ win0_16.index t 1 = 0 :=
  (by decide +kernel : ∀ t : Fin grid0.N, win0_16.xsize (grid0.coords t) 2 = min 384 (8732 - 384 * t.val) ∧ win0_16.xsize (grid0.coords t) 0 = 21 ∧ win0_16.xsize (grid0.coords t) 1 = 32 ∧ win0_16.index t 2 = t.val ∧ win0_16.index t 0 = 0 ∧ win0_16.index t 1 = 0)
theorem win_facts_17 : ∀ t : Fin cfg0.N, win0_17.xsize (grid0.coords t) 2 = min 384 (8732 - 384 * t.val) ∧ win0_17.xsize (grid0.coords t) 0 = 21 ∧ win0_17.xsize (grid0.coords t) 1 = 32 ∧ win0_17.index t 2 = t.val ∧ win0_17.index t 0 = 0 ∧ win0_17.index t 1 = 0 :=
  (by decide +kernel : ∀ t : Fin grid0.N, win0_17.xsize (grid0.coords t) 2 = min 384 (8732 - 384 * t.val) ∧ win0_17.xsize (grid0.coords t) 0 = 21 ∧ win0_17.xsize (grid0.coords t) 1 = 32 ∧ win0_17.index t 2 = t.val ∧ win0_17.index t 0 = 0 ∧ win0_17.index t 1 = 0)
theorem win_facts_18 : ∀ t : Fin cfg0.N, win0_18.xsize (grid0.coords t) 2 = min 384 (8732 - 384 * t.val) ∧ win0_18.xsize (grid0.coords t) 0 = 21 ∧ win0_18.xsize (grid0.coords t) 1 = 32 ∧ win0_18.index t 2 = t.val ∧ win0_18.index t 0 = 0 ∧ win0_18.index t 1 = 0 :=
  (by decide +kernel : ∀ t : Fin grid0.N, win0_18.xsize (grid0.coords t) 2 = min 384 (8732 - 384 * t.val) ∧ win0_18.xsize (grid0.coords t) 0 = 21 ∧ win0_18.xsize (grid0.coords t) 1 = 32 ∧ win0_18.index t 2 = t.val ∧ win0_18.index t 0 = 0 ∧ win0_18.index t 1 = 0)
theorem win_facts_19 : ∀ t : Fin cfg0.N, win0_19.xsize (grid0.coords t) 2 = min 384 (8732 - 384 * t.val) ∧ win0_19.xsize (grid0.coords t) 0 = 21 ∧ win0_19.xsize (grid0.coords t) 1 = 32 ∧ win0_19.index t 2 = t.val ∧ win0_19.index t 0 = 0 ∧ win0_19.index t 1 = 0 :=
  (by decide +kernel : ∀ t : Fin grid0.N, win0_19.xsize (grid0.coords t) 2 = min 384 (8732 - 384 * t.val) ∧ win0_19.xsize (grid0.coords t) 0 = 21 ∧ win0_19.xsize (grid0.coords t) 1 = 32 ∧ win0_19.index t 2 = t.val ∧ win0_19.index t 0 = 0 ∧ win0_19.index t 1 = 0)
theorem win_facts_20 : ∀ t : Fin cfg0.N, win0_20.xsize (grid0.coords t) 2 = min 384 (8732 - 384 * t.val) ∧ win0_20.xsize (grid0.coords t) 0 = 21 ∧ win0_20.xsize (grid0.coords t) 1 = 32 ∧ win0_20.index t 2 = t.val ∧ win0_20.index t 0 = 0 ∧ win0_20.index t 1 = 0 :=
  (by decide +kernel : ∀ t : Fin grid0.N, win0_20.xsize (grid0.coords t) 2 = min 384 (8732 - 384 * t.val) ∧ win0_20.xsize (grid0.coords t) 0 = 21 ∧ win0_20.xsize (grid0.coords t) 1 = 32 ∧ win0_20.index t 2 = t.val ∧ win0_20.index t 0 = 0 ∧ win0_20.index t 1 = 0)
theorem win_facts_21 : ∀ t : Fin cfg0.N, win0_21.xsize (grid0.coords t) 2 = min 384 (8732 - 384 * t.val) ∧ win0_21.xsize (grid0.coords t) 0 = 21 ∧ win0_21.xsize (grid0.coords t) 1 = 32 ∧ win0_21.index t 2 = t.val ∧ win0_21.index t 0 = 0 ∧ win0_21.index t 1 = 0 :=
  (by decide +kernel : ∀ t : Fin grid0.N, win0_21.xsize (grid0.coords t) 2 = min 384 (8732 - 384 * t.val) ∧ win0_21.xsize (grid0.coords t) 0 = 21 ∧ win0_21.xsize (grid0.coords t) 1 = 32 ∧ win0_21.index t 2 = t.val ∧ win0_21.index t 0 = 0 ∧ win0_21.index t 1 = 0)
theorem win_facts_22 : ∀ t : Fin cfg0.N, win0_22.xsize (grid0.coords t) 2 = min 384 (8732 - 384 * t.val) ∧ win0_22.xsize (grid0.coords t) 0 = 21 ∧ win0_22.xsize (grid0.coords t) 1 = 32 ∧ win0_22.index t 2 = t.val ∧ win0_22.index t 0 = 0 ∧ win0_22.index t 1 = 0 :=
  (by decide +kernel : ∀ t : Fin grid0.N, win0_22.xsize (grid0.coords t) 2 = min 384 (8732 - 384 * t.val) ∧ win0_22.xsize (grid0.coords t) 0 = 21 ∧ win0_22.xsize (grid0.coords t) 1 = 32 ∧ win0_22.index t 2 = t.val ∧ win0_22.index t 0 = 0 ∧ win0_22.index t 1 = 0)
theorem win_facts_23 : ∀ t : Fin cfg0.N, win0_23.xsize (grid0.coords t) 2 = min 384 (8732 - 384 * t.val) ∧ win0_23.xsize (grid0.coords t) 0 = 21 ∧ win0_23.xsize (grid0.coords t) 1 = 32 ∧ win0_23.index t 2 = t.val ∧ win0_23.index t 0 = 0 ∧ win0_23.index t 1 = 0 :=
  (by decide +kernel : ∀ t : Fin grid0.N, win0_23.xsize (grid0.coords t) 2 = min 384 (8732 - 384 * t.val) ∧ win0_23.xsize (grid0.coords t) 0 = 21 ∧ win0_23.xsize (grid0.coords t) 1 = 32 ∧ win0_23.index t 2 = t.val ∧ win0_23.index t 0 = 0 ∧ win0_23.index t 1 = 0)
theorem win_facts_24 : ∀ t : Fin cfg0.N, win0_24.xsize (grid0.coords t) 2 = min 384 (8732 - 384 * t.val) ∧ win0_24.xsize (grid0.coords t) 0 = 21 ∧ win0_24.xsize (grid0.coords t) 1 = 32 ∧ win0_24.index t 2 = t.val ∧ win0_24.index t 0 = 0 ∧ win0_24.index t 1 = 0 :=
  (by decide +kernel : ∀ t : Fin grid0.N, win0_24.xsize (grid0.coords t) 2 = min 384 (8732 - 384 * t.val) ∧ win0_24.xsize (grid0.coords t) 0 = 21 ∧ win0_24.xsize (grid0.coords t) 1 = 32 ∧ win0_24.index t 2 = t.val ∧ win0_24.index t 0 = 0 ∧ win0_24.index t 1 = 0)
theorem win_facts_25 : ∀ t : Fin cfg0.N, win0_25.xsize (grid0.coords t) 2 = min 384 (8732 - 384 * t.val) ∧ win0_25.xsize (grid0.coords t) 0 = 75 ∧ win0_25.xsize (grid0.coords t) 1 = 32 ∧ win0_25.index t 2 = t.val ∧ win0_25.index t 0 = 0 ∧ win0_25.index t 1 = 0 :=
  (by decide +kernel : ∀ t : Fin grid0.N, win0_25.xsize (grid0.coords t) 2 = min 384 (8732 - 384 * t.val) ∧ win0_25.xsize (grid0.coords t) 0 = 75 ∧ win0_25.xsize (grid0.coords t) 1 = 32 ∧ win0_25.index t 2 = t.val ∧ win0_25.index t 0 = 0 ∧ win0_25.index t 1 = 0)

export Cert.LibFill (fill_eq_of_moved fill_of_moved)

/-! A lane inside the array lies in the part of each block the transfer moves. -/

theorem moved_0 (t : Fin cfg0.N) (a : Fin 4) (l : Fin 384) (hl : l.val < min 384 (8732 - 384 * t.val)) :
    (cfg0.win 0).moved (cfg0.grid.coords t) (ix2 a l) = true := by
  obtain ⟨h1, h0, -, -⟩ := win_facts_0 t
  refine ((cfg0.win 0).moved_iff _ _).mpr fun ax => ?_
  match ax with
  | ⟨0, _⟩ => show a.val < win0_0.xsize (grid0.coords t) 0; rw [h0]; exact a.isLt
  | ⟨1, _⟩ => show l.val < win0_0.xsize (grid0.coords t) 1; rw [h1]; exact hl
theorem moved_1 (t : Fin cfg0.N) (a : Fin 32) (b : Fin 4) (l : Fin 384) (hl : l.val < min 384 (8732 - 384 * t.val)) :
    (cfg0.win 1).moved (cfg0.grid.coords t) (ix3 a b l) = true := by
  obtain ⟨h2, h0, h1, -, -, -⟩ := win_facts_1 t
  refine ((cfg0.win 1).moved_iff _ _).mpr fun ax => ?_
  match ax with
  | ⟨0, _⟩ => show a.val < win0_1.xsize (grid0.coords t) 0; rw [h0]; exact a.isLt
  | ⟨1, _⟩ => show b.val < win0_1.xsize (grid0.coords t) 1; rw [h1]; exact b.isLt
  | ⟨2, _⟩ => show l.val < win0_1.xsize (grid0.coords t) 2; rw [h2]; exact hl
theorem moved_2 (t : Fin cfg0.N) (a : Fin 32) (b : Fin 4) (l : Fin 384) (hl : l.val < min 384 (8732 - 384 * t.val)) :
    (cfg0.win 2).moved (cfg0.grid.coords t) (ix3 a b l) = true := by
  obtain ⟨h2, h0, h1, -, -, -⟩ := win_facts_2 t
  refine ((cfg0.win 2).moved_iff _ _).mpr fun ax => ?_
  match ax with
  | ⟨0, _⟩ => show a.val < win0_2.xsize (grid0.coords t) 0; rw [h0]; exact a.isLt
  | ⟨1, _⟩ => show b.val < win0_2.xsize (grid0.coords t) 1; rw [h1]; exact b.isLt
  | ⟨2, _⟩ => show l.val < win0_2.xsize (grid0.coords t) 2; rw [h2]; exact hl
theorem moved_3 (t : Fin cfg0.N) (a : Fin 32) (b : Fin 4) (l : Fin 384) (hl : l.val < min 384 (8732 - 384 * t.val)) :
    (cfg0.win 3).moved (cfg0.grid.coords t) (ix3 a b l) = true := by
  obtain ⟨h2, h0, h1, -, -, -⟩ := win_facts_3 t
  refine ((cfg0.win 3).moved_iff _ _).mpr fun ax => ?_
  match ax with
  | ⟨0, _⟩ => show a.val < win0_3.xsize (grid0.coords t) 0; rw [h0]; exact a.isLt
  | ⟨1, _⟩ => show b.val < win0_3.xsize (grid0.coords t) 1; rw [h1]; exact b.isLt
  | ⟨2, _⟩ => show l.val < win0_3.xsize (grid0.coords t) 2; rw [h2]; exact hl
theorem moved_4 (t : Fin cfg0.N) (a : Fin 32) (b : Fin 4) (l : Fin 384) (hl : l.val < min 384 (8732 - 384 * t.val)) :
    (cfg0.win 4).moved (cfg0.grid.coords t) (ix3 a b l) = true := by
  obtain ⟨h2, h0, h1, -, -, -⟩ := win_facts_4 t
  refine ((cfg0.win 4).moved_iff _ _).mpr fun ax => ?_
  match ax with
  | ⟨0, _⟩ => show a.val < win0_4.xsize (grid0.coords t) 0; rw [h0]; exact a.isLt
  | ⟨1, _⟩ => show b.val < win0_4.xsize (grid0.coords t) 1; rw [h1]; exact b.isLt
  | ⟨2, _⟩ => show l.val < win0_4.xsize (grid0.coords t) 2; rw [h2]; exact hl
theorem moved_5 (t : Fin cfg0.N) (a : Fin 32) (b : Fin 4) (l : Fin 384) (hl : l.val < min 384 (8732 - 384 * t.val)) :
    (cfg0.win 5).moved (cfg0.grid.coords t) (ix3 a b l) = true := by
  obtain ⟨h2, h0, h1, -, -, -⟩ := win_facts_5 t
  refine ((cfg0.win 5).moved_iff _ _).mpr fun ax => ?_
  match ax with
  | ⟨0, _⟩ => show a.val < win0_5.xsize (grid0.coords t) 0; rw [h0]; exact a.isLt
  | ⟨1, _⟩ => show b.val < win0_5.xsize (grid0.coords t) 1; rw [h1]; exact b.isLt
  | ⟨2, _⟩ => show l.val < win0_5.xsize (grid0.coords t) 2; rw [h2]; exact hl
theorem moved_6 (t : Fin cfg0.N) (a : Fin 32) (b : Fin 4) (l : Fin 384) (hl : l.val < min 384 (8732 - 384 * t.val)) :
    (cfg0.win 6).moved (cfg0.grid.coords t) (ix3 a b l) = true := by
  obtain ⟨h2, h0, h1, -, -, -⟩ := win_facts_6 t
  refine ((cfg0.win 6).moved_iff _ _).mpr fun ax => ?_
  match ax with
  | ⟨0, _⟩ => show a.val < win0_6.xsize (grid0.coords t) 0; rw [h0]; exact a.isLt
  | ⟨1, _⟩ => show b.val < win0_6.xsize (grid0.coords t) 1; rw [h1]; exact b.isLt
  | ⟨2, _⟩ => show l.val < win0_6.xsize (grid0.coords t) 2; rw [h2]; exact hl
theorem moved_7 (t : Fin cfg0.N) (a : Fin 32) (b : Fin 4) (l : Fin 384) (hl : l.val < min 384 (8732 - 384 * t.val)) :
    (cfg0.win 7).moved (cfg0.grid.coords t) (ix3 a b l) = true := by
  obtain ⟨h2, h0, h1, -, -, -⟩ := win_facts_7 t
  refine ((cfg0.win 7).moved_iff _ _).mpr fun ax => ?_
  match ax with
  | ⟨0, _⟩ => show a.val < win0_7.xsize (grid0.coords t) 0; rw [h0]; exact a.isLt
  | ⟨1, _⟩ => show b.val < win0_7.xsize (grid0.coords t) 1; rw [h1]; exact b.isLt
  | ⟨2, _⟩ => show l.val < win0_7.xsize (grid0.coords t) 2; rw [h2]; exact hl
theorem moved_8 (t : Fin cfg0.N) (a : Fin 32) (b : Fin 4) (l : Fin 384) (hl : l.val < min 384 (8732 - 384 * t.val)) :
    (cfg0.win 8).moved (cfg0.grid.coords t) (ix3 a b l) = true := by
  obtain ⟨h2, h0, h1, -, -, -⟩ := win_facts_8 t
  refine ((cfg0.win 8).moved_iff _ _).mpr fun ax => ?_
  match ax with
  | ⟨0, _⟩ => show a.val < win0_8.xsize (grid0.coords t) 0; rw [h0]; exact a.isLt
  | ⟨1, _⟩ => show b.val < win0_8.xsize (grid0.coords t) 1; rw [h1]; exact b.isLt
  | ⟨2, _⟩ => show l.val < win0_8.xsize (grid0.coords t) 2; rw [h2]; exact hl
theorem moved_9 (t : Fin cfg0.N) (a : Fin 32) (b : Fin 4) (l : Fin 384) (hl : l.val < min 384 (8732 - 384 * t.val)) :
    (cfg0.win 9).moved (cfg0.grid.coords t) (ix3 a b l) = true := by
  obtain ⟨h2, h0, h1, -, -, -⟩ := win_facts_9 t
  refine ((cfg0.win 9).moved_iff _ _).mpr fun ax => ?_
  match ax with
  | ⟨0, _⟩ => show a.val < win0_9.xsize (grid0.coords t) 0; rw [h0]; exact a.isLt
  | ⟨1, _⟩ => show b.val < win0_9.xsize (grid0.coords t) 1; rw [h1]; exact b.isLt
  | ⟨2, _⟩ => show l.val < win0_9.xsize (grid0.coords t) 2; rw [h2]; exact hl
theorem moved_10 (t : Fin cfg0.N) (a : Fin 32) (b : Fin 4) (l : Fin 384) (hl : l.val < min 384 (8732 - 384 * t.val)) :
    (cfg0.win 10).moved (cfg0.grid.coords t) (ix3 a b l) = true := by
  obtain ⟨h2, h0, h1, -, -, -⟩ := win_facts_10 t
  refine ((cfg0.win 10).moved_iff _ _).mpr fun ax => ?_
  match ax with
  | ⟨0, _⟩ => show a.val < win0_10.xsize (grid0.coords t) 0; rw [h0]; exact a.isLt
  | ⟨1, _⟩ => show b.val < win0_10.xsize (grid0.coords t) 1; rw [h1]; exact b.isLt
  | ⟨2, _⟩ => show l.val < win0_10.xsize (grid0.coords t) 2; rw [h2]; exact hl
theorem moved_11 (t : Fin cfg0.N) (a : Fin 32) (b : Fin 4) (l : Fin 384) (hl : l.val < min 384 (8732 - 384 * t.val)) :
    (cfg0.win 11).moved (cfg0.grid.coords t) (ix3 a b l) = true := by
  obtain ⟨h2, h0, h1, -, -, -⟩ := win_facts_11 t
  refine ((cfg0.win 11).moved_iff _ _).mpr fun ax => ?_
  match ax with
  | ⟨0, _⟩ => show a.val < win0_11.xsize (grid0.coords t) 0; rw [h0]; exact a.isLt
  | ⟨1, _⟩ => show b.val < win0_11.xsize (grid0.coords t) 1; rw [h1]; exact b.isLt
  | ⟨2, _⟩ => show l.val < win0_11.xsize (grid0.coords t) 2; rw [h2]; exact hl
theorem moved_12 (t : Fin cfg0.N) (a : Fin 32) (b : Fin 4) (l : Fin 384) (hl : l.val < min 384 (8732 - 384 * t.val)) :
    (cfg0.win 12).moved (cfg0.grid.coords t) (ix3 a b l) = true := by
  obtain ⟨h2, h0, h1, -, -, -⟩ := win_facts_12 t
  refine ((cfg0.win 12).moved_iff _ _).mpr fun ax => ?_
  match ax with
  | ⟨0, _⟩ => show a.val < win0_12.xsize (grid0.coords t) 0; rw [h0]; exact a.isLt
  | ⟨1, _⟩ => show b.val < win0_12.xsize (grid0.coords t) 1; rw [h1]; exact b.isLt
  | ⟨2, _⟩ => show l.val < win0_12.xsize (grid0.coords t) 2; rw [h2]; exact hl
theorem moved_13 (t : Fin cfg0.N) (a : Fin 21) (b : Fin 32) (l : Fin 384) (hl : l.val < min 384 (8732 - 384 * t.val)) :
    (cfg0.win 13).moved (cfg0.grid.coords t) (ix3 a b l) = true := by
  obtain ⟨h2, h0, h1, -, -, -⟩ := win_facts_13 t
  refine ((cfg0.win 13).moved_iff _ _).mpr fun ax => ?_
  match ax with
  | ⟨0, _⟩ => show a.val < win0_13.xsize (grid0.coords t) 0; rw [h0]; exact a.isLt
  | ⟨1, _⟩ => show b.val < win0_13.xsize (grid0.coords t) 1; rw [h1]; exact b.isLt
  | ⟨2, _⟩ => show l.val < win0_13.xsize (grid0.coords t) 2; rw [h2]; exact hl
theorem moved_14 (t : Fin cfg0.N) (a : Fin 21) (b : Fin 32) (l : Fin 384) (hl : l.val < min 384 (8732 - 384 * t.val)) :
    (cfg0.win 14).moved (cfg0.grid.coords t) (ix3 a b l) = true := by
  obtain ⟨h2, h0, h1, -, -, -⟩ := win_facts_14 t
  refine ((cfg0.win 14).moved_iff _ _).mpr fun ax => ?_
  match ax with
  | ⟨0, _⟩ => show a.val < win0_14.xsize (grid0.coords t) 0; rw [h0]; exact a.isLt
  | ⟨1, _⟩ => show b.val < win0_14.xsize (grid0.coords t) 1; rw [h1]; exact b.isLt
  | ⟨2, _⟩ => show l.val < win0_14.xsize (grid0.coords t) 2; rw [h2]; exact hl
theorem moved_15 (t : Fin cfg0.N) (a : Fin 21) (b : Fin 32) (l : Fin 384) (hl : l.val < min 384 (8732 - 384 * t.val)) :
    (cfg0.win 15).moved (cfg0.grid.coords t) (ix3 a b l) = true := by
  obtain ⟨h2, h0, h1, -, -, -⟩ := win_facts_15 t
  refine ((cfg0.win 15).moved_iff _ _).mpr fun ax => ?_
  match ax with
  | ⟨0, _⟩ => show a.val < win0_15.xsize (grid0.coords t) 0; rw [h0]; exact a.isLt
  | ⟨1, _⟩ => show b.val < win0_15.xsize (grid0.coords t) 1; rw [h1]; exact b.isLt
  | ⟨2, _⟩ => show l.val < win0_15.xsize (grid0.coords t) 2; rw [h2]; exact hl
theorem moved_16 (t : Fin cfg0.N) (a : Fin 21) (b : Fin 32) (l : Fin 384) (hl : l.val < min 384 (8732 - 384 * t.val)) :
    (cfg0.win 16).moved (cfg0.grid.coords t) (ix3 a b l) = true := by
  obtain ⟨h2, h0, h1, -, -, -⟩ := win_facts_16 t
  refine ((cfg0.win 16).moved_iff _ _).mpr fun ax => ?_
  match ax with
  | ⟨0, _⟩ => show a.val < win0_16.xsize (grid0.coords t) 0; rw [h0]; exact a.isLt
  | ⟨1, _⟩ => show b.val < win0_16.xsize (grid0.coords t) 1; rw [h1]; exact b.isLt
  | ⟨2, _⟩ => show l.val < win0_16.xsize (grid0.coords t) 2; rw [h2]; exact hl
theorem moved_17 (t : Fin cfg0.N) (a : Fin 21) (b : Fin 32) (l : Fin 384) (hl : l.val < min 384 (8732 - 384 * t.val)) :
    (cfg0.win 17).moved (cfg0.grid.coords t) (ix3 a b l) = true := by
  obtain ⟨h2, h0, h1, -, -, -⟩ := win_facts_17 t
  refine ((cfg0.win 17).moved_iff _ _).mpr fun ax => ?_
  match ax with
  | ⟨0, _⟩ => show a.val < win0_17.xsize (grid0.coords t) 0; rw [h0]; exact a.isLt
  | ⟨1, _⟩ => show b.val < win0_17.xsize (grid0.coords t) 1; rw [h1]; exact b.isLt
  | ⟨2, _⟩ => show l.val < win0_17.xsize (grid0.coords t) 2; rw [h2]; exact hl
theorem moved_18 (t : Fin cfg0.N) (a : Fin 21) (b : Fin 32) (l : Fin 384) (hl : l.val < min 384 (8732 - 384 * t.val)) :
    (cfg0.win 18).moved (cfg0.grid.coords t) (ix3 a b l) = true := by
  obtain ⟨h2, h0, h1, -, -, -⟩ := win_facts_18 t
  refine ((cfg0.win 18).moved_iff _ _).mpr fun ax => ?_
  match ax with
  | ⟨0, _⟩ => show a.val < win0_18.xsize (grid0.coords t) 0; rw [h0]; exact a.isLt
  | ⟨1, _⟩ => show b.val < win0_18.xsize (grid0.coords t) 1; rw [h1]; exact b.isLt
  | ⟨2, _⟩ => show l.val < win0_18.xsize (grid0.coords t) 2; rw [h2]; exact hl
theorem moved_19 (t : Fin cfg0.N) (a : Fin 21) (b : Fin 32) (l : Fin 384) (hl : l.val < min 384 (8732 - 384 * t.val)) :
    (cfg0.win 19).moved (cfg0.grid.coords t) (ix3 a b l) = true := by
  obtain ⟨h2, h0, h1, -, -, -⟩ := win_facts_19 t
  refine ((cfg0.win 19).moved_iff _ _).mpr fun ax => ?_
  match ax with
  | ⟨0, _⟩ => show a.val < win0_19.xsize (grid0.coords t) 0; rw [h0]; exact a.isLt
  | ⟨1, _⟩ => show b.val < win0_19.xsize (grid0.coords t) 1; rw [h1]; exact b.isLt
  | ⟨2, _⟩ => show l.val < win0_19.xsize (grid0.coords t) 2; rw [h2]; exact hl
theorem moved_20 (t : Fin cfg0.N) (a : Fin 21) (b : Fin 32) (l : Fin 384) (hl : l.val < min 384 (8732 - 384 * t.val)) :
    (cfg0.win 20).moved (cfg0.grid.coords t) (ix3 a b l) = true := by
  obtain ⟨h2, h0, h1, -, -, -⟩ := win_facts_20 t
  refine ((cfg0.win 20).moved_iff _ _).mpr fun ax => ?_
  match ax with
  | ⟨0, _⟩ => show a.val < win0_20.xsize (grid0.coords t) 0; rw [h0]; exact a.isLt
  | ⟨1, _⟩ => show b.val < win0_20.xsize (grid0.coords t) 1; rw [h1]; exact b.isLt
  | ⟨2, _⟩ => show l.val < win0_20.xsize (grid0.coords t) 2; rw [h2]; exact hl
theorem moved_21 (t : Fin cfg0.N) (a : Fin 21) (b : Fin 32) (l : Fin 384) (hl : l.val < min 384 (8732 - 384 * t.val)) :
    (cfg0.win 21).moved (cfg0.grid.coords t) (ix3 a b l) = true := by
  obtain ⟨h2, h0, h1, -, -, -⟩ := win_facts_21 t
  refine ((cfg0.win 21).moved_iff _ _).mpr fun ax => ?_
  match ax with
  | ⟨0, _⟩ => show a.val < win0_21.xsize (grid0.coords t) 0; rw [h0]; exact a.isLt
  | ⟨1, _⟩ => show b.val < win0_21.xsize (grid0.coords t) 1; rw [h1]; exact b.isLt
  | ⟨2, _⟩ => show l.val < win0_21.xsize (grid0.coords t) 2; rw [h2]; exact hl
theorem moved_22 (t : Fin cfg0.N) (a : Fin 21) (b : Fin 32) (l : Fin 384) (hl : l.val < min 384 (8732 - 384 * t.val)) :
    (cfg0.win 22).moved (cfg0.grid.coords t) (ix3 a b l) = true := by
  obtain ⟨h2, h0, h1, -, -, -⟩ := win_facts_22 t
  refine ((cfg0.win 22).moved_iff _ _).mpr fun ax => ?_
  match ax with
  | ⟨0, _⟩ => show a.val < win0_22.xsize (grid0.coords t) 0; rw [h0]; exact a.isLt
  | ⟨1, _⟩ => show b.val < win0_22.xsize (grid0.coords t) 1; rw [h1]; exact b.isLt
  | ⟨2, _⟩ => show l.val < win0_22.xsize (grid0.coords t) 2; rw [h2]; exact hl
theorem moved_23 (t : Fin cfg0.N) (a : Fin 21) (b : Fin 32) (l : Fin 384) (hl : l.val < min 384 (8732 - 384 * t.val)) :
    (cfg0.win 23).moved (cfg0.grid.coords t) (ix3 a b l) = true := by
  obtain ⟨h2, h0, h1, -, -, -⟩ := win_facts_23 t
  refine ((cfg0.win 23).moved_iff _ _).mpr fun ax => ?_
  match ax with
  | ⟨0, _⟩ => show a.val < win0_23.xsize (grid0.coords t) 0; rw [h0]; exact a.isLt
  | ⟨1, _⟩ => show b.val < win0_23.xsize (grid0.coords t) 1; rw [h1]; exact b.isLt
  | ⟨2, _⟩ => show l.val < win0_23.xsize (grid0.coords t) 2; rw [h2]; exact hl
theorem moved_24 (t : Fin cfg0.N) (a : Fin 21) (b : Fin 32) (l : Fin 384) (hl : l.val < min 384 (8732 - 384 * t.val)) :
    (cfg0.win 24).moved (cfg0.grid.coords t) (ix3 a b l) = true := by
  obtain ⟨h2, h0, h1, -, -, -⟩ := win_facts_24 t
  refine ((cfg0.win 24).moved_iff _ _).mpr fun ax => ?_
  match ax with
  | ⟨0, _⟩ => show a.val < win0_24.xsize (grid0.coords t) 0; rw [h0]; exact a.isLt
  | ⟨1, _⟩ => show b.val < win0_24.xsize (grid0.coords t) 1; rw [h1]; exact b.isLt
  | ⟨2, _⟩ => show l.val < win0_24.xsize (grid0.coords t) 2; rw [h2]; exact hl
theorem moved_25 (t : Fin cfg0.N) (a : Fin 75) (b : Fin 32) (l : Fin 384) (hl : l.val < min 384 (8732 - 384 * t.val)) :
    (cfg0.win 25).moved (cfg0.grid.coords t) (ix3 a b l) = true := by
  obtain ⟨h2, h0, h1, -, -, -⟩ := win_facts_25 t
  refine ((cfg0.win 25).moved_iff _ _).mpr fun ax => ?_
  match ax with
  | ⟨0, _⟩ => show a.val < win0_25.xsize (grid0.coords t) 0; rw [h0]; exact a.isLt
  | ⟨1, _⟩ => show b.val < win0_25.xsize (grid0.coords t) 1; rw [h1]; exact b.isLt
  | ⟨2, _⟩ => show l.val < win0_25.xsize (grid0.coords t) 2; rw [h2]; exact hl

end Cert.Kernel.Body

end
-- ==== Proof.Fibre.lean ====
/-
  One output entry as a function of the 25 input values at one (image, prior), for any float arithmetic.

  Four heads with weights `w₁ … w₄` and values `x₁ … x₄` fuse to `((w₁·x₁ + w₂·x₂) + w₃·x₃) + w₄·x₄`: the fused mean when the
  `xₖ` are the heads' means, the aleatoric term when they are the heads' variances. The epistemic term is the same sum over
  the squared deviations `(xₖ − μ)·(xₖ − μ)` from the fused mean `μ`. A prior box `(cx, cy, w, h)` and a fused offset
  `(n₀, n₁, n₂, n₃)` decode, for an axis `c ∈ {0, 1}`, to the extent `e = pr[c+2] · exp(n[c+2] · v₁)`, the low corner
  `(pr[c] + (n[c] · v₀) · pr[c+2]) − ½ · e` and the high corner `low + e`, with `v₀`, `v₁`, `½` the binary32 words of 0.1, 0.2
  and 0.5. Every sum and product is written in exactly this order and association, so the definition means the same
  computation whether the arithmetic is exact or rounds.

  The 75 channels: 0, 1 the low corners, 2, 3 the high corners, 4–7 the aleatoric and 8–11 the epistemic localisation terms,
  12–32 the fused class means, 33–53 the aleatoric and 54–74 the epistemic class terms.
-/
import Idealize.ShloMosaic.PureOps.Float

namespace Cert.Gmm

open Idealize.ShloMosaic

section
variable {F : FTy → Type} [FloatOps F]

/-- Four weighted values summed left to right: `((w₁·x₁ + w₂·x₂) + w₃·x₃) + w₄·x₄`. -/
def mean4F (w1 x1 w2 x2 w3 x3 w4 x4 : F .f32) : F .f32 :=
  FloatOps.addf (FloatOps.addf (FloatOps.addf (FloatOps.mulf w1 x1) (FloatOps.mulf w2 x2)) (FloatOps.mulf w3 x3)) (FloatOps.mulf w4 x4)

/-- One head's weighted squared deviation from `μ`: `w · ((x − μ) · (x − μ))`. -/
def sqDevF (w x μ : F .f32) : F .f32 := FloatOps.mulf w (FloatOps.mulf (FloatOps.subf x μ) (FloatOps.subf x μ))

/-- The four heads' weighted squared deviations from their fused mean, summed left to right. -/
def dev4F (w1 x1 w2 x2 w3 x3 w4 x4 : F .f32) : F .f32 :=
  FloatOps.addf (FloatOps.addf (FloatOps.addf
    (sqDevF w1 x1 (mean4F w1 x1 w2 x2 w3 x3 w4 x4)) (sqDevF w2 x2 (mean4F w1 x1 w2 x2 w3 x3 w4 x4)))
    (sqDevF w3 x3 (mean4F w1 x1 w2 x2 w3 x3 w4 x4))) (sqDevF w4 x4 (mean4F w1 x1 w2 x2 w3 x3 w4 x4))

/-- The offset scale of the centre (binary32 word of 0.1). -/
def v0F : F .f32 := Scalar.ofBits .f32 0x3DCCCCCD#32
/-- The offset scale of the extent (binary32 word of 0.2). -/
def v1F : F .f32 := Scalar.ofBits .f32 0x3E4CCCCD#32
/-- One half (binary32 word of 0.5). -/
def halfF : F .f32 := Scalar.ofBits .f32 0x3F000000#32

/-- The decoded extent along one axis: `pw · exp(nw · v₁)`. -/
def extentF (pw nw : F .f32) : F .f32 := FloatOps.mulf pw (FloatOps.exp (FloatOps.mulf nw v1F))
/-- The decoded low corner along one axis: `(pc + (nc · v₀) · pw) − ½ · extent`. -/
def lowCornerF (pc nc pw nw : F .f32) : F .f32 :=
  FloatOps.subf (FloatOps.addf pc (FloatOps.mulf (FloatOps.mulf nc v0F) pw)) (FloatOps.mulf halfF (extentF pw nw))
/-- The decoded high corner along one axis: the low corner plus the extent. -/
def highCornerF (pc nc pw nw : F .f32) : F .f32 := FloatOps.addf (lowCornerF pc nc pw nw) (extentF pw nw)

/-- The low corner along axis `c ∈ {0, 1}` from the prior's and the fused offset's four components. -/
def boxLowF (pr n : Fin 4 → F .f32) (c : Fin 2) : F .f32 :=
  lowCornerF (pr ⟨c.val, by omega⟩) (n ⟨c.val, by omega⟩) (pr ⟨c.val + 2, by omega⟩) (n ⟨c.val + 2, by omega⟩)
/-- The high corner along axis `c ∈ {0, 1}`. -/
def boxHighF (pr n : Fin 4 → F .f32) (c : Fin 2) : F .f32 :=
  highCornerF (pr ⟨c.val, by omega⟩) (n ⟨c.val, by omega⟩) (pr ⟨c.val + 2, by omega⟩) (n ⟨c.val + 2, by omega⟩)

/-- Channel `ch` of the 75 output channels at one (image, prior), from the values there of the prior's four components,
    of each localisation head's means, variances and weights (four components each) and of each class head's means,
    variances and weights (21 classes each). -/
def entryOfF (pr : Fin 4 → F .f32) (m1 s1 w1 m2 s2 w2 m3 s3 w3 m4 s4 w4 : Fin 4 → F .f32)
    (a1 t1 q1 a2 t2 q2 a3 t3 q3 a4 t4 q4 : Fin 21 → F .f32) (ch : Fin 75) : F .f32 :=
  if h0 : ch.val < 2 then
    boxLowF pr (fun c => mean4F (w1 c) (m1 c) (w2 c) (m2 c) (w3 c) (m3 c) (w4 c) (m4 c)) ⟨ch.val, h0⟩
  else if h1 : ch.val < 4 then
    boxHighF pr (fun c => mean4F (w1 c) (m1 c) (w2 c) (m2 c) (w3 c) (m3 c) (w4 c) (m4 c)) ⟨ch.val - 2, by omega⟩
  else if h2 : ch.val < 8 then
    (fun c : Fin 4 => mean4F (w1 c) (s1 c) (w2 c) (s2 c) (w3 c) (s3 c) (w4 c) (s4 c)) ⟨ch.val - 4, by omega⟩
  else if h3 : ch.val < 12 then
    (fun c : Fin 4 => dev4F (w1 c) (m1 c) (w2 c) (m2 c) (w3 c) (m3 c) (w4 c) (m4 c)) ⟨ch.val - 8, by omega⟩
  else if h4 : ch.val < 33 then
    (fun k : Fin 21 => mean4F (q1 k) (a1 k) (q2 k) (a2 k) (q3 k) (a3 k) (q4 k) (a4 k)) ⟨ch.val - 12, by omega⟩
  else if h5 : ch.val < 54 then
    (fun k : Fin 21 => mean4F (q1 k) (t1 k) (q2 k) (t2 k) (q3 k) (t3 k) (q4 k) (t4 k)) ⟨ch.val - 33, by omega⟩
  else
    (fun k : Fin 21 => dev4F (q1 k) (a1 k) (q2 k) (a2 k) (q3 k) (a3 k) (q4 k) (a4 k)) ⟨ch.val - 54, by have := ch.isLt; omega⟩

end

end Cert.Gmm
-- ==== Proof.KEntries.lean ====
/-
  The output block of the kernel body, entry by entry, for any float arithmetic.

  The body never mixes the lane axis (the last one, 384 wide) nor the image axis: every operation acts pointwise or re-lays
  the four-component axis. So what it leaves at row `r`, image `b`, lane `l` of the 75 × 32 × 384 output block depends only on
  the 25 input blocks' values at that image and lane — the priors' four components at lane `l`, each localisation head's
  four components at `(b, ·, l)`, each class head's 21 classes at `(·, b, l)` — and is channel `r` of `Cert.Gmm.entryOfF` of
  those values (`outBlock_apply`).

  The steps. (1) The re-layings read at an index: the roll by two along the component axis, written as components 2, 3
  followed by components 0, 1, reads component `c + 2 mod 4`; one component taken out as a 1 × 32 × 384 row; a 4 × 384 block
  repeated over the 32 images; the select on "component below two". (2) The fused means and the aleatoric and epistemic
  terms are pointwise, hence `mean4F` / `dev4F` of the operands at the same index. (3) The decoded extent, centre and
  corners at a component: the roll pairs component `c` with `c + 2`, so components 0, 1 hold the low corners and, after
  the roll back, components 2, 3 the high corners. (4) The fifteen stores — twelve single rows and three bands of 21
  rows — each hold a block of rows of ONE function of the output index, and they cover the block, so they leave that
  function.
-/
import proofs.«111137_g86517821215618_cont_9to1_m_1401_12_alg».proof.Proof.KBlock
import proofs.«111137_g86517821215618_cont_9to1_m_1401_12_alg».proof.Proof.Fibre
import Idealize.ShloMosaic.Lib.ValueIdx
import Idealize.ShloMosaic.Lib.ValueLayout
import Idealize.ShloMosaic.Lib.Pipeline.Value

set_option maxRecDepth 16384

noncomputable section

namespace Cert.Kernel.Body

open Cert.Kernel Cert.Kernel.Gen Cert.Gmm
open Idealize.ShloMosaic Idealize.ShloMosaic.ValueIdx

/-! ## Re-layings of the component axis, read at an index -/

section Layout
variable {α : Type}

/-- The component two places on, cyclically: what the roll by two along the component axis reads. -/
def rot2 (c : Fin 4) : Fin 4 := ⟨(c.val + 2) % 4, Nat.mod_lt _ (by decide)⟩

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, b, c]` array broadcast along a new leading axis reads, at `(p, i, j)`, the operand at `(0, i, j)`. -/
theorem broadcastTo_1bc_abc_apply {a b c : ℕ} (hb : b ≠ 1) (hc : c ≠ 1) (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    rw [if_neg hb]
  | ⟨2, _⟩ =>
    show j.val = if c = 1 then 0 else j.val
    rw [if_neg hc]

/-- The roll by two along the component axis of a 32 × 4 × 384 array, written as the components 2, 3 followed by the
    components 0, 1: at `(b, c, l)` it reads the array at `(b, c + 2 mod 4, l)`. -/
theorem roll_loc_apply (v : S32x4x384.Idx → α) (h2 : S32x4x384.Slices ![0, 2, 0] S32x2x384)
    (h0 : S32x4x384.Slices ![0, 0, 0] S32x2x384) (hc : Shape.Concatenates [S32x2x384, S32x2x384] S32x4x384 1)
    (b : Fin 32) (c : Fin 4) (l : Fin 384) :
    concatenate S32x4x384 1 [⟨S32x2x384, extractStridedSlice S32x2x384 ![0, 2, 0] v h2⟩,
        ⟨S32x2x384, extractStridedSlice S32x2x384 ![0, 0, 0] v h0⟩] hc (ix3 b c l) = v (ix3 b (rot2 c) l) := by
  have hc4 := c.isLt
  by_cases hlt : c.val < 2
  · refine (concatenate_pair_apply_left (t := S32x4x384) (s₁ := S32x2x384) (s₂ := S32x2x384) 1 _ _ hc (ix3 b c l) rfl
      (ix3 b (⟨c.val, hlt⟩ : Fin 2) l) (fun a => by match a with | ⟨0, _⟩ => rfl | ⟨1, _⟩ => rfl | ⟨2, _⟩ => rfl)).trans ?_
    exact slice3_axis1_apply 2 v h2 b ⟨c.val, hlt⟩ l (rot2 c) (by show (c.val + 2) % 4 = 2 + c.val; omega)
  · refine (concatenate_pair_apply_right (t := S32x4x384) (s₁ := S32x2x384) (s₂ := S32x2x384) 1 _ _ hc (ix3 b c l) rfl rfl
      (ix3 b (⟨c.val - 2, by omega⟩ : Fin 2) l)
      (fun a ha => by match a with | ⟨0, _⟩ => rfl | ⟨1, _⟩ => exact absurd rfl ha | ⟨2, _⟩ => rfl)
      (by show c.val - 2 + 2 = c.val; omega)).trans ?_
    exact slice3_axis1_apply 0 v h0 b ⟨c.val - 2, by omega⟩ l (rot2 c) (by show (c.val + 2) % 4 = 0 + (c.val - 2); omega)

/-- The same roll of a 4 × 384 array along its first axis. -/
theorem roll_pri_apply (v : S4x384.Idx → α) (h2 : S4x384.Slices ![2, 0] S2x384) (h0 : S4x384.Slices ![0, 0] S2x384)
    (hc : Shape.Concatenates [S2x384, S2x384] S4x384 0) (c : Fin 4) (l : Fin 384) :
    concatenate S4x384 0 [⟨S2x384, extractStridedSlice S2x384 ![2, 0] v h2⟩,
        ⟨S2x384, extractStridedSlice S2x384 ![0, 0] v h0⟩] hc (ix2 c l) = v (ix2 (rot2 c) l) := by
  have hc4 := c.isLt
  by_cases hlt : c.val < 2
  · refine (concatenate_pair_apply_left (t := S4x384) (s₁ := S2x384) (s₂ := S2x384) 0 _ _ hc (ix2 c l) rfl
      (ix2 (⟨c.val, hlt⟩ : Fin 2) l) (fun a => by match a with | ⟨0, _⟩ => rfl | ⟨1, _⟩ => rfl)).trans ?_
    exact slice2_axis0_apply 2 v h2 ⟨c.val, hlt⟩ l (rot2 c) (by show (c.val + 2) % 4 = 2 + c.val; omega)
  · refine (concatenate_pair_apply_right (t := S4x384) (s₁ := S2x384) (s₂ := S2x384) 0 _ _ hc (ix2 c l) rfl rfl
      (ix2 (⟨c.val - 2, by omega⟩ : Fin 2) l)
      (fun a ha => by match a with | ⟨0, _⟩ => exact absurd rfl ha | ⟨1, _⟩ => rfl)
      (by show c.val - 2 + 2 = c.val; omega)).trans ?_
    exact slice2_axis0_apply 0 v h0 ⟨c.val - 2, by omega⟩ l (rot2 c) (by show (c.val + 2) % 4 = 0 + (c.val - 2); omega)

/-- Component `k` of a 32 × 4 × 384 array laid out as one 1 × 32 × 384 row: at `(0, b, l)` it reads the array at `(b, k, l)`. -/
theorem row_apply (k : Nat) (v : S32x4x384.Idx → α) (hs : S32x4x384.Slices ![0, k, 0] S32x1x384)
    (h1 : S32x1x384.ShapeCasts S32x384) (h2 : S32x384.ShapeCasts S1x32x384)
    (z : Fin 1) (b : Fin 32) (l : Fin 384) (c : Fin 4) (hc : c.val = k) :
    shapeCast S1x32x384 (shapeCast S32x384 (extractStridedSlice S32x1x384 ![0, k, 0] v hs) h1) h2 (ix3 z b l) = v (ix3 b c l) :=
  (shapeCast_ab_1ab_apply _ h2 z b l).trans
    ((shapeCast_a1b_ab_apply _ h1 b l).trans (slice3_axis1_apply k v hs b (0 : Fin 1) l c (by rw [hc]; rfl)))

/-- The select on "the component is below two": the first operand at components 0 and 1, the second at 2 and 3. -/
theorem lowhigh_apply (u w : S32x4x384.Idx → α) (hi : S32x4x384.Iotas .tc 32 [1]) (b : Fin 32) (c : Fin 4) (l : Fin 384) :
    select (cmpi .slt (iota .tc S32x4x384 32 [1] hi) (broadcast S32x4x384 2#32)) u w (ix3 b c l)
      = if c.val < 2 then u (ix3 b c l) else w (ix3 b c l) := by
  show Scalar.select (IntOp.cmpi .slt (iota .tc S32x4x384 32 [1] hi (ix3 b c l)) 2#32) _ _ = _
  rw [iota_single_apply]
  show Scalar.select (IntOp.cmpi .slt (BitVec.ofNat 32 c.val) 2#32) _ _ = _
  match c with
  | ⟨0, _⟩ => rfl
  | ⟨1, _⟩ => rfl
  | ⟨2, _⟩ => rfl
  | ⟨3, _⟩ => rfl

/-- A `[4, 384]` array given a leading unit axis and broadcast over the 32 images reads, at `(b, c, l)`, the array at `(c, l)`. -/
theorem overImages_apply (p : S4x384.Idx → α) (h1 : S4x384.ShapeCasts S1x4x384) (h2 : S1x4x384.Broadcasts S32x4x384)
    (b : Fin 32) (c : Fin 4) (l : Fin 384) :
    broadcastTo S32x4x384 (shapeCast S1x4x384 p h1) h2 (ix3 b c l) = p (ix2 c l) :=
  (broadcastTo_1bc_abc_apply (by decide) (by decide) _ h2 b c l).trans (shapeCast_ab_1ab_apply p h1 (0 : Fin 1) c l)

end Layout

/-! ## The blocks loaded whole -/

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole block reads its contents. -/
theorem ld_pri (x : Vec F S4x384 .f32) : View.ld x rPri = x := View.ld_unit_zero (S := S4x384) hz2 _ x
theorem ld_loc (x : Vec F S32x4x384 .f32) : View.ld x rLoc = x := View.ld_unit_zero (S := S32x4x384) hz3 _ x
theorem ld_cls (x : Vec F S21x32x384 .f32) : View.ld x rCls = x := View.ld_unit_zero (S := S21x32x384) hz3 _ x

/-! ## The fused vectors, element by element -/

section Fused
variable (x0 : Vec F S4x384 .f32) (x1 x2 x3 x4 x5 x6 x7 x8 x9 x10 x11 x12 : Vec F S32x4x384 .f32)
  (x13 x14 x15 x16 x17 x18 x19 x20 x21 x22 x23 x24 : Vec F S21x32x384 .f32)

theorem nlL_eq : nlL x1 x3 x4 x6 x7 x9 x10 x12
    = fun i => mean4F (x3 i) (x1 i) (x6 i) (x4 i) (x9 i) (x7 i) (x12 i) (x10 i) := by
  unfold nlL k0_pay15 k0_pay4 k0_pay5 k0_pay6 k0_pay7 k0_pay8 k0_pay9 k0_pay10 k0_pay11
  simp only [ld_loc, shapeCast_self]
  rfl

theorem alL_eq : alL x2 x3 x5 x6 x8 x9 x11 x12
    = fun i => mean4F (x3 i) (x2 i) (x6 i) (x5 i) (x9 i) (x8 i) (x12 i) (x11 i) := by
  unfold alL k0_pay16 k0_pay8 k0_pay9 k0_pay10 k0_pay11 k0_pay12 k0_pay13 k0_pay14
  simp only [ld_loc, shapeCast_self]
  rfl

theorem epL_eq : epL x1 x3 x4 x6 x7 x9 x10 x12
    = fun i => dev4F (x3 i) (x1 i) (x6 i) (x4 i) (x9 i) (x7 i) (x12 i) (x10 i) := by
  unfold epL k0_pay17 k0_pay15 k0_pay4 k0_pay5 k0_pay6 k0_pay7 k0_pay8 k0_pay9 k0_pay10 k0_pay11
  simp only [ld_loc, shapeCast_self]
  rfl

theorem ncL_eq : ncL x13 x15 x16 x18 x19 x21 x22 x24
    = fun i => mean4F (x15 i) (x13 i) (x18 i) (x16 i) (x21 i) (x19 i) (x24 i) (x22 i) := by
  unfold ncL k0_pay1 k0_pay49 k0_pay50 k0_pay37 k0_pay38 k0_pay39 k0_pay40 k0_pay41 k0_pay42 k0_pay43 k0_pay44
  simp only [ld_cls, shapeCast_self]
  rfl

theorem caL_eq : caL x14 x15 x17 x18 x20 x21 x23 x24
    = fun i => mean4F (x15 i) (x14 i) (x18 i) (x17 i) (x21 i) (x20 i) (x24 i) (x23 i) := by
  unfold caL k0_pay2 k0_pay41 k0_pay42 k0_pay43 k0_pay44 k0_pay45 k0_pay46 k0_pay47 k0_pay48
  simp only [ld_cls, shapeCast_self]
  rfl

theorem ceL_eq : ceL x13 x15 x16 x18 x19 x21 x22 x24
    = fun i => dev4F (x15 i) (x13 i) (x18 i) (x16 i) (x21 i) (x19 i) (x24 i) (x22 i) := by
  unfold ceL k0_pay3 k0_pay1 k0_pay49 k0_pay50 k0_pay37 k0_pay38 k0_pay39 k0_pay40 k0_pay41 k0_pay42 k0_pay43 k0_pay44
  simp only [ld_cls, shapeCast_self]
  rfl

end Fused

/-! ## The decoded box, element by element -/

section Decode
variable (x0 : Vec F S4x384 .f32) (x1 x3 x4 x6 x7 x9 x10 x12 : Vec F S32x4x384 .f32)

/-- The priors' block through its identity cast. -/
theorem pri_eq : k0_pay18 (View.ld x0 rPri) = x0 := by
  unfold k0_pay18; rw [ld_pri]; exact shapeCast_self _ _

/-- The priors' block rolled by two components. -/
theorem prw_apply (c : Fin 4) (l : Fin 384) : k0_pay19 (View.ld x0 rPri) (ix2 c l) = x0 (ix2 (rot2 c) l) := by
  unfold k0_pay19
  refine (roll_pri_apply _ _ _ _ c l).trans ?_
  rw [pri_eq]

/-- The extent at component `c`: the prior's and the fused offset's component `c + 2`. -/
theorem whL_apply (b : Fin 32) (c : Fin 4) (l : Fin 384) :
    whL x0 x1 x3 x4 x6 x7 x9 x10 x12 (ix3 b c l)
      = extentF (x0 (ix2 (rot2 c) l)) (nlL x1 x3 x4 x6 x7 x9 x10 x12 (ix3 b (rot2 c) l)) := by
  unfold whL k0_pay20 extentF
  refine congrArg₂ FloatOps.mulf ?_ (congrArg FloatOps.exp (congrArg₂ FloatOps.mulf ?_ rfl))
  · exact (overImages_apply _ _ _ b c l).trans (prw_apply x0 c l)
  · exact roll_loc_apply _ _ _ _ b c l

/-- The centre at component `c`. -/
theorem ctrL_apply (b : Fin 32) (c : Fin 4) (l : Fin 384) :
    ctrL x0 x1 x3 x4 x6 x7 x9 x10 x12 (ix3 b c l)
      = FloatOps.addf (x0 (ix2 c l))
          (FloatOps.mulf (FloatOps.mulf (nlL x1 x3 x4 x6 x7 x9 x10 x12 (ix3 b c l)) v0F) (x0 (ix2 (rot2 c) l))) := by
  unfold ctrL k0_pay21
  refine congrArg₂ FloatOps.addf ?_ (congrArg₂ FloatOps.mulf rfl ?_)
  · exact (overImages_apply _ _ _ b c l).trans (by rw [pri_eq])
  · exact (overImages_apply _ _ _ b c l).trans (prw_apply x0 c l)

/-- Half the extent. -/
theorem hwhL_apply (b : Fin 32) (c : Fin 4) (l : Fin 384) :
    hwhL x0 x1 x3 x4 x6 x7 x9 x10 x12 (ix3 b c l) = FloatOps.mulf halfF (whL x0 x1 x3 x4 x6 x7 x9 x10 x12 (ix3 b c l)) := rfl

/-- The corners: centre less half extent at components 0 and 1; at components 2 and 3 that value at the component two
    below, plus the extent there. -/
theorem decL_apply (b : Fin 32) (c : Fin 4) (l : Fin 384) :
    decL x0 x1 x3 x4 x6 x7 x9 x10 x12 (ix3 b c l)
      = if c.val < 2 then
          FloatOps.subf (ctrL x0 x1 x3 x4 x6 x7 x9 x10 x12 (ix3 b c l)) (hwhL x0 x1 x3 x4 x6 x7 x9 x10 x12 (ix3 b c l))
        else
          FloatOps.addf (FloatOps.subf (ctrL x0 x1 x3 x4 x6 x7 x9 x10 x12 (ix3 b (rot2 c) l))
            (hwhL x0 x1 x3 x4 x6 x7 x9 x10 x12 (ix3 b (rot2 c) l))) (whL x0 x1 x3 x4 x6 x7 x9 x10 x12 (ix3 b (rot2 c) l)) := by
  unfold decL k0_pay23
  refine (lowhigh_apply _ _ _ b c l).trans ?_
  split
  · rfl
  · exact roll_loc_apply _ _ _ _ b c l

/-- The low corner along axis `c ∈ {0, 1}`. -/
theorem decL_low (b : Fin 32) (l : Fin 384) (c : Fin 2) :
    decL x0 x1 x3 x4 x6 x7 x9 x10 x12 (ix3 b (⟨c.val, by omega⟩ : Fin 4) l)
      = boxLowF (fun c => x0 (ix2 c l)) (fun c => mean4F (x3 (ix3 b c l)) (x1 (ix3 b c l)) (x6 (ix3 b c l)) (x4 (ix3 b c l))
          (x9 (ix3 b c l)) (x7 (ix3 b c l)) (x12 (ix3 b c l)) (x10 (ix3 b c l))) c := by
  have hc := c.isLt
  have e : rot2 ⟨c.val, by omega⟩ = ⟨c.val + 2, by omega⟩ := Fin.ext (by show (c.val + 2) % 4 = c.val + 2; omega)
  rw [decL_apply, if_pos c.isLt, ctrL_apply, hwhL_apply, whL_apply, nlL_eq, e]
  rfl

/-- The high corner along axis `c ∈ {0, 1}`, held at component `c + 2`. -/
theorem decL_high (b : Fin 32) (l : Fin 384) (c : Fin 2) :
    decL x0 x1 x3 x4 x6 x7 x9 x10 x12 (ix3 b (⟨c.val + 2, by omega⟩ : Fin 4) l)
      = boxHighF (fun c => x0 (ix2 c l)) (fun c => mean4F (x3 (ix3 b c l)) (x1 (ix3 b c l)) (x6 (ix3 b c l)) (x4 (ix3 b c l))
          (x9 (ix3 b c l)) (x7 (ix3 b c l)) (x12 (ix3 b c l)) (x10 (ix3 b c l))) c := by
  have hc := c.isLt
  have e : rot2 ⟨c.val + 2, by omega⟩ = ⟨c.val, by omega⟩ := Fin.ext (by show (c.val + 2 + 2) % 4 = c.val; omega)
  have e' : rot2 ⟨c.val, by omega⟩ = ⟨c.val + 2, by omega⟩ := Fin.ext (by show (c.val + 2) % 4 = c.val + 2; omega)
  rw [decL_apply, if_neg (by show ¬ c.val + 2 < 2; omega), e, ctrL_apply, hwhL_apply, whL_apply, nlL_eq, e']
  rfl

end Decode

/-! ## One output entry, row by row -/

section Rows
variable (pr : Fin 4 → F .f32) (m1 s1 w1 m2 s2 w2 m3 s3 w3 m4 s4 w4 : Fin 4 → F .f32)
  (a1 t1 q1 a2 t2 q2 a3 t3 q3 a4 t4 q4 : Fin 21 → F .f32)

/-- Channels 0 and 1 are the low corners. -/
theorem entry_low (c : Fin 2) :
    entryOfF pr m1 s1 w1 m2 s2 w2 m3 s3 w3 m4 s4 w4 a1 t1 q1 a2 t2 q2 a3 t3 q3 a4 t4 q4 (⟨c.val, by omega⟩ : Fin 75)
      = boxLowF pr (fun c => mean4F (w1 c) (m1 c) (w2 c) (m2 c) (w3 c) (m3 c) (w4 c) (m4 c)) c := by
  have hc := c.isLt
  unfold entryOfF
  rw [dif_pos (show c.val < 2 from hc)]

/-- Channels 2 and 3 are the high corners. -/
theorem entry_high (c : Fin 2) :
    entryOfF pr m1 s1 w1 m2 s2 w2 m3 s3 w3 m4 s4 w4 a1 t1 q1 a2 t2 q2 a3 t3 q3 a4 t4 q4 (⟨c.val + 2, by omega⟩ : Fin 75)
      = boxHighF pr (fun c => mean4F (w1 c) (m1 c) (w2 c) (m2 c) (w3 c) (m3 c) (w4 c) (m4 c)) c := by
  have hc := c.isLt
  unfold entryOfF
  rw [dif_neg (show ¬ c.val + 2 < 2 by omega), dif_pos (show c.val + 2 < 4 by omega)]
  rfl

/-- Channels 4 to 7 are the aleatoric localisation terms. -/
theorem entry_ale (c : Fin 4) :
    entryOfF pr m1 s1 w1 m2 s2 w2 m3 s3 w3 m4 s4 w4 a1 t1 q1 a2 t2 q2 a3 t3 q3 a4 t4 q4 (⟨c.val + 4, by omega⟩ : Fin 75)
      = mean4F (w1 c) (s1 c) (w2 c) (s2 c) (w3 c) (s3 c) (w4 c) (s4 c) := by
  have hc := c.isLt
  unfold entryOfF
  rw [dif_neg (show ¬ c.val + 4 < 2 by omega), dif_neg (show ¬ c.val + 4 < 4 by omega), dif_pos (show c.val + 4 < 8 by omega)]
  rfl

/-- Channels 8 to 11 are the epistemic localisation terms. -/
theorem entry_epi (c : Fin 4) :
    entryOfF pr m1 s1 w1 m2 s2 w2 m3 s3 w3 m4 s4 w4 a1 t1 q1 a2 t2 q2 a3 t3 q3 a4 t4 q4 (⟨c.val + 8, by omega⟩ : Fin 75)
      = dev4F (w1 c) (m1 c) (w2 c) (m2 c) (w3 c) (m3 c) (w4 c) (m4 c) := by
  have hc := c.isLt
  unfold entryOfF
  rw [dif_neg (show ¬ c.val + 8 < 2 by omega), dif_neg (show ¬ c.val + 8 < 4 by omega), dif_neg (show ¬ c.val + 8 < 8 by omega),
    dif_pos (show c.val + 8 < 12 by omega)]
  rfl

/-- Channels 12 to 32 are the fused class means. -/
theorem entry_cmean (k : Fin 21) :
    entryOfF pr m1 s1 w1 m2 s2 w2 m3 s3 w3 m4 s4 w4 a1 t1 q1 a2 t2 q2 a3 t3 q3 a4 t4 q4 (⟨12 + k.val, by omega⟩ : Fin 75)
      = mean4F (q1 k) (a1 k) (q2 k) (a2 k) (q3 k) (a3 k) (q4 k) (a4 k) := by
  have hk := k.isLt
  have e : (⟨12 + k.val - 12, by omega⟩ : Fin 21) = k := Fin.ext (by show 12 + k.val - 12 = k.val; omega)
  unfold entryOfF
  rw [dif_neg (show ¬ 12 + k.val < 2 by omega), dif_neg (show ¬ 12 + k.val < 4 by omega), dif_neg (show ¬ 12 + k.val < 8 by omega),
    dif_neg (show ¬ 12 + k.val < 12 by omega), dif_pos (show 12 + k.val < 33 by omega)]
  show (fun k : Fin 21 => mean4F (q1 k) (a1 k) (q2 k) (a2 k) (q3 k) (a3 k) (q4 k) (a4 k)) ⟨12 + k.val - 12, _⟩ = _
  rw [e]

/-- Channels 33 to 53 are the aleatoric class terms. -/
theorem entry_cale (k : Fin 21) :
    entryOfF pr m1 s1 w1 m2 s2 w2 m3 s3 w3 m4 s4 w4 a1 t1 q1 a2 t2 q2 a3 t3 q3 a4 t4 q4 (⟨33 + k.val, by omega⟩ : Fin 75)
      = mean4F (q1 k) (t1 k) (q2 k) (t2 k) (q3 k) (t3 k) (q4 k) (t4 k) := by
  have hk := k.isLt
  have e : (⟨33 + k.val - 33, by omega⟩ : Fin 21) = k := Fin.ext (by show 33 + k.val - 33 = k.val; omega)
  unfold entryOfF
  rw [dif_neg (show ¬ 33 + k.val < 2 by omega), dif_neg (show ¬ 33 + k.val < 4 by omega), dif_neg (show ¬ 33 + k.val < 8 by omega),
    dif_neg (show ¬ 33 + k.val < 12 by omega), dif_neg (show ¬ 33 + k.val < 33 by omega), dif_pos (show 33 + k.val < 54 by omega)]
  show (fun k : Fin 21 => mean4F (q1 k) (t1 k) (q2 k) (t2 k) (q3 k) (t3 k) (q4 k) (t4 k)) ⟨33 + k.val - 33, _⟩ = _
  rw [e]

/-- Channels 54 to 74 are the epistemic class terms. -/
theorem entry_cepi (k : Fin 21) :
    entryOfF pr m1 s1 w1 m2 s2 w2 m3 s3 w3 m4 s4 w4 a1 t1 q1 a2 t2 q2 a3 t3 q3 a4 t4 q4 (⟨54 + k.val, by omega⟩ : Fin 75)
      = dev4F (q1 k) (a1 k) (q2 k) (a2 k) (q3 k) (a3 k) (q4 k) (a4 k) := by
  have hk := k.isLt
  have e : (⟨54 + k.val - 54, by omega⟩ : Fin 21) = k := Fin.ext (by show 54 + k.val - 54 = k.val; omega)
  unfold entryOfF
  rw [dif_neg (show ¬ 54 + k.val < 2 by omega), dif_neg (show ¬ 54 + k.val < 4 by omega), dif_neg (show ¬ 54 + k.val < 8 by omega),
    dif_neg (show ¬ 54 + k.val < 12 by omega), dif_neg (show ¬ 54 + k.val < 33 by omega), dif_neg (show ¬ 54 + k.val < 54 by omega)]
  show (fun k : Fin 21 => dev4F (q1 k) (a1 k) (q2 k) (a2 k) (q3 k) (a3 k) (q4 k) (a4 k)) ⟨54 + k.val - 54, _⟩ = _
  rw [e]

end Rows

/-! ## The fifteen stores as blocks of one function of the output block's index -/

section Canon

/-- Where a band of 21 rows from row `o` puts its own index `(k, b, l)`: at row `o + k`. -/
theorem band_emb (o : Nat) (inb : ∀ a, (![o, 0, 0] : Fin 3 → Nat) a + S21x32x384.size a ≤ S75x32x384.size a)
    (k : Fin 21) (b : Fin 32) (l : Fin 384) (h : o + k.val < 75) :
    (Rect.unit (s := S75x32x384) ![o, 0, 0] S21x32x384.size inb).emb (ix3 k b l) = ix3 (⟨o + k.val, h⟩ : Fin 75) b l := by
  funext a; refine Fin.ext ?_
  match a with
  | ⟨0, _⟩ => show o + 1 * k.val = o + k.val; omega
  | ⟨1, _⟩ => show 0 + 1 * b.val = b.val; omega
  | ⟨2, _⟩ => show 0 + 1 * l.val = l.val; omega

/-- Where the single row `o` puts its own index `(0, b, l)`: at row `o`. -/
theorem row_emb (o : Nat) (inb : ∀ a, (![o, 0, 0] : Fin 3 → Nat) a + S1x32x384.size a ≤ S75x32x384.size a)
    (z : Fin 1) (b : Fin 32) (l : Fin 384) (h : o < 75) :
    (Rect.unit (s := S75x32x384) ![o, 0, 0] S1x32x384.size inb).emb (ix3 z b l) = ix3 (⟨o, h⟩ : Fin 75) b l := by
  have hz := z.isLt
  funext a; refine Fin.ext ?_
  match a with
  | ⟨0, _⟩ => show o + 1 * z.val = o; omega
  | ⟨1, _⟩ => show 0 + 1 * b.val = b.val; omega
  | ⟨2, _⟩ => show 0 + 1 * l.val = l.val; omega

/-- The stores leave, at every index of the output block, any function `G` of that index whose rows the payloads hold:
    band `o` holds rows `o … o + 20`, a single row its own. -/
theorem canon_piecesOf (G : Vec F S75x32x384 .f32)
    (p54 p33 p12 : FVec F S21x32x384 .f32) (q11 q7 q3 q10 q6 q2 q9 q5 q1 q8 q4 q0 : FVec F S1x32x384 .f32)
    (h54 : ∀ (k : Fin 21) (b : Fin 32) (l : Fin 384), p54 (ix3 k b l) = G (ix3 (⟨54 + k.val, by omega⟩ : Fin 75) b l))
    (h33 : ∀ (k : Fin 21) (b : Fin 32) (l : Fin 384), p33 (ix3 k b l) = G (ix3 (⟨33 + k.val, by omega⟩ : Fin 75) b l))
    (h12 : ∀ (k : Fin 21) (b : Fin 32) (l : Fin 384), p12 (ix3 k b l) = G (ix3 (⟨12 + k.val, by omega⟩ : Fin 75) b l))
    (h11 : ∀ (z : Fin 1) (b : Fin 32) (l : Fin 384), q11 (ix3 z b l) = G (ix3 (⟨11, by omega⟩ : Fin 75) b l))
    (h7 : ∀ (z : Fin 1) (b : Fin 32) (l : Fin 384), q7 (ix3 z b l) = G (ix3 (⟨7, by omega⟩ : Fin 75) b l))
    (h3 : ∀ (z : Fin 1) (b : Fin 32) (l : Fin 384), q3 (ix3 z b l) = G (ix3 (⟨3, by omega⟩ : Fin 75) b l))
    (h10 : ∀ (z : Fin 1) (b : Fin 32) (l : Fin 384), q10 (ix3 z b l) = G (ix3 (⟨10, by omega⟩ : Fin 75) b l))
    (h6 : ∀ (z : Fin 1) (b : Fin 32) (l : Fin 384), q6 (ix3 z b l) = G (ix3 (⟨6, by omega⟩ : Fin 75) b l))
    (h2 : ∀ (z : Fin 1) (b : Fin 32) (l : Fin 384), q2 (ix3 z b l) = G (ix3 (⟨2, by omega⟩ : Fin 75) b l))
    (h9 : ∀ (z : Fin 1) (b : Fin 32) (l : Fin 384), q9 (ix3 z b l) = G (ix3 (⟨9, by omega⟩ : Fin 75) b l))
    (h5 : ∀ (z : Fin 1) (b : Fin 32) (l : Fin 384), q5 (ix3 z b l) = G (ix3 (⟨5, by omega⟩ : Fin 75) b l))
    (h1 : ∀ (z : Fin 1) (b : Fin 32) (l : Fin 384), q1 (ix3 z b l) = G (ix3 (⟨1, by omega⟩ : Fin 75) b l))
    (h8 : ∀ (z : Fin 1) (b : Fin 32) (l : Fin 384), q8 (ix3 z b l) = G (ix3 (⟨8, by omega⟩ : Fin 75) b l))
    (h4 : ∀ (z : Fin 1) (b : Fin 32) (l : Fin 384), q4 (ix3 z b l) = G (ix3 (⟨4, by omega⟩ : Fin 75) b l))
    (h0 : ∀ (z : Fin 1) (b : Fin 32) (l : Fin 384), q0 (ix3 z b l) = G (ix3 (⟨0, by omega⟩ : Fin 75) b l))
    (y : S75x32x384.Idx) :
    View.canon (piecesOf p54 p33 p12 q11 q7 q3 q10 q6 q2 q9 q5 q1 q8 q4 q0) y = G y := by
  have band : ∀ (o : Nat) (inb) (p : FVec F S21x32x384 .f32) (ho : o + 20 < 75)
      (hp : ∀ (k : Fin 21) (b : Fin 32) (l : Fin 384), p (ix3 k b l) = G (ix3 (⟨o + k.val, by omega⟩ : Fin 75) b l))
      (x : S21x32x384.Idx), p x = G ((Rect.unit (s := S75x32x384) ![o, 0, 0] S21x32x384.size inb).emb x) := by
    intro o inb p ho hp x
    obtain ⟨k, b, l, rfl⟩ : ∃ (k : Fin 21) (b : Fin 32) (l : Fin 384), x = ix3 k b l := ⟨x 0, x 1, x 2, eq_ix3 x⟩
    rw [band_emb o inb k b l (by omega)]
    exact hp k b l
  have row : ∀ (o : Nat) (inb) (q : FVec F S1x32x384 .f32) (ho : o < 75)
      (hq : ∀ (z : Fin 1) (b : Fin 32) (l : Fin 384), q (ix3 z b l) = G (ix3 (⟨o, ho⟩ : Fin 75) b l))
      (x : S1x32x384.Idx), q x = G ((Rect.unit (s := S75x32x384) ![o, 0, 0] S1x32x384.size inb).emb x) := by
    intro o inb q ho hq x
    obtain ⟨z, b, l, rfl⟩ : ∃ (z : Fin 1) (b : Fin 32) (l : Fin 384), x = ix3 z b l := ⟨x 0, x 1, x 2, eq_ix3 x⟩
    rw [row_emb o inb z b l ho]
    exact hq z b l
  refine View.canon_apply_of_pieces G _ ?_ y (cover p54 p33 p12 q11 q7 q3 q10 q6 q2 q9 q5 q1 q8 q4 q0 y)
  intro p hp
  simp only [piecesOf, List.mem_cons, List.not_mem_nil, or_false] at hp
  rcases hp with rfl | rfl | rfl | rfl | rfl | rfl | rfl | rfl | rfl | rfl | rfl | rfl | rfl | rfl | rfl
  · exact band 54 inb_S75x32x384_S21x32x384_54_0_0 p54 (by omega) h54
  · exact band 33 inb_S75x32x384_S21x32x384_33_0_0 p33 (by omega) h33
  · exact band 12 inb_S75x32x384_S21x32x384_12_0_0 p12 (by omega) h12
  · exact row 11 inb_S75x32x384_S1x32x384_11_0_0 q11 (by omega) h11
  · exact row 7 inb_S75x32x384_S1x32x384_7_0_0 q7 (by omega) h7
  · exact row 3 inb_S75x32x384_S1x32x384_3_0_0 q3 (by omega) h3
  · exact row 10 inb_S75x32x384_S1x32x384_10_0_0 q10 (by omega) h10
  · exact row 6 inb_S75x32x384_S1x32x384_6_0_0 q6 (by omega) h6
  · exact row 2 inb_S75x32x384_S1x32x384_2_0_0 q2 (by omega) h2
  · exact row 9 inb_S75x32x384_S1x32x384_9_0_0 q9 (by omega) h9
  · exact row 5 inb_S75x32x384_S1x32x384_5_0_0 q5 (by omega) h5
  · exact row 1 inb_S75x32x384_S1x32x384_1_0_0 q1 (by omega) h1
  · exact row 8 inb_S75x32x384_S1x32x384_8_0_0 q8 (by omega) h8
  · exact row 4 inb_S75x32x384_S1x32x384_4_0_0 q4 (by omega) h4
  · exact row 0 inb_S75x32x384_S1x32x384_0_0_0 q0 (by omega) h0

end Canon

/-! ## The output block, entry by entry -/

section Out
variable (x0 : Vec F S4x384 .f32) (x1 x2 x3 x4 x5 x6 x7 x8 x9 x10 x11 x12 : Vec F S32x4x384 .f32)
  (x13 x14 x15 x16 x17 x18 x19 x20 x21 x22 x23 x24 : Vec F S21x32x384 .f32)

/-- The output block as one function of its index `(channel, image, lane)`: the entry computed from the 25 input blocks'
    values at that image and lane. -/
def outFn : Vec F S75x32x384 .f32 := fun y =>
  entryOfF (fun c => x0 (ix2 c (y 2))) (fun c => x1 (ix3 (y 1) c (y 2))) (fun c => x2 (ix3 (y 1) c (y 2))) (fun c => x3 (ix3 (y 1) c (y 2))) (fun c => x4 (ix3 (y 1) c (y 2))) (fun c => x5 (ix3 (y 1) c (y 2))) (fun c => x6 (ix3 (y 1) c (y 2))) (fun c => x7 (ix3 (y 1) c (y 2))) (fun c => x8 (ix3 (y 1) c (y 2))) (fun c => x9 (ix3 (y 1) c (y 2))) (fun c => x10 (ix3 (y 1) c (y 2))) (fun c => x11 (ix3 (y 1) c (y 2))) (fun c => x12 (ix3 (y 1) c (y 2))) (fun k => x13 (ix3 k (y 1) (y 2))) (fun k => x14 (ix3 k (y 1) (y 2))) (fun k => x15 (ix3 k (y 1) (y 2))) (fun k => x16 (ix3 k (y 1) (y 2))) (fun k => x17 (ix3 k (y 1) (y 2))) (fun k => x18 (ix3 k (y 1) (y 2))) (fun k => x19 (ix3 k (y 1) (y 2))) (fun k => x20 (ix3 k (y 1) (y 2))) (fun k => x21 (ix3 k (y 1) (y 2))) (fun k => x22 (ix3 k (y 1) (y 2))) (fun k => x23 (ix3 k (y 1) (y 2))) (fun k => x24 (ix3 k (y 1) (y 2))) (y 0)

end Out

section Out2
variable (x0 : Vec F S4x384 .f32) (x1 x2 x3 x4 x5 x6 x7 x8 x9 x10 x11 x12 : Vec F S32x4x384 .f32)
  (x13 x14 x15 x16 x17 x18 x19 x20 x21 x22 x23 x24 : Vec F S21x32x384 .f32)

/-- The row of the decoded corners at component `c` holds the low corner along axis `c` for `c ∈ {0, 1}`. -/
theorem dec_row_low (k : Nat) (hs : S32x4x384.Slices ![0, k, 0] S32x1x384) (h1 : S32x1x384.ShapeCasts S32x384)
    (h2 : S32x384.ShapeCasts S1x32x384) (c : Fin 2) (hk : c.val = k) (z : Fin 1) (b : Fin 32) (l : Fin 384) :
    shapeCast S1x32x384 (shapeCast S32x384 (extractStridedSlice S32x1x384 ![0, k, 0] (decL x0 x1 x3 x4 x6 x7 x9 x10 x12) hs) h1) h2 (ix3 z b l)
      = outFn x0 x1 x2 x3 x4 x5 x6 x7 x8 x9 x10 x11 x12 x13 x14 x15 x16 x17 x18 x19 x20 x21 x22 x23 x24 (ix3 (⟨c.val, by omega⟩ : Fin 75) b l) :=
  (row_apply k _ hs h1 h2 z b l (⟨c.val, by omega⟩ : Fin 4) hk).trans
    ((decL_low x0 x1 x3 x4 x6 x7 x9 x10 x12 b l c).trans (entry_low (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- and the high corner along axis `c` at component `c + 2`. -/
theorem dec_row_high (k : Nat) (hs : S32x4x384.Slices ![0, k, 0] S32x1x384) (h1 : S32x1x384.ShapeCasts S32x384)
    (h2 : S32x384.ShapeCasts S1x32x384) (c : Fin 2) (hk : c.val + 2 = k) (z : Fin 1) (b : Fin 32) (l : Fin 384) :
    shapeCast S1x32x384 (shapeCast S32x384 (extractStridedSlice S32x1x384 ![0, k, 0] (decL x0 x1 x3 x4 x6 x7 x9 x10 x12) hs) h1) h2 (ix3 z b l)
      = outFn x0 x1 x2 x3 x4 x5 x6 x7 x8 x9 x10 x11 x12 x13 x14 x15 x16 x17 x18 x19 x20 x21 x22 x23 x24 (ix3 (⟨c.val + 2, by omega⟩ : Fin 75) b l) :=
  (row_apply k _ hs h1 h2 z b l (⟨c.val + 2, by omega⟩ : Fin 4) hk).trans
    ((decL_high x0 x1 x3 x4 x6 x7 x9 x10 x12 b l c).trans (entry_high (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- The row of the aleatoric localisation terms at component `c`. -/
theorem ale_row (k : Nat) (hs : S32x4x384.Slices ![0, k, 0] S32x1x384) (h1 : S32x1x384.ShapeCasts S32x384)
    (h2 : S32x384.ShapeCasts S1x32x384) (c : Fin 4) (hk : c.val = k) (z : Fin 1) (b : Fin 32) (l : Fin 384) :
    shapeCast S1x32x384 (shapeCast S32x384 (extractStridedSlice S32x1x384 ![0, k, 0] (alL x2 x3 x5 x6 x8 x9 x11 x12) hs) h1) h2 (ix3 z b l)
      = outFn x0 x1 x2 x3 x4 x5 x6 x7 x8 x9 x10 x11 x12 x13 x14 x15 x16 x17 x18 x19 x20 x21 x22 x23 x24 (ix3 (⟨c.val + 4, by omega⟩ : Fin 75) b l) :=
  (row_apply k _ hs h1 h2 z b l c hk).trans
    ((congrFun (alL_eq x2 x3 x5 x6 x8 x9 x11 x12) (ix3 b c l)).trans (entry_ale (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- The row of the epistemic localisation terms at component `c`. -/
theorem epi_row (k : Nat) (hs : S32x4x384.Slices ![0, k, 0] S32x1x384) (h1 : S32x1x384.ShapeCasts S32x384)
    (h2 : S32x384.ShapeCasts S1x32x384) (c : Fin 4) (hk : c.val = k) (z : Fin 1) (b : Fin 32) (l : Fin 384) :
    shapeCast S1x32x384 (shapeCast S32x384 (extractStridedSlice S32x1x384 ![0, k, 0] (epL x1 x3 x4 x6 x7 x9 x10 x12) hs) h1) h2 (ix3 z b l)
      = outFn x0 x1 x2 x3 x4 x5 x6 x7 x8 x9 x10 x11 x12 x13 x14 x15 x16 x17 x18 x19 x20 x21 x22 x23 x24 (ix3 (⟨c.val + 8, by omega⟩ : Fin 75) b l) :=
  (row_apply k _ hs h1 h2 z b l c hk).trans
    ((congrFun (epL_eq x1 x3 x4 x6 x7 x9 x10 x12) (ix3 b c l)).trans (entry_epi (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- THE OUTPUT BLOCK AT AN ENTRY: row `r`, image `b`, lane `l` of what the body leaves is channel `r` of the entry computed
    from the 25 input blocks' values at image `b` and lane `l`. -/
theorem outBlock_apply (r : Fin 75) (b : Fin 32) (l : Fin 384) :
    outBlock x0 x1 x2 x3 x4 x5 x6 x7 x8 x9 x10 x11 x12 x13 x14 x15 x16 x17 x18 x19 x20 x21 x22 x23 x24 (ix3 r b l)
      = entryOfF (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) r := by
  unfold outBlock
  refine (canon_piecesOf (outFn x0 x1 x2 x3 x4 x5 x6 x7 x8 x9 x10 x11 x12 x13 x14 x15 x16 x17 x18 x19 x20 x21 x22 x23 x24) _ _ _ _ _ _ _ _ _ _ _ _ _ _ _
    ?_ ?_ ?_ ?_ ?_ ?_ ?_ ?_ ?_ ?_ ?_ ?_ ?_ ?_ ?_ (ix3 r b l)).trans rfl
  · intro k b l
    exact (congrFun (ceL_eq x13 x15 x16 x18 x19 x21 x22 x24) (ix3 k b l)).trans (entry_cepi (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) k).symm
  · intro k b l
    exact (congrFun (caL_eq x14 x15 x17 x18 x20 x21 x23 x24) (ix3 k b l)).trans (entry_cale (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) k).symm
  · intro k b l
    exact (congrFun (ncL_eq x13 x15 x16 x18 x19 x21 x22 x24) (ix3 k b l)).trans (entry_cmean (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) k).symm
  · exact epi_row x0 x1 x2 x3 x4 x5 x6 x7 x8 x9 x10 x11 x12 x13 x14 x15 x16 x17 x18 x19 x20 x21 x22 x23 x24 3 slices_S32x4x384_o0_3_0_S32x1x384 shapeCasts_S32x1x384_S32x384 shapeCasts_S32x384_S1x32x384 3 rfl
  · exact ale_row x0 x1 x2 x3 x4 x5 x6 x7 x8 x9 x10 x11 x12 x13 x14 x15 x16 x17 x18 x19 x20 x21 x22 x23 x24 3 slices_S32x4x384_o0_3_0_S32x1x384 shapeCasts_S32x1x384_S32x384 shapeCasts_S32x384_S1x32x384 3 rfl
  · exact dec_row_high x0 x1 x2 x3 x4 x5 x6 x7 x8 x9 x10 x11 x12 x13 x14 x15 x16 x17 x18 x19 x20 x21 x22 x23 x24 3 slices_S32x4x384_o0_3_0_S32x1x384 shapeCasts_S32x1x384_S32x384 shapeCasts_S32x384_S1x32x384 1 rfl
  · exact epi_row x0 x1 x2 x3 x4 x5 x6 x7 x8 x9 x10 x11 x12 x13 x14 x15 x16 x17 x18 x19 x20 x21 x22 x23 x24 2 slices_S32x4x384_o0_2_0_S32x1x384 shapeCasts_S32x1x384_S32x384 shapeCasts_S32x384_S1x32x384 2 rfl
  · exact ale_row x0 x1 x2 x3 x4 x5 x6 x7 x8 x9 x10 x11 x12 x13 x14 x15 x16 x17 x18 x19 x20 x21 x22 x23 x24 2 slices_S32x4x384_o0_2_0_S32x1x384 shapeCasts_S32x1x384_S32x384 shapeCasts_S32x384_S1x32x384 2 rfl
  · exact dec_row_high x0 x1 x2 x3 x4 x5 x6 x7 x8 x9 x10 x11 x12 x13 x14 x15 x16 x17 x18 x19 x20 x21 x22 x23 x24 2 slices_S32x4x384_o0_2_0_S32x1x384 shapeCasts_S32x1x384_S32x384 shapeCasts_S32x384_S1x32x384 0 rfl
  · exact epi_row x0 x1 x2 x3 x4 x5 x6 x7 x8 x9 x10 x11 x12 x13 x14 x15 x16 x17 x18 x19 x20 x21 x22 x23 x24 1 slices_S32x4x384_o0_1_0_S32x1x384 shapeCasts_S32x1x384_S32x384 shapeCasts_S32x384_S1x32x384 1 rfl
  · exact ale_row x0 x1 x2 x3 x4 x5 x6 x7 x8 x9 x10 x11 x12 x13 x14 x15 x16 x17 x18 x19 x20 x21 x22 x23 x24 1 slices_S32x4x384_o0_1_0_S32x1x384 shapeCasts_S32x1x384_S32x384 shapeCasts_S32x384_S1x32x384 1 rfl
  · exact dec_row_low x0 x1 x2 x3 x4 x5 x6 x7 x8 x9 x10 x11 x12 x13 x14 x15 x16 x17 x18 x19 x20 x21 x22 x23 x24 1 slices_S32x4x384_o0_1_0_S32x1x384 shapeCasts_S32x1x384_S32x384 shapeCasts_S32x384_S1x32x384 1 rfl
  · exact epi_row x0 x1 x2 x3 x4 x5 x6 x7 x8 x9 x10 x11 x12 x13 x14 x15 x16 x17 x18 x19 x20 x21 x22 x23 x24 0 slices_S32x4x384_o0_0_0_S32x1x384 shapeCasts_S32x1x384_S32x384 shapeCasts_S32x384_S1x32x384 0 rfl
  · exact ale_row x0 x1 x2 x3 x4 x5 x6 x7 x8 x9 x10 x11 x12 x13 x14 x15 x16 x17 x18 x19 x20 x21 x22 x23 x24 0 slices_S32x4x384_o0_0_0_S32x1x384 shapeCasts_S32x1x384_S32x384 shapeCasts_S32x384_S1x32x384 0 rfl
  · exact dec_row_low x0 x1 x2 x3 x4 x5 x6 x7 x8 x9 x10 x11 x12 x13 x14 x15 x16 x17 x18 x19 x20 x21 x22 x23 x24 0 slices_S32x4x384_o0_0_0_S32x1x384 shapeCasts_S32x1x384_S32x384 shapeCasts_S32x384_S1x32x384 0 rfl

end Out2

end Cert.Kernel.Body

end
-- ==== Proof.KLocal.lean ====
import proofs.«111137_g86517821215618_cont_9to1_m_1401_12_alg».proof.Proof.Gen.Kernel.Frame
import proofs.«111137_g86517821215618_cont_9to1_m_1401_12_alg».proof.Proof.Gen.Kernel.Skeleton
import proofs.«111137_g86517821215618_cont_9to1_m_1401_12_alg».proof.Proof.KBlock
import proofs.«111137_g86517821215618_cont_9to1_m_1401_12_alg».proof.Proof.KWin
import proofs.«111137_g86517821215618_cont_9to1_m_1401_12_alg».proof.Proof.KEntries
import Idealize.ShloMosaic.Lib.Pipeline.FrameBody
import Idealize.ShloMosaic.Lib.Tactic
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## An output entry reads the inputs at its own lane

Every operation of the body is pointwise or re-lays the component axis, so the output block at lane `l` depends on the
input blocks at lane `l` only (`outBlock_apply`). Two families of input blocks that agree on the lanes the transfers at
point `t` move — the lanes inside the arrays — therefore give output blocks that agree on those lanes. -/

/-- Two families of input blocks that agree at lane `l` (and image `b`) give output blocks that agree at (·, b, l). -/
theorem outBlock_lane_congr (x0 : Vec F S4x384 .f32) (x1 x2 x3 x4 x5 x6 x7 x8 x9 x10 x11 x12 : Vec F S32x4x384 .f32) (x13 x14 x15 x16 x17 x18 x19 x20 x21 x22 x23 x24 : Vec F S21x32x384 .f32)
    (y0 : Vec F S4x384 .f32) (y1 y2 y3 y4 y5 y6 y7 y8 y9 y10 y11 y12 : Vec F S32x4x384 .f32) (y13 y14 y15 y16 y17 y18 y19 y20 y21 y22 y23 y24 : Vec F S21x32x384 .f32)
    (r : Fin 75) (b : Fin 32) (l : Fin 384)
    (h0 : ∀ c, x0 (ix2 c l) = y0 (ix2 c l))
    (h1 : ∀ c, x1 (ix3 b c l) = y1 (ix3 b c l))
    (h2 : ∀ c, x2 (ix3 b c l) = y2 (ix3 b c l))
    (h3 : ∀ c, x3 (ix3 b c l) = y3 (ix3 b c l))
    (h4 : ∀ c, x4 (ix3 b c l) = y4 (ix3 b c l))
    (h5 : ∀ c, x5 (ix3 b c l) = y5 (ix3 b c l))
    (h6 : ∀ c, x6 (ix3 b c l) = y6 (ix3 b c l))
    (h7 : ∀ c, x7 (ix3 b c l) = y7 (ix3 b c l))
    (h8 : ∀ c, x8 (ix3 b c l) = y8 (ix3 b c l))
    (h9 : ∀ c, x9 (ix3 b c l) = y9 (ix3 b c l))
    (h10 : ∀ c, x10 (ix3 b c l) = y10 (ix3 b c l))
    (h11 : ∀ c, x11 (ix3 b c l) = y11 (ix3 b c l))
    (h12 : ∀ c, x12 (ix3 b c l) = y12 (ix3 b c l))
    (h13 : ∀ k, x13 (ix3 k b l) = y13 (ix3 k b l))
    (h14 : ∀ k, x14 (ix3 k b l) = y14 (ix3 k b l))
    (h15 : ∀ k, x15 (ix3 k b l) = y15 (ix3 k b l))
    (h16 : ∀ k, x16 (ix3 k b l) = y16 (ix3 k b l))
    (h17 : ∀ k, x17 (ix3 k b l) = y17 (ix3 k b l))
    (h18 : ∀ k, x18 (ix3 k b l) = y18 (ix3 k b l))
    (h19 : ∀ k, x19 (ix3 k b l) = y19 (ix3 k b l))
    (h20 : ∀ k, x20 (ix3 k b l) = y20 (ix3 k b l))
    (h21 : ∀ k, x21 (ix3 k b l) = y21 (ix3 k b l))
    (h22 : ∀ k, x22 (ix3 k b l) = y22 (ix3 k b l))
    (h23 : ∀ k, x23 (ix3 k b l) = y23 (ix3 k b l))
    (h24 : ∀ k, x24 (ix3 k b l) = y24 (ix3 k b l)) :
    outBlock x0 x1 x2 x3 x4 x5 x6 x7 x8 x9 x10 x11 x12 x13 x14 x15 x16 x17 x18 x19 x20 x21 x22 x23 x24 (ix3 r b l) = outBlock y0 y1 y2 y3 y4 y5 y6 y7 y8 y9 y10 y11 y12 y13 y14 y15 y16 y17 y18 y19 y20 y21 y22 y23 y24 (ix3 r b l) := by
  rw [outBlock_apply, outBlock_apply]
  simp only [h0, h1, h2, h3, h4, h5, h6, h7, h8, h9, h10, h11, h12, h13, h14, h15, h16, h17, h18, h19, h20, h21, h22, h23, h24]

set_option maxHeartbeats 4000000 in
theorem outBlock_local (t : Fin cfg0.N)
    (g0 : ((cfg0.win 0).xblock (cfg0.grid.coords t)).Idx → Elt F (cfg0.win 0).elt)
    (g1 : ((cfg0.win 1).xblock (cfg0.grid.coords t)).Idx → Elt F (cfg0.win 1).elt)
    (g2 : ((cfg0.win 2).xblock (cfg0.grid.coords t)).Idx → Elt F (cfg0.win 2).elt)
    (g3 : ((cfg0.win 3).xblock (cfg0.grid.coords t)).Idx → Elt F (cfg0.win 3).elt)
    (g4 : ((cfg0.win 4).xblock (cfg0.grid.coords t)).Idx → Elt F (cfg0.win 4).elt)
    (g5 : ((cfg0.win 5).xblock (cfg0.grid.coords t)).Idx → Elt F (cfg0.win 5).elt)
    (g6 : ((cfg0.win 6).xblock (cfg0.grid.coords t)).Idx → Elt F (cfg0.win 6).elt)
    (g7 : ((cfg0.win 7).xblock (cfg0.grid.coords t)).Idx → Elt F (cfg0.win 7).elt)
    (g8 : ((cfg0.win 8).xblock (cfg0.grid.coords t)).Idx → Elt F (cfg0.win 8).elt)
    (g9 : ((cfg0.win 9).xblock (cfg0.grid.coords t)).Idx → Elt F (cfg0.win 9).elt)
    (g10 : ((cfg0.win 10).xblock (cfg0.grid.coords t)).Idx → Elt F (cfg0.win 10).elt)
    (g11 : ((cfg0.win 11).xblock (cfg0.grid.coords t)).Idx → Elt F (cfg0.win 11).elt)
    (g12 : ((cfg0.win 12).xblock (cfg0.grid.coords t)).Idx → Elt F (cfg0.win 12).elt)
    (g13 : ((cfg0.win 13).xblock (cfg0.grid.coords t)).Idx → Elt F (cfg0.win 13).elt)
    (g14 : ((cfg0.win 14).xblock (cfg0.grid.coords t)).Idx → Elt F (cfg0.win 14).elt)
    (g15 : ((cfg0.win 15).xblock (cfg0.grid.coords t)).Idx → Elt F (cfg0.win 15).elt)
    (g16 : ((cfg0.win 16).xblock (cfg0.grid.coords t)).Idx → Elt F (cfg0.win 16).elt)
    (g17 : ((cfg0.win 17).xblock (cfg0.grid.coords t)).Idx → Elt F (cfg0.win 17).elt)
    (g18 : ((cfg0.win 18).xblock (cfg0.grid.coords t)).Idx → Elt F (cfg0.win 18).elt)
    (g19 : ((cfg0.win 19).xblock (cfg0.grid.coords t)).Idx → Elt F (cfg0.win 19).elt)
    (g20 : ((cfg0.win 20).xblock (cfg0.grid.coords t)).Idx → Elt F (cfg0.win 20).elt)
    (g21 : ((cfg0.win 21).xblock (cfg0.grid.coords t)).Idx → Elt F (cfg0.win 21).elt)
    (g22 : ((cfg0.win 22).xblock (cfg0.grid.coords t)).Idx → Elt F (cfg0.win 22).elt)
    (g23 : ((cfg0.win 23).xblock (cfg0.grid.coords t)).Idx → Elt F (cfg0.win 23).elt)
    (g24 : ((cfg0.win 24).xblock (cfg0.grid.coords t)).Idx → Elt F (cfg0.win 24).elt)
    (d0 f0 : (cfg0.win 0).block.Idx → Elt F (cfg0.win 0).elt)
    (d1 f1 : (cfg0.win 1).block.Idx → Elt F (cfg0.win 1).elt)
    (d2 f2 : (cfg0.win 2).block.Idx → Elt F (cfg0.win 2).elt)
    (d3 f3 : (cfg0.win 3).block.Idx → Elt F (cfg0.win 3).elt)
    (d4 f4 : (cfg0.win 4).block.Idx → Elt F (cfg0.win 4).elt)
    (d5 f5 : (cfg0.win 5).block.Idx → Elt F (cfg0.win 5).elt)
    (d6 f6 : (cfg0.win 6).block.Idx → Elt F (cfg0.win 6).elt)
    (d7 f7 : (cfg0.win 7).block.Idx → Elt F (cfg0.win 7).elt)
    (d8 f8 : (cfg0.win 8).block.Idx → Elt F (cfg0.win 8).elt)
    (d9 f9 : (cfg0.win 9).block.Idx → Elt F (cfg0.win 9).elt)
    (d10 f10 : (cfg0.win 10).block.Idx → Elt F (cfg0.win 10).elt)
    (d11 f11 : (cfg0.win 11).block.Idx → Elt F (cfg0.win 11).elt)
    (d12 f12 : (cfg0.win 12).block.Idx → Elt F (cfg0.win 12).elt)
    (d13 f13 : (cfg0.win 13).block.Idx → Elt F (cfg0.win 13).elt)
    (d14 f14 : (cfg0.win 14).block.Idx → Elt F (cfg0.win 14).elt)
    (d15 f15 : (cfg0.win 15).block.Idx → Elt F (cfg0.win 15).elt)
    (d16 f16 : (cfg0.win 16).block.Idx → Elt F (cfg0.win 16).elt)
    (d17 f17 : (cfg0.win 17).block.Idx → Elt F (cfg0.win 17).elt)
    (d18 f18 : (cfg0.win 18).block.Idx → Elt F (cfg0.win 18).elt)
    (d19 f19 : (cfg0.win 19).block.Idx → Elt F (cfg0.win 19).elt)
    (d20 f20 : (cfg0.win 20).block.Idx → Elt F (cfg0.win 20).elt)
    (d21 f21 : (cfg0.win 21).block.Idx → Elt F (cfg0.win 21).elt)
    (d22 f22 : (cfg0.win 22).block.Idx → Elt F (cfg0.win 22).elt)
    (d23 f23 : (cfg0.win 23).block.Idx → Elt F (cfg0.win 23).elt)
    (d24 f24 : (cfg0.win 24).block.Idx → Elt F (cfg0.win 24).elt) :
    (cfg0.win 25).cut (cfg0.grid.coords t) (outBlock ((cfg0.win 0).fill (cfg0.grid.coords t) d0 g0) ((cfg0.win 1).fill (cfg0.grid.coords t) d1 g1) ((cfg0.win 2).fill (cfg0.grid.coords t) d2 g2) ((cfg0.win 3).fill (cfg0.grid.coords t) d3 g3) ((cfg0.win 4).fill (cfg0.grid.coords t) d4 g4) ((cfg0.win 5).fill (cfg0.grid.coords t) d5 g5) ((cfg0.win 6).fill (cfg0.grid.coords t) d6 g6) ((cfg0.win 7).fill (cfg0.grid.coords t) d7 g7) ((cfg0.win 8).fill (cfg0.grid.coords t) d8 g8) ((cfg0.win 9).fill (cfg0.grid.coords t) d9 g9) ((cfg0.win 10).fill (cfg0.grid.coords t) d10 g10) ((cfg0.win 11).fill (cfg0.grid.coords t) d11 g11) ((cfg0.win 12).fill (cfg0.grid.coords t) d12 g12) ((cfg0.win 13).fill (cfg0.grid.coords t) d13 g13) ((cfg0.win 14).fill (cfg0.grid.coords t) d14 g14) ((cfg0.win 15).fill (cfg0.grid.coords t) d15 g15) ((cfg0.win 16).fill (cfg0.grid.coords t) d16 g16) ((cfg0.win 17).fill (cfg0.grid.coords t) d17 g17) ((cfg0.win 18).fill (cfg0.grid.coords t) d18 g18) ((cfg0.win 19).fill (cfg0.grid.coords t) d19 g19) ((cfg0.win 20).fill (cfg0.grid.coords t) d20 g20) ((cfg0.win 21).fill (cfg0.grid.coords t) d21 g21) ((cfg0.win 22).fill (cfg0.grid.coords t) d22 g22) ((cfg0.win 23).fill (cfg0.grid.coords t) d23 g23) ((cfg0.win 24).fill (cfg0.grid.coords t) d24 g24))
      = (cfg0.win 25).cut (cfg0.grid.coords t) (outBlock ((cfg0.win 0).fill (cfg0.grid.coords t) f0 g0) ((cfg0.win 1).fill (cfg0.grid.coords t) f1 g1) ((cfg0.win 2).fill (cfg0.grid.coords t) f2 g2) ((cfg0.win 3).fill (cfg0.grid.coords t) f3 g3) ((cfg0.win 4).fill (cfg0.grid.coords t) f4 g4) ((cfg0.win 5).fill (cfg0.grid.coords t) f5 g5) ((cfg0.win 6).fill (cfg0.grid.coords t) f6 g6) ((cfg0.win 7).fill (cfg0.grid.coords t) f7 g7) ((cfg0.win 8).fill (cfg0.grid.coords t) f8 g8) ((cfg0.win 9).fill (cfg0.grid.coords t) f9 g9) ((cfg0.win 10).fill (cfg0.grid.coords t) f10 g10) ((cfg0.win 11).fill (cfg0.grid.coords t) f11 g11) ((cfg0.win 12).fill (cfg0.grid.coords t) f12 g12) ((cfg0.win 13).fill (cfg0.grid.coords t) f13 g13) ((cfg0.win 14).fill (cfg0.grid.coords t) f14 g14) ((cfg0.win 15).fill (cfg0.grid.coords t) f15 g15) ((cfg0.win 16).fill (cfg0.grid.coords t) f16 g16) ((cfg0.win 17).fill (cfg0.grid.coords t) f17 g17) ((cfg0.win 18).fill (cfg0.grid.coords t) f18 g18) ((cfg0.win 19).fill (cfg0.grid.coords t) f19 g19) ((cfg0.win 20).fill (cfg0.grid.coords t) f20 g20) ((cfg0.win 21).fill (cfg0.grid.coords t) f21 g21) ((cfg0.win 22).fill (cfg0.grid.coords t) f22 g22) ((cfg0.win 23).fill (cfg0.grid.coords t) f23 g23) ((cfg0.win 24).fill (cfg0.grid.coords t) f24 g24)) := by
  obtain ⟨x2, x0, x1, -, -, -⟩ := win_facts_25 t
  funext j
  have hr : (j 0).val < 75 := lt_of_lt_of_eq (j 0).isLt x0
  have hb : (j 1).val < 32 := lt_of_lt_of_eq (j 1).isLt x1
  have hl : (j 2).val < min 384 (8732 - 384 * t.val) := lt_of_lt_of_eq (j 2).isLt x2
  have hl' : (j 2).val < 384 := by omega
  have hx : (cfg0.win 25).xinj (cfg0.grid.coords t) j
      = ix3 (⟨(j 0).val, hr⟩ : Fin 75) (⟨(j 1).val, hb⟩ : Fin 32) (⟨(j 2).val, hl'⟩ : Fin 384) :=
    funext fun a => match a with | ⟨0, _⟩ => rfl | ⟨1, _⟩ => rfl | ⟨2, _⟩ => rfl
  show outBlock _ _ _ _ _ _ _ _ _ _ _ _ _ _ _ _ _ _ _ _ _ _ _ _ _ ((cfg0.win 25).xinj (cfg0.grid.coords t) j)
    = outBlock _ _ _ _ _ _ _ _ _ _ _ _ _ _ _ _ _ _ _ _ _ _ _ _ _ ((cfg0.win 25).xinj (cfg0.grid.coords t) j)
  rw [hx]
  exact outBlock_lane_congr _ _ _ _ _ _ _ _ _ _ _ _ _ _ _ _ _ _ _ _ _ _ _ _ _ _ _ _ _ _ _ _ _ _ _ _ _ _ _ _ _ _ _ _ _ _ _ _ _ _ ⟨(j 0).val, hr⟩ ⟨(j 1).val, hb⟩ ⟨(j 2).val, hl'⟩
    (fun c => fill_eq_of_moved _ _ _ _ _ _ (moved_0 t c ⟨(j 2).val, hl'⟩ hl))
    (fun c => fill_eq_of_moved _ _ _ _ _ _ (moved_1 t ⟨(j 1).val, hb⟩ c ⟨(j 2).val, hl'⟩ hl))
    (fun c => fill_eq_of_moved _ _ _ _ _ _ (moved_2 t ⟨(j 1).val, hb⟩ c ⟨(j 2).val, hl'⟩ hl))
    (fun c => fill_eq_of_moved _ _ _ _ _ _ (moved_3 t ⟨(j 1).val, hb⟩ c ⟨(j 2).val, hl'⟩ hl))
    (fun c => fill_eq_of_moved _ _ _ _ _ _ (moved_4 t ⟨(j 1).val, hb⟩ c ⟨(j 2).val, hl'⟩ hl))
    (fun c => fill_eq_of_moved _ _ _ _ _ _ (moved_5 t ⟨(j 1).val, hb⟩ c ⟨(j 2).val, hl'⟩ hl))
    (fun c => fill_eq_of_moved _ _ _ _ _ _ (moved_6 t ⟨(j 1).val, hb⟩ c ⟨(j 2).val, hl'⟩ hl))
    (fun c => fill_eq_of_moved _ _ _ _ _ _ (moved_7 t ⟨(j 1).val, hb⟩ c ⟨(j 2).val, hl'⟩ hl))
    (fun c => fill_eq_of_moved _ _ _ _ _ _ (moved_8 t ⟨(j 1).val, hb⟩ c ⟨(j 2).val, hl'⟩ hl))
    (fun c => fill_eq_of_moved _ _ _ _ _ _ (moved_9 t ⟨(j 1).val, hb⟩ c ⟨(j 2).val, hl'⟩ hl))
    (fun c => fill_eq_of_moved _ _ _ _ _ _ (moved_10 t ⟨(j 1).val, hb⟩ c ⟨(j 2).val, hl'⟩ hl))
    (fun c => fill_eq_of_moved _ _ _ _ _ _ (moved_11 t ⟨(j 1).val, hb⟩ c ⟨(j 2).val, hl'⟩ hl))
    (fun c => fill_eq_of_moved _ _ _ _ _ _ (moved_12 t ⟨(j 1).val, hb⟩ c ⟨(j 2).val, hl'⟩ hl))
    (fun k => fill_eq_of_moved _ _ _ _ _ _ (moved_13 t k ⟨(j 1).val, hb⟩ ⟨(j 2).val, hl'⟩ hl))
    (fun k => fill_eq_of_moved _ _ _ _ _ _ (moved_14 t k ⟨(j 1).val, hb⟩ ⟨(j 2).val, hl'⟩ hl))
    (fun k => fill_eq_of_moved _ _ _ _ _ _ (moved_15 t k ⟨(j 1).val, hb⟩ ⟨(j 2).val, hl'⟩ hl))
    (fun k => fill_eq_of_moved _ _ _ _ _ _ (moved_16 t k ⟨(j 1).val, hb⟩ ⟨(j 2).val, hl'⟩ hl))
    (fun k => fill_eq_of_moved _ _ _ _ _ _ (moved_17 t k ⟨(j 1).val, hb⟩ ⟨(j 2).val, hl'⟩ hl))
    (fun k => fill_eq_of_moved _ _ _ _ _ _ (moved_18 t k ⟨(j 1).val, hb⟩ ⟨(j 2).val, hl'⟩ hl))
    (fun k => fill_eq_of_moved _ _ _ _ _ _ (moved_19 t k ⟨(j 1).val, hb⟩ ⟨(j 2).val, hl'⟩ hl))
    (fun k => fill_eq_of_moved _ _ _ _ _ _ (moved_20 t k ⟨(j 1).val, hb⟩ ⟨(j 2).val, hl'⟩ hl))
    (fun k => fill_eq_of_moved _ _ _ _ _ _ (moved_21 t k ⟨(j 1).val, hb⟩ ⟨(j 2).val, hl'⟩ hl))
    (fun k => fill_eq_of_moved _ _ _ _ _ _ (moved_22 t k ⟨(j 1).val, hb⟩ ⟨(j 2).val, hl'⟩ hl))
    (fun k => fill_eq_of_moved _ _ _ _ _ _ (moved_23 t k ⟨(j 1).val, hb⟩ ⟨(j 2).val, hl'⟩ hl))
    (fun k => fill_eq_of_moved _ _ _ _ _ _ (moved_24 t k ⟨(j 1).val, hb⟩ ⟨(j 2).val, hl'⟩ hl))

end Cert.Kernel.Body

end
-- ==== Proof.KData.lean ====
import proofs.«111137_g86517821215618_cont_9to1_m_1401_12_alg».proof.Proof.Gen.Kernel.Frame
import proofs.«111137_g86517821215618_cont_9to1_m_1401_12_alg».proof.Proof.Gen.Kernel.Skeleton
import proofs.«111137_g86517821215618_cont_9to1_m_1401_12_alg».proof.Proof.KRun
import proofs.«111137_g86517821215618_cont_9to1_m_1401_12_alg».proof.Proof.KLocal
import Idealize.ShloMosaic.Lib.Pipeline.FrameSuffix
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data

A window's block at the last grid point overhangs its array by 100 lanes: the fetch lands the 284 lanes inside the array
and the rest of the staging buffer holds words nothing names. The data names each input's buffer after the body as its
block filled out with a word of the proof's choosing, and the output's as `outBlock` of those; the body obligation
states every buffer on the lanes inside the array only. -/

/-- Input window `w`'s block at point `t`, filled out past the array's end with a word nothing reads. -/
def inB (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data of the pipeline on core `c`: the arrays as the region finds them; after the body at point `t` each
    input's buffer at its filled-out block and the output's at `outBlock` of them; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => inB m c 0 t
    | ⟨1, _⟩ => inB m c 1 t
    | ⟨2, _⟩ => inB m c 2 t
    | ⟨3, _⟩ => inB m c 3 t
    | ⟨4, _⟩ => inB m c 4 t
    | ⟨5, _⟩ => inB m c 5 t
    | ⟨6, _⟩ => inB m c 6 t
    | ⟨7, _⟩ => inB m c 7 t
    | ⟨8, _⟩ => inB m c 8 t
    | ⟨9, _⟩ => inB m c 9 t
    | ⟨10, _⟩ => inB m c 10 t
    | ⟨11, _⟩ => inB m c 11 t
    | ⟨12, _⟩ => inB m c 12 t
    | ⟨13, _⟩ => inB m c 13 t
    | ⟨14, _⟩ => inB m c 14 t
    | ⟨15, _⟩ => inB m c 15 t
    | ⟨16, _⟩ => inB m c 16 t
    | ⟨17, _⟩ => inB m c 17 t
    | ⟨18, _⟩ => inB m c 18 t
    | ⟨19, _⟩ => inB m c 19 t
    | ⟨20, _⟩ => inB m c 20 t
    | ⟨21, _⟩ => inB m c 21 t
    | ⟨22, _⟩ => inB m c 22 t
    | ⟨23, _⟩ => inB m c 23 t
    | ⟨24, _⟩ => inB m c 24 t
    | ⟨25, _⟩ => outBlock (inB m c 0 t) (inB m c 1 t) (inB m c 2 t) (inB m c 3 t) (inB m c 4 t) (inB m c 5 t) (inB m c 6 t) (inB m c 7 t) (inB m c 8 t) (inB m c 9 t) (inB m c 10 t) (inB m c 11 t) (inB m c 12 t) (inB m c 13 t) (inB m c 14 t) (inB m c 15 t) (inB m c 16 t) (inB m c 17 t) (inB m c 18 t) (inB m c 19 t) (inB m c 20 t) (inB m c 21 t) (inB m c 22 t) (inB m c 23 t) (inB m c 24 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inB m c 0 t := by dsimp only [dats]
theorem after_1 (c : Dev nD) (t : Fin cfg0.N) : (dats m 0 c).after 1 t = inB m c 1 t := by dsimp only [dats]
theorem after_2 (c : Dev nD) (t : Fin cfg0.N) : (dats m 0 c).after 2 t = inB m c 2 t := by dsimp only [dats]
theorem after_3 (c : Dev nD) (t : Fin cfg0.N) : (dats m 0 c).after 3 t = inB m c 3 t := by dsimp only [dats]
theorem after_4 (c : Dev nD) (t : Fin cfg0.N) : (dats m 0 c).after 4 t = inB m c 4 t := by dsimp only [dats]
theorem after_5 (c : Dev nD) (t : Fin cfg0.N) : (dats m 0 c).after 5 t = inB m c 5 t := by dsimp only [dats]
theorem after_6 (c : Dev nD) (t : Fin cfg0.N) : (dats m 0 c).after 6 t = inB m c 6 t := by dsimp only [dats]
theorem after_7 (c : Dev nD) (t : Fin cfg0.N) : (dats m 0 c).after 7 t = inB m c 7 t := by dsimp only [dats]
theorem after_8 (c : Dev nD) (t : Fin cfg0.N) : (dats m 0 c).after 8 t = inB m c 8 t := by dsimp only [dats]
theorem after_9 (c : Dev nD) (t : Fin cfg0.N) : (dats m 0 c).after 9 t = inB m c 9 t := by dsimp only [dats]
theorem after_10 (c : Dev nD) (t : Fin cfg0.N) : (dats m 0 c).after 10 t = inB m c 10 t := by dsimp only [dats]
theorem after_11 (c : Dev nD) (t : Fin cfg0.N) : (dats m 0 c).after 11 t = inB m c 11 t := by dsimp only [dats]
theorem after_12 (c : Dev nD) (t : Fin cfg0.N) : (dats m 0 c).after 12 t = inB m c 12 t := by dsimp only [dats]
theorem after_13 (c : Dev nD) (t : Fin cfg0.N) : (dats m 0 c).after 13 t = inB m c 13 t := by dsimp only [dats]
theorem after_14 (c : Dev nD) (t : Fin cfg0.N) : (dats m 0 c).after 14 t = inB m c 14 t := by dsimp only [dats]
theorem after_15 (c : Dev nD) (t : Fin cfg0.N) : (dats m 0 c).after 15 t = inB m c 15 t := by dsimp only [dats]
theorem after_16 (c : Dev nD) (t : Fin cfg0.N) : (dats m 0 c).after 16 t = inB m c 16 t := by dsimp only [dats]
theorem after_17 (c : Dev nD) (t : Fin cfg0.N) : (dats m 0 c).after 17 t = inB m c 17 t := by dsimp only [dats]
theorem after_18 (c : Dev nD) (t : Fin cfg0.N) : (dats m 0 c).after 18 t = inB m c 18 t := by dsimp only [dats]
theorem after_19 (c : Dev nD) (t : Fin cfg0.N) : (dats m 0 c).after 19 t = inB m c 19 t := by dsimp only [dats]
theorem after_20 (c : Dev nD) (t : Fin cfg0.N) : (dats m 0 c).after 20 t = inB m c 20 t := by dsimp only [dats]
theorem after_21 (c : Dev nD) (t : Fin cfg0.N) : (dats m 0 c).after 21 t = inB m c 21 t := by dsimp only [dats]
theorem after_22 (c : Dev nD) (t : Fin cfg0.N) : (dats m 0 c).after 22 t = inB m c 22 t := by dsimp only [dats]
theorem after_23 (c : Dev nD) (t : Fin cfg0.N) : (dats m 0 c).after 23 t = inB m c 23 t := by dsimp only [dats]
theorem after_24 (c : Dev nD) (t : Fin cfg0.N) : (dats m 0 c).after 24 t = inB m c 24 t := by dsimp only [dats]
theorem after_25 (c : Dev nD) (t : Fin cfg0.N) : (dats m 0 c).after 25 t = outBlock (inB m c 0 t) (inB m c 1 t) (inB m c 2 t) (inB m c 3 t) (inB m c 4 t) (inB m c 5 t) (inB m c 6 t) (inB m c 7 t) (inB m c 8 t) (inB m c 9 t) (inB m c 10 t) (inB m c 11 t) (inB m c 12 t) (inB m c 13 t) (inB m c 14 t) (inB m c 15 t) (inB m c 16 t) (inB m c 17 t) (inB m c 18 t) (inB m c 19 t) (inB m c 20 t) (inB m c 21 t) (inB m c 22 t) (inB m c 23 t) (inB m c 24 t) := by dsimp only [dats]

/-- An input fetched at point `t` is found at its block on the lanes the fetch fills, at what the buffer held elsewhere. -/
theorem before_in (c : Dev nD) (w : Fin cfg0.W) (t : Fin cfg0.N) (hf : (cfg0.win w).fetch t = true) (d) :
    (dats m 0 c).before w t d = (cfg0.win w).fill (cfg0.grid.coords t) d (iblk m c w t) := by
  unfold Dat.before; rw [if_pos hf]; unfold Dat.fetched Dat.blockOf iblk; rw [A_eq]

/-- The output window is never fetched, -/
theorem fetch0_25 : ∀ t : Fin cfg0.N, (cfg0.win 25).fetch t = false :=
  (by decide +kernel : ∀ t : Fin grid0.N, win0_25.fetch t = false)

/-- and is written back at every point: its buffer is found at contents nothing names. -/
theorem before_out (c : Dev nD) (t : Fin cfg0.N) (d) : (dats m 0 c).before 25 t d = d := by
  unfold Dat.before
  rw [if_neg (by rw [fetch0_25 t]; exact Bool.false_ne_true)]
  by_cases h0 : t.val = 0
  · rw [if_pos h0]
  · rw [if_neg h0]; exact if_pos (flush0_25 _)

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t))))
    ∗ (∃ d, owns (c : Thread nD τ) (st0_8 t) fullShare ((cfg0.win 8).fill (cfg0.grid.coords t) d ((cfg0.win 8).cut (cfg0.grid.coords t) ((dats m 0 c).after 8 t))))
    ∗ (∃ d, owns (c : Thread nD τ) (st0_9 t) fullShare ((cfg0.win 9).fill (cfg0.grid.coords t) d ((cfg0.win 9).cut (cfg0.grid.coords t) ((dats m 0 c).after 9 t))))
    ∗ (∃ d, owns (c : Thread nD τ) (st0_10 t) fullShare ((cfg0.win 10).fill (cfg0.grid.coords t) d ((cfg0.win 10).cut (cfg0.grid.coords t) ((dats m 0 c).after 10 t))))
    ∗ (∃ d, owns (c : Thread nD τ) (st0_11 t) fullShare ((cfg0.win 11).fill (cfg0.grid.coords t) d ((cfg0.win 11).cut (cfg0.grid.coords t) ((dats m 0 c).after 11 t))))
    ∗ (∃ d, owns (c : Thread nD τ) (st0_12 t) fullShare ((cfg0.win 12).fill (cfg0.grid.coords t) d ((cfg0.win 12).cut (cfg0.grid.coords t) ((dats m 0 c).after 12 t))))
    ∗ (∃ d, owns (c : Thread nD τ) (st0_13 t) fullShare ((cfg0.win 13).fill (cfg0.grid.coords t) d ((cfg0.win 13).cut (cfg0.grid.coords t) ((dats m 0 c).after 13 t))))
    ∗ (∃ d, owns (c : Thread nD τ) (st0_14 t) fullShare ((cfg0.win 14).fill (cfg0.grid.coords t) d ((cfg0.win 14).cut (cfg0.grid.coords t) ((dats m 0 c).after 14 t))))
    ∗ (∃ d, owns (c : Thread nD τ) (st0_15 t) fullShare ((cfg0.win 15).fill (cfg0.grid.coords t) d ((cfg0.win 15).cut (cfg0.grid.coords t) ((dats m 0 c).after 15 t))))
    ∗ (∃ d, owns (c : Thread nD τ) (st0_16 t) fullShare ((cfg0.win 16).fill (cfg0.grid.coords t) d ((cfg0.win 16).cut (cfg0.grid.coords t) ((dats m 0 c).after 16 t))))
    ∗ (∃ d, owns (c : Thread nD τ) (st0_17 t) fullShare ((cfg0.win 17).fill (cfg0.grid.coords t) d ((cfg0.win 17).cut (cfg0.grid.coords t) ((dats m 0 c).after 17 t))))
    ∗ (∃ d, owns (c : Thread nD τ) (st0_18 t) fullShare ((cfg0.win 18).fill (cfg0.grid.coords t) d ((cfg0.win 18).cut (cfg0.grid.coords t) ((dats m 0 c).after 18 t))))
    ∗ (∃ d, owns (c : Thread nD τ) (st0_19 t) fullShare ((cfg0.win 19).fill (cfg0.grid.coords t) d ((cfg0.win 19).cut (cfg0.grid.coords t) ((dats m 0 c).after 19 t))))
    ∗ (∃ d, owns (c : Thread nD τ) (st0_20 t) fullShare ((cfg0.win 20).fill (cfg0.grid.coords t) d ((cfg0.win 20).cut (cfg0.grid.coords t) ((dats m 0 c).after 20 t))))
    ∗ (∃ d, owns (c : Thread nD τ) (st0_21 t) fullShare ((cfg0.win 21).fill (cfg0.grid.coords t) d ((cfg0.win 21).cut (cfg0.grid.coords t) ((dats m 0 c).after 21 t))))
    ∗ (∃ d, owns (c : Thread nD τ) (st0_22 t) fullShare ((cfg0.win 22).fill (cfg0.grid.coords t) d ((cfg0.win 22).cut (cfg0.grid.coords t) ((dats m 0 c).after 22 t))))
    ∗ (∃ d, owns (c : Thread nD τ) (st0_23 t) fullShare ((cfg0.win 23).fill (cfg0.grid.coords t) d ((cfg0.win 23).cut (cfg0.grid.coords t) ((dats m 0 c).after 23 t))))
    ∗ (∃ d, owns (c : Thread nD τ) (st0_24 t) fullShare ((cfg0.win 24).fill (cfg0.grid.coords t) d ((cfg0.win 24).cut (cfg0.grid.coords t) ((dats m 0 c).after 24 t))))
    ∗ (∃ d, owns (c : Thread nD τ) (st0_25 t) fullShare ((cfg0.win 25).fill (cfg0.grid.coords t) d ((cfg0.win 25).cut (cfg0.grid.coords t) ((dats m 0 c).after 25 t)))))

set_option maxHeartbeats 4000000 in
/-- The body at any point: each input's buffer holds its block filled out with whatever the buffer held past the array's
    end, so `sound_kernel` applies at those contents; what it leaves in the output's buffer agrees, on the lanes inside
    the array, with `outBlock` of the named blocks (an output entry reads the inputs at its own lane only). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  rw [before_in m c 0 t (fetch0_0 t) d0, before_in m c 1 t (fetch0_1 t) d1, before_in m c 2 t (fetch0_2 t) d2, before_in m c 3 t (fetch0_3 t) d3, before_in m c 4 t (fetch0_4 t) d4, before_in m c 5 t (fetch0_5 t) d5, before_in m c 6 t (fetch0_6 t) d6, before_in m c 7 t (fetch0_7 t) d7, before_in m c 8 t (fetch0_8 t) d8, before_in m c 9 t (fetch0_9 t) d9, before_in m c 10 t (fetch0_10 t) d10, before_in m c 11 t (fetch0_11 t) d11, before_in m c 12 t (fetch0_12 t) d12, before_in m c 13 t (fetch0_13 t) d13, before_in m c 14 t (fetch0_14 t) d14, before_in m c 15 t (fetch0_15 t) d15, before_in m c 16 t (fetch0_16 t) d16, before_in m c 17 t (fetch0_17 t) d17, before_in m c 18 t (fetch0_18 t) d18, before_in m c 19 t (fetch0_19 t) d19, before_in m c 20 t (fetch0_20 t) d20, before_in m c 21 t (fetch0_21 t) d21, before_in m c 22 t (fetch0_22 t) d22, before_in m c 23 t (fetch0_23 t) d23, before_in m c 24 t (fetch0_24 t) d24, before_out m c t d25]
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _
    ((cfg0.win 0).fill (grid0.coords t) d0 (iblk m c 0 t))
    ((cfg0.win 1).fill (grid0.coords t) d1 (iblk m c 1 t))
    ((cfg0.win 2).fill (grid0.coords t) d2 (iblk m c 2 t))
    ((cfg0.win 3).fill (grid0.coords t) d3 (iblk m c 3 t))
    ((cfg0.win 4).fill (grid0.coords t) d4 (iblk m c 4 t))
    ((cfg0.win 5).fill (grid0.coords t) d5 (iblk m c 5 t))
    ((cfg0.win 6).fill (grid0.coords t) d6 (iblk m c 6 t))
    ((cfg0.win 7).fill (grid0.coords t) d7 (iblk m c 7 t))
    ((cfg0.win 8).fill (grid0.coords t) d8 (iblk m c 8 t))
    ((cfg0.win 9).fill (grid0.coords t) d9 (iblk m c 9 t))
    ((cfg0.win 10).fill (grid0.coords t) d10 (iblk m c 10 t))
    ((cfg0.win 11).fill (grid0.coords t) d11 (iblk m c 11 t))
    ((cfg0.win 12).fill (grid0.coords t) d12 (iblk m c 12 t))
    ((cfg0.win 13).fill (grid0.coords t) d13 (iblk m c 13 t))
    ((cfg0.win 14).fill (grid0.coords t) d14 (iblk m c 14 t))
    ((cfg0.win 15).fill (grid0.coords t) d15 (iblk m c 15 t))
    ((cfg0.win 16).fill (grid0.coords t) d16 (iblk m c 16 t))
    ((cfg0.win 17).fill (grid0.coords t) d17 (iblk m c 17 t))
    ((cfg0.win 18).fill (grid0.coords t) d18 (iblk m c 18 t))
    ((cfg0.win 19).fill (grid0.coords t) d19 (iblk m c 19 t))
    ((cfg0.win 20).fill (grid0.coords t) d20 (iblk m c 20 t))
    ((cfg0.win 21).fill (grid0.coords t) d21 (iblk m c 21 t))
    ((cfg0.win 22).fill (grid0.coords t) d22 (iblk m c 22 t))
    ((cfg0.win 23).fill (grid0.coords t) d23 (iblk m c 23 t))
    ((cfg0.win 24).fill (grid0.coords t) d24 (iblk m c 24 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]
  · iexists d0; rw [after_0]; unfold inB; rw [(cfg0.win 0).cut_fill]; iexact H0
  isplitl [H1]
  · iexists d1; rw [after_1]; unfold inB; rw [(cfg0.win 1).cut_fill]; iexact H1
  isplitl [H2]
  · iexists d2; rw [after_2]; unfold inB; rw [(cfg0.win 2).cut_fill]; iexact H2
  isplitl [H3]
  · iexists d3; rw [after_3]; unfold inB; rw [(cfg0.win 3).cut_fill]; iexact H3
  isplitl [H4]
  · iexists d4; rw [after_4]; unfold inB; rw [(cfg0.win 4).cut_fill]; iexact H4
  isplitl [H5]
  · iexists d5; rw [after_5]; unfold inB; rw [(cfg0.win 5).cut_fill]; iexact H5
  isplitl [H6]
  · iexists d6; rw [after_6]; unfold inB; rw [(cfg0.win 6).cut_fill]; iexact H6
  isplitl [H7]
  · iexists d7; rw [after_7]; unfold inB; rw [(cfg0.win 7).cut_fill]; iexact H7
  isplitl [H8]
  · iexists d8; rw [after_8]; unfold inB; rw [(cfg0.win 8).cut_fill]; iexact H8
  isplitl [H9]
  · iexists d9; rw [after_9]; unfold inB; rw [(cfg0.win 9).cut_fill]; iexact H9
  isplitl [H10]
  · iexists d10; rw [after_10]; unfold inB; rw [(cfg0.win 10).cut_fill]; iexact H10
  isplitl [H11]
  · iexists d11; rw [after_11]; unfold inB; rw [(cfg0.win 11).cut_fill]; iexact H11
  isplitl [H12]
  · iexists d12; rw [after_12]; unfold inB; rw [(cfg0.win 12).cut_fill]; iexact H12
  isplitl [H13]
  · iexists d13; rw [after_13]; unfold inB; rw [(cfg0.win 13).cut_fill]; iexact H13
  isplitl [H14]
  · iexists d14; rw [after_14]; unfold inB; rw [(cfg0.win 14).cut_fill]; iexact H14
  isplitl [H15]
  · iexists d15; rw [after_15]; unfold inB; rw [(cfg0.win 15).cut_fill]; iexact H15
  isplitl [H16]
  · iexists d16; rw [after_16]; unfold inB; rw [(cfg0.win 16).cut_fill]; iexact H16
  isplitl [H17]
  · iexists d17; rw [after_17]; unfold inB; rw [(cfg0.win 17).cut_fill]; iexact H17
  isplitl [H18]
  · iexists d18; rw [after_18]; unfold inB; rw [(cfg0.win 18).cut_fill]; iexact H18
  isplitl [H19]
  · iexists d19; rw [after_19]; unfold inB; rw [(cfg0.win 19).cut_fill]; iexact H19
  isplitl [H20]
  · iexists d20; rw [after_20]; unfold inB; rw [(cfg0.win 20).cut_fill]; iexact H20
  isplitl [H21]
  · iexists d21; rw [after_21]; unfold inB; rw [(cfg0.win 21).cut_fill]; iexact H21
  isplitl [H22]
  · iexists d22; rw [after_22]; unfold inB; rw [(cfg0.win 22).cut_fill]; iexact H22
  isplitl [H23]
  · iexists d23; rw [after_23]; unfold inB; rw [(cfg0.win 23).cut_fill]; iexact H23
  isplitl [H24]
  · iexists d24; rw [after_24]; unfold inB; rw [(cfg0.win 24).cut_fill]; iexact H24
  iexists outBlock ((cfg0.win 0).fill (grid0.coords t) d0 (iblk m c 0 t)) ((cfg0.win 1).fill (grid0.coords t) d1 (iblk m c 1 t)) ((cfg0.win 2).fill (grid0.coords t) d2 (iblk m c 2 t)) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) ((cfg0.win 7).fill (grid0.coords t) d7 (iblk m c 7 t)) ((cfg0.win 8).fill (grid0.coords t) d8 (iblk m c 8 t)) ((cfg0.win 9).fill (grid0.coords t) d9 (iblk m c 9 t)) ((cfg0.win 10).fill (grid0.coords t) d10 (iblk m c 10 t)) ((cfg0.win 11).fill (grid0.coords t) d11 (iblk m c 11 t)) ((cfg0.win 12).fill (grid0.coords t) d12 (iblk m c 12 t)) ((cfg0.win 13).fill (grid0.coords t) d13 (iblk m c 13 t)) ((cfg0.win 14).fill (grid0.coords t) d14 (iblk m c 14 t)) ((cfg0.win 15).fill (grid0.coords t) d15 (iblk m c 15 t)) ((cfg0.win 16).fill (grid0.coords t) d16 (iblk m c 16 t)) ((cfg0.win 17).fill (grid0.coords t) d17 (iblk m c 17 t)) ((cfg0.win 18).fill (grid0.coords t) d18 (iblk m c 18 t)) ((cfg0.win 19).fill (grid0.coords t) d19 (iblk m c 19 t)) ((cfg0.win 20).fill (grid0.coords t) d20 (iblk m c 20 t)) ((cfg0.win 21).fill (grid0.coords t) d21 (iblk m c 21 t)) ((cfg0.win 22).fill (grid0.coords t) d22 (iblk m c 22 t)) ((cfg0.win 23).fill (grid0.coords t) d23 (iblk m c 23 t)) ((cfg0.win 24).fill (grid0.coords t) d24 (iblk m c 24 t))
  rw [after_25]; unfold inB
  rw [(cfg0.win 25).fill_congr_cut (cfg0.grid.coords t) (outBlock_local t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    d0 (fun _ => Classical.arbitrary _) d1 (fun _ => Classical.arbitrary _) d2 (fun _ => Classical.arbitrary _) d3 (fun _ => Classical.arbitrary _) d4 (fun _ => Classical.arbitrary _) d5 (fun _ => Classical.arbitrary _) d6 (fun _ => Classical.arbitrary _) d7 (fun _ => Classical.arbitrary _) d8 (fun _ => Classical.arbitrary _) d9 (fun _ => Classical.arbitrary _) d10 (fun _ => Classical.arbitrary _) d11 (fun _ => Classical.arbitrary _) d12 (fun _ => Classical.arbitrary _) d13 (fun _ => Classical.arbitrary _) d14 (fun _ => Classical.arbitrary _) d15 (fun _ => Classical.arbitrary _) d16 (fun _ => Classical.arbitrary _) d17 (fun _ => Classical.arbitrary _) d18 (fun _ => Classical.arbitrary _) d19 (fun _ => Classical.arbitrary _) d20 (fun _ => Classical.arbitrary _) d21 (fun _ => Classical.arbitrary _) d22 (fun _ => Classical.arbitrary _) d23 (fun _ => Classical.arbitrary _) d24 (fun _ => Classical.arbitrary _))]
  iexact H25

/-- The library's body obligation, in the form that states each buffer on the lanes inside the array. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Body

end
-- ==== Proof.KIBlock.lean ====
import proofs.«111137_g86517821215618_cont_9to1_m_1401_12_alg».proof.Proof.Gen.KernelIdeal.Frame
import proofs.«111137_g86517821215618_cont_9to1_m_1401_12_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body loads and stores through

Every input block is loaded whole; the output block, 75 rows of 32 × 384 words, is stored row by row for the twelve
localisation rows and in three bands of 21 rows for the class rows. -/

abbrev rPri : Rect S4x384 := Rect.unit (s := S4x384) ![0, 0] S4x384.size inb_S4x384_S4x384_0_0
abbrev rLoc : Rect S32x4x384 := Rect.unit (s := S32x4x384) ![0, 0, 0] S32x4x384.size inb_S32x4x384_S32x4x384_0_0_0
abbrev rCls : Rect S21x32x384 := Rect.unit (s := S21x32x384) ![0, 0, 0] S21x32x384.size inb_S21x32x384_S21x32x384_0_0_0
abbrev rRow0 : Rect S75x32x384 := Rect.unit (s := S75x32x384) ![0, 0, 0] S1x32x384.size inb_S75x32x384_S1x32x384_0_0_0
abbrev rRow1 : Rect S75x32x384 := Rect.unit (s := S75x32x384) ![1, 0, 0] S1x32x384.size inb_S75x32x384_S1x32x384_1_0_0
abbrev rRow2 : Rect S75x32x384 := Rect.unit (s := S75x32x384) ![2, 0, 0] S1x32x384.size inb_S75x32x384_S1x32x384_2_0_0
abbrev rRow3 : Rect S75x32x384 := Rect.unit (s := S75x32x384) ![3, 0, 0] S1x32x384.size inb_S75x32x384_S1x32x384_3_0_0
abbrev rRow4 : Rect S75x32x384 := Rect.unit (s := S75x32x384) ![4, 0, 0] S1x32x384.size inb_S75x32x384_S1x32x384_4_0_0
abbrev rRow5 : Rect S75x32x384 := Rect.unit (s := S75x32x384) ![5, 0, 0] S1x32x384.size inb_S75x32x384_S1x32x384_5_0_0
abbrev rRow6 : Rect S75x32x384 := Rect.unit (s := S75x32x384) ![6, 0, 0] S1x32x384.size inb_S75x32x384_S1x32x384_6_0_0
abbrev rRow7 : Rect S75x32x384 := Rect.unit (s := S75x32x384) ![7, 0, 0] S1x32x384.size inb_S75x32x384_S1x32x384_7_0_0
abbrev rRow8 : Rect S75x32x384 := Rect.unit (s := S75x32x384) ![8, 0, 0] S1x32x384.size inb_S75x32x384_S1x32x384_8_0_0
abbrev rRow9 : Rect S75x32x384 := Rect.unit (s := S75x32x384) ![9, 0, 0] S1x32x384.size inb_S75x32x384_S1x32x384_9_0_0
abbrev rRow10 : Rect S75x32x384 := Rect.unit (s := S75x32x384) ![10, 0, 0] S1x32x384.size inb_S75x32x384_S1x32x384_10_0_0
abbrev rRow11 : Rect S75x32x384 := Rect.unit (s := S75x32x384) ![11, 0, 0] S1x32x384.size inb_S75x32x384_S1x32x384_11_0_0
abbrev rBand12 : Rect S75x32x384 := Rect.unit (s := S75x32x384) ![12, 0, 0] S21x32x384.size inb_S75x32x384_S21x32x384_12_0_0
abbrev rBand33 : Rect S75x32x384 := Rect.unit (s := S75x32x384) ![33, 0, 0] S21x32x384.size inb_S75x32x384_S21x32x384_33_0_0
abbrev rBand54 : Rect S75x32x384 := Rect.unit (s := S75x32x384) ![54, 0, 0] S21x32x384.size inb_S75x32x384_S21x32x384_54_0_0

/-! ## The vectors the body computes, from the contents of the input blocks

Block `x0` is the priors' (4 × 384), `x1 … x12` the four localisation heads' (mean, variance, weight per head, each
32 × 4 × 384) and `x13 … x24` the four class heads' (each 21 × 32 × 384). -/

section
variable (x0 : Vec F S4x384 .f32) (x1 x2 x3 x4 x5 x6 x7 x8 x9 x10 x11 x12 : Vec F S32x4x384 .f32) (x13 x14 x15 x16 x17 x18 x19 x20 x21 x22 x23 x24 : Vec F S21x32x384 .f32)

/-- The fused localisation mean, from the heads' means `x1, x4, x7, x10` and weights `x3, x6, x9, x12`. -/
def nlL (x1 x3 x4 x6 x7 x9 x10 x12 : Vec F S32x4x384 .f32) : FVec F S32x4x384 .f32 :=
  k0_pay15 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc))
/-- The aleatoric localisation term, from the heads' variances `x2, x5, x8, x11` and weights. -/
def alL (x2 x3 x5 x6 x8 x9 x11 x12 : Vec F S32x4x384 .f32) : FVec F S32x4x384 .f32 :=
  k0_pay16 (k0_pay8 (View.ld x3 rLoc)) (k0_pay9 (View.ld x6 rLoc)) (k0_pay10 (View.ld x9 rLoc)) (k0_pay11 (View.ld x12 rLoc))
    (k0_pay12 (View.ld x2 rLoc)) (k0_pay13 (View.ld x5 rLoc)) (k0_pay14 (View.ld x8 rLoc)) (View.ld x11 rLoc)
/-- The epistemic localisation term. -/
def epL (x1 x3 x4 x6 x7 x9 x10 x12 : Vec F S32x4x384 .f32) : FVec F S32x4x384 .f32 :=
  k0_pay17 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc))
/-- The decoded extents (valid at components 0 and 1). -/
def whL (x0 : Vec F S4x384 .f32) (x1 x3 x4 x6 x7 x9 x10 x12 : Vec F S32x4x384 .f32) : FVec F S32x4x384 .f32 :=
  k0_pay20 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc)) (View.ld x0 rPri)
/-- The decoded centres. -/
def ctrL (x0 : Vec F S4x384 .f32) (x1 x3 x4 x6 x7 x9 x10 x12 : Vec F S32x4x384 .f32) : FVec F S32x4x384 .f32 :=
  k0_pay21 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc)) (View.ld x0 rPri)
/-- Half the decoded extents. -/
def hwhL (x0 : Vec F S4x384 .f32) (x1 x3 x4 x6 x7 x9 x10 x12 : Vec F S32x4x384 .f32) : FVec F S32x4x384 .f32 :=
  k0_pay22 (k0_pay4 (View.ld x1 rLoc)) (k0_pay5 (View.ld x4 rLoc)) (k0_pay6 (View.ld x7 rLoc)) (k0_pay7 (View.ld x10 rLoc))
    (k0_pay8 (View.ld x3 rLoc)) (k0_pay9 (View.ld x6 rLoc)) (k0_pay10 (View.ld x9 rLoc)) (k0_pay11 (View.ld x12 rLoc)) (View.ld x0 rPri)
/-- The decoded corners: low corners at components 0, 1, high corners at 2, 3. -/
def decL (x0 : Vec F S4x384 .f32) (x1 x3 x4 x6 x7 x9 x10 x12 : Vec F S32x4x384 .f32) : FVec F S32x4x384 .f32 :=
  k0_pay23 (whL x0 x1 x3 x4 x6 x7 x9 x10 x12) (ctrL x0 x1 x3 x4 x6 x7 x9 x10 x12) (hwhL x0 x1 x3 x4 x6 x7 x9 x10 x12)

/-- The fused class mean, from the heads' means `x13, x16, x19, x22` and weights `x15, x18, x21, x24`. -/
def ncL (x13 x15 x16 x18 x19 x21 x22 x24 : Vec F S21x32x384 .f32) : FVec F S21x32x384 .f32 :=
  k0_pay1 (k0_pay39 (View.ld x19 rCls)) (k0_pay40 (View.ld x22 rCls)) (k0_pay43 (View.ld x21 rCls)) (k0_pay44 (View.ld x24 rCls))
    (k0_pay49 (View.ld x13 rCls) (View.ld x15 rCls)) (k0_pay50 (View.ld x16 rCls) (View.ld x18 rCls))
/-- The aleatoric class term, from the heads' variances `x14, x17, x20, x23` and weights. -/
def caL (x14 x15 x17 x18 x20 x21 x23 x24 : Vec F S21x32x384 .f32) : FVec F S21x32x384 .f32 :=
  k0_pay2 (k0_pay41 (View.ld x15 rCls)) (k0_pay42 (View.ld x18 rCls)) (k0_pay43 (View.ld x21 rCls)) (k0_pay44 (View.ld x24 rCls))
    (k0_pay45 (View.ld x14 rCls)) (k0_pay46 (View.ld x17 rCls)) (k0_pay47 (View.ld x20 rCls)) (k0_pay48 (View.ld x23 rCls))
/-- The epistemic class term. -/
def ceL (x13 x15 x16 x18 x19 x21 x22 x24 : Vec F S21x32x384 .f32) : FVec F S21x32x384 .f32 :=
  k0_pay3 (k0_pay37 (View.ld x13 rCls)) (k0_pay38 (View.ld x16 rCls)) (k0_pay39 (View.ld x19 rCls)) (k0_pay40 (View.ld x22 rCls))
    (k0_pay41 (View.ld x15 rCls)) (k0_pay42 (View.ld x18 rCls)) (k0_pay43 (View.ld x21 rCls)) (k0_pay44 (View.ld x24 rCls))
    (k0_pay49 (View.ld x13 rCls) (View.ld x15 rCls)) (k0_pay50 (View.ld x16 rCls) (View.ld x18 rCls))

/-- The stores of the body, last first, over their payloads: three bands of class rows, then the twelve localisation rows. -/
def piecesOf (p54 p33 p12 : FVec F S21x32x384 .f32) (q11 q7 q3 q10 q6 q2 q9 q5 q1 q8 q4 q0 : FVec F S1x32x384 .f32) :
    List (View.Piece (Elt F) S75x32x384 .f32) :=
  [⟨rBand54, p54⟩, ⟨rBand33, p33⟩, ⟨rBand12, p12⟩, ⟨rRow11, q11⟩, ⟨rRow7, q7⟩, ⟨rRow3, q3⟩, ⟨rRow10, q10⟩, ⟨rRow6, q6⟩, ⟨rRow2, q2⟩, ⟨rRow9, q9⟩, ⟨rRow5, q5⟩, ⟨rRow1, q1⟩, ⟨rRow8, q8⟩, ⟨rRow4, q4⟩, ⟨rRow0, q0⟩]

/-- Cut into single rows of 32 × 384 words the fifteen stores tile the output block, so every index of it lies in one. -/
theorem cover (p54 p33 p12 : FVec F S21x32x384 .f32) (q11 q7 q3 q10 q6 q2 q9 q5 q1 q8 q4 q0 : FVec F S1x32x384 .f32) (y : S75x32x384.Idx) :
    ∃ pc ∈ piecesOf p54 p33 p12 q11 q7 q3 q10 q6 q2 q9 q5 q1 q8 q4 q0, y ∈ pc.1.set :=
  View.cover_of_tiledBy (piecesOf p54 p33 p12 q11 q7 q3 q10 q6 q2 q9 q5 q1 q8 q4 q0) ![1, 32, 384] (by sl_kernel_rfl) y

/-- What the output block holds after the body, as a function of the input blocks' contents. -/
def outBlock : Vec F S75x32x384 .f32 :=
  View.canon (piecesOf
    (ceL x13 x15 x16 x18 x19 x21 x22 x24)
    (caL x14 x15 x17 x18 x20 x21 x23 x24)
    (ncL x13 x15 x16 x18 x19 x21 x22 x24)
    (k0_pay36 (epL x1 x3 x4 x6 x7 x9 x10 x12))
    (k0_pay35 (alL x2 x3 x5 x6 x8 x9 x11 x12))
    (k0_pay34 (decL x0 x1 x3 x4 x6 x7 x9 x10 x12))
    (k0_pay33 (epL x1 x3 x4 x6 x7 x9 x10 x12))
    (k0_pay32 (alL x2 x3 x5 x6 x8 x9 x11 x12))
    (k0_pay31 (decL x0 x1 x3 x4 x6 x7 x9 x10 x12))
    (k0_pay30 (k0_pay29 (epL x1 x3 x4 x6 x7 x9 x10 x12)))
    (k0_pay28 (alL x2 x3 x5 x6 x8 x9 x11 x12))
    (k0_pay27 (whL x0 x1 x3 x4 x6 x7 x9 x10 x12) (ctrL x0 x1 x3 x4 x6 x7 x9 x10 x12) (hwhL x0 x1 x3 x4 x6 x7 x9 x10 x12))
    (k0_pay26 (epL x1 x3 x4 x6 x7 x9 x10 x12))
    (k0_pay25 (alL x2 x3 x5 x6 x8 x9 x11 x12))
    (k0_pay24 (whL x0 x1 x3 x4 x6 x7 x9 x10 x12) (ctrL x0 x1 x3 x4 x6 x7 x9 x10 x12) (hwhL x0 x1 x3 x4 x6 x7 x9 x10 x12)))

end

end Cert.KernelIdeal.Body

end
-- ==== Proof.KIRun.lean ====
import proofs.«111137_g86517821215618_cont_9to1_m_1401_12_alg».proof.Proof.Gen.KernelIdeal.Frame
import proofs.«111137_g86517821215618_cont_9to1_m_1401_12_alg».proof.Proof.Gen.KernelIdeal.Skeleton
import proofs.«111137_g86517821215618_cont_9to1_m_1401_12_alg».proof.Proof.KIBlock
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple

On whole staging buffers, the inputs' at contents `x0 … x24` and the output's at anything, the body runs to its end
leaving the inputs' buffers as they were and the output's at `outBlock` of the inputs' contents. -/

set_option maxHeartbeats 4000000 in
theorem sound_kernel (c : Dev nD) (E : Set ℕ) (i : grid0.Coords) (arg2 : Memref sig .tc .vmem S4x384 .f32) (harg2 : arg2.IsWhole) (arg3 : Memref sig .tc .vmem S32x4x384 .f32) (harg3 : arg3.IsWhole) (arg4 : Memref sig .tc .vmem S32x4x384 .f32) (harg4 : arg4.IsWhole) (arg5 : Memref sig .tc .vmem S32x4x384 .f32) (harg5 : arg5.IsWhole) (arg6 : Memref sig .tc .vmem S32x4x384 .f32) (harg6 : arg6.IsWhole) (arg7 : Memref sig .tc .vmem S32x4x384 .f32) (harg7 : arg7.IsWhole) (arg8 : Memref sig .tc .vmem S32x4x384 .f32) (harg8 : arg8.IsWhole) (arg9 : Memref sig .tc .vmem S32x4x384 .f32) (harg9 : arg9.IsWhole) (arg10 : Memref sig .tc .vmem S32x4x384 .f32) (harg10 : arg10.IsWhole) (arg11 : Memref sig .tc .vmem S32x4x384 .f32) (harg11 : arg11.IsWhole) (arg12 : Memref sig .tc .vmem S32x4x384 .f32) (harg12 : arg12.IsWhole) (arg13 : Memref sig .tc .vmem S32x4x384 .f32) (harg13 : arg13.IsWhole) (arg14 : Memref sig .tc .vmem S32x4x384 .f32) (harg14 : arg14.IsWhole) (arg15 : Memref sig .tc .vmem S21x32x384 .f32) (harg15 : arg15.IsWhole) (arg16 : Memref sig .tc .vmem S21x32x384 .f32) (harg16 : arg16.IsWhole) (arg17 : Memref sig .tc .vmem S21x32x384 .f32) (harg17 : arg17.IsWhole) (arg18 : Memref sig .tc .vmem S21x32x384 .f32) (harg18 : arg18.IsWhole) (arg19 : Memref sig .tc .vmem S21x32x384 .f32) (harg19 : arg19.IsWhole) (arg20 : Memref sig .tc .vmem S21x32x384 .f32) (harg20 : arg20.IsWhole) (arg21 : Memref sig .tc .vmem S21x32x384 .f32) (harg21 : arg21.IsWhole) (arg22 : Memref sig .tc .vmem S21x32x384 .f32) (harg22 : arg22.IsWhole) (arg23 : Memref sig .tc .vmem S21x32x384 .f32) (harg23 : arg23.IsWhole) (arg24 : Memref sig .tc .vmem S21x32x384 .f32) (harg24 : arg24.IsWhole) (arg25 : Memref sig .tc .vmem S21x32x384 .f32) (harg25 : arg25.IsWhole) (arg26 : Memref sig .tc .vmem S21x32x384 .f32) (harg26 : arg26.IsWhole) (arg27 : Memref sig .tc .vmem S75x32x384 .f32) (harg27 : arg27.IsWhole)
    (x0 : Vec F S4x384 .f32) (x1 x2 x3 x4 x5 x6 x7 x8 x9 x10 x11 x12 : Vec F S32x4x384 .f32) (x13 x14 x15 x16 x17 x18 x19 x20 x21 x22 x23 x24 : Vec F S21x32x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare (outBlock x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  exact View.read_writes_eq_canon _ _ _ (cover _ _ _ _ _ _ _ _ _ _ _ _ _ _ _)

end Cert.KernelIdeal.Body

end
-- ==== Proof.KIWin.lean ====
import proofs.«111137_g86517821215618_cont_9to1_m_1401_12_alg».proof.Proof.Gen.KernelIdeal.Launch
import proofs.«111137_g86517821215618_cont_9to1_m_1401_12_alg».proof.Proof.Gen.KernelIdeal.Points
import Idealize.ShloMosaic.Lib.ValueIdx
import proofs.«111137_g86517821215618_cont_9to1_m_1401_12_alg».proof.Proof.LibFill

set_option maxRecDepth 16384

noncomputable section

namespace Cert.KernelIdeal.Body

open Cert.KernelIdeal Cert.KernelIdeal.Gen
open Idealize.ShloMosaic Idealize.ShloMosaic.ValueIdx

/-! ## The windows' blocks over the grid

The grid is 1 × 23; point `t` takes lane block `t` of every array: lanes `384·t … 384·t + 383`, of which only those below
8732 are inside the array. So the transfer at point `t` moves `min 384 (8732 − 384·t)` lanes — all 384 but at the last
point, where it moves 284 — and every row of the other axes. -/

theorem win_facts_0 : ∀ t : Fin cfg0.N, win0_0.xsize (grid0.coords t) 1 = min 384 (8732 - 384 * t.val) ∧ win0_0.xsize (grid0.coords t) 0 = 4 ∧ win0_0.index t 1 = t.val ∧ win0_0.index t 0 = 0 :=
  (by decide +kernel : ∀ t : Fin grid0.N, win0_0.xsize (grid0.coords t) 1 = min 384 (8732 - 384 * t.val) ∧ win0_0.xsize (grid0.coords t) 0 = 4 ∧ win0_0.index t 1 = t.val ∧ win0_0.index t 0 = 0)
theorem win_facts_1 : ∀ t : Fin cfg0.N, win0_1.xsize (grid0.coords t) 2 = min 384 (8732 - 384 * t.val) ∧ win0_1.xsize (grid0.coords t) 0 = 32 ∧ win0_1.xsize (grid0.coords t) 1 = 4 ∧ win0_1.index t 2 = t.val ∧ win0_1.index t 0 = 0 ∧ win0_1.index t 1 = 0 :=
  (by decide +kernel : ∀ t : Fin grid0.N, win0_1.xsize (grid0.coords t) 2 = min 384 (8732 - 384 * t.val) ∧ win0_1.xsize (grid0.coords t) 0 = 32 ∧ win0_1.xsize (grid0.coords t) 1 = 4 ∧ win0_1.index t 2 = t.val ∧ win0_1.index t 0 = 0 ∧ win0_1.index t 1 = 0)
theorem win_facts_2 : ∀ t : Fin cfg0.N, win0_2.xsize (grid0.coords t) 2 = min 384 (8732 - 384 * t.val) ∧ win0_2.xsize (grid0.coords t) 0 = 32 ∧ win0_2.xsize (grid0.coords t) 1 = 4 ∧ win0_2.index t 2 = t.val ∧ win0_2.index t 0 = 0 ∧ win0_2.index t 1 = 0 :=
  (by decide +kernel : ∀ t : Fin grid0.N, win0_2.xsize (grid0.coords t) 2 = min 384 (8732 - 384 * t.val) ∧ win0_2.xsize (grid0.coords t) 0 = 32 ∧ win0_2.xsize (grid0.coords t) 1 = 4 ∧ win0_2.index t 2 = t.val ∧ win0_2.index t 0 = 0 ∧ win0_2.index t 1 = 0)
theorem win_facts_3 : ∀ t : Fin cfg0.N, win0_3.xsize (grid0.coords t) 2 = min 384 (8732 - 384 * t.val) ∧ win0_3.xsize (grid0.coords t) 0 = 32 ∧ win0_3.xsize (grid0.coords t) 1 = 4 ∧ win0_3.index t 2 = t.val ∧ win0_3.index t 0 = 0 ∧ win0_3.index t 1 = 0 :=
  (by decide +kernel : ∀ t : Fin grid0.N, win0_3.xsize (grid0.coords t) 2 = min 384 (8732 - 384 * t.val) ∧ win0_3.xsize (grid0.coords t) 0 = 32 ∧ win0_3.xsize (grid0.coords t) 1 = 4 ∧ win0_3.index t 2 = t.val ∧ win0_3.index t 0 = 0 ∧ win0_3.index t 1 = 0)
theorem win_facts_4 : ∀ t : Fin cfg0.N, win0_4.xsize (grid0.coords t) 2 = min 384 (8732 - 384 * t.val) ∧ win0_4.xsize (grid0.coords t) 0 = 32 ∧ win0_4.xsize (grid0.coords t) 1 = 4 ∧ win0_4.index t 2 = t.val ∧ win0_4.index t 0 = 0 ∧ win0_4.index t 1 = 0 :=
  (by decide +kernel : ∀ t : Fin grid0.N, win0_4.xsize (grid0.coords t) 2 = min 384 (8732 - 384 * t.val) ∧ win0_4.xsize (grid0.coords t) 0 = 32 ∧ win0_4.xsize (grid0.coords t) 1 = 4 ∧ win0_4.index t 2 = t.val ∧ win0_4.index t 0 = 0 ∧ win0_4.index t 1 = 0)
theorem win_facts_5 : ∀ t : Fin cfg0.N, win0_5.xsize (grid0.coords t) 2 = min 384 (8732 - 384 * t.val) ∧ win0_5.xsize (grid0.coords t) 0 = 32 ∧ win0_5.xsize (grid0.coords t) 1 = 4 ∧ win0_5.index t 2 = t.val ∧ win0_5.index t 0 = 0 ∧ win0_5.index t 1 = 0 :=
  (by decide +kernel : ∀ t : Fin grid0.N, win0_5.xsize (grid0.coords t) 2 = min 384 (8732 - 384 * t.val) ∧ win0_5.xsize (grid0.coords t) 0 = 32 ∧ win0_5.xsize (grid0.coords t) 1 = 4 ∧ win0_5.index t 2 = t.val ∧ win0_5.index t 0 = 0 ∧ win0_5.index t 1 = 0)
theorem win_facts_6 : ∀ t : Fin cfg0.N, win0_6.xsize (grid0.coords t) 2 = min 384 (8732 - 384 * t.val) ∧ win0_6.xsize (grid0.coords t) 0 = 32 ∧ win0_6.xsize (grid0.coords t) 1 = 4 ∧ win0_6.index t 2 = t.val ∧ win0_6.index t 0 = 0 ∧ win0_6.index t 1 = 0 :=
  (by decide +kernel : ∀ t : Fin grid0.N, win0_6.xsize (grid0.coords t) 2 = min 384 (8732 - 384 * t.val) ∧ win0_6.xsize (grid0.coords t) 0 = 32 ∧ win0_6.xsize (grid0.coords t) 1 = 4 ∧ win0_6.index t 2 = t.val ∧ win0_6.index t 0 = 0 ∧ win0_6.index t 1 = 0)
theorem win_facts_7 : ∀ t : Fin cfg0.N, win0_7.xsize (grid0.coords t) 2 = min 384 (8732 - 384 * t.val) ∧ win0_7.xsize (grid0.coords t) 0 = 32 ∧ win0_7.xsize (grid0.coords t) 1 = 4 ∧ win0_7.index t 2 = t.val ∧ win0_7.index t 0 = 0 ∧ win0_7.index t 1 = 0 :=
  (by decide +kernel : ∀ t : Fin grid0.N, win0_7.xsize (grid0.coords t) 2 = min 384 (8732 - 384 * t.val) ∧ win0_7.xsize (grid0.coords t) 0 = 32 ∧ win0_7.xsize (grid0.coords t) 1 = 4 ∧ win0_7.index t 2 = t.val ∧ win0_7.index t 0 = 0 ∧ win0_7.index t 1 = 0)
theorem win_facts_8 : ∀ t : Fin cfg0.N, win0_8.xsize (grid0.coords t) 2 = min 384 (8732 - 384 * t.val) ∧ win0_8.xsize (grid0.coords t) 0 = 32 ∧ win0_8.xsize (grid0.coords t) 1 = 4 ∧ win0_8.index t 2 = t.val ∧ win0_8.index t 0 = 0 ∧ win0_8.index t 1 = 0 :=
  (by decide +kernel : ∀ t : Fin grid0.N, win0_8.xsize (grid0.coords t) 2 = min 384 (8732 - 384 * t.val) ∧ win0_8.xsize (grid0.coords t) 0 = 32 ∧ win0_8.xsize (grid0.coords t) 1 = 4 ∧ win0_8.index t 2 = t.val ∧ win0_8.index t 0 = 0 ∧ win0_8.index t 1 = 0)
theorem win_facts_9 : ∀ t : Fin cfg0.N, win0_9.xsize (grid0.coords t) 2 = min 384 (8732 - 384 * t.val) ∧ win0_9.xsize (grid0.coords t) 0 = 32 ∧ win0_9.xsize (grid0.coords t) 1 = 4 ∧ win0_9.index t 2 = t.val ∧ win0_9.index t 0 = 0 ∧ win0_9.index t 1 = 0 :=
  (by decide +kernel : ∀ t : Fin grid0.N, win0_9.xsize (grid0.coords t) 2 = min 384 (8732 - 384 * t.val) ∧ win0_9.xsize (grid0.coords t) 0 = 32 ∧ win0_9.xsize (grid0.coords t) 1 = 4 ∧ win0_9.index t 2 = t.val ∧ win0_9.index t 0 = 0 ∧ win0_9.index t 1 = 0)
theorem win_facts_10 : ∀ t : Fin cfg0.N, win0_10.xsize (grid0.coords t) 2 = min 384 (8732 - 384 * t.val) ∧ win0_10.xsize (grid0.coords t) 0 = 32 ∧ win0_10.xsize (grid0.coords t) 1 = 4 ∧ win0_10.index t 2 = t.val ∧ win0_10.index t 0 = 0 ∧ win0_10.index t 1 = 0 :=
  (by decide +kernel : ∀ t : Fin grid0.N, win0_10.xsize (grid0.coords t) 2 = min 384 (8732 - 384 * t.val) ∧ win0_10.xsize (grid0.coords t) 0 = 32 ∧ win0_10.xsize (grid0.coords t) 1 = 4 ∧ win0_10.index t 2 = t.val ∧ win0_10.index t 0 = 0 ∧ win0_10.index t 1 = 0)
theorem win_facts_11 : ∀ t : Fin cfg0.N, win0_11.xsize (grid0.coords t) 2 = min 384 (8732 - 384 * t.val) ∧ win0_11.xsize (grid0.coords t) 0 = 32 ∧ win0_11.xsize (grid0.coords t) 1 = 4 ∧ win0_11.index t 2 = t.val ∧ win0_11.index t 0 = 0 ∧ win0_11.index t 1 = 0 :=
  (by decide +kernel : ∀ t : Fin grid0.N, win0_11.xsize (grid0.coords t) 2 = min 384 (8732 - 384 * t.val) ∧ win0_11.xsize (grid0.coords t) 0 = 32 ∧ win0_11.xsize (grid0.coords t) 1 = 4 ∧ win0_11.index t 2 = t.val ∧ win0_11.index t 0 = 0 ∧ win0_11.index t 1 = 0)
theorem win_facts_12 : ∀ t : Fin cfg0.N, win0_12.xsize (grid0.coords t) 2 = min 384 (8732 - 384 * t.val) ∧ win0_12.xsize (grid0.coords t) 0 = 32 ∧ win0_12.xsize (grid0.coords t) 1 = 4 ∧ win0_12.index t 2 = t.val ∧ win0_12.index t 0 = 0 ∧ win0_12.index t 1 = 0 :=
  (by decide +kernel : ∀ t : Fin grid0.N, win0_12.xsize (grid0.coords t) 2 = min 384 (8732 - 384 * t.val) ∧ win0_12.xsize (grid0.coords t) 0 = 32 ∧ win0_12.xsize (grid0.coords t) 1 = 4 ∧ win0_12.index t 2 = t.val ∧ win0_12.index t 0 = 0 ∧ win0_12.index t 1 = 0)
theorem win_facts_13 : ∀ t : Fin cfg0.N, win0_13.xsize (grid0.coords t) 2 = min 384 (8732 - 384 * t.val) ∧ win0_13.xsize (grid0.coords t) 0 = 21 ∧ win0_13.xsize (grid0.coords t) 1 = 32 ∧ win0_13.index t 2 = t.val ∧ win0_13.index t 0 = 0 ∧ win0_13.index t 1 = 0 :=
  (by decide +kernel : ∀ t : Fin grid0.N, win0_13.xsize (grid0.coords t) 2 = min 384 (8732 - 384 * t.val) ∧ win0_13.xsize (grid0.coords t) 0 = 21 ∧ win0_13.xsize (grid0.coords t) 1 = 32 ∧ win0_13.index t 2 = t.val ∧ win0_13.index t 0 = 0 ∧ win0_13.index t 1 = 0)
theorem win_facts_14 : ∀ t : Fin cfg0.N, win0_14.xsize (grid0.coords t) 2 = min 384 (8732 - 384 * t.val) ∧ win0_14.xsize (grid0.coords t) 0 = 21 ∧ win0_14.xsize (grid0.coords t) 1 = 32 ∧ win0_14.index t 2 = t.val ∧ win0_14.index t 0 = 0 ∧ win0_14.index t 1 = 0 :=
  (by decide +kernel : ∀ t : Fin grid0.N, win0_14.xsize (grid0.coords t) 2 = min 384 (8732 - 384 * t.val) ∧ win0_14.xsize (grid0.coords t) 0 = 21 ∧ win0_14.xsize (grid0.coords t) 1 = 32 ∧ win0_14.index t 2 = t.val ∧ win0_14.index t 0 = 0 ∧ win0_14.index t 1 = 0)
theorem win_facts_15 : ∀ t : Fin cfg0.N, win0_15.xsize (grid0.coords t) 2 = min 384 (8732 - 384 * t.val) ∧ win0_15.xsize (grid0.coords t) 0 = 21 ∧ win0_15.xsize (grid0.coords t) 1 = 32 ∧ win0_15.index t 2 = t.val ∧ win0_15.index t 0 = 0 ∧ win0_15.index t 1 = 0 :=
  (by decide +kernel : ∀ t : Fin grid0.N, win0_15.xsize (grid0.coords t) 2 = min 384 (8732 - 384 * t.val) ∧ win0_15.xsize (grid0.coords t) 0 = 21 ∧ win0_15.xsize (grid0.coords t) 1 = 32 ∧ win0_15.index t 2 = t.val ∧ win0_15.index t 0 = 0 ∧ win0_15.index t 1 = 0)
theorem win_facts_16 : ∀ t : Fin cfg0.N, win0_16.xsize (grid0.coords t) 2 = min 384 (8732 - 384 * t.val) ∧ win0_16.xsize (grid0.coords t) 0 = 21 ∧ win0_16.xsize (grid0.coords t) 1 = 32 ∧ win0_16.index t 2 = t.val ∧ win0_16.index t 0 = 0 ∧ win0_16.index t 1 = 0 :=
  (by decide +kernel : ∀ t : Fin grid0.N, win0_16.xsize (grid0.coords t) 2 = min 384 (8732 - 384 * t.val) ∧ win0_16.xsize (grid0.coords t) 0 = 21 ∧ win0_16.xsize (grid0.coords t) 1 = 32 ∧ win0_16.index t 2 = t.val ∧ win0_16.index t 0 = 0 ∧ win0_16.index t 1 = 0)
theorem win_facts_17 : ∀ t : Fin cfg0.N, win0_17.xsize (grid0.coords t) 2 = min 384 (8732 - 384 * t.val) ∧ win0_17.xsize (grid0.coords t) 0 = 21 ∧ win0_17.xsize (grid0.coords t) 1 = 32 ∧ win0_17.index t 2 = t.val ∧ win0_17.index t 0 = 0 ∧ win0_17.index t 1 = 0 :=
  (by decide +kernel : ∀ t : Fin grid0.N, win0_17.xsize (grid0.coords t) 2 = min 384 (8732 - 384 * t.val) ∧ win0_17.xsize (grid0.coords t) 0 = 21 ∧ win0_17.xsize (grid0.coords t) 1 = 32 ∧ win0_17.index t 2 = t.val ∧ win0_17.index t 0 = 0 ∧ win0_17.index t 1 = 0)
theorem win_facts_18 : ∀ t : Fin cfg0.N, win0_18.xsize (grid0.coords t) 2 = min 384 (8732 - 384 * t.val) ∧ win0_18.xsize (grid0.coords t) 0 = 21 ∧ win0_18.xsize (grid0.coords t) 1 = 32 ∧ win0_18.index t 2 = t.val ∧ win0_18.index t 0 = 0 ∧ win0_18.index t 1 = 0 :=
  (by decide +kernel : ∀ t : Fin grid0.N, win0_18.xsize (grid0.coords t) 2 = min 384 (8732 - 384 * t.val) ∧ win0_18.xsize (grid0.coords t) 0 = 21 ∧ win0_18.xsize (grid0.coords t) 1 = 32 ∧ win0_18.index t 2 = t.val ∧ win0_18.index t 0 = 0 ∧ win0_18.index t 1 = 0)
theorem win_facts_19 : ∀ t : Fin cfg0.N, win0_19.xsize (grid0.coords t) 2 = min 384 (8732 - 384 * t.val) ∧ win0_19.xsize (grid0.coords t) 0 = 21 ∧ win0_19.xsize (grid0.coords t) 1 = 32 ∧ win0_19.index t 2 = t.val ∧ win0_19.index t 0 = 0 ∧ win0_19.index t 1 = 0 :=
  (by decide +kernel : ∀ t : Fin grid0.N, win0_19.xsize (grid0.coords t) 2 = min 384 (8732 - 384 * t.val) ∧ win0_19.xsize (grid0.coords t) 0 = 21 ∧ win0_19.xsize (grid0.coords t) 1 = 32 ∧ win0_19.index t 2 = t.val ∧ win0_19.index t 0 = 0 ∧ win0_19.index t 1 = 0)
theorem win_facts_20 : ∀ t : Fin cfg0.N, win0_20.xsize (grid0.coords t) 2 = min 384 (8732 - 384 * t.val) ∧ win0_20.xsize (grid0.coords t) 0 = 21 ∧ win0_20.xsize (grid0.coords t) 1 = 32 ∧ win0_20.index t 2 = t.val ∧ win0_20.index t 0 = 0 ∧ win0_20.index t 1 = 0 :=
  (by decide +kernel : ∀ t : Fin grid0.N, win0_20.xsize (grid0.coords t) 2 = min 384 (8732 - 384 * t.val) ∧ win0_20.xsize (grid0.coords t) 0 = 21 ∧ win0_20.xsize (grid0.coords t) 1 = 32 ∧ win0_20.index t 2 = t.val ∧ win0_20.index t 0 = 0 ∧ win0_20.index t 1 = 0)
theorem win_facts_21 : ∀ t : Fin cfg0.N, win0_21.xsize (grid0.coords t) 2 = min 384 (8732 - 384 * t.val) ∧ win0_21.xsize (grid0.coords t) 0 = 21 ∧ win0_21.xsize (grid0.coords t) 1 = 32 ∧ win0_21.index t 2 = t.val ∧ win0_21.index t 0 = 0 ∧ win0_21.index t 1 = 0 :=
  (by decide +kernel : ∀ t : Fin grid0.N, win0_21.xsize (grid0.coords t) 2 = min 384 (8732 - 384 * t.val) ∧ win0_21.xsize (grid0.coords t) 0 = 21 ∧ win0_21.xsize (grid0.coords t) 1 = 32 ∧ win0_21.index t 2 = t.val ∧ win0_21.index t 0 = 0 ∧ win0_21.index t 1 = 0)
theorem win_facts_22 : ∀ t : Fin cfg0.N, win0_22.xsize (grid0.coords t) 2 = min 384 (8732 - 384 * t.val) ∧ win0_22.xsize (grid0.coords t) 0 = 21 ∧ win0_22.xsize (grid0.coords t) 1 = 32 ∧ win0_22.index t 2 = t.val ∧ win0_22.index t 0 = 0 ∧ win0_22.index t 1 = 0 :=
  (by decide +kernel : ∀ t : Fin grid0.N, win0_22.xsize (grid0.coords t) 2 = min 384 (8732 - 384 * t.val) ∧ win0_22.xsize (grid0.coords t) 0 = 21 ∧ win0_22.xsize (grid0.coords t) 1 = 32 ∧ win0_22.index t 2 = t.val ∧ win0_22.index t 0 = 0 ∧ win0_22.index t 1 = 0)
theorem win_facts_23 : ∀ t : Fin cfg0.N, win0_23.xsize (grid0.coords t) 2 = min 384 (8732 - 384 * t.val) ∧ win0_23.xsize (grid0.coords t) 0 = 21 ∧ win0_23.xsize (grid0.coords t) 1 = 32 ∧ win0_23.index t 2 = t.val ∧ win0_23.index t 0 = 0 ∧ win0_23.index t 1 = 0 :=
  (by decide +kernel : ∀ t : Fin grid0.N, win0_23.xsize (grid0.coords t) 2 = min 384 (8732 - 384 * t.val) ∧ win0_23.xsize (grid0.coords t) 0 = 21 ∧ win0_23.xsize (grid0.coords t) 1 = 32 ∧ win0_23.index t 2 = t.val ∧ win0_23.index t 0 = 0 ∧ win0_23.index t 1 = 0)
theorem win_facts_24 : ∀ t : Fin cfg0.N, win0_24.xsize (grid0.coords t) 2 = min 384 (8732 - 384 * t.val) ∧ win0_24.xsize (grid0.coords t) 0 = 21 ∧ win0_24.xsize (grid0.coords t) 1 = 32 ∧ win0_24.index t 2 = t.val ∧ win0_24.index t 0 = 0 ∧ win0_24.index t 1 = 0 :=
  (by decide +kernel : ∀ t : Fin grid0.N, win0_24.xsize (grid0.coords t) 2 = min 384 (8732 - 384 * t.val) ∧ win0_24.xsize (grid0.coords t) 0 = 21 ∧ win0_24.xsize (grid0.coords t) 1 = 32 ∧ win0_24.index t 2 = t.val ∧ win0_24.index t 0 = 0 ∧ win0_24.index t 1 = 0)
theorem win_facts_25 : ∀ t : Fin cfg0.N, win0_25.xsize (grid0.coords t) 2 = min 384 (8732 - 384 * t.val) ∧ win0_25.xsize (grid0.coords t) 0 = 75 ∧ win0_25.xsize (grid0.coords t) 1 = 32 ∧ win0_25.index t 2 = t.val ∧ win0_25.index t 0 = 0 ∧ win0_25.index t 1 = 0 :=
  (by decide +kernel : ∀ t : Fin grid0.N, win0_25.xsize (grid0.coords t) 2 = min 384 (8732 - 384 * t.val) ∧ win0_25.xsize (grid0.coords t) 0 = 75 ∧ win0_25.xsize (grid0.coords t) 1 = 32 ∧ win0_25.index t 2 = t.val ∧ win0_25.index t 0 = 0 ∧ win0_25.index t 1 = 0)

export Cert.LibFill (fill_eq_of_moved fill_of_moved)

/-! A lane inside the array lies in the part of each block the transfer moves. -/

theorem moved_0 (t : Fin cfg0.N) (a : Fin 4) (l : Fin 384) (hl : l.val < min 384 (8732 - 384 * t.val)) :
    (cfg0.win 0).moved (cfg0.grid.coords t) (ix2 a l) = true := by
  obtain ⟨h1, h0, -, -⟩ := win_facts_0 t
  refine ((cfg0.win 0).moved_iff _ _).mpr fun ax => ?_
  match ax with
  | ⟨0, _⟩ => show a.val < win0_0.xsize (grid0.coords t) 0; rw [h0]; exact a.isLt
  | ⟨1, _⟩ => show l.val < win0_0.xsize (grid0.coords t) 1; rw [h1]; exact hl
theorem moved_1 (t : Fin cfg0.N) (a : Fin 32) (b : Fin 4) (l : Fin 384) (hl : l.val < min 384 (8732 - 384 * t.val)) :
    (cfg0.win 1).moved (cfg0.grid.coords t) (ix3 a b l) = true := by
  obtain ⟨h2, h0, h1, -, -, -⟩ := win_facts_1 t
  refine ((cfg0.win 1).moved_iff _ _).mpr fun ax => ?_
  match ax with
  | ⟨0, _⟩ => show a.val < win0_1.xsize (grid0.coords t) 0; rw [h0]; exact a.isLt
  | ⟨1, _⟩ => show b.val < win0_1.xsize (grid0.coords t) 1; rw [h1]; exact b.isLt
  | ⟨2, _⟩ => show l.val < win0_1.xsize (grid0.coords t) 2; rw [h2]; exact hl
theorem moved_2 (t : Fin cfg0.N) (a : Fin 32) (b : Fin 4) (l : Fin 384) (hl : l.val < min 384 (8732 - 384 * t.val)) :
    (cfg0.win 2).moved (cfg0.grid.coords t) (ix3 a b l) = true := by
  obtain ⟨h2, h0, h1, -, -, -⟩ := win_facts_2 t
  refine ((cfg0.win 2).moved_iff _ _).mpr fun ax => ?_
  match ax with
  | ⟨0, _⟩ => show a.val < win0_2.xsize (grid0.coords t) 0; rw [h0]; exact a.isLt
  | ⟨1, _⟩ => show b.val < win0_2.xsize (grid0.coords t) 1; rw [h1]; exact b.isLt
  | ⟨2, _⟩ => show l.val < win0_2.xsize (grid0.coords t) 2; rw [h2]; exact hl
theorem moved_3 (t : Fin cfg0.N) (a : Fin 32) (b : Fin 4) (l : Fin 384) (hl : l.val < min 384 (8732 - 384 * t.val)) :
    (cfg0.win 3).moved (cfg0.grid.coords t) (ix3 a b l) = true := by
  obtain ⟨h2, h0, h1, -, -, -⟩ := win_facts_3 t
  refine ((cfg0.win 3).moved_iff _ _).mpr fun ax => ?_
  match ax with
  | ⟨0, _⟩ => show a.val < win0_3.xsize (grid0.coords t) 0; rw [h0]; exact a.isLt
  | ⟨1, _⟩ => show b.val < win0_3.xsize (grid0.coords t) 1; rw [h1]; exact b.isLt
  | ⟨2, _⟩ => show l.val < win0_3.xsize (grid0.coords t) 2; rw [h2]; exact hl
theorem moved_4 (t : Fin cfg0.N) (a : Fin 32) (b : Fin 4) (l : Fin 384) (hl : l.val < min 384 (8732 - 384 * t.val)) :
    (cfg0.win 4).moved (cfg0.grid.coords t) (ix3 a b l) = true := by
  obtain ⟨h2, h0, h1, -, -, -⟩ := win_facts_4 t
  refine ((cfg0.win 4).moved_iff _ _).mpr fun ax => ?_
  match ax with
  | ⟨0, _⟩ => show a.val < win0_4.xsize (grid0.coords t) 0; rw [h0]; exact a.isLt
  | ⟨1, _⟩ => show b.val < win0_4.xsize (grid0.coords t) 1; rw [h1]; exact b.isLt
  | ⟨2, _⟩ => show l.val < win0_4.xsize (grid0.coords t) 2; rw [h2]; exact hl
theorem moved_5 (t : Fin cfg0.N) (a : Fin 32) (b : Fin 4) (l : Fin 384) (hl : l.val < min 384 (8732 - 384 * t.val)) :
    (cfg0.win 5).moved (cfg0.grid.coords t) (ix3 a b l) = true := by
  obtain ⟨h2, h0, h1, -, -, -⟩ := win_facts_5 t
  refine ((cfg0.win 5).moved_iff _ _).mpr fun ax => ?_
  match ax with
  | ⟨0, _⟩ => show a.val < win0_5.xsize (grid0.coords t) 0; rw [h0]; exact a.isLt
  | ⟨1, _⟩ => show b.val < win0_5.xsize (grid0.coords t) 1; rw [h1]; exact b.isLt
  | ⟨2, _⟩ => show l.val < win0_5.xsize (grid0.coords t) 2; rw [h2]; exact hl
theorem moved_6 (t : Fin cfg0.N) (a : Fin 32) (b : Fin 4) (l : Fin 384) (hl : l.val < min 384 (8732 - 384 * t.val)) :
    (cfg0.win 6).moved (cfg0.grid.coords t) (ix3 a b l) = true := by
  obtain ⟨h2, h0, h1, -, -, -⟩ := win_facts_6 t
  refine ((cfg0.win 6).moved_iff _ _).mpr fun ax => ?_
  match ax with
  | ⟨0, _⟩ => show a.val < win0_6.xsize (grid0.coords t) 0; rw [h0]; exact a.isLt
  | ⟨1, _⟩ => show b.val < win0_6.xsize (grid0.coords t) 1; rw [h1]; exact b.isLt
  | ⟨2, _⟩ => show l.val < win0_6.xsize (grid0.coords t) 2; rw [h2]; exact hl
theorem moved_7 (t : Fin cfg0.N) (a : Fin 32) (b : Fin 4) (l : Fin 384) (hl : l.val < min 384 (8732 - 384 * t.val)) :
    (cfg0.win 7).moved (cfg0.grid.coords t) (ix3 a b l) = true := by
  obtain ⟨h2, h0, h1, -, -, -⟩ := win_facts_7 t
  refine ((cfg0.win 7).moved_iff _ _).mpr fun ax => ?_
  match ax with
  | ⟨0, _⟩ => show a.val < win0_7.xsize (grid0.coords t) 0; rw [h0]; exact a.isLt
  | ⟨1, _⟩ => show b.val < win0_7.xsize (grid0.coords t) 1; rw [h1]; exact b.isLt
  | ⟨2, _⟩ => show l.val < win0_7.xsize (grid0.coords t) 2; rw [h2]; exact hl
theorem moved_8 (t : Fin cfg0.N) (a : Fin 32) (b : Fin 4) (l : Fin 384) (hl : l.val < min 384 (8732 - 384 * t.val)) :
    (cfg0.win 8).moved (cfg0.grid.coords t) (ix3 a b l) = true := by
  obtain ⟨h2, h0, h1, -, -, -⟩ := win_facts_8 t
  refine ((cfg0.win 8).moved_iff _ _).mpr fun ax => ?_
  match ax with
  | ⟨0, _⟩ => show a.val < win0_8.xsize (grid0.coords t) 0; rw [h0]; exact a.isLt
  | ⟨1, _⟩ => show b.val < win0_8.xsize (grid0.coords t) 1; rw [h1]; exact b.isLt
  | ⟨2, _⟩ => show l.val < win0_8.xsize (grid0.coords t) 2; rw [h2]; exact hl
theorem moved_9 (t : Fin cfg0.N) (a : Fin 32) (b : Fin 4) (l : Fin 384) (hl : l.val < min 384 (8732 - 384 * t.val)) :
    (cfg0.win 9).moved (cfg0.grid.coords t) (ix3 a b l) = true := by
  obtain ⟨h2, h0, h1, -, -, -⟩ := win_facts_9 t
  refine ((cfg0.win 9).moved_iff _ _).mpr fun ax => ?_
  match ax with
  | ⟨0, _⟩ => show a.val < win0_9.xsize (grid0.coords t) 0; rw [h0]; exact a.isLt
  | ⟨1, _⟩ => show b.val < win0_9.xsize (grid0.coords t) 1; rw [h1]; exact b.isLt
  | ⟨2, _⟩ => show l.val < win0_9.xsize (grid0.coords t) 2; rw [h2]; exact hl
theorem moved_10 (t : Fin cfg0.N) (a : Fin 32) (b : Fin 4) (l : Fin 384) (hl : l.val < min 384 (8732 - 384 * t.val)) :
    (cfg0.win 10).moved (cfg0.grid.coords t) (ix3 a b l) = true := by
  obtain ⟨h2, h0, h1, -, -, -⟩ := win_facts_10 t
  refine ((cfg0.win 10).moved_iff _ _).mpr fun ax => ?_
  match ax with
  | ⟨0, _⟩ => show a.val < win0_10.xsize (grid0.coords t) 0; rw [h0]; exact a.isLt
  | ⟨1, _⟩ => show b.val < win0_10.xsize (grid0.coords t) 1; rw [h1]; exact b.isLt
  | ⟨2, _⟩ => show l.val < win0_10.xsize (grid0.coords t) 2; rw [h2]; exact hl
theorem moved_11 (t : Fin cfg0.N) (a : Fin 32) (b : Fin 4) (l : Fin 384) (hl : l.val < min 384 (8732 - 384 * t.val)) :
    (cfg0.win 11).moved (cfg0.grid.coords t) (ix3 a b l) = true := by
  obtain ⟨h2, h0, h1, -, -, -⟩ := win_facts_11 t
  refine ((cfg0.win 11).moved_iff _ _).mpr fun ax => ?_
  match ax with
  | ⟨0, _⟩ => show a.val < win0_11.xsize (grid0.coords t) 0; rw [h0]; exact a.isLt
  | ⟨1, _⟩ => show b.val < win0_11.xsize (grid0.coords t) 1; rw [h1]; exact b.isLt
  | ⟨2, _⟩ => show l.val < win0_11.xsize (grid0.coords t) 2; rw [h2]; exact hl
theorem moved_12 (t : Fin cfg0.N) (a : Fin 32) (b : Fin 4) (l : Fin 384) (hl : l.val < min 384 (8732 - 384 * t.val)) :
    (cfg0.win 12).moved (cfg0.grid.coords t) (ix3 a b l) = true := by
  obtain ⟨h2, h0, h1, -, -, -⟩ := win_facts_12 t
  refine ((cfg0.win 12).moved_iff _ _).mpr fun ax => ?_
  match ax with
  | ⟨0, _⟩ => show a.val < win0_12.xsize (grid0.coords t) 0; rw [h0]; exact a.isLt
  | ⟨1, _⟩ => show b.val < win0_12.xsize (grid0.coords t) 1; rw [h1]; exact b.isLt
  | ⟨2, _⟩ => show l.val < win0_12.xsize (grid0.coords t) 2; rw [h2]; exact hl
theorem moved_13 (t : Fin cfg0.N) (a : Fin 21) (b : Fin 32) (l : Fin 384) (hl : l.val < min 384 (8732 - 384 * t.val)) :
    (cfg0.win 13).moved (cfg0.grid.coords t) (ix3 a b l) = true := by
  obtain ⟨h2, h0, h1, -, -, -⟩ := win_facts_13 t
  refine ((cfg0.win 13).moved_iff _ _).mpr fun ax => ?_
  match ax with
  | ⟨0, _⟩ => show a.val < win0_13.xsize (grid0.coords t) 0; rw [h0]; exact a.isLt
  | ⟨1, _⟩ => show b.val < win0_13.xsize (grid0.coords t) 1; rw [h1]; exact b.isLt
  | ⟨2, _⟩ => show l.val < win0_13.xsize (grid0.coords t) 2; rw [h2]; exact hl
theorem moved_14 (t : Fin cfg0.N) (a : Fin 21) (b : Fin 32) (l : Fin 384) (hl : l.val < min 384 (8732 - 384 * t.val)) :
    (cfg0.win 14).moved (cfg0.grid.coords t) (ix3 a b l) = true := by
  obtain ⟨h2, h0, h1, -, -, -⟩ := win_facts_14 t
  refine ((cfg0.win 14).moved_iff _ _).mpr fun ax => ?_
  match ax with
  | ⟨0, _⟩ => show a.val < win0_14.xsize (grid0.coords t) 0; rw [h0]; exact a.isLt
  | ⟨1, _⟩ => show b.val < win0_14.xsize (grid0.coords t) 1; rw [h1]; exact b.isLt
  | ⟨2, _⟩ => show l.val < win0_14.xsize (grid0.coords t) 2; rw [h2]; exact hl
theorem moved_15 (t : Fin cfg0.N) (a : Fin 21) (b : Fin 32) (l : Fin 384) (hl : l.val < min 384 (8732 - 384 * t.val)) :
    (cfg0.win 15).moved (cfg0.grid.coords t) (ix3 a b l) = true := by
  obtain ⟨h2, h0, h1, -, -, -⟩ := win_facts_15 t
  refine ((cfg0.win 15).moved_iff _ _).mpr fun ax => ?_
  match ax with
  | ⟨0, _⟩ => show a.val < win0_15.xsize (grid0.coords t) 0; rw [h0]; exact a.isLt
  | ⟨1, _⟩ => show b.val < win0_15.xsize (grid0.coords t) 1; rw [h1]; exact b.isLt
  | ⟨2, _⟩ => show l.val < win0_15.xsize (grid0.coords t) 2; rw [h2]; exact hl
theorem moved_16 (t : Fin cfg0.N) (a : Fin 21) (b : Fin 32) (l : Fin 384) (hl : l.val < min 384 (8732 - 384 * t.val)) :
    (cfg0.win 16).moved (cfg0.grid.coords t) (ix3 a b l) = true := by
  obtain ⟨h2, h0, h1, -, -, -⟩ := win_facts_16 t
  refine ((cfg0.win 16).moved_iff _ _).mpr fun ax => ?_
  match ax with
  | ⟨0, _⟩ => show a.val < win0_16.xsize (grid0.coords t) 0; rw [h0]; exact a.isLt
  | ⟨1, _⟩ => show b.val < win0_16.xsize (grid0.coords t) 1; rw [h1]; exact b.isLt
  | ⟨2, _⟩ => show l.val < win0_16.xsize (grid0.coords t) 2; rw [h2]; exact hl
theorem moved_17 (t : Fin cfg0.N) (a : Fin 21) (b : Fin 32) (l : Fin 384) (hl : l.val < min 384 (8732 - 384 * t.val)) :
    (cfg0.win 17).moved (cfg0.grid.coords t) (ix3 a b l) = true := by
  obtain ⟨h2, h0, h1, -, -, -⟩ := win_facts_17 t
  refine ((cfg0.win 17).moved_iff _ _).mpr fun ax => ?_
  match ax with
  | ⟨0, _⟩ => show a.val < win0_17.xsize (grid0.coords t) 0; rw [h0]; exact a.isLt
  | ⟨1, _⟩ => show b.val < win0_17.xsize (grid0.coords t) 1; rw [h1]; exact b.isLt
  | ⟨2, _⟩ => show l.val < win0_17.xsize (grid0.coords t) 2; rw [h2]; exact hl
theorem moved_18 (t : Fin cfg0.N) (a : Fin 21) (b : Fin 32) (l : Fin 384) (hl : l.val < min 384 (8732 - 384 * t.val)) :
    (cfg0.win 18).moved (cfg0.grid.coords t) (ix3 a b l) = true := by
  obtain ⟨h2, h0, h1, -, -, -⟩ := win_facts_18 t
  refine ((cfg0.win 18).moved_iff _ _).mpr fun ax => ?_
  match ax with
  | ⟨0, _⟩ => show a.val < win0_18.xsize (grid0.coords t) 0; rw [h0]; exact a.isLt
  | ⟨1, _⟩ => show b.val < win0_18.xsize (grid0.coords t) 1; rw [h1]; exact b.isLt
  | ⟨2, _⟩ => show l.val < win0_18.xsize (grid0.coords t) 2; rw [h2]; exact hl
theorem moved_19 (t : Fin cfg0.N) (a : Fin 21) (b : Fin 32) (l : Fin 384) (hl : l.val < min 384 (8732 - 384 * t.val)) :
    (cfg0.win 19).moved (cfg0.grid.coords t) (ix3 a b l) = true := by
  obtain ⟨h2, h0, h1, -, -, -⟩ := win_facts_19 t
  refine ((cfg0.win 19).moved_iff _ _).mpr fun ax => ?_
  match ax with
  | ⟨0, _⟩ => show a.val < win0_19.xsize (grid0.coords t) 0; rw [h0]; exact a.isLt
  | ⟨1, _⟩ => show b.val < win0_19.xsize (grid0.coords t) 1; rw [h1]; exact b.isLt
  | ⟨2, _⟩ => show l.val < win0_19.xsize (grid0.coords t) 2; rw [h2]; exact hl
theorem moved_20 (t : Fin cfg0.N) (a : Fin 21) (b : Fin 32) (l : Fin 384) (hl : l.val < min 384 (8732 - 384 * t.val)) :
    (cfg0.win 20).moved (cfg0.grid.coords t) (ix3 a b l) = true := by
  obtain ⟨h2, h0, h1, -, -, -⟩ := win_facts_20 t
  refine ((cfg0.win 20).moved_iff _ _).mpr fun ax => ?_
  match ax with
  | ⟨0, _⟩ => show a.val < win0_20.xsize (grid0.coords t) 0; rw [h0]; exact a.isLt
  | ⟨1, _⟩ => show b.val < win0_20.xsize (grid0.coords t) 1; rw [h1]; exact b.isLt
  | ⟨2, _⟩ => show l.val < win0_20.xsize (grid0.coords t) 2; rw [h2]; exact hl
theorem moved_21 (t : Fin cfg0.N) (a : Fin 21) (b : Fin 32) (l : Fin 384) (hl : l.val < min 384 (8732 - 384 * t.val)) :
    (cfg0.win 21).moved (cfg0.grid.coords t) (ix3 a b l) = true := by
  obtain ⟨h2, h0, h1, -, -, -⟩ := win_facts_21 t
  refine ((cfg0.win 21).moved_iff _ _).mpr fun ax => ?_
  match ax with
  | ⟨0, _⟩ => show a.val < win0_21.xsize (grid0.coords t) 0; rw [h0]; exact a.isLt
  | ⟨1, _⟩ => show b.val < win0_21.xsize (grid0.coords t) 1; rw [h1]; exact b.isLt
  | ⟨2, _⟩ => show l.val < win0_21.xsize (grid0.coords t) 2; rw [h2]; exact hl
theorem moved_22 (t : Fin cfg0.N) (a : Fin 21) (b : Fin 32) (l : Fin 384) (hl : l.val < min 384 (8732 - 384 * t.val)) :
    (cfg0.win 22).moved (cfg0.grid.coords t) (ix3 a b l) = true := by
  obtain ⟨h2, h0, h1, -, -, -⟩ := win_facts_22 t
  refine ((cfg0.win 22).moved_iff _ _).mpr fun ax => ?_
  match ax with
  | ⟨0, _⟩ => show a.val < win0_22.xsize (grid0.coords t) 0; rw [h0]; exact a.isLt
  | ⟨1, _⟩ => show b.val < win0_22.xsize (grid0.coords t) 1; rw [h1]; exact b.isLt
  | ⟨2, _⟩ => show l.val < win0_22.xsize (grid0.coords t) 2; rw [h2]; exact hl
theorem moved_23 (t : Fin cfg0.N) (a : Fin 21) (b : Fin 32) (l : Fin 384) (hl : l.val < min 384 (8732 - 384 * t.val)) :
    (cfg0.win 23).moved (cfg0.grid.coords t) (ix3 a b l) = true := by
  obtain ⟨h2, h0, h1, -, -, -⟩ := win_facts_23 t
  refine ((cfg0.win 23).moved_iff _ _).mpr fun ax => ?_
  match ax with
  | ⟨0, _⟩ => show a.val < win0_23.xsize (grid0.coords t) 0; rw [h0]; exact a.isLt
  | ⟨1, _⟩ => show b.val < win0_23.xsize (grid0.coords t) 1; rw [h1]; exact b.isLt
  | ⟨2, _⟩ => show l.val < win0_23.xsize (grid0.coords t) 2; rw [h2]; exact hl
theorem moved_24 (t : Fin cfg0.N) (a : Fin 21) (b : Fin 32) (l : Fin 384) (hl : l.val < min 384 (8732 - 384 * t.val)) :
    (cfg0.win 24).moved (cfg0.grid.coords t) (ix3 a b l) = true := by
  obtain ⟨h2, h0, h1, -, -, -⟩ := win_facts_24 t
  refine ((cfg0.win 24).moved_iff _ _).mpr fun ax => ?_
  match ax with
  | ⟨0, _⟩ => show a.val < win0_24.xsize (grid0.coords t) 0; rw [h0]; exact a.isLt
  | ⟨1, _⟩ => show b.val < win0_24.xsize (grid0.coords t) 1; rw [h1]; exact b.isLt
  | ⟨2, _⟩ => show l.val < win0_24.xsize (grid0.coords t) 2; rw [h2]; exact hl
theorem moved_25 (t : Fin cfg0.N) (a : Fin 75) (b : Fin 32) (l : Fin 384) (hl : l.val < min 384 (8732 - 384 * t.val)) :
    (cfg0.win 25).moved (cfg0.grid.coords t) (ix3 a b l) = true := by
  obtain ⟨h2, h0, h1, -, -, -⟩ := win_facts_25 t
  refine ((cfg0.win 25).moved_iff _ _).mpr fun ax => ?_
  match ax with
  | ⟨0, _⟩ => show a.val < win0_25.xsize (grid0.coords t) 0; rw [h0]; exact a.isLt
  | ⟨1, _⟩ => show b.val < win0_25.xsize (grid0.coords t) 1; rw [h1]; exact b.isLt
  | ⟨2, _⟩ => show l.val < win0_25.xsize (grid0.coords t) 2; rw [h2]; exact hl

end Cert.KernelIdeal.Body

end
-- ==== Proof.KIEntries.lean ====
/-
  The output block of the kernel body, entry by entry, for any float arithmetic.

  The body never mixes the lane axis (the last one, 384 wide) nor the image axis: every operation acts pointwise or re-lays
  the four-component axis. So what it leaves at row `r`, image `b`, lane `l` of the 75 × 32 × 384 output block depends only on
  the 25 input blocks' values at that image and lane — the priors' four components at lane `l`, each localisation head's
  four components at `(b, ·, l)`, each class head's 21 classes at `(·, b, l)` — and is channel `r` of `Cert.Gmm.entryOfF` of
  those values (`outBlock_apply`).

  The steps. (1) The re-layings read at an index: the roll by two along the component axis, written as components 2, 3
  followed by components 0, 1, reads component `c + 2 mod 4`; one component taken out as a 1 × 32 × 384 row; a 4 × 384 block
  repeated over the 32 images; the select on "component below two". (2) The fused means and the aleatoric and epistemic
  terms are pointwise, hence `mean4F` / `dev4F` of the operands at the same index. (3) The decoded extent, centre and
  corners at a component: the roll pairs component `c` with `c + 2`, so components 0, 1 hold the low corners and, after
  the roll back, components 2, 3 the high corners. (4) The fifteen stores — twelve single rows and three bands of 21
  rows — each hold a block of rows of ONE function of the output index, and they cover the block, so they leave that
  function.
-/
import proofs.«111137_g86517821215618_cont_9to1_m_1401_12_alg».proof.Proof.KIBlock
import proofs.«111137_g86517821215618_cont_9to1_m_1401_12_alg».proof.Proof.Fibre
import Idealize.ShloMosaic.Lib.ValueIdx
import Idealize.ShloMosaic.Lib.ValueLayout
import Idealize.ShloMosaic.Lib.Pipeline.Value

set_option maxRecDepth 16384

noncomputable section

namespace Cert.KernelIdeal.Body

open Cert.KernelIdeal Cert.KernelIdeal.Gen Cert.Gmm
open Idealize.ShloMosaic Idealize.ShloMosaic.ValueIdx

/-! ## Re-layings of the component axis, read at an index -/

section Layout
variable {α : Type}

/-- The component two places on, cyclically: what the roll by two along the component axis reads. -/
def rot2 (c : Fin 4) : Fin 4 := ⟨(c.val + 2) % 4, Nat.mod_lt _ (by decide)⟩

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, b, c]` array broadcast along a new leading axis reads, at `(p, i, j)`, the operand at `(0, i, j)`. -/
theorem broadcastTo_1bc_abc_apply {a b c : ℕ} (hb : b ≠ 1) (hc : c ≠ 1) (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    rw [if_neg hb]
  | ⟨2, _⟩ =>
    show j.val = if c = 1 then 0 else j.val
    rw [if_neg hc]

/-- The roll by two along the component axis of a 32 × 4 × 384 array, written as the components 2, 3 followed by the
    components 0, 1: at `(b, c, l)` it reads the array at `(b, c + 2 mod 4, l)`. -/
theorem roll_loc_apply (v : S32x4x384.Idx → α) (h2 : S32x4x384.Slices ![0, 2, 0] S32x2x384)
    (h0 : S32x4x384.Slices ![0, 0, 0] S32x2x384) (hc : Shape.Concatenates [S32x2x384, S32x2x384] S32x4x384 1)
    (b : Fin 32) (c : Fin 4) (l : Fin 384) :
    concatenate S32x4x384 1 [⟨S32x2x384, extractStridedSlice S32x2x384 ![0, 2, 0] v h2⟩,
        ⟨S32x2x384, extractStridedSlice S32x2x384 ![0, 0, 0] v h0⟩] hc (ix3 b c l) = v (ix3 b (rot2 c) l) := by
  have hc4 := c.isLt
  by_cases hlt : c.val < 2
  · refine (concatenate_pair_apply_left (t := S32x4x384) (s₁ := S32x2x384) (s₂ := S32x2x384) 1 _ _ hc (ix3 b c l) rfl
      (ix3 b (⟨c.val, hlt⟩ : Fin 2) l) (fun a => by match a with | ⟨0, _⟩ => rfl | ⟨1, _⟩ => rfl | ⟨2, _⟩ => rfl)).trans ?_
    exact slice3_axis1_apply 2 v h2 b ⟨c.val, hlt⟩ l (rot2 c) (by show (c.val + 2) % 4 = 2 + c.val; omega)
  · refine (concatenate_pair_apply_right (t := S32x4x384) (s₁ := S32x2x384) (s₂ := S32x2x384) 1 _ _ hc (ix3 b c l) rfl rfl
      (ix3 b (⟨c.val - 2, by omega⟩ : Fin 2) l)
      (fun a ha => by match a with | ⟨0, _⟩ => rfl | ⟨1, _⟩ => exact absurd rfl ha | ⟨2, _⟩ => rfl)
      (by show c.val - 2 + 2 = c.val; omega)).trans ?_
    exact slice3_axis1_apply 0 v h0 b ⟨c.val - 2, by omega⟩ l (rot2 c) (by show (c.val + 2) % 4 = 0 + (c.val - 2); omega)

/-- The same roll of a 4 × 384 array along its first axis. -/
theorem roll_pri_apply (v : S4x384.Idx → α) (h2 : S4x384.Slices ![2, 0] S2x384) (h0 : S4x384.Slices ![0, 0] S2x384)
    (hc : Shape.Concatenates [S2x384, S2x384] S4x384 0) (c : Fin 4) (l : Fin 384) :
    concatenate S4x384 0 [⟨S2x384, extractStridedSlice S2x384 ![2, 0] v h2⟩,
        ⟨S2x384, extractStridedSlice S2x384 ![0, 0] v h0⟩] hc (ix2 c l) = v (ix2 (rot2 c) l) := by
  have hc4 := c.isLt
  by_cases hlt : c.val < 2
  · refine (concatenate_pair_apply_left (t := S4x384) (s₁ := S2x384) (s₂ := S2x384) 0 _ _ hc (ix2 c l) rfl
      (ix2 (⟨c.val, hlt⟩ : Fin 2) l) (fun a => by match a with | ⟨0, _⟩ => rfl | ⟨1, _⟩ => rfl)).trans ?_
    exact slice2_axis0_apply 2 v h2 ⟨c.val, hlt⟩ l (rot2 c) (by show (c.val + 2) % 4 = 2 + c.val; omega)
  · refine (concatenate_pair_apply_right (t := S4x384) (s₁ := S2x384) (s₂ := S2x384) 0 _ _ hc (ix2 c l) rfl rfl
      (ix2 (⟨c.val - 2, by omega⟩ : Fin 2) l)
      (fun a ha => by match a with | ⟨0, _⟩ => exact absurd rfl ha | ⟨1, _⟩ => rfl)
      (by show c.val - 2 + 2 = c.val; omega)).trans ?_
    exact slice2_axis0_apply 0 v h0 ⟨c.val - 2, by omega⟩ l (rot2 c) (by show (c.val + 2) % 4 = 0 + (c.val - 2); omega)

/-- Component `k` of a 32 × 4 × 384 array laid out as one 1 × 32 × 384 row: at `(0, b, l)` it reads the array at `(b, k, l)`. -/
theorem row_apply (k : Nat) (v : S32x4x384.Idx → α) (hs : S32x4x384.Slices ![0, k, 0] S32x1x384)
    (h1 : S32x1x384.ShapeCasts S32x384) (h2 : S32x384.ShapeCasts S1x32x384)
    (z : Fin 1) (b : Fin 32) (l : Fin 384) (c : Fin 4) (hc : c.val = k) :
    shapeCast S1x32x384 (shapeCast S32x384 (extractStridedSlice S32x1x384 ![0, k, 0] v hs) h1) h2 (ix3 z b l) = v (ix3 b c l) :=
  (shapeCast_ab_1ab_apply _ h2 z b l).trans
    ((shapeCast_a1b_ab_apply _ h1 b l).trans (slice3_axis1_apply k v hs b (0 : Fin 1) l c (by rw [hc]; rfl)))

/-- The select on "the component is below two": the first operand at components 0 and 1, the second at 2 and 3. -/
theorem lowhigh_apply (u w : S32x4x384.Idx → α) (hi : S32x4x384.Iotas .tc 32 [1]) (b : Fin 32) (c : Fin 4) (l : Fin 384) :
    select (cmpi .slt (iota .tc S32x4x384 32 [1] hi) (broadcast S32x4x384 2#32)) u w (ix3 b c l)
      = if c.val < 2 then u (ix3 b c l) else w (ix3 b c l) := by
  show Scalar.select (IntOp.cmpi .slt (iota .tc S32x4x384 32 [1] hi (ix3 b c l)) 2#32) _ _ = _
  rw [iota_single_apply]
  show Scalar.select (IntOp.cmpi .slt (BitVec.ofNat 32 c.val) 2#32) _ _ = _
  match c with
  | ⟨0, _⟩ => rfl
  | ⟨1, _⟩ => rfl
  | ⟨2, _⟩ => rfl
  | ⟨3, _⟩ => rfl

/-- A `[4, 384]` array given a leading unit axis and broadcast over the 32 images reads, at `(b, c, l)`, the array at `(c, l)`. -/
theorem overImages_apply (p : S4x384.Idx → α) (h1 : S4x384.ShapeCasts S1x4x384) (h2 : S1x4x384.Broadcasts S32x4x384)
    (b : Fin 32) (c : Fin 4) (l : Fin 384) :
    broadcastTo S32x4x384 (shapeCast S1x4x384 p h1) h2 (ix3 b c l) = p (ix2 c l) :=
  (broadcastTo_1bc_abc_apply (by decide) (by decide) _ h2 b c l).trans (shapeCast_ab_1ab_apply p h1 (0 : Fin 1) c l)

end Layout

/-! ## The blocks loaded whole -/

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole block reads its contents. -/
theorem ld_pri (x : Vec F S4x384 .f32) : View.ld x rPri = x := View.ld_unit_zero (S := S4x384) hz2 _ x
theorem ld_loc (x : Vec F S32x4x384 .f32) : View.ld x rLoc = x := View.ld_unit_zero (S := S32x4x384) hz3 _ x
theorem ld_cls (x : Vec F S21x32x384 .f32) : View.ld x rCls = x := View.ld_unit_zero (S := S21x32x384) hz3 _ x

/-! ## The fused vectors, element by element -/

section Fused
variable (x0 : Vec F S4x384 .f32) (x1 x2 x3 x4 x5 x6 x7 x8 x9 x10 x11 x12 : Vec F S32x4x384 .f32)
  (x13 x14 x15 x16 x17 x18 x19 x20 x21 x22 x23 x24 : Vec F S21x32x384 .f32)

theorem nlL_eq : nlL x1 x3 x4 x6 x7 x9 x10 x12
    = fun i => mean4F (x3 i) (x1 i) (x6 i) (x4 i) (x9 i) (x7 i) (x12 i) (x10 i) := by
  unfold nlL k0_pay15 k0_pay4 k0_pay5 k0_pay6 k0_pay7 k0_pay8 k0_pay9 k0_pay10 k0_pay11
  simp only [ld_loc, shapeCast_self]
  rfl

theorem alL_eq : alL x2 x3 x5 x6 x8 x9 x11 x12
    = fun i => mean4F (x3 i) (x2 i) (x6 i) (x5 i) (x9 i) (x8 i) (x12 i) (x11 i) := by
  unfold alL k0_pay16 k0_pay8 k0_pay9 k0_pay10 k0_pay11 k0_pay12 k0_pay13 k0_pay14
  simp only [ld_loc, shapeCast_self]
  rfl

theorem epL_eq : epL x1 x3 x4 x6 x7 x9 x10 x12
    = fun i => dev4F (x3 i) (x1 i) (x6 i) (x4 i) (x9 i) (x7 i) (x12 i) (x10 i) := by
  unfold epL k0_pay17 k0_pay15 k0_pay4 k0_pay5 k0_pay6 k0_pay7 k0_pay8 k0_pay9 k0_pay10 k0_pay11
  simp only [ld_loc, shapeCast_self]
  rfl

theorem ncL_eq : ncL x13 x15 x16 x18 x19 x21 x22 x24
    = fun i => mean4F (x15 i) (x13 i) (x18 i) (x16 i) (x21 i) (x19 i) (x24 i) (x22 i) := by
  unfold ncL k0_pay1 k0_pay49 k0_pay50 k0_pay37 k0_pay38 k0_pay39 k0_pay40 k0_pay41 k0_pay42 k0_pay43 k0_pay44
  simp only [ld_cls, shapeCast_self]
  rfl

theorem caL_eq : caL x14 x15 x17 x18 x20 x21 x23 x24
    = fun i => mean4F (x15 i) (x14 i) (x18 i) (x17 i) (x21 i) (x20 i) (x24 i) (x23 i) := by
  unfold caL k0_pay2 k0_pay41 k0_pay42 k0_pay43 k0_pay44 k0_pay45 k0_pay46 k0_pay47 k0_pay48
  simp only [ld_cls, shapeCast_self]
  rfl

theorem ceL_eq : ceL x13 x15 x16 x18 x19 x21 x22 x24
    = fun i => dev4F (x15 i) (x13 i) (x18 i) (x16 i) (x21 i) (x19 i) (x24 i) (x22 i) := by
  unfold ceL k0_pay3 k0_pay1 k0_pay49 k0_pay50 k0_pay37 k0_pay38 k0_pay39 k0_pay40 k0_pay41 k0_pay42 k0_pay43 k0_pay44
  simp only [ld_cls, shapeCast_self]
  rfl

end Fused

/-! ## The decoded box, element by element -/

section Decode
variable (x0 : Vec F S4x384 .f32) (x1 x3 x4 x6 x7 x9 x10 x12 : Vec F S32x4x384 .f32)

/-- The priors' block through its identity cast. -/
theorem pri_eq : k0_pay18 (View.ld x0 rPri) = x0 := by
  unfold k0_pay18; rw [ld_pri]; exact shapeCast_self _ _

/-- The priors' block rolled by two components. -/
theorem prw_apply (c : Fin 4) (l : Fin 384) : k0_pay19 (View.ld x0 rPri) (ix2 c l) = x0 (ix2 (rot2 c) l) := by
  unfold k0_pay19
  refine (roll_pri_apply _ _ _ _ c l).trans ?_
  rw [pri_eq]

/-- The extent at component `c`: the prior's and the fused offset's component `c + 2`. -/
theorem whL_apply (b : Fin 32) (c : Fin 4) (l : Fin 384) :
    whL x0 x1 x3 x4 x6 x7 x9 x10 x12 (ix3 b c l)
      = extentF (x0 (ix2 (rot2 c) l)) (nlL x1 x3 x4 x6 x7 x9 x10 x12 (ix3 b (rot2 c) l)) := by
  unfold whL k0_pay20 extentF
  refine congrArg₂ FloatOps.mulf ?_ (congrArg FloatOps.exp (congrArg₂ FloatOps.mulf ?_ rfl))
  · exact (overImages_apply _ _ _ b c l).trans (prw_apply x0 c l)
  · exact roll_loc_apply _ _ _ _ b c l

/-- The centre at component `c`. -/
theorem ctrL_apply (b : Fin 32) (c : Fin 4) (l : Fin 384) :
    ctrL x0 x1 x3 x4 x6 x7 x9 x10 x12 (ix3 b c l)
      = FloatOps.addf (x0 (ix2 c l))
          (FloatOps.mulf (FloatOps.mulf (nlL x1 x3 x4 x6 x7 x9 x10 x12 (ix3 b c l)) v0F) (x0 (ix2 (rot2 c) l))) := by
  unfold ctrL k0_pay21
  refine congrArg₂ FloatOps.addf ?_ (congrArg₂ FloatOps.mulf rfl ?_)
  · exact (overImages_apply _ _ _ b c l).trans (by rw [pri_eq])
  · exact (overImages_apply _ _ _ b c l).trans (prw_apply x0 c l)

/-- Half the extent. -/
theorem hwhL_apply (b : Fin 32) (c : Fin 4) (l : Fin 384) :
    hwhL x0 x1 x3 x4 x6 x7 x9 x10 x12 (ix3 b c l) = FloatOps.mulf halfF (whL x0 x1 x3 x4 x6 x7 x9 x10 x12 (ix3 b c l)) := rfl

/-- The corners: centre less half extent at components 0 and 1; at components 2 and 3 that value at the component two
    below, plus the extent there. -/
theorem decL_apply (b : Fin 32) (c : Fin 4) (l : Fin 384) :
    decL x0 x1 x3 x4 x6 x7 x9 x10 x12 (ix3 b c l)
      = if c.val < 2 then
          FloatOps.subf (ctrL x0 x1 x3 x4 x6 x7 x9 x10 x12 (ix3 b c l)) (hwhL x0 x1 x3 x4 x6 x7 x9 x10 x12 (ix3 b c l))
        else
          FloatOps.addf (FloatOps.subf (ctrL x0 x1 x3 x4 x6 x7 x9 x10 x12 (ix3 b (rot2 c) l))
            (hwhL x0 x1 x3 x4 x6 x7 x9 x10 x12 (ix3 b (rot2 c) l))) (whL x0 x1 x3 x4 x6 x7 x9 x10 x12 (ix3 b (rot2 c) l)) := by
  unfold decL k0_pay23
  refine (lowhigh_apply _ _ _ b c l).trans ?_
  split
  · rfl
  · exact roll_loc_apply _ _ _ _ b c l

/-- The low corner along axis `c ∈ {0, 1}`. -/
theorem decL_low (b : Fin 32) (l : Fin 384) (c : Fin 2) :
    decL x0 x1 x3 x4 x6 x7 x9 x10 x12 (ix3 b (⟨c.val, by omega⟩ : Fin 4) l)
      = boxLowF (fun c => x0 (ix2 c l)) (fun c => mean4F (x3 (ix3 b c l)) (x1 (ix3 b c l)) (x6 (ix3 b c l)) (x4 (ix3 b c l))
          (x9 (ix3 b c l)) (x7 (ix3 b c l)) (x12 (ix3 b c l)) (x10 (ix3 b c l))) c := by
  have hc := c.isLt
  have e : rot2 ⟨c.val, by omega⟩ = ⟨c.val + 2, by omega⟩ := Fin.ext (by show (c.val + 2) % 4 = c.val + 2; omega)
  rw [decL_apply, if_pos c.isLt, ctrL_apply, hwhL_apply, whL_apply, nlL_eq, e]
  rfl

/-- The high corner along axis `c ∈ {0, 1}`, held at component `c + 2`. -/
theorem decL_high (b : Fin 32) (l : Fin 384) (c : Fin 2) :
    decL x0 x1 x3 x4 x6 x7 x9 x10 x12 (ix3 b (⟨c.val + 2, by omega⟩ : Fin 4) l)
      = boxHighF (fun c => x0 (ix2 c l)) (fun c => mean4F (x3 (ix3 b c l)) (x1 (ix3 b c l)) (x6 (ix3 b c l)) (x4 (ix3 b c l))
          (x9 (ix3 b c l)) (x7 (ix3 b c l)) (x12 (ix3 b c l)) (x10 (ix3 b c l))) c := by
  have hc := c.isLt
  have e : rot2 ⟨c.val + 2, by omega⟩ = ⟨c.val, by omega⟩ := Fin.ext (by show (c.val + 2 + 2) % 4 = c.val; omega)
  have e' : rot2 ⟨c.val, by omega⟩ = ⟨c.val + 2, by omega⟩ := Fin.ext (by show (c.val + 2) % 4 = c.val + 2; omega)
  rw [decL_apply, if_neg (by show ¬ c.val + 2 < 2; omega), e, ctrL_apply, hwhL_apply, whL_apply, nlL_eq, e']
  rfl

end Decode

/-! ## One output entry, row by row -/

section Rows
variable (pr : Fin 4 → F .f32) (m1 s1 w1 m2 s2 w2 m3 s3 w3 m4 s4 w4 : Fin 4 → F .f32)
  (a1 t1 q1 a2 t2 q2 a3 t3 q3 a4 t4 q4 : Fin 21 → F .f32)

/-- Channels 0 and 1 are the low corners. -/
theorem entry_low (c : Fin 2) :
    entryOfF pr m1 s1 w1 m2 s2 w2 m3 s3 w3 m4 s4 w4 a1 t1 q1 a2 t2 q2 a3 t3 q3 a4 t4 q4 (⟨c.val, by omega⟩ : Fin 75)
      = boxLowF pr (fun c => mean4F (w1 c) (m1 c) (w2 c) (m2 c) (w3 c) (m3 c) (w4 c) (m4 c)) c := by
  have hc := c.isLt
  unfold entryOfF
  rw [dif_pos (show c.val < 2 from hc)]

/-- Channels 2 and 3 are the high corners. -/
theorem entry_high (c : Fin 2) :
    entryOfF pr m1 s1 w1 m2 s2 w2 m3 s3 w3 m4 s4 w4 a1 t1 q1 a2 t2 q2 a3 t3 q3 a4 t4 q4 (⟨c.val + 2, by omega⟩ : Fin 75)
      = boxHighF pr (fun c => mean4F (w1 c) (m1 c) (w2 c) (m2 c) (w3 c) (m3 c) (w4 c) (m4 c)) c := by
  have hc := c.isLt
  unfold entryOfF
  rw [dif_neg (show ¬ c.val + 2 < 2 by omega), dif_pos (show c.val + 2 < 4 by omega)]
  rfl

/-- Channels 4 to 7 are the aleatoric localisation terms. -/
theorem entry_ale (c : Fin 4) :
    entryOfF pr m1 s1 w1 m2 s2 w2 m3 s3 w3 m4 s4 w4 a1 t1 q1 a2 t2 q2 a3 t3 q3 a4 t4 q4 (⟨c.val + 4, by omega⟩ : Fin 75)
      = mean4F (w1 c) (s1 c) (w2 c) (s2 c) (w3 c) (s3 c) (w4 c) (s4 c) := by
  have hc := c.isLt
  unfold entryOfF
  rw [dif_neg (show ¬ c.val + 4 < 2 by omega), dif_neg (show ¬ c.val + 4 < 4 by omega), dif_pos (show c.val + 4 < 8 by omega)]
  rfl

/-- Channels 8 to 11 are the epistemic localisation terms. -/
theorem entry_epi (c : Fin 4) :
    entryOfF pr m1 s1 w1 m2 s2 w2 m3 s3 w3 m4 s4 w4 a1 t1 q1 a2 t2 q2 a3 t3 q3 a4 t4 q4 (⟨c.val + 8, by omega⟩ : Fin 75)
      = dev4F (w1 c) (m1 c) (w2 c) (m2 c) (w3 c) (m3 c) (w4 c) (m4 c) := by
  have hc := c.isLt
  unfold entryOfF
  rw [dif_neg (show ¬ c.val + 8 < 2 by omega), dif_neg (show ¬ c.val + 8 < 4 by omega), dif_neg (show ¬ c.val + 8 < 8 by omega),
    dif_pos (show c.val + 8 < 12 by omega)]
  rfl

/-- Channels 12 to 32 are the fused class means. -/
theorem entry_cmean (k : Fin 21) :
    entryOfF pr m1 s1 w1 m2 s2 w2 m3 s3 w3 m4 s4 w4 a1 t1 q1 a2 t2 q2 a3 t3 q3 a4 t4 q4 (⟨12 + k.val, by omega⟩ : Fin 75)
      = mean4F (q1 k) (a1 k) (q2 k) (a2 k) (q3 k) (a3 k) (q4 k) (a4 k) := by
  have hk := k.isLt
  have e : (⟨12 + k.val - 12, by omega⟩ : Fin 21) = k := Fin.ext (by show 12 + k.val - 12 = k.val; omega)
  unfold entryOfF
  rw [dif_neg (show ¬ 12 + k.val < 2 by omega), dif_neg (show ¬ 12 + k.val < 4 by omega), dif_neg (show ¬ 12 + k.val < 8 by omega),
    dif_neg (show ¬ 12 + k.val < 12 by omega), dif_pos (show 12 + k.val < 33 by omega)]
  show (fun k : Fin 21 => mean4F (q1 k) (a1 k) (q2 k) (a2 k) (q3 k) (a3 k) (q4 k) (a4 k)) ⟨12 + k.val - 12, _⟩ = _
  rw [e]

/-- Channels 33 to 53 are the aleatoric class terms. -/
theorem entry_cale (k : Fin 21) :
    entryOfF pr m1 s1 w1 m2 s2 w2 m3 s3 w3 m4 s4 w4 a1 t1 q1 a2 t2 q2 a3 t3 q3 a4 t4 q4 (⟨33 + k.val, by omega⟩ : Fin 75)
      = mean4F (q1 k) (t1 k) (q2 k) (t2 k) (q3 k) (t3 k) (q4 k) (t4 k) := by
  have hk := k.isLt
  have e : (⟨33 + k.val - 33, by omega⟩ : Fin 21) = k := Fin.ext (by show 33 + k.val - 33 = k.val; omega)
  unfold entryOfF
  rw [dif_neg (show ¬ 33 + k.val < 2 by omega), dif_neg (show ¬ 33 + k.val < 4 by omega), dif_neg (show ¬ 33 + k.val < 8 by omega),
    dif_neg (show ¬ 33 + k.val < 12 by omega), dif_neg (show ¬ 33 + k.val < 33 by omega), dif_pos (show 33 + k.val < 54 by omega)]
  show (fun k : Fin 21 => mean4F (q1 k) (t1 k) (q2 k) (t2 k) (q3 k) (t3 k) (q4 k) (t4 k)) ⟨33 + k.val - 33, _⟩ = _
  rw [e]

/-- Channels 54 to 74 are the epistemic class terms. -/
theorem entry_cepi (k : Fin 21) :
    entryOfF pr m1 s1 w1 m2 s2 w2 m3 s3 w3 m4 s4 w4 a1 t1 q1 a2 t2 q2 a3 t3 q3 a4 t4 q4 (⟨54 + k.val, by omega⟩ : Fin 75)
      = dev4F (q1 k) (a1 k) (q2 k) (a2 k) (q3 k) (a3 k) (q4 k) (a4 k) := by
  have hk := k.isLt
  have e : (⟨54 + k.val - 54, by omega⟩ : Fin 21) = k := Fin.ext (by show 54 + k.val - 54 = k.val; omega)
  unfold entryOfF
  rw [dif_neg (show ¬ 54 + k.val < 2 by omega), dif_neg (show ¬ 54 + k.val < 4 by omega), dif_neg (show ¬ 54 + k.val < 8 by omega),
    dif_neg (show ¬ 54 + k.val < 12 by omega), dif_neg (show ¬ 54 + k.val < 33 by omega), dif_neg (show ¬ 54 + k.val < 54 by omega)]
  show (fun k : Fin 21 => dev4F (q1 k) (a1 k) (q2 k) (a2 k) (q3 k) (a3 k) (q4 k) (a4 k)) ⟨54 + k.val - 54, _⟩ = _
  rw [e]

end Rows

/-! ## The fifteen stores as blocks of one function of the output block's index -/

section Canon

/-- Where a band of 21 rows from row `o` puts its own index `(k, b, l)`: at row `o + k`. -/
theorem band_emb (o : Nat) (inb : ∀ a, (![o, 0, 0] : Fin 3 → Nat) a + S21x32x384.size a ≤ S75x32x384.size a)
    (k : Fin 21) (b : Fin 32) (l : Fin 384) (h : o + k.val < 75) :
    (Rect.unit (s := S75x32x384) ![o, 0, 0] S21x32x384.size inb).emb (ix3 k b l) = ix3 (⟨o + k.val, h⟩ : Fin 75) b l := by
  funext a; refine Fin.ext ?_
  match a with
  | ⟨0, _⟩ => show o + 1 * k.val = o + k.val; omega
  | ⟨1, _⟩ => show 0 + 1 * b.val = b.val; omega
  | ⟨2, _⟩ => show 0 + 1 * l.val = l.val; omega

/-- Where the single row `o` puts its own index `(0, b, l)`: at row `o`. -/
theorem row_emb (o : Nat) (inb : ∀ a, (![o, 0, 0] : Fin 3 → Nat) a + S1x32x384.size a ≤ S75x32x384.size a)
    (z : Fin 1) (b : Fin 32) (l : Fin 384) (h : o < 75) :
    (Rect.unit (s := S75x32x384) ![o, 0, 0] S1x32x384.size inb).emb (ix3 z b l) = ix3 (⟨o, h⟩ : Fin 75) b l := by
  have hz := z.isLt
  funext a; refine Fin.ext ?_
  match a with
  | ⟨0, _⟩ => show o + 1 * z.val = o; omega
  | ⟨1, _⟩ => show 0 + 1 * b.val = b.val; omega
  | ⟨2, _⟩ => show 0 + 1 * l.val = l.val; omega

/-- The stores leave, at every index of the output block, any function `G` of that index whose rows the payloads hold:
    band `o` holds rows `o … o + 20`, a single row its own. -/
theorem canon_piecesOf (G : Vec F S75x32x384 .f32)
    (p54 p33 p12 : FVec F S21x32x384 .f32) (q11 q7 q3 q10 q6 q2 q9 q5 q1 q8 q4 q0 : FVec F S1x32x384 .f32)
    (h54 : ∀ (k : Fin 21) (b : Fin 32) (l : Fin 384), p54 (ix3 k b l) = G (ix3 (⟨54 + k.val, by omega⟩ : Fin 75) b l))
    (h33 : ∀ (k : Fin 21) (b : Fin 32) (l : Fin 384), p33 (ix3 k b l) = G (ix3 (⟨33 + k.val, by omega⟩ : Fin 75) b l))
    (h12 : ∀ (k : Fin 21) (b : Fin 32) (l : Fin 384), p12 (ix3 k b l) = G (ix3 (⟨12 + k.val, by omega⟩ : Fin 75) b l))
    (h11 : ∀ (z : Fin 1) (b : Fin 32) (l : Fin 384), q11 (ix3 z b l) = G (ix3 (⟨11, by omega⟩ : Fin 75) b l))
    (h7 : ∀ (z : Fin 1) (b : Fin 32) (l : Fin 384), q7 (ix3 z b l) = G (ix3 (⟨7, by omega⟩ : Fin 75) b l))
    (h3 : ∀ (z : Fin 1) (b : Fin 32) (l : Fin 384), q3 (ix3 z b l) = G (ix3 (⟨3, by omega⟩ : Fin 75) b l))
    (h10 : ∀ (z : Fin 1) (b : Fin 32) (l : Fin 384), q10 (ix3 z b l) = G (ix3 (⟨10, by omega⟩ : Fin 75) b l))
    (h6 : ∀ (z : Fin 1) (b : Fin 32) (l : Fin 384), q6 (ix3 z b l) = G (ix3 (⟨6, by omega⟩ : Fin 75) b l))
    (h2 : ∀ (z : Fin 1) (b : Fin 32) (l : Fin 384), q2 (ix3 z b l) = G (ix3 (⟨2, by omega⟩ : Fin 75) b l))
    (h9 : ∀ (z : Fin 1) (b : Fin 32) (l : Fin 384), q9 (ix3 z b l) = G (ix3 (⟨9, by omega⟩ : Fin 75) b l))
    (h5 : ∀ (z : Fin 1) (b : Fin 32) (l : Fin 384), q5 (ix3 z b l) = G (ix3 (⟨5, by omega⟩ : Fin 75) b l))
    (h1 : ∀ (z : Fin 1) (b : Fin 32) (l : Fin 384), q1 (ix3 z b l) = G (ix3 (⟨1, by omega⟩ : Fin 75) b l))
    (h8 : ∀ (z : Fin 1) (b : Fin 32) (l : Fin 384), q8 (ix3 z b l) = G (ix3 (⟨8, by omega⟩ : Fin 75) b l))
    (h4 : ∀ (z : Fin 1) (b : Fin 32) (l : Fin 384), q4 (ix3 z b l) = G (ix3 (⟨4, by omega⟩ : Fin 75) b l))
    (h0 : ∀ (z : Fin 1) (b : Fin 32) (l : Fin 384), q0 (ix3 z b l) = G (ix3 (⟨0, by omega⟩ : Fin 75) b l))
    (y : S75x32x384.Idx) :
    View.canon (piecesOf p54 p33 p12 q11 q7 q3 q10 q6 q2 q9 q5 q1 q8 q4 q0) y = G y := by
  have band : ∀ (o : Nat) (inb) (p : FVec F S21x32x384 .f32) (ho : o + 20 < 75)
      (hp : ∀ (k : Fin 21) (b : Fin 32) (l : Fin 384), p (ix3 k b l) = G (ix3 (⟨o + k.val, by omega⟩ : Fin 75) b l))
      (x : S21x32x384.Idx), p x = G ((Rect.unit (s := S75x32x384) ![o, 0, 0] S21x32x384.size inb).emb x) := by
    intro o inb p ho hp x
    obtain ⟨k, b, l, rfl⟩ : ∃ (k : Fin 21) (b : Fin 32) (l : Fin 384), x = ix3 k b l := ⟨x 0, x 1, x 2, eq_ix3 x⟩
    rw [band_emb o inb k b l (by omega)]
    exact hp k b l
  have row : ∀ (o : Nat) (inb) (q : FVec F S1x32x384 .f32) (ho : o < 75)
      (hq : ∀ (z : Fin 1) (b : Fin 32) (l : Fin 384), q (ix3 z b l) = G (ix3 (⟨o, ho⟩ : Fin 75) b l))
      (x : S1x32x384.Idx), q x = G ((Rect.unit (s := S75x32x384) ![o, 0, 0] S1x32x384.size inb).emb x) := by
    intro o inb q ho hq x
    obtain ⟨z, b, l, rfl⟩ : ∃ (z : Fin 1) (b : Fin 32) (l : Fin 384), x = ix3 z b l := ⟨x 0, x 1, x 2, eq_ix3 x⟩
    rw [row_emb o inb z b l ho]
    exact hq z b l
  refine View.canon_apply_of_pieces G _ ?_ y (cover p54 p33 p12 q11 q7 q3 q10 q6 q2 q9 q5 q1 q8 q4 q0 y)
  intro p hp
  simp only [piecesOf, List.mem_cons, List.not_mem_nil, or_false] at hp
  rcases hp with rfl | rfl | rfl | rfl | rfl | rfl | rfl | rfl | rfl | rfl | rfl | rfl | rfl | rfl | rfl
  · exact band 54 inb_S75x32x384_S21x32x384_54_0_0 p54 (by omega) h54
  · exact band 33 inb_S75x32x384_S21x32x384_33_0_0 p33 (by omega) h33
  · exact band 12 inb_S75x32x384_S21x32x384_12_0_0 p12 (by omega) h12
  · exact row 11 inb_S75x32x384_S1x32x384_11_0_0 q11 (by omega) h11
  · exact row 7 inb_S75x32x384_S1x32x384_7_0_0 q7 (by omega) h7
  · exact row 3 inb_S75x32x384_S1x32x384_3_0_0 q3 (by omega) h3
  · exact row 10 inb_S75x32x384_S1x32x384_10_0_0 q10 (by omega) h10
  · exact row 6 inb_S75x32x384_S1x32x384_6_0_0 q6 (by omega) h6
  · exact row 2 inb_S75x32x384_S1x32x384_2_0_0 q2 (by omega) h2
  · exact row 9 inb_S75x32x384_S1x32x384_9_0_0 q9 (by omega) h9
  · exact row 5 inb_S75x32x384_S1x32x384_5_0_0 q5 (by omega) h5
  · exact row 1 inb_S75x32x384_S1x32x384_1_0_0 q1 (by omega) h1
  · exact row 8 inb_S75x32x384_S1x32x384_8_0_0 q8 (by omega) h8
  · exact row 4 inb_S75x32x384_S1x32x384_4_0_0 q4 (by omega) h4
  · exact row 0 inb_S75x32x384_S1x32x384_0_0_0 q0 (by omega) h0

end Canon

/-! ## The output block, entry by entry -/

section Out
variable (x0 : Vec F S4x384 .f32) (x1 x2 x3 x4 x5 x6 x7 x8 x9 x10 x11 x12 : Vec F S32x4x384 .f32)
  (x13 x14 x15 x16 x17 x18 x19 x20 x21 x22 x23 x24 : Vec F S21x32x384 .f32)

/-- The output block as one function of its index `(channel, image, lane)`: the entry computed from the 25 input blocks'
    values at that image and lane. -/
def outFn : Vec F S75x32x384 .f32 := fun y =>
  entryOfF (fun c => x0 (ix2 c (y 2))) (fun c => x1 (ix3 (y 1) c (y 2))) (fun c => x2 (ix3 (y 1) c (y 2))) (fun c => x3 (ix3 (y 1) c (y 2))) (fun c => x4 (ix3 (y 1) c (y 2))) (fun c => x5 (ix3 (y 1) c (y 2))) (fun c => x6 (ix3 (y 1) c (y 2))) (fun c => x7 (ix3 (y 1) c (y 2))) (fun c => x8 (ix3 (y 1) c (y 2))) (fun c => x9 (ix3 (y 1) c (y 2))) (fun c => x10 (ix3 (y 1) c (y 2))) (fun c => x11 (ix3 (y 1) c (y 2))) (fun c => x12 (ix3 (y 1) c (y 2))) (fun k => x13 (ix3 k (y 1) (y 2))) (fun k => x14 (ix3 k (y 1) (y 2))) (fun k => x15 (ix3 k (y 1) (y 2))) (fun k => x16 (ix3 k (y 1) (y 2))) (fun k => x17 (ix3 k (y 1) (y 2))) (fun k => x18 (ix3 k (y 1) (y 2))) (fun k => x19 (ix3 k (y 1) (y 2))) (fun k => x20 (ix3 k (y 1) (y 2))) (fun k => x21 (ix3 k (y 1) (y 2))) (fun k => x22 (ix3 k (y 1) (y 2))) (fun k => x23 (ix3 k (y 1) (y 2))) (fun k => x24 (ix3 k (y 1) (y 2))) (y 0)

end Out

section Out2
variable (x0 : Vec F S4x384 .f32) (x1 x2 x3 x4 x5 x6 x7 x8 x9 x10 x11 x12 : Vec F S32x4x384 .f32)
  (x13 x14 x15 x16 x17 x18 x19 x20 x21 x22 x23 x24 : Vec F S21x32x384 .f32)

/-- The row of the decoded corners at component `c` holds the low corner along axis `c` for `c ∈ {0, 1}`. -/
theorem dec_row_low (k : Nat) (hs : S32x4x384.Slices ![0, k, 0] S32x1x384) (h1 : S32x1x384.ShapeCasts S32x384)
    (h2 : S32x384.ShapeCasts S1x32x384) (c : Fin 2) (hk : c.val = k) (z : Fin 1) (b : Fin 32) (l : Fin 384) :
    shapeCast S1x32x384 (shapeCast S32x384 (extractStridedSlice S32x1x384 ![0, k, 0] (decL x0 x1 x3 x4 x6 x7 x9 x10 x12) hs) h1) h2 (ix3 z b l)
      = outFn x0 x1 x2 x3 x4 x5 x6 x7 x8 x9 x10 x11 x12 x13 x14 x15 x16 x17 x18 x19 x20 x21 x22 x23 x24 (ix3 (⟨c.val, by omega⟩ : Fin 75) b l) :=
  (row_apply k _ hs h1 h2 z b l (⟨c.val, by omega⟩ : Fin 4) hk).trans
    ((decL_low x0 x1 x3 x4 x6 x7 x9 x10 x12 b l c).trans (entry_low (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- and the high corner along axis `c` at component `c + 2`. -/
theorem dec_row_high (k : Nat) (hs : S32x4x384.Slices ![0, k, 0] S32x1x384) (h1 : S32x1x384.ShapeCasts S32x384)
    (h2 : S32x384.ShapeCasts S1x32x384) (c : Fin 2) (hk : c.val + 2 = k) (z : Fin 1) (b : Fin 32) (l : Fin 384) :
    shapeCast S1x32x384 (shapeCast S32x384 (extractStridedSlice S32x1x384 ![0, k, 0] (decL x0 x1 x3 x4 x6 x7 x9 x10 x12) hs) h1) h2 (ix3 z b l)
      = outFn x0 x1 x2 x3 x4 x5 x6 x7 x8 x9 x10 x11 x12 x13 x14 x15 x16 x17 x18 x19 x20 x21 x22 x23 x24 (ix3 (⟨c.val + 2, by omega⟩ : Fin 75) b l) :=
  (row_apply k _ hs h1 h2 z b l (⟨c.val + 2, by omega⟩ : Fin 4) hk).trans
    ((decL_high x0 x1 x3 x4 x6 x7 x9 x10 x12 b l c).trans (entry_high (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- The row of the aleatoric localisation terms at component `c`. -/
theorem ale_row (k : Nat) (hs : S32x4x384.Slices ![0, k, 0] S32x1x384) (h1 : S32x1x384.ShapeCasts S32x384)
    (h2 : S32x384.ShapeCasts S1x32x384) (c : Fin 4) (hk : c.val = k) (z : Fin 1) (b : Fin 32) (l : Fin 384) :
    shapeCast S1x32x384 (shapeCast S32x384 (extractStridedSlice S32x1x384 ![0, k, 0] (alL x2 x3 x5 x6 x8 x9 x11 x12) hs) h1) h2 (ix3 z b l)
      = outFn x0 x1 x2 x3 x4 x5 x6 x7 x8 x9 x10 x11 x12 x13 x14 x15 x16 x17 x18 x19 x20 x21 x22 x23 x24 (ix3 (⟨c.val + 4, by omega⟩ : Fin 75) b l) :=
  (row_apply k _ hs h1 h2 z b l c hk).trans
    ((congrFun (alL_eq x2 x3 x5 x6 x8 x9 x11 x12) (ix3 b c l)).trans (entry_ale (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- The row of the epistemic localisation terms at component `c`. -/
theorem epi_row (k : Nat) (hs : S32x4x384.Slices ![0, k, 0] S32x1x384) (h1 : S32x1x384.ShapeCasts S32x384)
    (h2 : S32x384.ShapeCasts S1x32x384) (c : Fin 4) (hk : c.val = k) (z : Fin 1) (b : Fin 32) (l : Fin 384) :
    shapeCast S1x32x384 (shapeCast S32x384 (extractStridedSlice S32x1x384 ![0, k, 0] (epL x1 x3 x4 x6 x7 x9 x10 x12) hs) h1) h2 (ix3 z b l)
      = outFn x0 x1 x2 x3 x4 x5 x6 x7 x8 x9 x10 x11 x12 x13 x14 x15 x16 x17 x18 x19 x20 x21 x22 x23 x24 (ix3 (⟨c.val + 8, by omega⟩ : Fin 75) b l) :=
  (row_apply k _ hs h1 h2 z b l c hk).trans
    ((congrFun (epL_eq x1 x3 x4 x6 x7 x9 x10 x12) (ix3 b c l)).trans (entry_epi (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) c).symm)

/-- THE OUTPUT BLOCK AT AN ENTRY: row `r`, image `b`, lane `l` of what the body leaves is channel `r` of the entry computed
    from the 25 input blocks' values at image `b` and lane `l`. -/
theorem outBlock_apply (r : Fin 75) (b : Fin 32) (l : Fin 384) :
    outBlock x0 x1 x2 x3 x4 x5 x6 x7 x8 x9 x10 x11 x12 x13 x14 x15 x16 x17 x18 x19 x20 x21 x22 x23 x24 (ix3 r b l)
      = entryOfF (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) r := by
  unfold outBlock
  refine (canon_piecesOf (outFn x0 x1 x2 x3 x4 x5 x6 x7 x8 x9 x10 x11 x12 x13 x14 x15 x16 x17 x18 x19 x20 x21 x22 x23 x24) _ _ _ _ _ _ _ _ _ _ _ _ _ _ _
    ?_ ?_ ?_ ?_ ?_ ?_ ?_ ?_ ?_ ?_ ?_ ?_ ?_ ?_ ?_ (ix3 r b l)).trans rfl
  · intro k b l
    exact (congrFun (ceL_eq x13 x15 x16 x18 x19 x21 x22 x24) (ix3 k b l)).trans (entry_cepi (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) k).symm
  · intro k b l
    exact (congrFun (caL_eq x14 x15 x17 x18 x20 x21 x23 x24) (ix3 k b l)).trans (entry_cale (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) k).symm
  · intro k b l
    exact (congrFun (ncL_eq x13 x15 x16 x18 x19 x21 x22 x24) (ix3 k b l)).trans (entry_cmean (fun c => x0 (ix2 c l)) (fun c => x1 (ix3 b c l)) (fun c => x2 (ix3 b c l)) (fun c => x3 (ix3 b c l)) (fun c => x4 (ix3 b c l)) (fun c => x5 (ix3 b c l)) (fun c => x6 (ix3 b c l)) (fun c => x7 (ix3 b c l)) (fun c => x8 (ix3 b c l)) (fun c => x9 (ix3 b c l)) (fun c => x10 (ix3 b c l)) (fun c => x11 (ix3 b c l)) (fun c => x12 (ix3 b c l)) (fun k => x13 (ix3 k b l)) (fun k => x14 (ix3 k b l)) (fun k => x15 (ix3 k b l)) (fun k => x16 (ix3 k b l)) (fun k => x17 (ix3 k b l)) (fun k => x18 (ix3 k b l)) (fun k => x19 (ix3 k b l)) (fun k => x20 (ix3 k b l)) (fun k => x21 (ix3 k b l)) (fun k => x22 (ix3 k b l)) (fun k => x23 (ix3 k b l)) (fun k => x24 (ix3 k b l)) k).symm
  · exact epi_row x0 x1 x2 x3 x4 x5 x6 x7 x8 x9 x10 x11 x12 x13 x14 x15 x16 x17 x18 x19 x20 x21 x22 x23 x24 3 slices_S32x4x384_o0_3_0_S32x1x384 shapeCasts_S32x1x384_S32x384 shapeCasts_S32x384_S1x32x384 3 rfl
  · exact ale_row x0 x1 x2 x3 x4 x5 x6 x7 x8 x9 x10 x11 x12 x13 x14 x15 x16 x17 x18 x19 x20 x21 x22 x23 x24 3 slices_S32x4x384_o0_3_0_S32x1x384 shapeCasts_S32x1x384_S32x384 shapeCasts_S32x384_S1x32x384 3 rfl
  · exact dec_row_high x0 x1 x2 x3 x4 x5 x6 x7 x8 x9 x10 x11 x12 x13 x14 x15 x16 x17 x18 x19 x20 x21 x22 x23 x24 3 slices_S32x4x384_o0_3_0_S32x1x384 shapeCasts_S32x1x384_S32x384 shapeCasts_S32x384_S1x32x384 1 rfl
  · exact epi_row x0 x1 x2 x3 x4 x5 x6 x7 x8 x9 x10 x11 x12 x13 x14 x15 x16 x17 x18 x19 x20 x21 x22 x23 x24 2 slices_S32x4x384_o0_2_0_S32x1x384 shapeCasts_S32x1x384_S32x384 shapeCasts_S32x384_S1x32x384 2 rfl
  · exact ale_row x0 x1 x2 x3 x4 x5 x6 x7 x8 x9 x10 x11 x12 x13 x14 x15 x16 x17 x18 x19 x20 x21 x22 x23 x24 2 slices_S32x4x384_o0_2_0_S32x1x384 shapeCasts_S32x1x384_S32x384 shapeCasts_S32x384_S1x32x384 2 rfl
  · exact dec_row_high x0 x1 x2 x3 x4 x5 x6 x7 x8 x9 x10 x11 x12 x13 x14 x15 x16 x17 x18 x19 x20 x21 x22 x23 x24 2 slices_S32x4x384_o0_2_0_S32x1x384 shapeCasts_S32x1x384_S32x384 shapeCasts_S32x384_S1x32x384 0 rfl
  · exact epi_row x0 x1 x2 x3 x4 x5 x6 x7 x8 x9 x10 x11 x12 x13 x14 x15 x16 x17 x18 x19 x20 x21 x22 x23 x24 1 slices_S32x4x384_o0_1_0_S32x1x384 shapeCasts_S32x1x384_S32x384 shapeCasts_S32x384_S1x32x384 1 rfl
  · exact ale_row x0 x1 x2 x3 x4 x5 x6 x7 x8 x9 x10 x11 x12 x13 x14 x15 x16 x17 x18 x19 x20 x21 x22 x23 x24 1 slices_S32x4x384_o0_1_0_S32x1x384 shapeCasts_S32x1x384_S32x384 shapeCasts_S32x384_S1x32x384 1 rfl
  · exact dec_row_low x0 x1 x2 x3 x4 x5 x6 x7 x8 x9 x10 x11 x12 x13 x14 x15 x16 x17 x18 x19 x20 x21 x22 x23 x24 1 slices_S32x4x384_o0_1_0_S32x1x384 shapeCasts_S32x1x384_S32x384 shapeCasts_S32x384_S1x32x384 1 rfl
  · exact epi_row x0 x1 x2 x3 x4 x5 x6 x7 x8 x9 x10 x11 x12 x13 x14 x15 x16 x17 x18 x19 x20 x21 x22 x23 x24 0 slices_S32x4x384_o0_0_0_S32x1x384 shapeCasts_S32x1x384_S32x384 shapeCasts_S32x384_S1x32x384 0 rfl
  · exact ale_row x0 x1 x2 x3 x4 x5 x6 x7 x8 x9 x10 x11 x12 x13 x14 x15 x16 x17 x18 x19 x20 x21 x22 x23 x24 0 slices_S32x4x384_o0_0_0_S32x1x384 shapeCasts_S32x1x384_S32x384 shapeCasts_S32x384_S1x32x384 0 rfl
  · exact dec_row_low x0 x1 x2 x3 x4 x5 x6 x7 x8 x9 x10 x11 x12 x13 x14 x15 x16 x17 x18 x19 x20 x21 x22 x23 x24 0 slices_S32x4x384_o0_0_0_S32x1x384 shapeCasts_S32x1x384_S32x384 shapeCasts_S32x384_S1x32x384 0 rfl

end Out2

end Cert.KernelIdeal.Body

end
-- ==== Proof.KILocal.lean ====
import proofs.«111137_g86517821215618_cont_9to1_m_1401_12_alg».proof.Proof.Gen.KernelIdeal.Frame
import proofs.«111137_g86517821215618_cont_9to1_m_1401_12_alg».proof.Proof.Gen.KernelIdeal.Skeleton
import proofs.«111137_g86517821215618_cont_9to1_m_1401_12_alg».proof.Proof.KIBlock
import proofs.«111137_g86517821215618_cont_9to1_m_1401_12_alg».proof.Proof.KIWin
import proofs.«111137_g86517821215618_cont_9to1_m_1401_12_alg».proof.Proof.KIEntries
import Idealize.ShloMosaic.Lib.Pipeline.FrameBody
import Idealize.ShloMosaic.Lib.Tactic
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## An output entry reads the inputs at its own lane

Every operation of the body is pointwise or re-lays the component axis, so the output block at lane `l` depends on the
input blocks at lane `l` only (`outBlock_apply`). Two families of input blocks that agree on the lanes the transfers at
point `t` move — the lanes inside the arrays — therefore give output blocks that agree on those lanes. -/

/-- Two families of input blocks that agree at lane `l` (and image `b`) give output blocks that agree at (·, b, l). -/
theorem outBlock_lane_congr (x0 : Vec F S4x384 .f32) (x1 x2 x3 x4 x5 x6 x7 x8 x9 x10 x11 x12 : Vec F S32x4x384 .f32) (x13 x14 x15 x16 x17 x18 x19 x20 x21 x22 x23 x24 : Vec F S21x32x384 .f32)
    (y0 : Vec F S4x384 .f32) (y1 y2 y3 y4 y5 y6 y7 y8 y9 y10 y11 y12 : Vec F S32x4x384 .f32) (y13 y14 y15 y16 y17 y18 y19 y20 y21 y22 y23 y24 : Vec F S21x32x384 .f32)
    (r : Fin 75) (b : Fin 32) (l : Fin 384)
    (h0 : ∀ c, x0 (ix2 c l) = y0 (ix2 c l))
    (h1 : ∀ c, x1 (ix3 b c l) = y1 (ix3 b c l))
    (h2 : ∀ c, x2 (ix3 b c l) = y2 (ix3 b c l))
    (h3 : ∀ c, x3 (ix3 b c l) = y3 (ix3 b c l))
    (h4 : ∀ c, x4 (ix3 b c l) = y4 (ix3 b c l))
    (h5 : ∀ c, x5 (ix3 b c l) = y5 (ix3 b c l))
    (h6 : ∀ c, x6 (ix3 b c l) = y6 (ix3 b c l))
    (h7 : ∀ c, x7 (ix3 b c l) = y7 (ix3 b c l))
    (h8 : ∀ c, x8 (ix3 b c l) = y8 (ix3 b c l))
    (h9 : ∀ c, x9 (ix3 b c l) = y9 (ix3 b c l))
    (h10 : ∀ c, x10 (ix3 b c l) = y10 (ix3 b c l))
    (h11 : ∀ c, x11 (ix3 b c l) = y11 (ix3 b c l))
    (h12 : ∀ c, x12 (ix3 b c l) = y12 (ix3 b c l))
    (h13 : ∀ k, x13 (ix3 k b l) = y13 (ix3 k b l))
    (h14 : ∀ k, x14 (ix3 k b l) = y14 (ix3 k b l))
    (h15 : ∀ k, x15 (ix3 k b l) = y15 (ix3 k b l))
    (h16 : ∀ k, x16 (ix3 k b l) = y16 (ix3 k b l))
    (h17 : ∀ k, x17 (ix3 k b l) = y17 (ix3 k b l))
    (h18 : ∀ k, x18 (ix3 k b l) = y18 (ix3 k b l))
    (h19 : ∀ k, x19 (ix3 k b l) = y19 (ix3 k b l))
    (h20 : ∀ k, x20 (ix3 k b l) = y20 (ix3 k b l))
    (h21 : ∀ k, x21 (ix3 k b l) = y21 (ix3 k b l))
    (h22 : ∀ k, x22 (ix3 k b l) = y22 (ix3 k b l))
    (h23 : ∀ k, x23 (ix3 k b l) = y23 (ix3 k b l))
    (h24 : ∀ k, x24 (ix3 k b l) = y24 (ix3 k b l)) :
    outBlock x0 x1 x2 x3 x4 x5 x6 x7 x8 x9 x10 x11 x12 x13 x14 x15 x16 x17 x18 x19 x20 x21 x22 x23 x24 (ix3 r b l) = outBlock y0 y1 y2 y3 y4 y5 y6 y7 y8 y9 y10 y11 y12 y13 y14 y15 y16 y17 y18 y19 y20 y21 y22 y23 y24 (ix3 r b l) := by
  rw [outBlock_apply, outBlock_apply]
  simp only [h0, h1, h2, h3, h4, h5, h6, h7, h8, h9, h10, h11, h12, h13, h14, h15, h16, h17, h18, h19, h20, h21, h22, h23, h24]

set_option maxHeartbeats 4000000 in
theorem outBlock_local (t : Fin cfg0.N)
    (g0 : ((cfg0.win 0).xblock (cfg0.grid.coords t)).Idx → Elt F (cfg0.win 0).elt)
    (g1 : ((cfg0.win 1).xblock (cfg0.grid.coords t)).Idx → Elt F (cfg0.win 1).elt)
    (g2 : ((cfg0.win 2).xblock (cfg0.grid.coords t)).Idx → Elt F (cfg0.win 2).elt)
    (g3 : ((cfg0.win 3).xblock (cfg0.grid.coords t)).Idx → Elt F (cfg0.win 3).elt)
    (g4 : ((cfg0.win 4).xblock (cfg0.grid.coords t)).Idx → Elt F (cfg0.win 4).elt)
    (g5 : ((cfg0.win 5).xblock (cfg0.grid.coords t)).Idx → Elt F (cfg0.win 5).elt)
    (g6 : ((cfg0.win 6).xblock (cfg0.grid.coords t)).Idx → Elt F (cfg0.win 6).elt)
    (g7 : ((cfg0.win 7).xblock (cfg0.grid.coords t)).Idx → Elt F (cfg0.win 7).elt)
    (g8 : ((cfg0.win 8).xblock (cfg0.grid.coords t)).Idx → Elt F (cfg0.win 8).elt)
    (g9 : ((cfg0.win 9).xblock (cfg0.grid.coords t)).Idx → Elt F (cfg0.win 9).elt)
    (g10 : ((cfg0.win 10).xblock (cfg0.grid.coords t)).Idx → Elt F (cfg0.win 10).elt)
    (g11 : ((cfg0.win 11).xblock (cfg0.grid.coords t)).Idx → Elt F (cfg0.win 11).elt)
    (g12 : ((cfg0.win 12).xblock (cfg0.grid.coords t)).Idx → Elt F (cfg0.win 12).elt)
    (g13 : ((cfg0.win 13).xblock (cfg0.grid.coords t)).Idx → Elt F (cfg0.win 13).elt)
    (g14 : ((cfg0.win 14).xblock (cfg0.grid.coords t)).Idx → Elt F (cfg0.win 14).elt)
    (g15 : ((cfg0.win 15).xblock (cfg0.grid.coords t)).Idx → Elt F (cfg0.win 15).elt)
    (g16 : ((cfg0.win 16).xblock (cfg0.grid.coords t)).Idx → Elt F (cfg0.win 16).elt)
    (g17 : ((cfg0.win 17).xblock (cfg0.grid.coords t)).Idx → Elt F (cfg0.win 17).elt)
    (g18 : ((cfg0.win 18).xblock (cfg0.grid.coords t)).Idx → Elt F (cfg0.win 18).elt)
    (g19 : ((cfg0.win 19).xblock (cfg0.grid.coords t)).Idx → Elt F (cfg0.win 19).elt)
    (g20 : ((cfg0.win 20).xblock (cfg0.grid.coords t)).Idx → Elt F (cfg0.win 20).elt)
    (g21 : ((cfg0.win 21).xblock (cfg0.grid.coords t)).Idx → Elt F (cfg0.win 21).elt)
    (g22 : ((cfg0.win 22).xblock (cfg0.grid.coords t)).Idx → Elt F (cfg0.win 22).elt)
    (g23 : ((cfg0.win 23).xblock (cfg0.grid.coords t)).Idx → Elt F (cfg0.win 23).elt)
    (g24 : ((cfg0.win 24).xblock (cfg0.grid.coords t)).Idx → Elt F (cfg0.win 24).elt)
    (d0 f0 : (cfg0.win 0).block.Idx → Elt F (cfg0.win 0).elt)
    (d1 f1 : (cfg0.win 1).block.Idx → Elt F (cfg0.win 1).elt)
    (d2 f2 : (cfg0.win 2).block.Idx → Elt F (cfg0.win 2).elt)
    (d3 f3 : (cfg0.win 3).block.Idx → Elt F (cfg0.win 3).elt)
    (d4 f4 : (cfg0.win 4).block.Idx → Elt F (cfg0.win 4).elt)
    (d5 f5 : (cfg0.win 5).block.Idx → Elt F (cfg0.win 5).elt)
    (d6 f6 : (cfg0.win 6).block.Idx → Elt F (cfg0.win 6).elt)
    (d7 f7 : (cfg0.win 7).block.Idx → Elt F (cfg0.win 7).elt)
    (d8 f8 : (cfg0.win 8).block.Idx → Elt F (cfg0.win 8).elt)
    (d9 f9 : (cfg0.win 9).block.Idx → Elt F (cfg0.win 9).elt)
    (d10 f10 : (cfg0.win 10).block.Idx → Elt F (cfg0.win 10).elt)
    (d11 f11 : (cfg0.win 11).block.Idx → Elt F (cfg0.win 11).elt)
    (d12 f12 : (cfg0.win 12).block.Idx → Elt F (cfg0.win 12).elt)
    (d13 f13 : (cfg0.win 13).block.Idx → Elt F (cfg0.win 13).elt)
    (d14 f14 : (cfg0.win 14).block.Idx → Elt F (cfg0.win 14).elt)
    (d15 f15 : (cfg0.win 15).block.Idx → Elt F (cfg0.win 15).elt)
    (d16 f16 : (cfg0.win 16).block.Idx → Elt F (cfg0.win 16).elt)
    (d17 f17 : (cfg0.win 17).block.Idx → Elt F (cfg0.win 17).elt)
    (d18 f18 : (cfg0.win 18).block.Idx → Elt F (cfg0.win 18).elt)
    (d19 f19 : (cfg0.win 19).block.Idx → Elt F (cfg0.win 19).elt)
    (d20 f20 : (cfg0.win 20).block.Idx → Elt F (cfg0.win 20).elt)
    (d21 f21 : (cfg0.win 21).block.Idx → Elt F (cfg0.win 21).elt)
    (d22 f22 : (cfg0.win 22).block.Idx → Elt F (cfg0.win 22).elt)
    (d23 f23 : (cfg0.win 23).block.Idx → Elt F (cfg0.win 23).elt)
    (d24 f24 : (cfg0.win 24).block.Idx → Elt F (cfg0.win 24).elt) :
    (cfg0.win 25).cut (cfg0.grid.coords t) (outBlock ((cfg0.win 0).fill (cfg0.grid.coords t) d0 g0) ((cfg0.win 1).fill (cfg0.grid.coords t) d1 g1) ((cfg0.win 2).fill (cfg0.grid.coords t) d2 g2) ((cfg0.win 3).fill (cfg0.grid.coords t) d3 g3) ((cfg0.win 4).fill (cfg0.grid.coords t) d4 g4) ((cfg0.win 5).fill (cfg0.grid.coords t) d5 g5) ((cfg0.win 6).fill (cfg0.grid.coords t) d6 g6) ((cfg0.win 7).fill (cfg0.grid.coords t) d7 g7) ((cfg0.win 8).fill (cfg0.grid.coords t) d8 g8) ((cfg0.win 9).fill (cfg0.grid.coords t) d9 g9) ((cfg0.win 10).fill (cfg0.grid.coords t) d10 g10) ((cfg0.win 11).fill (cfg0.grid.coords t) d11 g11) ((cfg0.win 12).fill (cfg0.grid.coords t) d12 g12) ((cfg0.win 13).fill (cfg0.grid.coords t) d13 g13) ((cfg0.win 14).fill (cfg0.grid.coords t) d14 g14) ((cfg0.win 15).fill (cfg0.grid.coords t) d15 g15) ((cfg0.win 16).fill (cfg0.grid.coords t) d16 g16) ((cfg0.win 17).fill (cfg0.grid.coords t) d17 g17) ((cfg0.win 18).fill (cfg0.grid.coords t) d18 g18) ((cfg0.win 19).fill (cfg0.grid.coords t) d19 g19) ((cfg0.win 20).fill (cfg0.grid.coords t) d20 g20) ((cfg0.win 21).fill (cfg0.grid.coords t) d21 g21) ((cfg0.win 22).fill (cfg0.grid.coords t) d22 g22) ((cfg0.win 23).fill (cfg0.grid.coords t) d23 g23) ((cfg0.win 24).fill (cfg0.grid.coords t) d24 g24))
      = (cfg0.win 25).cut (cfg0.grid.coords t) (outBlock ((cfg0.win 0).fill (cfg0.grid.coords t) f0 g0) ((cfg0.win 1).fill (cfg0.grid.coords t) f1 g1) ((cfg0.win 2).fill (cfg0.grid.coords t) f2 g2) ((cfg0.win 3).fill (cfg0.grid.coords t) f3 g3) ((cfg0.win 4).fill (cfg0.grid.coords t) f4 g4) ((cfg0.win 5).fill (cfg0.grid.coords t) f5 g5) ((cfg0.win 6).fill (cfg0.grid.coords t) f6 g6) ((cfg0.win 7).fill (cfg0.grid.coords t) f7 g7) ((cfg0.win 8).fill (cfg0.grid.coords t) f8 g8) ((cfg0.win 9).fill (cfg0.grid.coords t) f9 g9) ((cfg0.win 10).fill (cfg0.grid.coords t) f10 g10) ((cfg0.win 11).fill (cfg0.grid.coords t) f11 g11) ((cfg0.win 12).fill (cfg0.grid.coords t) f12 g12) ((cfg0.win 13).fill (cfg0.grid.coords t) f13 g13) ((cfg0.win 14).fill (cfg0.grid.coords t) f14 g14) ((cfg0.win 15).fill (cfg0.grid.coords t) f15 g15) ((cfg0.win 16).fill (cfg0.grid.coords t) f16 g16) ((cfg0.win 17).fill (cfg0.grid.coords t) f17 g17) ((cfg0.win 18).fill (cfg0.grid.coords t) f18 g18) ((cfg0.win 19).fill (cfg0.grid.coords t) f19 g19) ((cfg0.win 20).fill (cfg0.grid.coords t) f20 g20) ((cfg0.win 21).fill (cfg0.grid.coords t) f21 g21) ((cfg0.win 22).fill (cfg0.grid.coords t) f22 g22) ((cfg0.win 23).fill (cfg0.grid.coords t) f23 g23) ((cfg0.win 24).fill (cfg0.grid.coords t) f24 g24)) := by
  obtain ⟨x2, x0, x1, -, -, -⟩ := win_facts_25 t
  funext j
  have hr : (j 0).val < 75 := lt_of_lt_of_eq (j 0).isLt x0
  have hb : (j 1).val < 32 := lt_of_lt_of_eq (j 1).isLt x1
  have hl : (j 2).val < min 384 (8732 - 384 * t.val) := lt_of_lt_of_eq (j 2).isLt x2
  have hl' : (j 2).val < 384 := by omega
  have hx : (cfg0.win 25).xinj (cfg0.grid.coords t) j
      = ix3 (⟨(j 0).val, hr⟩ : Fin 75) (⟨(j 1).val, hb⟩ : Fin 32) (⟨(j 2).val, hl'⟩ : Fin 384) :=
    funext fun a => match a with | ⟨0, _⟩ => rfl | ⟨1, _⟩ => rfl | ⟨2, _⟩ => rfl
  show outBlock _ _ _ _ _ _ _ _ _ _ _ _ _ _ _ _ _ _ _ _ _ _ _ _ _ ((cfg0.win 25).xinj (cfg0.grid.coords t) j)
    = outBlock _ _ _ _ _ _ _ _ _ _ _ _ _ _ _ _ _ _ _ _ _ _ _ _ _ ((cfg0.win 25).xinj (cfg0.grid.coords t) j)
  rw [hx]
  exact outBlock_lane_congr _ _ _ _ _ _ _ _ _ _ _ _ _ _ _ _ _ _ _ _ _ _ _ _ _ _ _ _ _ _ _ _ _ _ _ _ _ _ _ _ _ _ _ _ _ _ _ _ _ _ ⟨(j 0).val, hr⟩ ⟨(j 1).val, hb⟩ ⟨(j 2).val, hl'⟩
    (fun c => fill_eq_of_moved _ _ _ _ _ _ (moved_0 t c ⟨(j 2).val, hl'⟩ hl))
    (fun c => fill_eq_of_moved _ _ _ _ _ _ (moved_1 t ⟨(j 1).val, hb⟩ c ⟨(j 2).val, hl'⟩ hl))
    (fun c => fill_eq_of_moved _ _ _ _ _ _ (moved_2 t ⟨(j 1).val, hb⟩ c ⟨(j 2).val, hl'⟩ hl))
    (fun c => fill_eq_of_moved _ _ _ _ _ _ (moved_3 t ⟨(j 1).val, hb⟩ c ⟨(j 2).val, hl'⟩ hl))
    (fun c => fill_eq_of_moved _ _ _ _ _ _ (moved_4 t ⟨(j 1).val, hb⟩ c ⟨(j 2).val, hl'⟩ hl))
    (fun c => fill_eq_of_moved _ _ _ _ _ _ (moved_5 t ⟨(j 1).val, hb⟩ c ⟨(j 2).val, hl'⟩ hl))
    (fun c => fill_eq_of_moved _ _ _ _ _ _ (moved_6 t ⟨(j 1).val, hb⟩ c ⟨(j 2).val, hl'⟩ hl))
    (fun c => fill_eq_of_moved _ _ _ _ _ _ (moved_7 t ⟨(j 1).val, hb⟩ c ⟨(j 2).val, hl'⟩ hl))
    (fun c => fill_eq_of_moved _ _ _ _ _ _ (moved_8 t ⟨(j 1).val, hb⟩ c ⟨(j 2).val, hl'⟩ hl))
    (fun c => fill_eq_of_moved _ _ _ _ _ _ (moved_9 t ⟨(j 1).val, hb⟩ c ⟨(j 2).val, hl'⟩ hl))
    (fun c => fill_eq_of_moved _ _ _ _ _ _ (moved_10 t ⟨(j 1).val, hb⟩ c ⟨(j 2).val, hl'⟩ hl))
    (fun c => fill_eq_of_moved _ _ _ _ _ _ (moved_11 t ⟨(j 1).val, hb⟩ c ⟨(j 2).val, hl'⟩ hl))
    (fun c => fill_eq_of_moved _ _ _ _ _ _ (moved_12 t ⟨(j 1).val, hb⟩ c ⟨(j 2).val, hl'⟩ hl))
    (fun k => fill_eq_of_moved _ _ _ _ _ _ (moved_13 t k ⟨(j 1).val, hb⟩ ⟨(j 2).val, hl'⟩ hl))
    (fun k => fill_eq_of_moved _ _ _ _ _ _ (moved_14 t k ⟨(j 1).val, hb⟩ ⟨(j 2).val, hl'⟩ hl))
    (fun k => fill_eq_of_moved _ _ _ _ _ _ (moved_15 t k ⟨(j 1).val, hb⟩ ⟨(j 2).val, hl'⟩ hl))
    (fun k => fill_eq_of_moved _ _ _ _ _ _ (moved_16 t k ⟨(j 1).val, hb⟩ ⟨(j 2).val, hl'⟩ hl))
    (fun k => fill_eq_of_moved _ _ _ _ _ _ (moved_17 t k ⟨(j 1).val, hb⟩ ⟨(j 2).val, hl'⟩ hl))
    (fun k => fill_eq_of_moved _ _ _ _ _ _ (moved_18 t k ⟨(j 1).val, hb⟩ ⟨(j 2).val, hl'⟩ hl))
    (fun k => fill_eq_of_moved _ _ _ _ _ _ (moved_19 t k ⟨(j 1).val, hb⟩ ⟨(j 2).val, hl'⟩ hl))
    (fun k => fill_eq_of_moved _ _ _ _ _ _ (moved_20 t k ⟨(j 1).val, hb⟩ ⟨(j 2).val, hl'⟩ hl))
    (fun k => fill_eq_of_moved _ _ _ _ _ _ (moved_21 t k ⟨(j 1).val, hb⟩ ⟨(j 2).val, hl'⟩ hl))
    (fun k => fill_eq_of_moved _ _ _ _ _ _ (moved_22 t k ⟨(j 1).val, hb⟩ ⟨(j 2).val, hl'⟩ hl))
    (fun k => fill_eq_of_moved _ _ _ _ _ _ (moved_23 t k ⟨(j 1).val, hb⟩ ⟨(j 2).val, hl'⟩ hl))
    (fun k => fill_eq_of_moved _ _ _ _ _ _ (moved_24 t k ⟨(j 1).val, hb⟩ ⟨(j 2).val, hl'⟩ hl))

end Cert.KernelIdeal.Body

end
-- ==== Proof.KIData.lean ====
import proofs.«111137_g86517821215618_cont_9to1_m_1401_12_alg».proof.Proof.Gen.KernelIdeal.Frame
import proofs.«111137_g86517821215618_cont_9to1_m_1401_12_alg».proof.Proof.Gen.KernelIdeal.Skeleton
import proofs.«111137_g86517821215618_cont_9to1_m_1401_12_alg».proof.Proof.KIRun
import proofs.«111137_g86517821215618_cont_9to1_m_1401_12_alg».proof.Proof.KILocal
import Idealize.ShloMosaic.Lib.Pipeline.FrameSuffix
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data

A window's block at the last grid point overhangs its array by 100 lanes: the fetch lands the 284 lanes inside the array
and the rest of the staging buffer holds words nothing names. The data names each input's buffer after the body as its
block filled out with a word of the proof's choosing, and the output's as `outBlock` of those; the body obligation
states every buffer on the lanes inside the array only. -/

/-- Input window `w`'s block at point `t`, filled out past the array's end with a word nothing reads. -/
def inB (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data of the pipeline on core `c`: the arrays as the region finds them; after the body at point `t` each
    input's buffer at its filled-out block and the output's at `outBlock` of them; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => inB m c 0 t
    | ⟨1, _⟩ => inB m c 1 t
    | ⟨2, _⟩ => inB m c 2 t
    | ⟨3, _⟩ => inB m c 3 t
    | ⟨4, _⟩ => inB m c 4 t
    | ⟨5, _⟩ => inB m c 5 t
    | ⟨6, _⟩ => inB m c 6 t
    | ⟨7, _⟩ => inB m c 7 t
    | ⟨8, _⟩ => inB m c 8 t
    | ⟨9, _⟩ => inB m c 9 t
    | ⟨10, _⟩ => inB m c 10 t
    | ⟨11, _⟩ => inB m c 11 t
    | ⟨12, _⟩ => inB m c 12 t
    | ⟨13, _⟩ => inB m c 13 t
    | ⟨14, _⟩ => inB m c 14 t
    | ⟨15, _⟩ => inB m c 15 t
    | ⟨16, _⟩ => inB m c 16 t
    | ⟨17, _⟩ => inB m c 17 t
    | ⟨18, _⟩ => inB m c 18 t
    | ⟨19, _⟩ => inB m c 19 t
    | ⟨20, _⟩ => inB m c 20 t
    | ⟨21, _⟩ => inB m c 21 t
    | ⟨22, _⟩ => inB m c 22 t
    | ⟨23, _⟩ => inB m c 23 t
    | ⟨24, _⟩ => inB m c 24 t
    | ⟨25, _⟩ => outBlock (inB m c 0 t) (inB m c 1 t) (inB m c 2 t) (inB m c 3 t) (inB m c 4 t) (inB m c 5 t) (inB m c 6 t) (inB m c 7 t) (inB m c 8 t) (inB m c 9 t) (inB m c 10 t) (inB m c 11 t) (inB m c 12 t) (inB m c 13 t) (inB m c 14 t) (inB m c 15 t) (inB m c 16 t) (inB m c 17 t) (inB m c 18 t) (inB m c 19 t) (inB m c 20 t) (inB m c 21 t) (inB m c 22 t) (inB m c 23 t) (inB m c 24 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inB m c 0 t := by dsimp only [dats]
theorem after_1 (c : Dev nD) (t : Fin cfg0.N) : (dats m 0 c).after 1 t = inB m c 1 t := by dsimp only [dats]
theorem after_2 (c : Dev nD) (t : Fin cfg0.N) : (dats m 0 c).after 2 t = inB m c 2 t := by dsimp only [dats]
theorem after_3 (c : Dev nD) (t : Fin cfg0.N) : (dats m 0 c).after 3 t = inB m c 3 t := by dsimp only [dats]
theorem after_4 (c : Dev nD) (t : Fin cfg0.N) : (dats m 0 c).after 4 t = inB m c 4 t := by dsimp only [dats]
theorem after_5 (c : Dev nD) (t : Fin cfg0.N) : (dats m 0 c).after 5 t = inB m c 5 t := by dsimp only [dats]
theorem after_6 (c : Dev nD) (t : Fin cfg0.N) : (dats m 0 c).after 6 t = inB m c 6 t := by dsimp only [dats]
theorem after_7 (c : Dev nD) (t : Fin cfg0.N) : (dats m 0 c).after 7 t = inB m c 7 t := by dsimp only [dats]
theorem after_8 (c : Dev nD) (t : Fin cfg0.N) : (dats m 0 c).after 8 t = inB m c 8 t := by dsimp only [dats]
theorem after_9 (c : Dev nD) (t : Fin cfg0.N) : (dats m 0 c).after 9 t = inB m c 9 t := by dsimp only [dats]
theorem after_10 (c : Dev nD) (t : Fin cfg0.N) : (dats m 0 c).after 10 t = inB m c 10 t := by dsimp only [dats]
theorem after_11 (c : Dev nD) (t : Fin cfg0.N) : (dats m 0 c).after 11 t = inB m c 11 t := by dsimp only [dats]
theorem after_12 (c : Dev nD) (t : Fin cfg0.N) : (dats m 0 c).after 12 t = inB m c 12 t := by dsimp only [dats]
theorem after_13 (c : Dev nD) (t : Fin cfg0.N) : (dats m 0 c).after 13 t = inB m c 13 t := by dsimp only [dats]
theorem after_14 (c : Dev nD) (t : Fin cfg0.N) : (dats m 0 c).after 14 t = inB m c 14 t := by dsimp only [dats]
theorem after_15 (c : Dev nD) (t : Fin cfg0.N) : (dats m 0 c).after 15 t = inB m c 15 t := by dsimp only [dats]
theorem after_16 (c : Dev nD) (t : Fin cfg0.N) : (dats m 0 c).after 16 t = inB m c 16 t := by dsimp only [dats]
theorem after_17 (c : Dev nD) (t : Fin cfg0.N) : (dats m 0 c).after 17 t = inB m c 17 t := by dsimp only [dats]
theorem after_18 (c : Dev nD) (t : Fin cfg0.N) : (dats m 0 c).after 18 t = inB m c 18 t := by dsimp only [dats]
theorem after_19 (c : Dev nD) (t : Fin cfg0.N) : (dats m 0 c).after 19 t = inB m c 19 t := by dsimp only [dats]
theorem after_20 (c : Dev nD) (t : Fin cfg0.N) : (dats m 0 c).after 20 t = inB m c 20 t := by dsimp only [dats]
theorem after_21 (c : Dev nD) (t : Fin cfg0.N) : (dats m 0 c).after 21 t = inB m c 21 t := by dsimp only [dats]
theorem after_22 (c : Dev nD) (t : Fin cfg0.N) : (dats m 0 c).after 22 t = inB m c 22 t := by dsimp only [dats]
theorem after_23 (c : Dev nD) (t : Fin cfg0.N) : (dats m 0 c).after 23 t = inB m c 23 t := by dsimp only [dats]
theorem after_24 (c : Dev nD) (t : Fin cfg0.N) : (dats m 0 c).after 24 t = inB m c 24 t := by dsimp only [dats]
theorem after_25 (c : Dev nD) (t : Fin cfg0.N) : (dats m 0 c).after 25 t = outBlock (inB m c 0 t) (inB m c 1 t) (inB m c 2 t) (inB m c 3 t) (inB m c 4 t) (inB m c 5 t) (inB m c 6 t) (inB m c 7 t) (inB m c 8 t) (inB m c 9 t) (inB m c 10 t) (inB m c 11 t) (inB m c 12 t) (inB m c 13 t) (inB m c 14 t) (inB m c 15 t) (inB m c 16 t) (inB m c 17 t) (inB m c 18 t) (inB m c 19 t) (inB m c 20 t) (inB m c 21 t) (inB m c 22 t) (inB m c 23 t) (inB m c 24 t) := by dsimp only [dats]

/-- An input fetched at point `t` is found at its block on the lanes the fetch fills, at what the buffer held elsewhere. -/
theorem before_in (c : Dev nD) (w : Fin cfg0.W) (t : Fin cfg0.N) (hf : (cfg0.win w).fetch t = true) (d) :
    (dats m 0 c).before w t d = (cfg0.win w).fill (cfg0.grid.coords t) d (iblk m c w t) := by
  unfold Dat.before; rw [if_pos hf]; unfold Dat.fetched Dat.blockOf iblk; rw [A_eq]

/-- The output window is never fetched, -/
theorem fetch0_25 : ∀ t : Fin cfg0.N, (cfg0.win 25).fetch t = false :=
  (by decide +kernel : ∀ t : Fin grid0.N, win0_25.fetch t = false)

/-- and is written back at every point: its buffer is found at contents nothing names. -/
theorem before_out (c : Dev nD) (t : Fin cfg0.N) (d) : (dats m 0 c).before 25 t d = d := by
  unfold Dat.before
  rw [if_neg (by rw [fetch0_25 t]; exact Bool.false_ne_true)]
  by_cases h0 : t.val = 0
  · rw [if_pos h0]
  · rw [if_neg h0]; exact if_pos (flush0_25 _)

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t))))
    ∗ (∃ d, owns (c : Thread nD τ) (st0_8 t) fullShare ((cfg0.win 8).fill (cfg0.grid.coords t) d ((cfg0.win 8).cut (cfg0.grid.coords t) ((dats m 0 c).after 8 t))))
    ∗ (∃ d, owns (c : Thread nD τ) (st0_9 t) fullShare ((cfg0.win 9).fill (cfg0.grid.coords t) d ((cfg0.win 9).cut (cfg0.grid.coords t) ((dats m 0 c).after 9 t))))
    ∗ (∃ d, owns (c : Thread nD τ) (st0_10 t) fullShare ((cfg0.win 10).fill (cfg0.grid.coords t) d ((cfg0.win 10).cut (cfg0.grid.coords t) ((dats m 0 c).after 10 t))))
    ∗ (∃ d, owns (c : Thread nD τ) (st0_11 t) fullShare ((cfg0.win 11).fill (cfg0.grid.coords t) d ((cfg0.win 11).cut (cfg0.grid.coords t) ((dats m 0 c).after 11 t))))
    ∗ (∃ d, owns (c : Thread nD τ) (st0_12 t) fullShare ((cfg0.win 12).fill (cfg0.grid.coords t) d ((cfg0.win 12).cut (cfg0.grid.coords t) ((dats m 0 c).after 12 t))))
    ∗ (∃ d, owns (c : Thread nD τ) (st0_13 t) fullShare ((cfg0.win 13).fill (cfg0.grid.coords t) d ((cfg0.win 13).cut (cfg0.grid.coords t) ((dats m 0 c).after 13 t))))
    ∗ (∃ d, owns (c : Thread nD τ) (st0_14 t) fullShare ((cfg0.win 14).fill (cfg0.grid.coords t) d ((cfg0.win 14).cut (cfg0.grid.coords t) ((dats m 0 c).after 14 t))))
    ∗ (∃ d, owns (c : Thread nD τ) (st0_15 t) fullShare ((cfg0.win 15).fill (cfg0.grid.coords t) d ((cfg0.win 15).cut (cfg0.grid.coords t) ((dats m 0 c).after 15 t))))
    ∗ (∃ d, owns (c : Thread nD τ) (st0_16 t) fullShare ((cfg0.win 16).fill (cfg0.grid.coords t) d ((cfg0.win 16).cut (cfg0.grid.coords t) ((dats m 0 c).after 16 t))))
    ∗ (∃ d, owns (c : Thread nD τ) (st0_17 t) fullShare ((cfg0.win 17).fill (cfg0.grid.coords t) d ((cfg0.win 17).cut (cfg0.grid.coords t) ((dats m 0 c).after 17 t))))
    ∗ (∃ d, owns (c : Thread nD τ) (st0_18 t) fullShare ((cfg0.win 18).fill (cfg0.grid.coords t) d ((cfg0.win 18).cut (cfg0.grid.coords t) ((dats m 0 c).after 18 t))))
    ∗ (∃ d, owns (c : Thread nD τ) (st0_19 t) fullShare ((cfg0.win 19).fill (cfg0.grid.coords t) d ((cfg0.win 19).cut (cfg0.grid.coords t) ((dats m 0 c).after 19 t))))
    ∗ (∃ d, owns (c : Thread nD τ) (st0_20 t) fullShare ((cfg0.win 20).fill (cfg0.grid.coords t) d ((cfg0.win 20).cut (cfg0.grid.coords t) ((dats m 0 c).after 20 t))))
    ∗ (∃ d, owns (c : Thread nD τ) (st0_21 t) fullShare ((cfg0.win 21).fill (cfg0.grid.coords t) d ((cfg0.win 21).cut (cfg0.grid.coords t) ((dats m 0 c).after 21 t))))
    ∗ (∃ d, owns (c : Thread nD τ) (st0_22 t) fullShare ((cfg0.win 22).fill (cfg0.grid.coords t) d ((cfg0.win 22).cut (cfg0.grid.coords t) ((dats m 0 c).after 22 t))))
    ∗ (∃ d, owns (c : Thread nD τ) (st0_23 t) fullShare ((cfg0.win 23).fill (cfg0.grid.coords t) d ((cfg0.win 23).cut (cfg0.grid.coords t) ((dats m 0 c).after 23 t))))
    ∗ (∃ d, owns (c : Thread nD τ) (st0_24 t) fullShare ((cfg0.win 24).fill (cfg0.grid.coords t) d ((cfg0.win 24).cut (cfg0.grid.coords t) ((dats m 0 c).after 24 t))))
    ∗ (∃ d, owns (c : Thread nD τ) (st0_25 t) fullShare ((cfg0.win 25).fill (cfg0.grid.coords t) d ((cfg0.win 25).cut (cfg0.grid.coords t) ((dats m 0 c).after 25 t)))))

set_option maxHeartbeats 4000000 in
/-- The body at any point: each input's buffer holds its block filled out with whatever the buffer held past the array's
    end, so `sound_kernel` applies at those contents; what it leaves in the output's buffer agrees, on the lanes inside
    the array, with `outBlock` of the named blocks (an output entry reads the inputs at its own lane only). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  rw [before_in m c 0 t (fetch0_0 t) d0, before_in m c 1 t (fetch0_1 t) d1, before_in m c 2 t (fetch0_2 t) d2, before_in m c 3 t (fetch0_3 t) d3, before_in m c 4 t (fetch0_4 t) d4, before_in m c 5 t (fetch0_5 t) d5, before_in m c 6 t (fetch0_6 t) d6, before_in m c 7 t (fetch0_7 t) d7, before_in m c 8 t (fetch0_8 t) d8, before_in m c 9 t (fetch0_9 t) d9, before_in m c 10 t (fetch0_10 t) d10, before_in m c 11 t (fetch0_11 t) d11, before_in m c 12 t (fetch0_12 t) d12, before_in m c 13 t (fetch0_13 t) d13, before_in m c 14 t (fetch0_14 t) d14, before_in m c 15 t (fetch0_15 t) d15, before_in m c 16 t (fetch0_16 t) d16, before_in m c 17 t (fetch0_17 t) d17, before_in m c 18 t (fetch0_18 t) d18, before_in m c 19 t (fetch0_19 t) d19, before_in m c 20 t (fetch0_20 t) d20, before_in m c 21 t (fetch0_21 t) d21, before_in m c 22 t (fetch0_22 t) d22, before_in m c 23 t (fetch0_23 t) d23, before_in m c 24 t (fetch0_24 t) d24, before_out m c t d25]
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _
    ((cfg0.win 0).fill (grid0.coords t) d0 (iblk m c 0 t))
    ((cfg0.win 1).fill (grid0.coords t) d1 (iblk m c 1 t))
    ((cfg0.win 2).fill (grid0.coords t) d2 (iblk m c 2 t))
    ((cfg0.win 3).fill (grid0.coords t) d3 (iblk m c 3 t))
    ((cfg0.win 4).fill (grid0.coords t) d4 (iblk m c 4 t))
    ((cfg0.win 5).fill (grid0.coords t) d5 (iblk m c 5 t))
    ((cfg0.win 6).fill (grid0.coords t) d6 (iblk m c 6 t))
    ((cfg0.win 7).fill (grid0.coords t) d7 (iblk m c 7 t))
    ((cfg0.win 8).fill (grid0.coords t) d8 (iblk m c 8 t))
    ((cfg0.win 9).fill (grid0.coords t) d9 (iblk m c 9 t))
    ((cfg0.win 10).fill (grid0.coords t) d10 (iblk m c 10 t))
    ((cfg0.win 11).fill (grid0.coords t) d11 (iblk m c 11 t))
    ((cfg0.win 12).fill (grid0.coords t) d12 (iblk m c 12 t))
    ((cfg0.win 13).fill (grid0.coords t) d13 (iblk m c 13 t))
    ((cfg0.win 14).fill (grid0.coords t) d14 (iblk m c 14 t))
    ((cfg0.win 15).fill (grid0.coords t) d15 (iblk m c 15 t))
    ((cfg0.win 16).fill (grid0.coords t) d16 (iblk m c 16 t))
    ((cfg0.win 17).fill (grid0.coords t) d17 (iblk m c 17 t))
    ((cfg0.win 18).fill (grid0.coords t) d18 (iblk m c 18 t))
    ((cfg0.win 19).fill (grid0.coords t) d19 (iblk m c 19 t))
    ((cfg0.win 20).fill (grid0.coords t) d20 (iblk m c 20 t))
    ((cfg0.win 21).fill (grid0.coords t) d21 (iblk m c 21 t))
    ((cfg0.win 22).fill (grid0.coords t) d22 (iblk m c 22 t))
    ((cfg0.win 23).fill (grid0.coords t) d23 (iblk m c 23 t))
    ((cfg0.win 24).fill (grid0.coords t) d24 (iblk m c 24 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]
  · iexists d0; rw [after_0]; unfold inB; rw [(cfg0.win 0).cut_fill]; iexact H0
  isplitl [H1]
  · iexists d1; rw [after_1]; unfold inB; rw [(cfg0.win 1).cut_fill]; iexact H1
  isplitl [H2]
  · iexists d2; rw [after_2]; unfold inB; rw [(cfg0.win 2).cut_fill]; iexact H2
  isplitl [H3]
  · iexists d3; rw [after_3]; unfold inB; rw [(cfg0.win 3).cut_fill]; iexact H3
  isplitl [H4]
  · iexists d4; rw [after_4]; unfold inB; rw [(cfg0.win 4).cut_fill]; iexact H4
  isplitl [H5]
  · iexists d5; rw [after_5]; unfold inB; rw [(cfg0.win 5).cut_fill]; iexact H5
  isplitl [H6]
  · iexists d6; rw [after_6]; unfold inB; rw [(cfg0.win 6).cut_fill]; iexact H6
  isplitl [H7]
  · iexists d7; rw [after_7]; unfold inB; rw [(cfg0.win 7).cut_fill]; iexact H7
  isplitl [H8]
  · iexists d8; rw [after_8]; unfold inB; rw [(cfg0.win 8).cut_fill]; iexact H8
  isplitl [H9]
  · iexists d9; rw [after_9]; unfold inB; rw [(cfg0.win 9).cut_fill]; iexact H9
  isplitl [H10]
  · iexists d10; rw [after_10]; unfold inB; rw [(cfg0.win 10).cut_fill]; iexact H10
  isplitl [H11]
  · iexists d11; rw [after_11]; unfold inB; rw [(cfg0.win 11).cut_fill]; iexact H11
  isplitl [H12]
  · iexists d12; rw [after_12]; unfold inB; rw [(cfg0.win 12).cut_fill]; iexact H12
  isplitl [H13]
  · iexists d13; rw [after_13]; unfold inB; rw [(cfg0.win 13).cut_fill]; iexact H13
  isplitl [H14]
  · iexists d14; rw [after_14]; unfold inB; rw [(cfg0.win 14).cut_fill]; iexact H14
  isplitl [H15]
  · iexists d15; rw [after_15]; unfold inB; rw [(cfg0.win 15).cut_fill]; iexact H15
  isplitl [H16]
  · iexists d16; rw [after_16]; unfold inB; rw [(cfg0.win 16).cut_fill]; iexact H16
  isplitl [H17]
  · iexists d17; rw [after_17]; unfold inB; rw [(cfg0.win 17).cut_fill]; iexact H17
  isplitl [H18]
  · iexists d18; rw [after_18]; unfold inB; rw [(cfg0.win 18).cut_fill]; iexact H18
  isplitl [H19]
  · iexists d19; rw [after_19]; unfold inB; rw [(cfg0.win 19).cut_fill]; iexact H19
  isplitl [H20]
  · iexists d20; rw [after_20]; unfold inB; rw [(cfg0.win 20).cut_fill]; iexact H20
  isplitl [H21]
  · iexists d21; rw [after_21]; unfold inB; rw [(cfg0.win 21).cut_fill]; iexact H21
  isplitl [H22]
  · iexists d22; rw [after_22]; unfold inB; rw [(cfg0.win 22).cut_fill]; iexact H22
  isplitl [H23]
  · iexists d23; rw [after_23]; unfold inB; rw [(cfg0.win 23).cut_fill]; iexact H23
  isplitl [H24]
  · iexists d24; rw [after_24]; unfold inB; rw [(cfg0.win 24).cut_fill]; iexact H24
  iexists outBlock ((cfg0.win 0).fill (grid0.coords t) d0 (iblk m c 0 t)) ((cfg0.win 1).fill (grid0.coords t) d1 (iblk m c 1 t)) ((cfg0.win 2).fill (grid0.coords t) d2 (iblk m c 2 t)) ((cfg0.win 3).fill (grid0.coords t) d3 (iblk m c 3 t)) ((cfg0.win 4).fill (grid0.coords t) d4 (iblk m c 4 t)) ((cfg0.win 5).fill (grid0.coords t) d5 (iblk m c 5 t)) ((cfg0.win 6).fill (grid0.coords t) d6 (iblk m c 6 t)) ((cfg0.win 7).fill (grid0.coords t) d7 (iblk m c 7 t)) ((cfg0.win 8).fill (grid0.coords t) d8 (iblk m c 8 t)) ((cfg0.win 9).fill (grid0.coords t) d9 (iblk m c 9 t)) ((cfg0.win 10).fill (grid0.coords t) d10 (iblk m c 10 t)) ((cfg0.win 11).fill (grid0.coords t) d11 (iblk m c 11 t)) ((cfg0.win 12).fill (grid0.coords t) d12 (iblk m c 12 t)) ((cfg0.win 13).fill (grid0.coords t) d13 (iblk m c 13 t)) ((cfg0.win 14).fill (grid0.coords t) d14 (iblk m c 14 t)) ((cfg0.win 15).fill (grid0.coords t) d15 (iblk m c 15 t)) ((cfg0.win 16).fill (grid0.coords t) d16 (iblk m c 16 t)) ((cfg0.win 17).fill (grid0.coords t) d17 (iblk m c 17 t)) ((cfg0.win 18).fill (grid0.coords t) d18 (iblk m c 18 t)) ((cfg0.win 19).fill (grid0.coords t) d19 (iblk m c 19 t)) ((cfg0.win 20).fill (grid0.coords t) d20 (iblk m c 20 t)) ((cfg0.win 21).fill (grid0.coords t) d21 (iblk m c 21 t)) ((cfg0.win 22).fill (grid0.coords t) d22 (iblk m c 22 t)) ((cfg0.win 23).fill (grid0.coords t) d23 (iblk m c 23 t)) ((cfg0.win 24).fill (grid0.coords t) d24 (iblk m c 24 t))
  rw [after_25]; unfold inB
  rw [(cfg0.win 25).fill_congr_cut (cfg0.grid.coords t) (outBlock_local t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    d0 (fun _ => Classical.arbitrary _) d1 (fun _ => Classical.arbitrary _) d2 (fun _ => Classical.arbitrary _) d3 (fun _ => Classical.arbitrary _) d4 (fun _ => Classical.arbitrary _) d5 (fun _ => Classical.arbitrary _) d6 (fun _ => Classical.arbitrary _) d7 (fun _ => Classical.arbitrary _) d8 (fun _ => Classical.arbitrary _) d9 (fun _ => Classical.arbitrary _) d10 (fun _ => Classical.arbitrary _) d11 (fun _ => Classical.arbitrary _) d12 (fun _ => Classical.arbitrary _) d13 (fun _ => Classical.arbitrary _) d14 (fun _ => Classical.arbitrary _) d15 (fun _ => Classical.arbitrary _) d16 (fun _ => Classical.arbitrary _) d17 (fun _ => Classical.arbitrary _) d18 (fun _ => Classical.arbitrary _) d19 (fun _ => Classical.arbitrary _) d20 (fun _ => Classical.arbitrary _) d21 (fun _ => Classical.arbitrary _) d22 (fun _ => Classical.arbitrary _) d23 (fun _ => Classical.arbitrary _) d24 (fun _ => Classical.arbitrary _))]
  iexact H25

/-- The library's body obligation, in the form that states each buffer on the lanes inside the array. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Body

end
-- ==== Proof.KIHost.lean ====
import proofs.«111137_g86517821215618_cont_9to1_m_1401_12_alg».proof.Proof.Gen.KernelIdeal.Frame
import Idealize.ShloMosaic.Lib.StableHlo.Run
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-! ## The arrays the region reads

Before the region the host lays every argument out with the prior axis last: the priors [8732, 4] as [4, 8732], a
localisation array [32, 8732, 4] as [32, 4, 8732], a class array [32, 8732, 21] as [21, 32, 8732]. Each array a window
stages is that transpose of its argument. -/

theorem V_win_0 (c : Dev nD) : (V m c main_v24 : S4x8732.Idx → Elt F (.f32)) =
    transpose S4x8732 [1, 0] (m ((c : Thread nD τ).loc main_arg0)) transposes_S8732x4_S4x8732_1_0 := by
  show StableHlo.after hostOps0 (fun b => m (c, b)) (Proc.devRef .tc main_v24) = _
  after_results
theorem V_win_1 (c : Dev nD) : (V m c main_v0 : S32x4x8732.Idx → Elt F (.f32)) =
    transpose S32x4x8732 [0, 2, 1] (m ((c : Thread nD τ).loc main_arg1)) transposes_S32x8732x4_S32x4x8732_0_2_1 := by
  show StableHlo.after hostOps0 (fun b => m (c, b)) (Proc.devRef .tc main_v0) = _
  after_results
theorem V_win_2 (c : Dev nD) : (V m c main_v1 : S32x4x8732.Idx → Elt F (.f32)) =
    transpose S32x4x8732 [0, 2, 1] (m ((c : Thread nD τ).loc main_arg2)) transposes_S32x8732x4_S32x4x8732_0_2_1 := by
  show StableHlo.after hostOps0 (fun b => m (c, b)) (Proc.devRef .tc main_v1) = _
  after_results
theorem V_win_3 (c : Dev nD) : (V m c main_v2 : S32x4x8732.Idx → Elt F (.f32)) =
    transpose S32x4x8732 [0, 2, 1] (m ((c : Thread nD τ).loc main_arg3)) transposes_S32x8732x4_S32x4x8732_0_2_1 := by
  show StableHlo.after hostOps0 (fun b => m (c, b)) (Proc.devRef .tc main_v2) = _
  after_results
theorem V_win_4 (c : Dev nD) : (V m c main_v3 : S32x4x8732.Idx → Elt F (.f32)) =
    transpose S32x4x8732 [0, 2, 1] (m ((c : Thread nD τ).loc main_arg4)) transposes_S32x8732x4_S32x4x8732_0_2_1 := by
  show StableHlo.after hostOps0 (fun b => m (c, b)) (Proc.devRef .tc main_v3) = _
  after_results
theorem V_win_5 (c : Dev nD) : (V m c main_v4 : S32x4x8732.Idx → Elt F (.f32)) =
    transpose S32x4x8732 [0, 2, 1] (m ((c : Thread nD τ).loc main_arg5)) transposes_S32x8732x4_S32x4x8732_0_2_1 := by
  show StableHlo.after hostOps0 (fun b => m (c, b)) (Proc.devRef .tc main_v4) = _
  after_results
theorem V_win_6 (c : Dev nD) : (V m c main_v5 : S32x4x8732.Idx → Elt F (.f32)) =
    transpose S32x4x8732 [0, 2, 1] (m ((c : Thread nD τ).loc main_arg6)) transposes_S32x8732x4_S32x4x8732_0_2_1 := by
  show StableHlo.after hostOps0 (fun b => m (c, b)) (Proc.devRef .tc main_v5) = _
  after_results
theorem V_win_7 (c : Dev nD) : (V m c main_v6 : S32x4x8732.Idx → Elt F (.f32)) =
    transpose S32x4x8732 [0, 2, 1] (m ((c : Thread nD τ).loc main_arg7)) transposes_S32x8732x4_S32x4x8732_0_2_1 := by
  show StableHlo.after hostOps0 (fun b => m (c, b)) (Proc.devRef .tc main_v6) = _
  after_results
theorem V_win_8 (c : Dev nD) : (V m c main_v7 : S32x4x8732.Idx → Elt F (.f32)) =
    transpose S32x4x8732 [0, 2, 1] (m ((c : Thread nD τ).loc main_arg8)) transposes_S32x8732x4_S32x4x8732_0_2_1 := by
  show StableHlo.after hostOps0 (fun b => m (c, b)) (Proc.devRef .tc main_v7) = _
  after_results
theorem V_win_9 (c : Dev nD) : (V m c main_v8 : S32x4x8732.Idx → Elt F (.f32)) =
    transpose S32x4x8732 [0, 2, 1] (m ((c : Thread nD τ).loc main_arg9)) transposes_S32x8732x4_S32x4x8732_0_2_1 := by
  show StableHlo.after hostOps0 (fun b => m (c, b)) (Proc.devRef .tc main_v8) = _
  after_results
theorem V_win_10 (c : Dev nD) : (V m c main_v9 : S32x4x8732.Idx → Elt F (.f32)) =
    transpose S32x4x8732 [0, 2, 1] (m ((c : Thread nD τ).loc main_arg10)) transposes_S32x8732x4_S32x4x8732_0_2_1 := by
  show StableHlo.after hostOps0 (fun b => m (c, b)) (Proc.devRef .tc main_v9) = _
  after_results
theorem V_win_11 (c : Dev nD) : (V m c main_v10 : S32x4x8732.Idx → Elt F (.f32)) =
    transpose S32x4x8732 [0, 2, 1] (m ((c : Thread nD τ).loc main_arg11)) transposes_S32x8732x4_S32x4x8732_0_2_1 := by
  show StableHlo.after hostOps0 (fun b => m (c, b)) (Proc.devRef .tc main_v10) = _
  after_results
theorem V_win_12 (c : Dev nD) : (V m c main_v11 : S32x4x8732.Idx → Elt F (.f32)) =
    transpose S32x4x8732 [0, 2, 1] (m ((c : Thread nD τ).loc main_arg12)) transposes_S32x8732x4_S32x4x8732_0_2_1 := by
  show StableHlo.after hostOps0 (fun b => m (c, b)) (Proc.devRef .tc main_v11) = _
  after_results
theorem V_win_13 (c : Dev nD) : (V m c main_v12 : S21x32x8732.Idx → Elt F (.f32)) =
    transpose S21x32x8732 [2, 0, 1] (m ((c : Thread nD τ).loc main_arg13)) transposes_S32x8732x21_S21x32x8732_2_0_1 := by
  show StableHlo.after hostOps0 (fun b => m (c, b)) (Proc.devRef .tc main_v12) = _
  after_results
theorem V_win_14 (c : Dev nD) : (V m c main_v13 : S21x32x8732.Idx → Elt F (.f32)) =
    transpose S21x32x8732 [2, 0, 1] (m ((c : Thread nD τ).loc main_arg14)) transposes_S32x8732x21_S21x32x8732_2_0_1 := by
  show StableHlo.after hostOps0 (fun b => m (c, b)) (Proc.devRef .tc main_v13) = _
  after_results
theorem V_win_15 (c : Dev nD) : (V m c main_v14 : S21x32x8732.Idx → Elt F (.f32)) =
    transpose S21x32x8732 [2, 0, 1] (m ((c : Thread nD τ).loc main_arg15)) transposes_S32x8732x21_S21x32x8732_2_0_1 := by
  show StableHlo.after hostOps0 (fun b => m (c, b)) (Proc.devRef .tc main_v14) = _
  after_results
theorem V_win_16 (c : Dev nD) : (V m c main_v15 : S21x32x8732.Idx → Elt F (.f32)) =
    transpose S21x32x8732 [2, 0, 1] (m ((c : Thread nD τ).loc main_arg16)) transposes_S32x8732x21_S21x32x8732_2_0_1 := by
  show StableHlo.after hostOps0 (fun b => m (c, b)) (Proc.devRef .tc main_v15) = _
  after_results
theorem V_win_17 (c : Dev nD) : (V m c main_v16 : S21x32x8732.Idx → Elt F (.f32)) =
    transpose S21x32x8732 [2, 0, 1] (m ((c : Thread nD τ).loc main_arg17)) transposes_S32x8732x21_S21x32x8732_2_0_1 := by
  show StableHlo.after hostOps0 (fun b => m (c, b)) (Proc.devRef .tc main_v16) = _
  after_results
theorem V_win_18 (c : Dev nD) : (V m c main_v17 : S21x32x8732.Idx → Elt F (.f32)) =
    transpose S21x32x8732 [2, 0, 1] (m ((c : Thread nD τ).loc main_arg18)) transposes_S32x8732x21_S21x32x8732_2_0_1 := by
  show StableHlo.after hostOps0 (fun b => m (c, b)) (Proc.devRef .tc main_v17) = _
  after_results
theorem V_win_19 (c : Dev nD) : (V m c main_v18 : S21x32x8732.Idx → Elt F (.f32)) =
    transpose S21x32x8732 [2, 0, 1] (m ((c : Thread nD τ).loc main_arg19)) transposes_S32x8732x21_S21x32x8732_2_0_1 := by
  show StableHlo.after hostOps0 (fun b => m (c, b)) (Proc.devRef .tc main_v18) = _
  after_results
theorem V_win_20 (c : Dev nD) : (V m c main_v19 : S21x32x8732.Idx → Elt F (.f32)) =
    transpose S21x32x8732 [2, 0, 1] (m ((c : Thread nD τ).loc main_arg20)) transposes_S32x8732x21_S21x32x8732_2_0_1 := by
  show StableHlo.after hostOps0 (fun b => m (c, b)) (Proc.devRef .tc main_v19) = _
  after_results
theorem V_win_21 (c : Dev nD) : (V m c main_v20 : S21x32x8732.Idx → Elt F (.f32)) =
    transpose S21x32x8732 [2, 0, 1] (m ((c : Thread nD τ).loc main_arg21)) transposes_S32x8732x21_S21x32x8732_2_0_1 := by
  show StableHlo.after hostOps0 (fun b => m (c, b)) (Proc.devRef .tc main_v20) = _
  after_results
theorem V_win_22 (c : Dev nD) : (V m c main_v21 : S21x32x8732.Idx → Elt F (.f32)) =
    transpose S21x32x8732 [2, 0, 1] (m ((c : Thread nD τ).loc main_arg22)) transposes_S32x8732x21_S21x32x8732_2_0_1 := by
  show StableHlo.after hostOps0 (fun b => m (c, b)) (Proc.devRef .tc main_v21) = _
  after_results
theorem V_win_23 (c : Dev nD) : (V m c main_v22 : S21x32x8732.Idx → Elt F (.f32)) =
    transpose S21x32x8732 [2, 0, 1] (m ((c : Thread nD τ).loc main_arg23)) transposes_S32x8732x21_S21x32x8732_2_0_1 := by
  show StableHlo.after hostOps0 (fun b => m (c, b)) (Proc.devRef .tc main_v22) = _
  after_results
theorem V_win_24 (c : Dev nD) : (V m c main_v23 : S21x32x8732.Idx → Elt F (.f32)) =
    transpose S21x32x8732 [2, 0, 1] (m ((c : Thread nD τ).loc main_arg24)) transposes_S32x8732x21_S21x32x8732_2_0_1 := by
  show StableHlo.after hostOps0 (fun b => m (c, b)) (Proc.devRef .tc main_v23) = _
  after_results

end Cert.KernelIdeal.Body

end
-- ==== Proof.KIFibre.lean ====
import proofs.«111137_g86517821215618_cont_9to1_m_1401_12_alg».proof.Proof.KIData
import proofs.«111137_g86517821215618_cont_9to1_m_1401_12_alg».proof.Proof.KIWin
import proofs.«111137_g86517821215618_cont_9to1_m_1401_12_alg».proof.Proof.KIHost
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (m : (ℓ : Loc nD τ sig) → Buf (Elt F) ℓ)

/-! ## An input block's entry is the argument array's

At point `t`, lane `l` of a block is prior `384·t + l` of the array, as long as that prior exists (`l` below the number
of lanes the fetch moves); the host's transposes then put the prior axis back in the middle. -/

theorem inB_0 (c : Dev nD) (t : Fin cfg0.N) (k : Fin 4) (l : Fin 384) (hl : l.val < min 384 (8732 - 384 * t.val)) :
    inB m c 0 t (ix2 k l) = m ((c : Thread nD τ).loc main_arg0) (ix2 (⟨384 * t.val + l.val, by omega⟩ : Fin 8732) k) := by
  obtain ⟨-, -, i1, i0⟩ := win_facts_0 t
  unfold inB
  rw [fill_of_moved _ _ _ _ _ (moved_0 t k l hl)]
  unfold iblk
  show V m c main_v24 _ = _
  rw [V_win_0]
  refine transpose_apply _ _ _ _ _ fun a => ?_
  match a with
  | ⟨0, _⟩ => show k.val = win0_0.index t 0 * 4 + 1 * k.val; rw [i0]; omega
  | ⟨1, _⟩ => show 384 * t.val + l.val = win0_0.index t 1 * 384 + 1 * l.val; rw [i1]; omega
theorem inB_1 (c : Dev nD) (t : Fin cfg0.N) (b : Fin 32) (k : Fin 4) (l : Fin 384) (hl : l.val < min 384 (8732 - 384 * t.val)) :
    inB m c 1 t (ix3 b k l) = m ((c : Thread nD τ).loc main_arg1) (ix3 b (⟨384 * t.val + l.val, by omega⟩ : Fin 8732) k) := by
  obtain ⟨-, -, -, i2, i0, i1⟩ := win_facts_1 t
  unfold inB
  rw [fill_of_moved _ _ _ _ _ (moved_1 t b k l hl)]
  unfold iblk
  show V m c main_v0 _ = _
  rw [V_win_1]
  refine transpose_apply _ _ _ _ _ fun a => ?_
  match a with
  | ⟨0, _⟩ => show b.val = win0_1.index t 0 * 32 + 1 * b.val; rw [i0]; omega
  | ⟨1, _⟩ => show k.val = win0_1.index t 1 * 4 + 1 * k.val; rw [i1]; omega
  | ⟨2, _⟩ => show 384 * t.val + l.val = win0_1.index t 2 * 384 + 1 * l.val; rw [i2]; omega
theorem inB_2 (c : Dev nD) (t : Fin cfg0.N) (b : Fin 32) (k : Fin 4) (l : Fin 384) (hl : l.val < min 384 (8732 - 384 * t.val)) :
    inB m c 2 t (ix3 b k l) = m ((c : Thread nD τ).loc main_arg2) (ix3 b (⟨384 * t.val + l.val, by omega⟩ : Fin 8732) k) := by
  obtain ⟨-, -, -, i2, i0, i1⟩ := win_facts_2 t
  unfold inB
  rw [fill_of_moved _ _ _ _ _ (moved_2 t b k l hl)]
  unfold iblk
  show V m c main_v1 _ = _
  rw [V_win_2]
  refine transpose_apply _ _ _ _ _ fun a => ?_
  match a with
  | ⟨0, _⟩ => show b.val = win0_2.index t 0 * 32 + 1 * b.val; rw [i0]; omega
  | ⟨1, _⟩ => show k.val = win0_2.index t 1 * 4 + 1 * k.val; rw [i1]; omega
  | ⟨2, _⟩ => show 384 * t.val + l.val = win0_2.index t 2 * 384 + 1 * l.val; rw [i2]; omega
theorem inB_3 (c : Dev nD) (t : Fin cfg0.N) (b : Fin 32) (k : Fin 4) (l : Fin 384) (hl : l.val < min 384 (8732 - 384 * t.val)) :
    inB m c 3 t (ix3 b k l) = m ((c : Thread nD τ).loc main_arg3) (ix3 b (⟨384 * t.val + l.val, by omega⟩ : Fin 8732) k) := by
  obtain ⟨-, -, -, i2, i0, i1⟩ := win_facts_3 t
  unfold inB
  rw [fill_of_moved _ _ _ _ _ (moved_3 t b k l hl)]
  unfold iblk
  show V m c main_v2 _ = _
  rw [V_win_3]
  refine transpose_apply _ _ _ _ _ fun a => ?_
  match a with
  | ⟨0, _⟩ => show b.val = win0_3.index t 0 * 32 + 1 * b.val; rw [i0]; omega
  | ⟨1, _⟩ => show k.val = win0_3.index t 1 * 4 + 1 * k.val; rw [i1]; omega
  | ⟨2, _⟩ => show 384 * t.val + l.val = win0_3.index t 2 * 384 + 1 * l.val; rw [i2]; omega
theorem inB_4 (c : Dev nD) (t : Fin cfg0.N) (b : Fin 32) (k : Fin 4) (l : Fin 384) (hl : l.val < min 384 (8732 - 384 * t.val)) :
    inB m c 4 t (ix3 b k l) = m ((c : Thread nD τ).loc main_arg4) (ix3 b (⟨384 * t.val + l.val, by omega⟩ : Fin 8732) k) := by
  obtain ⟨-, -, -, i2, i0, i1⟩ := win_facts_4 t
  unfold inB
  rw [fill_of_moved _ _ _ _ _ (moved_4 t b k l hl)]
  unfold iblk
  show V m c main_v3 _ = _
  rw [V_win_4]
  refine transpose_apply _ _ _ _ _ fun a => ?_
  match a with
  | ⟨0, _⟩ => show b.val = win0_4.index t 0 * 32 + 1 * b.val; rw [i0]; omega
  | ⟨1, _⟩ => show k.val = win0_4.index t 1 * 4 + 1 * k.val; rw [i1]; omega
  | ⟨2, _⟩ => show 384 * t.val + l.val = win0_4.index t 2 * 384 + 1 * l.val; rw [i2]; omega
theorem inB_5 (c : Dev nD) (t : Fin cfg0.N) (b : Fin 32) (k : Fin 4) (l : Fin 384) (hl : l.val < min 384 (8732 - 384 * t.val)) :
    inB m c 5 t (ix3 b k l) = m ((c : Thread nD τ).loc main_arg5) (ix3 b (⟨384 * t.val + l.val, by omega⟩ : Fin 8732) k) := by
  obtain ⟨-, -, -, i2, i0, i1⟩ := win_facts_5 t
  unfold inB
  rw [fill_of_moved _ _ _ _ _ (moved_5 t b k l hl)]
  unfold iblk
  show V m c main_v4 _ = _
  rw [V_win_5]
  refine transpose_apply _ _ _ _ _ fun a => ?_
  match a with
  | ⟨0, _⟩ => show b.val = win0_5.index t 0 * 32 + 1 * b.val; rw [i0]; omega
  | ⟨1, _⟩ => show k.val = win0_5.index t 1 * 4 + 1 * k.val; rw [i1]; omega
  | ⟨2, _⟩ => show 384 * t.val + l.val = win0_5.index t 2 * 384 + 1 * l.val; rw [i2]; omega
theorem inB_6 (c : Dev nD) (t : Fin cfg0.N) (b : Fin 32) (k : Fin 4) (l : Fin 384) (hl : l.val < min 384 (8732 - 384 * t.val)) :
    inB m c 6 t (ix3 b k l) = m ((c : Thread nD τ).loc main_arg6) (ix3 b (⟨384 * t.val + l.val, by omega⟩ : Fin 8732) k) := by
  obtain ⟨-, -, -, i2, i0, i1⟩ := win_facts_6 t
  unfold inB
  rw [fill_of_moved _ _ _ _ _ (moved_6 t b k l hl)]
  unfold iblk
  show V m c main_v5 _ = _
  rw [V_win_6]
  refine transpose_apply _ _ _ _ _ fun a => ?_
  match a with
  | ⟨0, _⟩ => show b.val = win0_6.index t 0 * 32 + 1 * b.val; rw [i0]; omega
  | ⟨1, _⟩ => show k.val = win0_6.index t 1 * 4 + 1 * k.val; rw [i1]; omega
  | ⟨2, _⟩ => show 384 * t.val + l.val = win0_6.index t 2 * 384 + 1 * l.val; rw [i2]; omega
theorem inB_7 (c : Dev nD) (t : Fin cfg0.N) (b : Fin 32) (k : Fin 4) (l : Fin 384) (hl : l.val < min 384 (8732 - 384 * t.val)) :
    inB m c 7 t (ix3 b k l) = m ((c : Thread nD τ).loc main_arg7) (ix3 b (⟨384 * t.val + l.val, by omega⟩ : Fin 8732) k) := by
  obtain ⟨-, -, -, i2, i0, i1⟩ := win_facts_7 t
  unfold inB
  rw [fill_of_moved _ _ _ _ _ (moved_7 t b k l hl)]
  unfold iblk
  show V m c main_v6 _ = _
  rw [V_win_7]
  refine transpose_apply _ _ _ _ _ fun a => ?_
  match a with
  | ⟨0, _⟩ => show b.val = win0_7.index t 0 * 32 + 1 * b.val; rw [i0]; omega
  | ⟨1, _⟩ => show k.val = win0_7.index t 1 * 4 + 1 * k.val; rw [i1]; omega
  | ⟨2, _⟩ => show 384 * t.val + l.val = win0_7.index t 2 * 384 + 1 * l.val; rw [i2]; omega
theorem inB_8 (c : Dev nD) (t : Fin cfg0.N) (b : Fin 32) (k : Fin 4) (l : Fin 384) (hl : l.val < min 384 (8732 - 384 * t.val)) :
    inB m c 8 t (ix3 b k l) = m ((c : Thread nD τ).loc main_arg8) (ix3 b (⟨384 * t.val + l.val, by omega⟩ : Fin 8732) k) := by
  obtain ⟨-, -, -, i2, i0, i1⟩ := win_facts_8 t
  unfold inB
  rw [fill_of_moved _ _ _ _ _ (moved_8 t b k l hl)]
  unfold iblk
  show V m c main_v7 _ = _
  rw [V_win_8]
  refine transpose_apply _ _ _ _ _ fun a => ?_
  match a with
  | ⟨0, _⟩ => show b.val = win0_8.index t 0 * 32 + 1 * b.val; rw [i0]; omega
  | ⟨1, _⟩ => show k.val = win0_8.index t 1 * 4 + 1 * k.val; rw [i1]; omega
  | ⟨2, _⟩ => show 384 * t.val + l.val = win0_8.index t 2 * 384 + 1 * l.val; rw [i2]; omega
theorem inB_9 (c : Dev nD) (t : Fin cfg0.N) (b : Fin 32) (k : Fin 4) (l : Fin 384) (hl : l.val < min 384 (8732 - 384 * t.val)) :
    inB m c 9 t (ix3 b k l) = m ((c : Thread nD τ).loc main_arg9) (ix3 b (⟨384 * t.val + l.val, by omega⟩ : Fin 8732) k) := by
  obtain ⟨-, -, -, i2, i0, i1⟩ := win_facts_9 t
  unfold inB
  rw [fill_of_moved _ _ _ _ _ (moved_9 t b k l hl)]
  unfold iblk
  show V m c main_v8 _ = _
  rw [V_win_9]
  refine transpose_apply _ _ _ _ _ fun a => ?_
  match a with
  | ⟨0, _⟩ => show b.val = win0_9.index t 0 * 32 + 1 * b.val; rw [i0]; omega
  | ⟨1, _⟩ => show k.val = win0_9.index t 1 * 4 + 1 * k.val; rw [i1]; omega
  | ⟨2, _⟩ => show 384 * t.val + l.val = win0_9.index t 2 * 384 + 1 * l.val; rw [i2]; omega
theorem inB_10 (c : Dev nD) (t : Fin cfg0.N) (b : Fin 32) (k : Fin 4) (l : Fin 384) (hl : l.val < min 384 (8732 - 384 * t.val)) :
    inB m c 10 t (ix3 b k l) = m ((c : Thread nD τ).loc main_arg10) (ix3 b (⟨384 * t.val + l.val, by omega⟩ : Fin 8732) k) := by
  obtain ⟨-, -, -, i2, i0, i1⟩ := win_facts_10 t
  unfold inB
  rw [fill_of_moved _ _ _ _ _ (moved_10 t b k l hl)]
  unfold iblk
  show V m c main_v9 _ = _
  rw [V_win_10]
  refine transpose_apply _ _ _ _ _ fun a => ?_
  match a with
  | ⟨0, _⟩ => show b.val = win0_10.index t 0 * 32 + 1 * b.val; rw [i0]; omega
  | ⟨1, _⟩ => show k.val = win0_10.index t 1 * 4 + 1 * k.val; rw [i1]; omega
  | ⟨2, _⟩ => show 384 * t.val + l.val = win0_10.index t 2 * 384 + 1 * l.val; rw [i2]; omega
theorem inB_11 (c : Dev nD) (t : Fin cfg0.N) (b : Fin 32) (k : Fin 4) (l : Fin 384) (hl : l.val < min 384 (8732 - 384 * t.val)) :
    inB m c 11 t (ix3 b k l) = m ((c : Thread nD τ).loc main_arg11) (ix3 b (⟨384 * t.val + l.val, by omega⟩ : Fin 8732) k) := by
  obtain ⟨-, -, -, i2, i0, i1⟩ := win_facts_11 t
  unfold inB
  rw [fill_of_moved _ _ _ _ _ (moved_11 t b k l hl)]
  unfold iblk
  show V m c main_v10 _ = _
  rw [V_win_11]
  refine transpose_apply _ _ _ _ _ fun a => ?_
  match a with
  | ⟨0, _⟩ => show b.val = win0_11.index t 0 * 32 + 1 * b.val; rw [i0]; omega
  | ⟨1, _⟩ => show k.val = win0_11.index t 1 * 4 + 1 * k.val; rw [i1]; omega
  | ⟨2, _⟩ => show 384 * t.val + l.val = win0_11.index t 2 * 384 + 1 * l.val; rw [i2]; omega
theorem inB_12 (c : Dev nD) (t : Fin cfg0.N) (b : Fin 32) (k : Fin 4) (l : Fin 384) (hl : l.val < min 384 (8732 - 384 * t.val)) :
    inB m c 12 t (ix3 b k l) = m ((c : Thread nD τ).loc main_arg12) (ix3 b (⟨384 * t.val + l.val, by omega⟩ : Fin 8732) k) := by
  obtain ⟨-, -, -, i2, i0, i1⟩ := win_facts_12 t
  unfold inB
  rw [fill_of_moved _ _ _ _ _ (moved_12 t b k l hl)]
  unfold iblk
  show V m c main_v11 _ = _
  rw [V_win_12]
  refine transpose_apply _ _ _ _ _ fun a => ?_
  match a with
  | ⟨0, _⟩ => show b.val = win0_12.index t 0 * 32 + 1 * b.val; rw [i0]; omega
  | ⟨1, _⟩ => show k.val = win0_12.index t 1 * 4 + 1 * k.val; rw [i1]; omega
  | ⟨2, _⟩ => show 384 * t.val + l.val = win0_12.index t 2 * 384 + 1 * l.val; rw [i2]; omega
theorem inB_13 (c : Dev nD) (t : Fin cfg0.N) (k : Fin 21) (b : Fin 32) (l : Fin 384) (hl : l.val < min 384 (8732 - 384 * t.val)) :
    inB m c 13 t (ix3 k b l) = m ((c : Thread nD τ).loc main_arg13) (ix3 b (⟨384 * t.val + l.val, by omega⟩ : Fin 8732) k) := by
  obtain ⟨-, -, -, i2, i0, i1⟩ := win_facts_13 t
  unfold inB
  rw [fill_of_moved _ _ _ _ _ (moved_13 t k b l hl)]
  unfold iblk
  show V m c main_v12 _ = _
  rw [V_win_13]
  refine transpose_apply _ _ _ _ _ fun a => ?_
  match a with
  | ⟨0, _⟩ => show k.val = win0_13.index t 0 * 21 + 1 * k.val; rw [i0]; omega
  | ⟨1, _⟩ => show b.val = win0_13.index t 1 * 32 + 1 * b.val; rw [i1]; omega
  | ⟨2, _⟩ => show 384 * t.val + l.val = win0_13.index t 2 * 384 + 1 * l.val; rw [i2]; omega
theorem inB_14 (c : Dev nD) (t : Fin cfg0.N) (k : Fin 21) (b : Fin 32) (l : Fin 384) (hl : l.val < min 384 (8732 - 384 * t.val)) :
    inB m c 14 t (ix3 k b l) = m ((c : Thread nD τ).loc main_arg14) (ix3 b (⟨384 * t.val + l.val, by omega⟩ : Fin 8732) k) := by
  obtain ⟨-, -, -, i2, i0, i1⟩ := win_facts_14 t
  unfold inB
  rw [fill_of_moved _ _ _ _ _ (moved_14 t k b l hl)]
  unfold iblk
  show V m c main_v13 _ = _
  rw [V_win_14]
  refine transpose_apply _ _ _ _ _ fun a => ?_
  match a with
  | ⟨0, _⟩ => show k.val = win0_14.index t 0 * 21 + 1 * k.val; rw [i0]; omega
  | ⟨1, _⟩ => show b.val = win0_14.index t 1 * 32 + 1 * b.val; rw [i1]; omega
  | ⟨2, _⟩ => show 384 * t.val + l.val = win0_14.index t 2 * 384 + 1 * l.val; rw [i2]; omega
theorem inB_15 (c : Dev nD) (t : Fin cfg0.N) (k : Fin 21) (b : Fin 32) (l : Fin 384) (hl : l.val < min 384 (8732 - 384 * t.val)) :
    inB m c 15 t (ix3 k b l) = m ((c : Thread nD τ).loc main_arg15) (ix3 b (⟨384 * t.val + l.val, by omega⟩ : Fin 8732) k) := by
  obtain ⟨-, -, -, i2, i0, i1⟩ := win_facts_15 t
  unfold inB
  rw [fill_of_moved _ _ _ _ _ (moved_15 t k b l hl)]
  unfold iblk
  show V m c main_v14 _ = _
  rw [V_win_15]
  refine transpose_apply _ _ _ _ _ fun a => ?_
  match a with
  | ⟨0, _⟩ => show k.val = win0_15.index t 0 * 21 + 1 * k.val; rw [i0]; omega
  | ⟨1, _⟩ => show b.val = win0_15.index t 1 * 32 + 1 * b.val; rw [i1]; omega
  | ⟨2, _⟩ => show 384 * t.val + l.val = win0_15.index t 2 * 384 + 1 * l.val; rw [i2]; omega
theorem inB_16 (c : Dev nD) (t : Fin cfg0.N) (k : Fin 21) (b : Fin 32) (l : Fin 384) (hl : l.val < min 384 (8732 - 384 * t.val)) :
    inB m c 16 t (ix3 k b l) = m ((c : Thread nD τ).loc main_arg16) (ix3 b (⟨384 * t.val + l.val, by omega⟩ : Fin 8732) k) := by
  obtain ⟨-, -, -, i2, i0, i1⟩ := win_facts_16 t
  unfold inB
  rw [fill_of_moved _ _ _ _ _ (moved_16 t k b l hl)]
  unfold iblk
  show V m c main_v15 _ = _
  rw [V_win_16]
  refine transpose_apply _ _ _ _ _ fun a => ?_
  match a with
  | ⟨0, _⟩ => show k.val = win0_16.index t 0 * 21 + 1 * k.val; rw [i0]; omega
  | ⟨1, _⟩ => show b.val = win0_16.index t 1 * 32 + 1 * b.val; rw [i1]; omega
  | ⟨2, _⟩ => show 384 * t.val + l.val = win0_16.index t 2 * 384 + 1 * l.val; rw [i2]; omega
theorem inB_17 (c : Dev nD) (t : Fin cfg0.N) (k : Fin 21) (b : Fin 32) (l : Fin 384) (hl : l.val < min 384 (8732 - 384 * t.val)) :
    inB m c 17 t (ix3 k b l) = m ((c : Thread nD τ).loc main_arg17) (ix3 b (⟨384 * t.val + l.val, by omega⟩ : Fin 8732) k) := by
  obtain ⟨-, -, -, i2, i0, i1⟩ := win_facts_17 t
  unfold inB
  rw [fill_of_moved _ _ _ _ _ (moved_17 t k b l hl)]
  unfold iblk
  show V m c main_v16 _ = _
  rw [V_win_17]
  refine transpose_apply _ _ _ _ _ fun a => ?_
  match a with
  | ⟨0, _⟩ => show k.val = win0_17.index t 0 * 21 + 1 * k.val; rw [i0]; omega
  | ⟨1, _⟩ => show b.val = win0_17.index t 1 * 32 + 1 * b.val; rw [i1]; omega
  | ⟨2, _⟩ => show 384 * t.val + l.val = win0_17.index t 2 * 384 + 1 * l.val; rw [i2]; omega
theorem inB_18 (c : Dev nD) (t : Fin cfg0.N) (k : Fin 21) (b : Fin 32) (l : Fin 384) (hl : l.val < min 384 (8732 - 384 * t.val)) :
    inB m c 18 t (ix3 k b l) = m ((c : Thread nD τ).loc main_arg18) (ix3 b (⟨384 * t.val + l.val, by omega⟩ : Fin 8732) k) := by
  obtain ⟨-, -, -, i2, i0, i1⟩ := win_facts_18 t
  unfold inB
  rw [fill_of_moved _ _ _ _ _ (moved_18 t k b l hl)]
  unfold iblk
  show V m c main_v17 _ = _
  rw [V_win_18]
  refine transpose_apply _ _ _ _ _ fun a => ?_
  match a with
  | ⟨0, _⟩ => show k.val = win0_18.index t 0 * 21 + 1 * k.val; rw [i0]; omega
  | ⟨1, _⟩ => show b.val = win0_18.index t 1 * 32 + 1 * b.val; rw [i1]; omega
  | ⟨2, _⟩ => show 384 * t.val + l.val = win0_18.index t 2 * 384 + 1 * l.val; rw [i2]; omega
theorem inB_19 (c : Dev nD) (t : Fin cfg0.N) (k : Fin 21) (b : Fin 32) (l : Fin 384) (hl : l.val < min 384 (8732 - 384 * t.val)) :
    inB m c 19 t (ix3 k b l) = m ((c : Thread nD τ).loc main_arg19) (ix3 b (⟨384 * t.val + l.val, by omega⟩ : Fin 8732) k) := by
  obtain ⟨-, -, -, i2, i0, i1⟩ := win_facts_19 t
  unfold inB
  rw [fill_of_moved _ _ _ _ _ (moved_19 t k b l hl)]
  unfold iblk
  show V m c main_v18 _ = _
  rw [V_win_19]
  refine transpose_apply _ _ _ _ _ fun a => ?_
  match a with
  | ⟨0, _⟩ => show k.val = win0_19.index t 0 * 21 + 1 * k.val; rw [i0]; omega
  | ⟨1, _⟩ => show b.val = win0_19.index t 1 * 32 + 1 * b.val; rw [i1]; omega
  | ⟨2, _⟩ => show 384 * t.val + l.val = win0_19.index t 2 * 384 + 1 * l.val; rw [i2]; omega
theorem inB_20 (c : Dev nD) (t : Fin cfg0.N) (k : Fin 21) (b : Fin 32) (l : Fin 384) (hl : l.val < min 384 (8732 - 384 * t.val)) :
    inB m c 20 t (ix3 k b l) = m ((c : Thread nD τ).loc main_arg20) (ix3 b (⟨384 * t.val + l.val, by omega⟩ : Fin 8732) k) := by
  obtain ⟨-, -, -, i2, i0, i1⟩ := win_facts_20 t
  unfold inB
  rw [fill_of_moved _ _ _ _ _ (moved_20 t k b l hl)]
  unfold iblk
  show V m c main_v19 _ = _
  rw [V_win_20]
  refine transpose_apply _ _ _ _ _ fun a => ?_
  match a with
  | ⟨0, _⟩ => show k.val = win0_20.index t 0 * 21 + 1 * k.val; rw [i0]; omega
  | ⟨1, _⟩ => show b.val = win0_20.index t 1 * 32 + 1 * b.val; rw [i1]; omega
  | ⟨2, _⟩ => show 384 * t.val + l.val = win0_20.index t 2 * 384 + 1 * l.val; rw [i2]; omega
theorem inB_21 (c : Dev nD) (t : Fin cfg0.N) (k : Fin 21) (b : Fin 32) (l : Fin 384) (hl : l.val < min 384 (8732 - 384 * t.val)) :
    inB m c 21 t (ix3 k b l) = m ((c : Thread nD τ).loc main_arg21) (ix3 b (⟨384 * t.val + l.val, by omega⟩ : Fin 8732) k) := by
  obtain ⟨-, -, -, i2, i0, i1⟩ := win_facts_21 t
  unfold inB
  rw [fill_of_moved _ _ _ _ _ (moved_21 t k b l hl)]
  unfold iblk
  show V m c main_v20 _ = _
  rw [V_win_21]
  refine transpose_apply _ _ _ _ _ fun a => ?_
  match a with
  | ⟨0, _⟩ => show k.val = win0_21.index t 0 * 21 + 1 * k.val; rw [i0]; omega
  | ⟨1, _⟩ => show b.val = win0_21.index t 1 * 32 + 1 * b.val; rw [i1]; omega
  | ⟨2, _⟩ => show 384 * t.val + l.val = win0_21.index t 2 * 384 + 1 * l.val; rw [i2]; omega
theorem inB_22 (c : Dev nD) (t : Fin cfg0.N) (k : Fin 21) (b : Fin 32) (l : Fin 384) (hl : l.val < min 384 (8732 - 384 * t.val)) :
    inB m c 22 t (ix3 k b l) = m ((c : Thread nD τ).loc main_arg22) (ix3 b (⟨384 * t.val + l.val, by omega⟩ : Fin 8732) k) := by
  obtain ⟨-, -, -, i2, i0, i1⟩ := win_facts_22 t
  unfold inB
  rw [fill_of_moved _ _ _ _ _ (moved_22 t k b l hl)]
  unfold iblk
  show V m c main_v21 _ = _
  rw [V_win_22]
  refine transpose_apply _ _ _ _ _ fun a => ?_
  match a with
  | ⟨0, _⟩ => show k.val = win0_22.index t 0 * 21 + 1 * k.val; rw [i0]; omega
  | ⟨1, _⟩ => show b.val = win0_22.index t 1 * 32 + 1 * b.val; rw [i1]; omega
  | ⟨2, _⟩ => show 384 * t.val + l.val = win0_22.index t 2 * 384 + 1 * l.val; rw [i2]; omega
theorem inB_23 (c : Dev nD) (t : Fin cfg0.N) (k : Fin 21) (b : Fin 32) (l : Fin 384) (hl : l.val < min 384 (8732 - 384 * t.val)) :
    inB m c 23 t (ix3 k b l) = m ((c : Thread nD τ).loc main_arg23) (ix3 b (⟨384 * t.val + l.val, by omega⟩ : Fin 8732) k) := by
  obtain ⟨-, -, -, i2, i0, i1⟩ := win_facts_23 t
  unfold inB
  rw [fill_of_moved _ _ _ _ _ (moved_23 t k b l hl)]
  unfold iblk
  show V m c main_v22 _ = _
  rw [V_win_23]
  refine transpose_apply _ _ _ _ _ fun a => ?_
  match a with
  | ⟨0, _⟩ => show k.val = win0_23.index t 0 * 21 + 1 * k.val; rw [i0]; omega
  | ⟨1, _⟩ => show b.val = win0_23.index t 1 * 32 + 1 * b.val; rw [i1]; omega
  | ⟨2, _⟩ => show 384 * t.val + l.val = win0_23.index t 2 * 384 + 1 * l.val; rw [i2]; omega
theorem inB_24 (c : Dev nD) (t : Fin cfg0.N) (k : Fin 21) (b : Fin 32) (l : Fin 384) (hl : l.val < min 384 (8732 - 384 * t.val)) :
    inB m c 24 t (ix3 k b l) = m ((c : Thread nD τ).loc main_arg24) (ix3 b (⟨384 * t.val + l.val, by omega⟩ : Fin 8732) k) := by
  obtain ⟨-, -, -, i2, i0, i1⟩ := win_facts_24 t
  unfold inB
  rw [fill_of_moved _ _ _ _ _ (moved_24 t k b l hl)]
  unfold iblk
  show V m c main_v23 _ = _
  rw [V_win_24]
  refine transpose_apply _ _ _ _ _ fun a => ?_
  match a with
  | ⟨0, _⟩ => show k.val = win0_24.index t 0 * 21 + 1 * k.val; rw [i0]; omega
  | ⟨1, _⟩ => show b.val = win0_24.index t 1 * 32 + 1 * b.val; rw [i1]; omega
  | ⟨2, _⟩ => show 384 * t.val + l.val = win0_24.index t 2 * 384 + 1 * l.val; rw [i2]; omega

end Cert.KernelIdeal.Body

end
-- ==== Proof.Spec.lean ====
/-
  Four weighted heads fused into one Gaussian, and the box decode: the value of one output entry, on the extended reals.

  For weights `w₁ … w₄` and per-head values `m₁ … m₄` the fused mean is `w₁·m₁ + w₂·m₂ + w₃·m₃ + w₄·m₄` (summed left to
  right), the aleatoric term the same expression over the heads' variances, and the epistemic term
  `w₁·(m₁ − μ)² + … + w₄·(m₄ − μ)²` with `μ` the fused mean. A prior box `(cx, cy, w, h)` and a fused offset
  `(n₀, n₁, n₂, n₃)` decode to the corner form: for `c ∈ {0, 1}` the extent is `e = pr[c+2] · exp(n[c+2] · v₁)`, the low corner
  `pr[c] + n[c] · v₀ · pr[c+2] − ½·e` and the high corner the low corner plus `e`; `v₀`, `v₁`, `½` are the binary32 words the
  programs carry (0.1, 0.2, 0.5 rounded to binary32; only their bit patterns matter here).

  The output has 75 channels per (image, prior): 4 decoded corners, 4 aleatoric, 4 epistemic localisation terms, then 21 fused
  class means, 21 aleatoric and 21 epistemic class terms.
-/
import Idealize.ShloMosaic.PureOps.Ideal
import Idealize.ShloMosaic.Lib.ValueIdx

noncomputable section

namespace Cert.Gmm

open Idealize.ShloMosaic Idealize.ShloMosaic.ValueIdx

/-- The fused mean of four heads. -/
def mean4 (w1 m1 w2 m2 w3 m3 w4 m4 : EReal) : EReal := w1 * m1 + w2 * m2 + w3 * m3 + w4 * m4

/-- The weighted squared deviation of the four heads from their fused mean. -/
def dev4 (w1 m1 w2 m2 w3 m3 w4 m4 : EReal) : EReal :=
  w1 * ((m1 - mean4 w1 m1 w2 m2 w3 m3 w4 m4) * (m1 - mean4 w1 m1 w2 m2 w3 m3 w4 m4))
    + w2 * ((m2 - mean4 w1 m1 w2 m2 w3 m3 w4 m4) * (m2 - mean4 w1 m1 w2 m2 w3 m3 w4 m4))
    + w3 * ((m3 - mean4 w1 m1 w2 m2 w3 m3 w4 m4) * (m3 - mean4 w1 m1 w2 m2 w3 m3 w4 m4))
    + w4 * ((m4 - mean4 w1 m1 w2 m2 w3 m3 w4 m4) * (m4 - mean4 w1 m1 w2 m2 w3 m3 w4 m4))

/-- The offset scale of the centre (binary32 word of 0.1). -/
def v0 : EReal := Ideal.ofBits .f32 0x3DCCCCCD#32
/-- The offset scale of the extent (binary32 word of 0.2). -/
def v1 : EReal := Ideal.ofBits .f32 0x3E4CCCCD#32
/-- One half (binary32 word of 0.5). -/
def half : EReal := Ideal.ofBits .f32 0x3F000000#32

/-- The decoded extent along one axis: prior extent times the exponential of the scaled offset. -/
def extent (pw nw : EReal) : EReal := pw * Ideal.exp (nw * v1)
/-- The decoded low corner along one axis. -/
def lowCorner (pc nc pw nw : EReal) : EReal := pc + nc * v0 * pw - half * extent pw nw
/-- The decoded high corner along one axis. -/
def highCorner (pc nc pw nw : EReal) : EReal := lowCorner pc nc pw nw + extent pw nw

/-- A localisation array, indexed (image, prior, component). -/
abbrev Loc := (⟨3, ![32, 8732, 4]⟩ : Shape).Idx → EReal
/-- A class array, indexed (image, prior, class). -/
abbrev Cls := (⟨3, ![32, 8732, 21]⟩ : Shape).Idx → EReal
/-- The prior boxes, indexed (prior, component). -/
abbrev Pri := (⟨2, ![8732, 4]⟩ : Shape).Idx → EReal

section
variable (pr : Pri) (m1 s1 w1 m2 s2 w2 m3 s3 w3 m4 s4 w4 : Loc) (a1 t1 q1 a2 t2 q2 a3 t3 q3 a4 t4 q4 : Cls)

/-- The fused localisation offset. -/
def locMean (b : Fin 32) (p : Fin 8732) (c : Fin 4) : EReal :=
  mean4 (w1 (ix3 b p c)) (m1 (ix3 b p c)) (w2 (ix3 b p c)) (m2 (ix3 b p c)) (w3 (ix3 b p c)) (m3 (ix3 b p c)) (w4 (ix3 b p c)) (m4 (ix3 b p c))
/-- The aleatoric localisation term. -/
def locAle (b : Fin 32) (p : Fin 8732) (c : Fin 4) : EReal :=
  mean4 (w1 (ix3 b p c)) (s1 (ix3 b p c)) (w2 (ix3 b p c)) (s2 (ix3 b p c)) (w3 (ix3 b p c)) (s3 (ix3 b p c)) (w4 (ix3 b p c)) (s4 (ix3 b p c))
/-- The epistemic localisation term. -/
def locEpi (b : Fin 32) (p : Fin 8732) (c : Fin 4) : EReal :=
  dev4 (w1 (ix3 b p c)) (m1 (ix3 b p c)) (w2 (ix3 b p c)) (m2 (ix3 b p c)) (w3 (ix3 b p c)) (m3 (ix3 b p c)) (w4 (ix3 b p c)) (m4 (ix3 b p c))
/-- The fused class mean. -/
def clsMean (b : Fin 32) (p : Fin 8732) (k : Fin 21) : EReal :=
  mean4 (q1 (ix3 b p k)) (a1 (ix3 b p k)) (q2 (ix3 b p k)) (a2 (ix3 b p k)) (q3 (ix3 b p k)) (a3 (ix3 b p k)) (q4 (ix3 b p k)) (a4 (ix3 b p k))
/-- The aleatoric class term. -/
def clsAle (b : Fin 32) (p : Fin 8732) (k : Fin 21) : EReal :=
  mean4 (q1 (ix3 b p k)) (t1 (ix3 b p k)) (q2 (ix3 b p k)) (t2 (ix3 b p k)) (q3 (ix3 b p k)) (t3 (ix3 b p k)) (q4 (ix3 b p k)) (t4 (ix3 b p k))
/-- The epistemic class term. -/
def clsEpi (b : Fin 32) (p : Fin 8732) (k : Fin 21) : EReal :=
  dev4 (q1 (ix3 b p k)) (a1 (ix3 b p k)) (q2 (ix3 b p k)) (a2 (ix3 b p k)) (q3 (ix3 b p k)) (a3 (ix3 b p k)) (q4 (ix3 b p k)) (a4 (ix3 b p k))

/-- The low corner along axis `c ∈ {0, 1}` of the box decoded at (image `b`, prior `p`). -/
def boxLow (b : Fin 32) (p : Fin 8732) (c : Fin 2) : EReal :=
  lowCorner (pr (ix2 p ⟨c.val, by omega⟩)) (locMean m1 w1 m2 w2 m3 w3 m4 w4 b p ⟨c.val, by omega⟩)
    (pr (ix2 p ⟨c.val + 2, by omega⟩)) (locMean m1 w1 m2 w2 m3 w3 m4 w4 b p ⟨c.val + 2, by omega⟩)
/-- The high corner along axis `c ∈ {0, 1}`. -/
def boxHigh (b : Fin 32) (p : Fin 8732) (c : Fin 2) : EReal :=
  highCorner (pr (ix2 p ⟨c.val, by omega⟩)) (locMean m1 w1 m2 w2 m3 w3 m4 w4 b p ⟨c.val, by omega⟩)
    (pr (ix2 p ⟨c.val + 2, by omega⟩)) (locMean m1 w1 m2 w2 m3 w3 m4 w4 b p ⟨c.val + 2, by omega⟩)

/-- Channel `ch` of the output at (image `b`, prior `p`). -/
def entry (b : Fin 32) (p : Fin 8732) (ch : Fin 75) : EReal :=
  if h0 : ch.val < 2 then boxLow pr m1 w1 m2 w2 m3 w3 m4 w4 b p ⟨ch.val, h0⟩
  else if h1 : ch.val < 4 then boxHigh pr m1 w1 m2 w2 m3 w3 m4 w4 b p ⟨ch.val - 2, by omega⟩
  else if h2 : ch.val < 8 then locAle s1 w1 s2 w2 s3 w3 s4 w4 b p ⟨ch.val - 4, by omega⟩
  else if h3 : ch.val < 12 then locEpi m1 w1 m2 w2 m3 w3 m4 w4 b p ⟨ch.val - 8, by omega⟩
  else if h4 : ch.val < 33 then clsMean a1 q1 a2 q2 a3 q3 a4 q4 b p ⟨ch.val - 12, by omega⟩
  else if h5 : ch.val < 54 then clsAle t1 q1 t2 q2 t3 q3 t4 q4 b p ⟨ch.val - 33, by omega⟩
  else clsEpi a1 q1 a2 q2 a3 q3 a4 q4 b p ⟨ch.val - 54, by have := ch.isLt; omega⟩

/-- The whole output, indexed (image, prior, channel), as a function of the 25 argument arrays in the programs' argument
    order: the priors; then for each localisation head its means, variances, weights; then the same for each class head. -/
def G : (⟨3, ![32, 8732, 75]⟩ : Shape).Idx → EReal := fun i =>
  entry pr m1 s1 w1 m2 s2 w2 m3 s3 w3 m4 s4 w4 a1 t1 q1 a2 t2 q2 a3 t3 q3 a4 t4 q4 (i 0) (i 1) (i 2)

end

end Cert.Gmm

end
-- ==== Proof.SpecFibre.lean ====
/-
  On the extended reals the entry of `Fibre`, read with exact arithmetic, is the specification's entry: the same sums and
  products, and the binary32 words of 0.1, 0.2 and 0.5 read at their exact values on both sides.
-/
import proofs.«111137_g86517821215618_cont_9to1_m_1401_12_alg».proof.Proof.Spec
import proofs.«111137_g86517821215618_cont_9to1_m_1401_12_alg».proof.Proof.Fibre
import Idealize.ShloMosaic.PureOps.Ideal
import Idealize.ShloMosaic.Lib.ValueIdx

noncomputable section

namespace Cert.Gmm

open Idealize.ShloMosaic Idealize.ShloMosaic.ValueIdx

theorem mean4F_ideal (w1 x1 w2 x2 w3 x3 w4 x4 : EReal) :
    mean4F (F := Ideal) w1 x1 w2 x2 w3 x3 w4 x4 = mean4 w1 x1 w2 x2 w3 x3 w4 x4 := rfl

theorem dev4F_ideal (w1 x1 w2 x2 w3 x3 w4 x4 : EReal) :
    dev4F (F := Ideal) w1 x1 w2 x2 w3 x3 w4 x4 = dev4 w1 x1 w2 x2 w3 x3 w4 x4 := rfl

theorem lowCornerF_ideal (pc nc pw nw : EReal) : lowCornerF (F := Ideal) pc nc pw nw = lowCorner pc nc pw nw := rfl

theorem highCornerF_ideal (pc nc pw nw : EReal) : highCornerF (F := Ideal) pc nc pw nw = highCorner pc nc pw nw := rfl

/-- The specification's entry at (image `b`, prior `p`) is the entry computed from the 25 arrays' values there. -/
theorem entry_eq_entryOfF (pr : Pri) (m1 s1 w1 m2 s2 w2 m3 s3 w3 m4 s4 w4 : Loc) (a1 t1 q1 a2 t2 q2 a3 t3 q3 a4 t4 q4 : Cls)
    (b : Fin 32) (p : Fin 8732) (ch : Fin 75) :
    entry pr m1 s1 w1 m2 s2 w2 m3 s3 w3 m4 s4 w4 a1 t1 q1 a2 t2 q2 a3 t3 q3 a4 t4 q4 b p ch
      = entryOfF (F := Ideal) (fun c => pr (ix2 p c))
          (fun c => m1 (ix3 b p c)) (fun c => s1 (ix3 b p c)) (fun c => w1 (ix3 b p c))
          (fun c => m2 (ix3 b p c)) (fun c => s2 (ix3 b p c)) (fun c => w2 (ix3 b p c))
          (fun c => m3 (ix3 b p c)) (fun c => s3 (ix3 b p c)) (fun c => w3 (ix3 b p c))
          (fun c => m4 (ix3 b p c)) (fun c => s4 (ix3 b p c)) (fun c => w4 (ix3 b p c))
          (fun k => a1 (ix3 b p k)) (fun k => t1 (ix3 b p k)) (fun k => q1 (ix3 b p k))
          (fun k => a2 (ix3 b p k)) (fun k => t2 (ix3 b p k)) (fun k => q2 (ix3 b p k))
          (fun k => a3 (ix3 b p k)) (fun k => t3 (ix3 b p k)) (fun k => q3 (ix3 b p k))
          (fun k => a4 (ix3 b p k)) (fun k => t4 (ix3 b p k)) (fun k => q4 (ix3 b p k)) ch := by
  unfold entry entryOfF
  split_ifs <;> rfl

end Cert.Gmm

end
-- ==== Proof.KIValue.lean ====
import proofs.«111137_g86517821215618_cont_9to1_m_1401_12_alg».proof.Proof.KIFibre
import proofs.«111137_g86517821215618_cont_9to1_m_1401_12_alg».proof.Proof.KIEntries
import proofs.«111137_g86517821215618_cont_9to1_m_1401_12_alg».proof.Proof.SpecFibre
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)

variable (m : (ℓ : Loc nD τ sig) → Buf (Elt Ideal) ℓ) (ρ : Dev nD → PrngReg)

/-! ## The kernel's result on the extended reals

The region writes the array of 75 channel planes, each 32 × 8732; point `t` writes lanes `384·t …` of every plane, the
last point only the 284 lanes inside the array. Entry (channel, image, prior) of it is the specification's entry
(image, prior, channel) of the argument arrays, and the host's closing transpose puts the channel axis last. -/

/-- The specification at core `c`'s argument arrays. -/
def Gargs (c : Dev nD) : S32x8732x75.Idx → EReal :=
  Cert.Gmm.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

/-- The same laid out channel first, as the region writes it. -/
def Gt (c : Dev nD) : S75x32x8732.Idx → EReal := fun i => Gargs m c (ix3 (i 1) (i 2) (i 0))

/-- What point `t` writes back is block `t` of `Gt`. -/
theorem flushed_eq (c : Dev nD) (t : Fin cfg0.N) :
    (dats m 0 c).flushed 25 t = ((cfg0.win 25).blk t).view.read (Elt Ideal) (Gt m c) := by
  show (cfg0.win 25).cut (cfg0.grid.coords t) ((dats m 0 c).after 25 t) = _
  rw [after_25]
  obtain ⟨x2, x0, x1, i2, i0, i1⟩ := win_facts_25 t
  funext j
  have hr : (j 0).val < 75 := lt_of_lt_of_eq (j 0).isLt x0
  have hb : (j 1).val < 32 := lt_of_lt_of_eq (j 1).isLt x1
  have hl : (j 2).val < min 384 (8732 - 384 * t.val) := lt_of_lt_of_eq (j 2).isLt x2
  have hl' : (j 2).val < 384 := by omega
  have hx : (cfg0.win 25).xinj (cfg0.grid.coords t) j
      = ix3 (⟨(j 0).val, hr⟩ : Fin 75) (⟨(j 1).val, hb⟩ : Fin 32) (⟨(j 2).val, hl'⟩ : Fin 384) :=
    funext fun a => match a with | ⟨0, _⟩ => rfl | ⟨1, _⟩ => rfl | ⟨2, _⟩ => rfl
  have he : ((cfg0.win 25).blk t).view.emb j
      = ix3 (⟨(j 0).val, hr⟩ : Fin 75) (⟨(j 1).val, hb⟩ : Fin 32) (⟨384 * t.val + (j 2).val, by omega⟩ : Fin 8732) := by
    funext a; apply Fin.ext
    match a with
    | ⟨0, _⟩ => show win0_25.index t 0 * 75 + 1 * (j 0).val = (j 0).val; rw [i0]; omega
    | ⟨1, _⟩ => show win0_25.index t 1 * 32 + 1 * (j 1).val = (j 1).val; rw [i1]; omega
    | ⟨2, _⟩ => show win0_25.index t 2 * 384 + 1 * (j 2).val = 384 * t.val + (j 2).val; rw [i2]; omega
  change outBlock (F := Ideal) _ _ _ _ _ _ _ _ _ _ _ _ _ _ _ _ _ _ _ _ _ _ _ _ _ ((cfg0.win 25).xinj (cfg0.grid.coords t) j)
    = Gt m c (((cfg0.win 25).blk t).view.emb j)
  rw [hx, he, outBlock_apply]
  simp only [inB_0 m c t _ ⟨(j 2).val, hl'⟩ hl, inB_1 m c t _ _ ⟨(j 2).val, hl'⟩ hl, inB_2 m c t _ _ ⟨(j 2).val, hl'⟩ hl, inB_3 m c t _ _ ⟨(j 2).val, hl'⟩ hl, inB_4 m c t _ _ ⟨(j 2).val, hl'⟩ hl, inB_5 m c t _ _ ⟨(j 2).val, hl'⟩ hl, inB_6 m c t _ _ ⟨(j 2).val, hl'⟩ hl, inB_7 m c t _ _ ⟨(j 2).val, hl'⟩ hl, inB_8 m c t _ _ ⟨(j 2).val, hl'⟩ hl, inB_9 m c t _ _ ⟨(j 2).val, hl'⟩ hl, inB_10 m c t _ _ ⟨(j 2).val, hl'⟩ hl, inB_11 m c t _ _ ⟨(j 2).val, hl'⟩ hl, inB_12 m c t _ _ ⟨(j 2).val, hl'⟩ hl, inB_13 m c t _ _ ⟨(j 2).val, hl'⟩ hl, inB_14 m c t _ _ ⟨(j 2).val, hl'⟩ hl, inB_15 m c t _ _ ⟨(j 2).val, hl'⟩ hl, inB_16 m c t _ _ ⟨(j 2).val, hl'⟩ hl, inB_17 m c t _ _ ⟨(j 2).val, hl'⟩ hl, inB_18 m c t _ _ ⟨(j 2).val, hl'⟩ hl, inB_19 m c t _ _ ⟨(j 2).val, hl'⟩ hl, inB_20 m c t _ _ ⟨(j 2).val, hl'⟩ hl, inB_21 m c t _ _ ⟨(j 2).val, hl'⟩ hl, inB_22 m c t _ _ ⟨(j 2).val, hl'⟩ hl, inB_23 m c t _ _ ⟨(j 2).val, hl'⟩ hl, inB_24 m c t _ _ ⟨(j 2).val, hl'⟩ hl]
  exact (Cert.Gmm.entry_eq_entryOfF _ _ _ _ _ _ _ _ _ _ _ _ _ _ _ _ _ _ _ _ _ _ _ _ _ _ _ _).symm

/-- An index of the array is in point `t`'s block iff each coordinate is in the block's range on its axis, cut at the
    array's end. -/
theorem mem_blk (t : Fin cfg0.N) (i : S75x32x8732.Idx) :
    i ∈ ((cfg0.win 25).blk t).view.set ↔ ∀ a : Fin 3, win0_25.index t a * S75x32x384.size a ≤ (i a).val
      ∧ (i a).val < win0_25.index t a * S75x32x384.size a + win0_25.xsize (grid0.coords t) a := by
  show i ∈ ((View.whole main_v25).slice (win0_25.rect t)).set ↔ _
  rw [View.set_slice_whole, Rect.mem_set_unit]
  exact Iff.rfl

/-- Every index of the array lies in the block of the point its lane falls to. -/
theorem blocks_cover (i : S75x32x8732.Idx) :
    ∃ t : Fin cfg0.N, (cfg0.win 25).flush t = true ∧ i ∈ ((cfg0.win 25).blk t).view.set := by
  have h0 : (i 0).val < 75 := (i 0).isLt
  have h1 : (i 1).val < 32 := (i 1).isLt
  have h2 : (i 2).val < 8732 := (i 2).isLt
  have hq : (i 2).val / 384 < cfg0.N := by rw [show cfg0.N = 23 from N_0]; omega
  obtain ⟨t, ht⟩ : ∃ t : Fin cfg0.N, t.val = (i 2).val / 384 := ⟨⟨_, hq⟩, rfl⟩
  refine ⟨t, flush0_25 t, ?_⟩
  rw [mem_blk]
  obtain ⟨x2, x0, x1, i2, i0, i1⟩ := win_facts_25 t
  intro a
  match a with
  | ⟨0, _⟩ => show win0_25.index t 0 * 75 ≤ (i 0).val ∧ (i 0).val < win0_25.index t 0 * 75 + win0_25.xsize (grid0.coords t) 0; rw [i0, x0]; omega
  | ⟨1, _⟩ => show win0_25.index t 1 * 32 ≤ (i 1).val ∧ (i 1).val < win0_25.index t 1 * 32 + win0_25.xsize (grid0.coords t) 1; rw [i1, x1]; omega
  | ⟨2, _⟩ => show win0_25.index t 2 * 384 ≤ (i 2).val ∧ (i 2).val < win0_25.index t 2 * 384 + win0_25.xsize (grid0.coords t) 2; rw [i2, x2]; omega

/-- The array the region wrote, after the run. -/
theorem final (c : Dev nD) : (dats m 0 c).arrAt 25 cfg0.N = Gt m c :=
  (dats m 0 c).arrAt_eq_of_cover 25 (Gt m c) (fun t _ => flushed_eq m c t) blocks_cover

/-- The program's result: the closing transpose of that array is the specification at the arguments. -/
theorem tail_eq (c : Dev nD) :
    Pipeline.afterTail₀ cfgs (dats m) 0 (V0 m) [hostOps1] c main_v26 = Gargs m c := by
  unfold Pipeline.afterTail₀
  show StableHlo.after hostOps1 _ (Proc.devRef .tc main_v26) = _
  after_results
  rw [show Pipeline.withArrays spec0 c (V0 m c) (fun w => (dats m 0 c).arrAt w cfg0.N) (Proc.devRef .tc main_v25)
      = (dats m 0 c).arrAt 25 cfg0.N from Pipeline.withArrays_arr spec0 launch0.win.arr_inj c _ _ 25, final]
  funext i
  obtain ⟨b, p, ch, rfl⟩ : ∃ b p ch, i = ix3 b p ch := ⟨i 0, i 1, i 2, eq_ix3 i⟩
  refine (transpose_apply _ _ _ _ (ix3 ch b p) fun a => ?_).trans rfl
  match a with
  | ⟨0, _⟩ => rfl
  | ⟨1, _⟩ => rfl
  | ⟨2, _⟩ => rfl

/-- The run, read: every weakly fair execution ends with the result at the specification of the arguments and the
    arguments as they were. -/
theorem run_value : θ_run defs (onTc (τ := τ) (main (F := Ideal))) ⟨m, fun _ => 0, ρ⟩ (fun r => ∀ c : Dev nD,
      r.2.mem ((c.tc : Thread nD τ).loc main_v26) = Gargs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_v26 (Pipeline.mem_restRefs_of main_v26 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c))⟩) (run_main m ρ)

end Cert.KernelIdeal.Body

end
-- ==== Proof.RefIsSpec.lean ====
/-
  The reference program computes the specification.

  The reference fuses the four heads' localisation offsets, variances and class scores with their weights (sums of products,
  left to right), takes the weighted squared deviations from the fused mean, decodes the fused offset against the prior
  boxes into corner form, and lays the pieces end to end along the last axis: 4 decoded corners, 4 + 4 localisation terms,
  21 + 21 + 21 class terms. Read index by index, every stage is the specification's expression of the same argument
  entries: the sums and products are pointwise, a slice `[s : s + 2]` of the component axis reads component `s + c`, a
  broadcast of the priors over the images forgets the image coordinate, and a join reads the piece whose span of channels
  holds the channel. One step differs in spelling: the program halves the decoded extent by DIVIDING by the binary32 word
  of 2 where the specification MULTIPLIES by the binary32 word of 1/2. Both words denote exactly those reals, and on the
  extended reals the quotient by a nonzero real is the product with its reciprocal at every value, the infinities
  included, so the two agree with no finiteness assumption. The words of 0.1 and 0.2 are the same on both sides and are
  never evaluated.
-/
import proofs.«111137_g86517821215618_cont_9to1_m_1401_12_alg».proof.Proof.Gen.ReferenceIdeal.Read
import proofs.«111137_g86517821215618_cont_9to1_m_1401_12_alg».proof.Proof.Spec
import Idealize.ShloMosaic.PureOps.Ideal
import Idealize.ShloMosaic.Lib.ValueIdx
import Idealize.ShloMosaic.Lib.Pipeline.Value

noncomputable section

namespace Cert.Gmm.Ref

open Idealize.ShloMosaic Idealize.ShloMosaic.ValueIdx Cert.ReferenceIdeal Cert.ReferenceIdeal.Gen Cert.ReferenceIdeal.Read

/-! ## The one law: dividing by two is multiplying by one half -/

/-- The binary32 word `0x40000000` denotes the real 2. -/
theorem two_eq : Ideal.ofBits .f32 0x40000000#32 = ((2 : ℝ) : EReal) := by
  simp [Ideal.ofBits, Ideal.ieee, -EReal.coe_mul]; norm_num

/-- The binary32 word `0x3F000000` denotes the real 1/2. -/
theorem half_eq : half = ((1 / 2 : ℝ) : EReal) := by
  unfold half
  simp [Ideal.ofBits, Ideal.ieee, -EReal.coe_mul]; norm_num

/-- On every extended real (the infinities and the junk value included) the quotient by 2 is the product with 1/2. -/
theorem div_two (e : EReal) : Ideal.div e (Ideal.ofBits .f32 0x40000000#32) = half * e := by
  rw [two_eq, half_eq, Ideal.div_coe (by norm_num : (2 : ℝ) ≠ 0), mul_comm]

/-! ## The mixture stages at a coordinate -/

section Stages
variable (x0 : Pri) (x1 x2 x3 x4 x5 x6 x7 x8 x9 x10 x11 x12 : Loc)
  (x13 x14 x15 x16 x17 x18 x19 x20 x21 x22 x23 x24 : Cls)

/-- The fused localisation offset: stage 6 of the program. -/
theorem locMean_at (b : Fin 32) (p : Fin 8732) (c : Fin 4) :
    val_main_v6 (F := Ideal) x1 x3 x4 x6 x7 x9 x10 x12 (ix3 b p c) = locMean x1 x3 x4 x6 x7 x9 x10 x12 b p c := rfl

/-- The aleatoric localisation term: stage 13. -/
theorem locAle_at (b : Fin 32) (p : Fin 8732) (c : Fin 4) :
    val_main_v13 (F := Ideal) x2 x3 x5 x6 x8 x9 x11 x12 (ix3 b p c) = locAle x2 x3 x5 x6 x8 x9 x11 x12 b p c := rfl

/-- The epistemic localisation term: stage 28. -/
theorem locEpi_at (b : Fin 32) (p : Fin 8732) (c : Fin 4) :
    val_main_v28 (F := Ideal) x1 x3 x4 x6 x7 x9 x10 x12 (ix3 b p c) = locEpi x1 x3 x4 x6 x7 x9 x10 x12 b p c := rfl

/-- The fused class mean: stage 35. -/
theorem clsMean_at (b : Fin 32) (p : Fin 8732) (k : Fin 21) :
    val_main_v35 (F := Ideal) x13 x15 x16 x18 x19 x21 x22 x24 (ix3 b p k) = clsMean x13 x15 x16 x18 x19 x21 x22 x24 b p k := rfl

/-- The aleatoric class term: stage 42. -/
theorem clsAle_at (b : Fin 32) (p : Fin 8732) (k : Fin 21) :
    val_main_v42 (F := Ideal) x14 x15 x17 x18 x20 x21 x23 x24 (ix3 b p k) = clsAle x14 x15 x17 x18 x20 x21 x23 x24 b p k := rfl

/-- The epistemic class term: stage 57. -/
theorem clsEpi_at (b : Fin 32) (p : Fin 8732) (k : Fin 21) :
    val_main_v57 (F := Ideal) x13 x15 x16 x18 x19 x21 x22 x24 (ix3 b p k) = clsEpi x13 x15 x16 x18 x19 x21 x22 x24 b p k := rfl

/-! ## The box decode at a coordinate

The priors are sliced along the component axis (`[0:2]` the centre, `[2:4]` the extent) and broadcast over the images; the
fused offset is sliced the same way. Each slice or broadcast reads its operand at an index with the same coordinates, the
component shifted by the slice's start. -/

/-- The prior's centre component `c`, broadcast over the images. -/
theorem priorCentre_at (b : Fin 32) (p : Fin 8732) (c : Fin 2) :
    val_main_v67 (F := Ideal) x0 (ix3 b p c) = x0 (ix2 p ⟨c.val, by omega⟩) := by
  rw [val_main_v67_apply, val_main_v66_apply, val_main_v58_apply]
  exact congrArg x0 (funext fun a => match a with | ⟨0, _⟩ => rfl | ⟨1, _⟩ => rfl)

/-- The prior's extent component `c + 2`, broadcast over the images (as the centre's offset scale). -/
theorem priorExtent_at (b : Fin 32) (p : Fin 8732) (c : Fin 2) :
    val_main_v64 (F := Ideal) x0 (ix3 b p c) = x0 (ix2 p ⟨c.val + 2, by omega⟩) := by
  rw [val_main_v64_apply, val_main_v63_apply, val_main_v62_apply]
  exact congrArg x0 (funext fun a => match a with
    | ⟨0, _⟩ => rfl
    | ⟨1, _⟩ => Fin.ext (by show 2 + c.val = c.val + 2; omega))

/-- The prior's extent component `c + 2` again (as the factor of the exponential). -/
theorem priorExtent_at' (b : Fin 32) (p : Fin 8732) (c : Fin 2) :
    val_main_v75 (F := Ideal) x0 (ix3 b p c) = x0 (ix2 p ⟨c.val + 2, by omega⟩) := by
  rw [val_main_v75_apply, val_main_v74_apply, val_main_v69_apply]
  exact congrArg x0 (funext fun a => match a with
    | ⟨0, _⟩ => rfl
    | ⟨1, _⟩ => Fin.ext (by show 2 + c.val = c.val + 2; omega))

/-- The fused offset's centre component `c`. -/
theorem offCentre_at (b : Fin 32) (p : Fin 8732) (c : Fin 2) :
    val_main_v59 (F := Ideal) x1 x3 x4 x6 x7 x9 x10 x12 (ix3 b p c)
      = locMean x1 x3 x4 x6 x7 x9 x10 x12 b p ⟨c.val, by omega⟩ := by
  rw [val_main_v59_apply, ← locMean_at]
  exact congrArg (val_main_v6 (F := Ideal) x1 x3 x4 x6 x7 x9 x10 x12)
    (funext fun a => match a with | ⟨0, _⟩ => rfl | ⟨1, _⟩ => rfl | ⟨2, _⟩ => rfl)

/-- The fused offset's extent component `c + 2`. -/
theorem offExtent_at (b : Fin 32) (p : Fin 8732) (c : Fin 2) :
    val_main_v70 (F := Ideal) x1 x3 x4 x6 x7 x9 x10 x12 (ix3 b p c)
      = locMean x1 x3 x4 x6 x7 x9 x10 x12 b p ⟨c.val + 2, by omega⟩ := by
  rw [val_main_v70_apply, ← locMean_at]
  exact congrArg (val_main_v6 (F := Ideal) x1 x3 x4 x6 x7 x9 x10 x12)
    (funext fun a => match a with
      | ⟨0, _⟩ => rfl
      | ⟨1, _⟩ => rfl
      | ⟨2, _⟩ => Fin.ext (by show 2 + c.val = c.val + 2; omega))

/-- The centre's offset scale, broadcast to every index, is its word. -/
theorem scaleCentre_at (i : S32x8732x2.Idx) : val_main_v60 (F := Ideal) i = v0 := by
  rw [val_main_v60_apply]; rfl
/-- The extent's offset scale, broadcast to every index, is its word. -/
theorem scaleExtent_at (i : S32x8732x2.Idx) : val_main_v71 (F := Ideal) i = v1 := by
  rw [val_main_v71_apply]; rfl
/-- The divisor of the half extent, broadcast to every index, is the word of 2. -/
theorem two_at (i : S32x8732x2.Idx) : val_main_v77 (F := Ideal) i = Ideal.ofBits .f32 0x40000000#32 := by
  rw [val_main_v77_apply]; rfl

/-- The decoded extent along axis `c`: stage 76. -/
theorem extent_at (b : Fin 32) (p : Fin 8732) (c : Fin 2) :
    val_main_v76 (F := Ideal) x0 x1 x3 x4 x6 x7 x9 x10 x12 (ix3 b p c)
      = extent (x0 (ix2 p ⟨c.val + 2, by omega⟩)) (locMean x1 x3 x4 x6 x7 x9 x10 x12 b p ⟨c.val + 2, by omega⟩) := by
  rw [val_main_v76_apply, val_main_v73_apply, val_main_v72_apply, priorExtent_at', offExtent_at, scaleExtent_at]
  rfl

/-- The decoded low corner along axis `c`: stage 79. Here the program divides the extent by two where the
    specification multiplies it by one half. -/
theorem boxLow_at (b : Fin 32) (p : Fin 8732) (c : Fin 2) :
    val_main_v79 (F := Ideal) x0 x1 x3 x4 x6 x7 x9 x10 x12 (ix3 b p c)
      = boxLow x0 x1 x3 x4 x6 x7 x9 x10 x12 b p c := by
  rw [val_main_v79_apply, val_main_v68_apply, val_main_v78_apply, val_main_v65_apply, val_main_v61_apply,
    priorCentre_at, priorExtent_at, offCentre_at, scaleCentre_at, extent_at, two_at]
  simp only [Ideal.hostDivf_def, Ideal.mulf_def, Ideal.addf_def, Ideal.subf_def, div_two]
  rfl

/-- The decoded high corner along axis `c`: stage 80. -/
theorem boxHigh_at (b : Fin 32) (p : Fin 8732) (c : Fin 2) :
    val_main_v80 (F := Ideal) x0 x1 x3 x4 x6 x7 x9 x10 x12 (ix3 b p c)
      = boxHigh x0 x1 x3 x4 x6 x7 x9 x10 x12 b p c := by
  rw [val_main_v80_apply, boxLow_at, extent_at]
  rfl

end Stages

/-! ## The two joins along the last axis, read at a coordinate

A join of pieces along an axis reads, at an index, the piece whose span holds the index's coordinate on that axis, at that
coordinate less the widths of the pieces before it. The four corners are two pieces of width 2; the 75 output channels
are six pieces of widths 4, 4, 4, 21, 21, 21, starting at channels 0, 4, 8, 12, 33, 54. -/

section Join
variable {α : Type}

/-- Two arrays of two components laid end to end along the component axis. -/
def corners (u v : S32x8732x2.Idx → α) : S32x8732x4.Idx → α :=
  concatenate S32x8732x4 2 [⟨S32x8732x2, u⟩, ⟨S32x8732x2, v⟩] concatenates_S32x8732x2_S32x8732x2_S32x8732x4_d2

/-- Components 0 and 1 of the joined array are the first piece. -/
theorem corners_left (u v : S32x8732x2.Idx → α) (b : Fin 32) (p : Fin 8732) (n : Nat) (h : n < 2) :
    corners u v (ix3 b p ⟨n, by omega⟩) = u (ix3 b p ⟨n, h⟩) :=
  concatenate_pair_apply_left (t := S32x8732x4) (s₁ := S32x8732x2) (s₂ := S32x8732x2) 2 u v concatenates_S32x8732x2_S32x8732x2_S32x8732x4_d2 _ rfl _ (fun a => by
    match a with
    | ⟨0, _⟩ => rfl
    | ⟨1, _⟩ => rfl
    | ⟨2, _⟩ => rfl)

/-- Components 2 and 3 of the joined array are the second piece, at components 0 and 1. -/
theorem corners_right (u v : S32x8732x2.Idx → α) (b : Fin 32) (p : Fin 8732) (n : Nat) (h1 : 2 ≤ n) (h2 : n < 4) :
    corners u v (ix3 b p ⟨n, h2⟩) = v (ix3 b p ⟨n - 2, by omega⟩) :=
  concatenate_pair_apply_right (t := S32x8732x4) (s₁ := S32x8732x2) (s₂ := S32x8732x2) 2 u v concatenates_S32x8732x2_S32x8732x2_S32x8732x4_d2 _ rfl rfl _
    (fun a ha => by
      match a with
      | ⟨0, _⟩ => rfl
      | ⟨1, _⟩ => rfl
      | ⟨2, _⟩ => exact absurd rfl ha)
    (by show n - 2 + 2 = n; omega)

/-- Six arrays laid end to end along the channel axis: three of four channels, then three of twenty-one. -/
def channels (u0 u1 u2 : S32x8732x4.Idx → α) (u3 u4 u5 : S32x8732x21.Idx → α) : S32x8732x75.Idx → α :=
  concatenate S32x8732x75 2 [⟨S32x8732x4, u0⟩, ⟨S32x8732x4, u1⟩, ⟨S32x8732x4, u2⟩, ⟨S32x8732x21, u3⟩, ⟨S32x8732x21, u4⟩, ⟨S32x8732x21, u5⟩] concatenates_S32x8732x4_S32x8732x4_S32x8732x4_S32x8732x21_S32x8732x21_S32x8732x21_S32x8732x75_d2

variable (u0 u1 u2 : S32x8732x4.Idx → α) (u3 u4 u5 : S32x8732x21.Idx → α)

/-- Channels 0–3 are the first piece. -/
theorem channels_0 (b : Fin 32) (p : Fin 8732) (ch : Fin 75) (h : ch.val < 4) :
    channels u0 u1 u2 u3 u4 u5 (ix3 b p ch) = u0 (ix3 b p ⟨ch.val, by omega⟩) :=
  concatenate_apply_piece (t := S32x8732x75) 2 [⟨S32x8732x4, u0⟩, ⟨S32x8732x4, u1⟩, ⟨S32x8732x4, u2⟩, ⟨S32x8732x21, u3⟩, ⟨S32x8732x21, u4⟩, ⟨S32x8732x21, u5⟩]
    concatenates_S32x8732x4_S32x8732x4_S32x8732x4_S32x8732x21_S32x8732x21_S32x8732x21_S32x8732x75_d2 _ 0 (by show (0 : Nat) < 6; omega) S32x8732x4 u0 rfl rfl 0 rfl _
    (fun a ha => by
      match a with
      | ⟨0, _⟩ => rfl
      | ⟨1, _⟩ => rfl
      | ⟨2, _⟩ => exact absurd rfl ha)
    (by show 0 + (ch.val) = ch.val; omega)

/-- Channels 4–7 are the second piece. -/
theorem channels_1 (b : Fin 32) (p : Fin 8732) (ch : Fin 75) (h1 : 4 ≤ ch.val) (h2 : ch.val < 8) :
    channels u0 u1 u2 u3 u4 u5 (ix3 b p ch) = u1 (ix3 b p ⟨ch.val - 4, by omega⟩) :=
  concatenate_apply_piece (t := S32x8732x75) 2 [⟨S32x8732x4, u0⟩, ⟨S32x8732x4, u1⟩, ⟨S32x8732x4, u2⟩, ⟨S32x8732x21, u3⟩, ⟨S32x8732x21, u4⟩, ⟨S32x8732x21, u5⟩]
    concatenates_S32x8732x4_S32x8732x4_S32x8732x4_S32x8732x21_S32x8732x21_S32x8732x21_S32x8732x75_d2 _ 1 (by show (1 : Nat) < 6; omega) S32x8732x4 u1 rfl rfl 4 rfl _
    (fun a ha => by
      match a with
      | ⟨0, _⟩ => rfl
      | ⟨1, _⟩ => rfl
      | ⟨2, _⟩ => exact absurd rfl ha)
    (by show 4 + (ch.val - 4) = ch.val; omega)

/-- Channels 8–11 are the third piece. -/
theorem channels_2 (b : Fin 32) (p : Fin 8732) (ch : Fin 75) (h1 : 8 ≤ ch.val) (h2 : ch.val < 12) :
    channels u0 u1 u2 u3 u4 u5 (ix3 b p ch) = u2 (ix3 b p ⟨ch.val - 8, by omega⟩) :=
  concatenate_apply_piece (t := S32x8732x75) 2 [⟨S32x8732x4, u0⟩, ⟨S32x8732x4, u1⟩, ⟨S32x8732x4, u2⟩, ⟨S32x8732x21, u3⟩, ⟨S32x8732x21, u4⟩, ⟨S32x8732x21, u5⟩]
    concatenates_S32x8732x4_S32x8732x4_S32x8732x4_S32x8732x21_S32x8732x21_S32x8732x21_S32x8732x75_d2 _ 2 (by show (2 : Nat) < 6; omega) S32x8732x4 u2 rfl rfl 8 rfl _
    (fun a ha => by
      match a with
      | ⟨0, _⟩ => rfl
      | ⟨1, _⟩ => rfl
      | ⟨2, _⟩ => exact absurd rfl ha)
    (by show 8 + (ch.val - 8) = ch.val; omega)

/-- Channels 12–32 are the fourth piece. -/
theorem channels_3 (b : Fin 32) (p : Fin 8732) (ch : Fin 75) (h1 : 12 ≤ ch.val) (h2 : ch.val < 33) :
    channels u0 u1 u2 u3 u4 u5 (ix3 b p ch) = u3 (ix3 b p ⟨ch.val - 12, by omega⟩) :=
  concatenate_apply_piece (t := S32x8732x75) 2 [⟨S32x8732x4, u0⟩, ⟨S32x8732x4, u1⟩, ⟨S32x8732x4, u2⟩, ⟨S32x8732x21, u3⟩, ⟨S32x8732x21, u4⟩, ⟨S32x8732x21, u5⟩]
    concatenates_S32x8732x4_S32x8732x4_S32x8732x4_S32x8732x21_S32x8732x21_S32x8732x21_S32x8732x75_d2 _ 3 (by show (3 : Nat) < 6; omega) S32x8732x21 u3 rfl rfl 12 rfl _
    (fun a ha => by
      match a with
      | ⟨0, _⟩ => rfl
      | ⟨1, _⟩ => rfl
      | ⟨2, _⟩ => exact absurd rfl ha)
    (by show 12 + (ch.val - 12) = ch.val; omega)

/-- Channels 33–53 are the fifth piece. -/
theorem channels_4 (b : Fin 32) (p : Fin 8732) (ch : Fin 75) (h1 : 33 ≤ ch.val) (h2 : ch.val < 54) :
    channels u0 u1 u2 u3 u4 u5 (ix3 b p ch) = u4 (ix3 b p ⟨ch.val - 33, by omega⟩) :=
  concatenate_apply_piece (t := S32x8732x75) 2 [⟨S32x8732x4, u0⟩, ⟨S32x8732x4, u1⟩, ⟨S32x8732x4, u2⟩, ⟨S32x8732x21, u3⟩, ⟨S32x8732x21, u4⟩, ⟨S32x8732x21, u5⟩]
    concatenates_S32x8732x4_S32x8732x4_S32x8732x4_S32x8732x21_S32x8732x21_S32x8732x21_S32x8732x75_d2 _ 4 (by show (4 : Nat) < 6; omega) S32x8732x21 u4 rfl rfl 33 rfl _
    (fun a ha => by
      match a with
      | ⟨0, _⟩ => rfl
      | ⟨1, _⟩ => rfl
      | ⟨2, _⟩ => exact absurd rfl ha)
    (by show 33 + (ch.val - 33) = ch.val; omega)

/-- Channels 54–74 are the sixth piece. -/
theorem channels_5 (b : Fin 32) (p : Fin 8732) (ch : Fin 75) (h1 : 54 ≤ ch.val) :
    channels u0 u1 u2 u3 u4 u5 (ix3 b p ch) = u5 (ix3 b p ⟨ch.val - 54, by omega⟩) :=
  concatenate_apply_piece (t := S32x8732x75) 2 [⟨S32x8732x4, u0⟩, ⟨S32x8732x4, u1⟩, ⟨S32x8732x4, u2⟩, ⟨S32x8732x21, u3⟩, ⟨S32x8732x21, u4⟩, ⟨S32x8732x21, u5⟩]
    concatenates_S32x8732x4_S32x8732x4_S32x8732x4_S32x8732x21_S32x8732x21_S32x8732x21_S32x8732x75_d2 _ 5 (by show (5 : Nat) < 6; omega) S32x8732x21 u5 rfl rfl 54 rfl _
    (fun a ha => by
      match a with
      | ⟨0, _⟩ => rfl
      | ⟨1, _⟩ => rfl
      | ⟨2, _⟩ => exact absurd rfl ha)
    (by show 54 + (ch.val - 54) = ch.val; omega)

end Join

/-! ## The program's result is the specification -/

section Result
variable (x0 : Pri) (x1 x2 x3 x4 x5 x6 x7 x8 x9 x10 x11 x12 : Loc)
  (x13 x14 x15 x16 x17 x18 x19 x20 x21 x22 x23 x24 : Cls)

/-- Components 0 and 1 of the decoded box (stage 81) are the low corners. -/
theorem box_low_at (b : Fin 32) (p : Fin 8732) (n : Nat) (h : n < 2) :
    val_main_v81 (F := Ideal) x0 x1 x3 x4 x6 x7 x9 x10 x12 (ix3 b p ⟨n, by omega⟩) = boxLow x0 x1 x3 x4 x6 x7 x9 x10 x12 b p ⟨n, h⟩ :=
  (corners_left _ _ b p n h).trans (boxLow_at x0 x1 x3 x4 x6 x7 x9 x10 x12 b p ⟨n, h⟩)

/-- Components 2 and 3 of the decoded box are the high corners. -/
theorem box_high_at (b : Fin 32) (p : Fin 8732) (n : Nat) (h1 : 2 ≤ n) (h2 : n < 4) :
    val_main_v81 (F := Ideal) x0 x1 x3 x4 x6 x7 x9 x10 x12 (ix3 b p ⟨n, h2⟩) = boxHigh x0 x1 x3 x4 x6 x7 x9 x10 x12 b p ⟨n - 2, by omega⟩ :=
  (corners_right _ _ b p n h1 h2).trans (boxHigh_at x0 x1 x3 x4 x6 x7 x9 x10 x12 b p ⟨n - 2, by omega⟩)

/-- Every channel of the program's result (stage 82) is the specification's entry: the channel's range names the piece,
    and each piece was read above. -/
theorem out_at (b : Fin 32) (p : Fin 8732) (ch : Fin 75) :
    val_main_v82 (F := Ideal) x0 x1 x2 x3 x4 x5 x6 x7 x8 x9 x10 x11 x12 x13 x14 x15 x16 x17 x18 x19 x20 x21 x22 x23 x24 (ix3 b p ch) = entry x0 x1 x2 x3 x4 x5 x6 x7 x8 x9 x10 x11 x12 x13 x14 x15 x16 x17 x18 x19 x20 x21 x22 x23 x24 b p ch := by
  unfold entry
  by_cases h0 : ch.val < 2
  · rw [dif_pos h0]
    exact (channels_0 _ _ _ _ _ _ b p ch (by omega)).trans (box_low_at x0 x1 x3 x4 x6 x7 x9 x10 x12 b p ch.val h0)
  rw [dif_neg h0]
  by_cases h1 : ch.val < 4
  · rw [dif_pos h1]
    exact (channels_0 _ _ _ _ _ _ b p ch h1).trans (box_high_at x0 x1 x3 x4 x6 x7 x9 x10 x12 b p ch.val (by omega) h1)
  rw [dif_neg h1]
  by_cases h2 : ch.val < 8
  · rw [dif_pos h2]
    exact (channels_1 _ _ _ _ _ _ b p ch (by omega) h2).trans (locAle_at x2 x3 x5 x6 x8 x9 x11 x12 b p _)
  rw [dif_neg h2]
  by_cases h3 : ch.val < 12
  · rw [dif_pos h3]
    exact (channels_2 _ _ _ _ _ _ b p ch (by omega) h3).trans (locEpi_at x1 x3 x4 x6 x7 x9 x10 x12 b p _)
  rw [dif_neg h3]
  by_cases h4 : ch.val < 33
  · rw [dif_pos h4]
    exact (channels_3 _ _ _ _ _ _ b p ch (by omega) h4).trans (clsMean_at x13 x15 x16 x18 x19 x21 x22 x24 b p _)
  rw [dif_neg h4]
  by_cases h5 : ch.val < 54
  · rw [dif_pos h5]
    exact (channels_4 _ _ _ _ _ _ b p ch (by omega) h5).trans (clsAle_at x14 x15 x17 x18 x20 x21 x23 x24 b p _)
  rw [dif_neg h5]
  exact (channels_5 _ _ _ _ _ _ b p ch (by omega)).trans (clsEpi_at x13 x15 x16 x18 x19 x21 x22 x24 b p _)

end Result

/-- **The reference program's result is the specification's output**, as whole arrays of the 25 argument arrays. -/
theorem result_eq (x0 : (⟨S8732x4, .f32⟩ : BufTy).Contents (Elt Ideal))
    (x1 x2 x3 x4 x5 x6 x7 x8 x9 x10 x11 x12 : (⟨S32x8732x4, .f32⟩ : BufTy).Contents (Elt Ideal))
    (x13 x14 x15 x16 x17 x18 x19 x20 x21 x22 x23 x24 : (⟨S32x8732x21, .f32⟩ : BufTy).Contents (Elt Ideal)) :
    val_main_v82 (F := Ideal) x0 x1 x2 x3 x4 x5 x6 x7 x8 x9 x10 x11 x12 x13 x14 x15 x16 x17 x18 x19 x20 x21 x22 x23 x24 = G x0 x1 x2 x3 x4 x5 x6 x7 x8 x9 x10 x11 x12 x13 x14 x15 x16 x17 x18 x19 x20 x21 x22 x23 x24 := by
  funext i
  obtain ⟨b, p, ch, rfl⟩ : ∃ (b : Fin 32) (p : Fin 8732) (ch : Fin 75), i = ix3 b p ch := ⟨i 0, i 1, i 2, eq_ix3 i⟩
  exact out_at x0 x1 x2 x3 x4 x5 x6 x7 x8 x9 x10 x11 x12 x13 x14 x15 x16 x17 x18 x19 x20 x21 x22 x23 x24 b p ch

end Cert.Gmm.Ref

end
-- ==== Proof.lean ====
/-
  The certificate of a fused four-head Gaussian mixture with box decode, computed by a Pallas kernel over lane blocks of
  384 priors, against its jnp reference.

  The mathematics. For each (image, prior) the programs fuse four localisation heads and four class heads: the fused mean
  `∑ wₖ·mₖ`, the aleatoric term `∑ wₖ·sₖ` and the epistemic term `∑ wₖ·(mₖ − μ)²`, summed left to right, and decode the
  fused localisation offset against the prior box into corner form. The two programs compute these by the same operations
  in the same order; they differ in layout only — the kernel works with the prior axis last and writes 75 channel planes
  which the host transposes back — and in one spelling: the kernel multiplies the extent by the word of 0.5 where the
  reference divides by the word of 2.0, which agree on every extended real. No finiteness of the inputs is used.

  The 8732 priors do not fill 23 blocks of 384: the last block overhangs every array by 100 lanes. What the staging
  buffers hold on those lanes is not named; the body obligation is stated on the lanes inside the arrays, which is sound
  because an output entry reads its inputs at its own lane only (`outBlock_local`).

  Modules: `Spec` (the value of an output entry), `Fibre` / `SpecFibre` (the same from the 25 inputs' values at one
  (image, prior), for any float instance), `KIBlock` / `KBlock` (the output block as the body's stores over the input
  blocks), `KIRun` / `KRun` (the body's triple), `KIEntries` / `KEntries` (the output block at an entry), `KILocal` /
  `KLocal` (locality), `KIWin` / `KWin` (which lanes each transfer moves), `KIData` / `KData` (the proof data, the body
  obligation, the run), `KIHost`, `KIFibre`, `KIValue` (the kernel's result on the extended reals), `RefIsSpec` (the
  reference's result).
-/
import proofs.«111137_g86517821215618_cont_9to1_m_1401_12_alg».proof.Defs
import proofs.«111137_g86517821215618_cont_9to1_m_1401_12_alg».proof.Proof.Gen.Kernel
import proofs.«111137_g86517821215618_cont_9to1_m_1401_12_alg».proof.Proof.Gen.Kernel.Skeleton
import proofs.«111137_g86517821215618_cont_9to1_m_1401_12_alg».proof.Proof.Gen.Kernel.Launch
import proofs.«111137_g86517821215618_cont_9to1_m_1401_12_alg».proof.Proof.Gen.Kernel.Points
import proofs.«111137_g86517821215618_cont_9to1_m_1401_12_alg».proof.Proof.Gen.Kernel.Frame
import proofs.«111137_g86517821215618_cont_9to1_m_1401_12_alg».proof.Proof.Gen.KernelIdeal
import proofs.«111137_g86517821215618_cont_9to1_m_1401_12_alg».proof.Proof.Gen.KernelIdeal.Skeleton
import proofs.«111137_g86517821215618_cont_9to1_m_1401_12_alg».proof.Proof.Gen.KernelIdeal.Launch
import proofs.«111137_g86517821215618_cont_9to1_m_1401_12_alg».proof.Proof.Gen.KernelIdeal.Points
import proofs.«111137_g86517821215618_cont_9to1_m_1401_12_alg».proof.Proof.Gen.KernelIdeal.Frame
import proofs.«111137_g86517821215618_cont_9to1_m_1401_12_alg».proof.Proof.Gen.ReferenceIdeal
import proofs.«111137_g86517821215618_cont_9to1_m_1401_12_alg».proof.Proof.Gen.Pre_finite_inputs
import proofs.«111137_g86517821215618_cont_9to1_m_1401_12_alg».proof.Proof.Gen.ReferenceIdeal.Run
import proofs.«111137_g86517821215618_cont_9to1_m_1401_12_alg».proof.Proof.Gen.ReferenceIdeal.Read
import proofs.«111137_g86517821215618_cont_9to1_m_1401_12_alg».proof.Proof.KData
import proofs.«111137_g86517821215618_cont_9to1_m_1401_12_alg».proof.Proof.KIData
import proofs.«111137_g86517821215618_cont_9to1_m_1401_12_alg».proof.Proof.KIValue
import proofs.«111137_g86517821215618_cont_9to1_m_1401_12_alg».proof.Proof.RefIsSpec
import Idealize.ShloMosaic.Adequacy
import Idealize.ShloMosaic.Init

noncomputable section

namespace Cert.Proof

open Idealize.ShloMosaic Idealize.SL.Sem

/-- The word-level kernel runs to its end, faults nowhere, and leaves its arguments as they were. -/
theorem frame_k : Cert.frame_Kernel := fun m ρ _ =>
  Cert.Kernel.Gen.frame_of m ρ (Cert.Kernel.Body.dats m) (Cert.Kernel.Body.A_eq m) (Cert.Kernel.Body.run_main (F := Bits) m ρ)

/-- So does the kernel read on the extended reals. -/
theorem frame_ki : Cert.frame_KernelIdeal := fun m ρ _ =>
  Cert.KernelIdeal.Gen.frame_of m ρ (Cert.KernelIdeal.Body.dats m) (Cert.KernelIdeal.Body.A_eq m) (Cert.KernelIdeal.Body.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the two readings of the kernel. -/
theorem preserves : Cert.preserves_Kernel_KernelIdeal := trivial

set_option maxHeartbeats 4000000 in
/-- On the extended reals the kernel's result and the reference's are the specification at arguments that agree. -/
theorem algebraic : Cert.algebraic_KernelIdeal_ReferenceIdeal := by
  intro m ρ m' ρ' _ hagree
  refine ⟨fun c => Cert.KernelIdeal.Body.Gargs m c, Cert.KernelIdeal.Body.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v82_eq, Cert.Gmm.Ref.result_eq]
  unfold Cert.KernelIdeal.Body.Gargs
  obtain ⟨h0, h1, h2, h3, h4, h5, h6, h7, h8, h9, h10, h11, h12, h13, h14, h15, h16, h17, h18, h19, h20, h21, h22, h23, h24⟩ := hagree c
  rw [h0, h1, h2, h3, h4, h5, h6, h7, h8, h9, h10, h11, h12, h13, h14, h15, h16, h17, h18, h19, h20, h21, h22, h23, h24]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
